-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x32x32 : Shape := ⟨4, ![32, 32, 32, 32]⟩
abbrev S3072x1024 : Shape := ⟨2, ![3072, 1024]⟩
abbrev S1024x1024 : Shape := ⟨2, ![1024, 1024]⟩
abbrev S1x1024 : Shape := ⟨2, ![1, 1024]⟩
abbrev S_ : Shape := ⟨0, ![]⟩

class Facts : Prop where
  bcast_S_S32x32x32x32 : S_.BroadcastsInDim S32x32x32x32 (![] : Fin 0 → Fin S32x32x32x32.rank)
  reducesTo_S32x32x32x32_S_d0_1_2_3 : S32x32x32x32.ReducesTo [0, 1, 2, 3] S_
  h_S_ : 0 < S_.numel
  bitsLt_bf16_f32 : FTy.bits .bf16 < FTy.bits .f32
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_arg9 : FVec F S1x1024 .f32) (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  let main_v37 : FVec F S1x1024 .f32 := Host.absf main_arg7
  let main_cst_12 : FVec F S_ .f32 := constant S_ .f32 0x7F800000#32
  let main_v38 : FVec F S1x1024 .f32 := broadcastInDim S1x1024 ![] bcast_S_S1x1024 main_cst_12
  let main_v39 : IVec S1x1024 1 := cmpf .olt main_v37 main_v38
  let main_c_13 : IVec S_ 1 := constantI S_ 1 1#1
  let main_v40 : IVec S_ 1 := (fun x v => Host.reduce IntOp.andi x v reducesTo_S1x1024_S_d0_1 h_S_) main_v39 main_c_13
  let main_v41 : IVec S_ 1 := andi main_v36 main_v40
  let main_v42 : FVec F S1x1024 .f32 := Host.absf main_arg8
  let main_cst_14 : FVec F S_ .f32 := constant S_ .f32 0x7F800000#32
  let main_v43 : FVec F S1x1024 .f32 := broadcastInDim S1x1024 ![] bcast_S_S1x1024 main_cst_14
  let main_v44 : IVec S1x1024 1 := cmpf .olt main_v42 main_v43
  let main_c_15 : IVec S_ 1 := constantI S_ 1 1#1
  let main_v45 : IVec S_ 1 := (fun x v => Host.reduce IntOp.andi x v reducesTo_S1x1024_S_d0_1 h_S_) main_v44 main_c_15
  let main_v46 : IVec S_ 1 := andi main_v41 main_v45
  let main_v47 : FVec F S1x1024 .f32 := Host.absf main_arg9
  let main_cst_16 : FVec F S_ .f32 := constant S_ .f32 0x7F800000#32
  let main_v48 : FVec F S1x1024 .f32 := broadcastInDim S1x1024 ![] bcast_S_S1x1024 main_cst_16
  let main_v49 : IVec S1x1024 1 := cmpf .olt main_v47 main_v48
  let main_c_17 : IVec S_ 1 := constantI S_ 1 1#1
  let main_v50 : IVec S_ 1 := (fun x v => Host.reduce IntOp.andi x v reducesTo_S1x1024_S_d0_1 h_S_) main_v49 main_c_17
  let main_v51 : IVec S_ 1 := andi main_v46 main_v50
  main_v51

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_v15 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v15 main_v20
  let main_v22 : FVec F S1x1024 .f32 := Host.absf main_arg4
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  let main_v27 : FVec F S1x1024 .f32 := Host.absf main_arg5
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S1x1024 .f32 := Host.absf main_arg6
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_arg7 main_arg8 main_arg9 main_v31 main_v34

def fn {F : FTy → Type} [FloatOps F] (main_arg0 : FVec F S32x32x32x32 .f32) (main_arg1 : FVec F S3072x1024 .bf16) (main_arg2 : FVec F S3072x1024 .bf16) (main_arg3 : FVec F S1024x1024 .bf16) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) : IVec S_ 1 :=
  let main_v0 : FVec F S32x32x32x32 .f32 := Host.absf main_arg0
  let main_cst : FVec F S_ .f32 := constant S_ .f32 0x7F800000#32
  let main_v1 : FVec F S32x32x32x32 .f32 := broadcastInDim S32x32x32x32 ![] bcast_S_S32x32x32x32 main_cst
  let main_v2 : IVec S32x32x32x32 1 := cmpf .olt main_v0 main_v1
  let main_c : IVec S_ 1 := constantI S_ 1 1#1
  let main_v3 : IVec S_ 1 := (fun x v => Host.reduce IntOp.andi x v reducesTo_S32x32x32x32_S_d0_1_2_3 h_S_) main_v2 main_c
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_c_1 : IVec S_ 1 := constantI S_ 1 1#1
  let main_v8 : IVec S_ 1 := (fun x v => Host.reduce IntOp.andi x v reducesTo_S3072x1024_S_d0_1 h_S_) main_v7 main_c_1
  let main_v9 : IVec S_ 1 := andi main_v3 main_v8
  let main_v10 : FVec F S3072x1024 .f32 := (extf .f32 · bitsLt_bf16_f32) main_arg2
  let main_v11 : FVec F S3072x1024 .f32 := Host.absf main_v10
  let main_cst_2 : FVec F S_ .f32 := constant S_ .f32 0x7F800000#32
  let main_v12 : FVec F S3072x1024 .f32 := broadcastInDim S3072x1024 ![] bcast_S_S3072x1024 main_cst_2
  let main_v13 : IVec S3072x1024 1 := cmpf .olt main_v11 main_v12
  let main_c_3 : IVec S_ 1 := constantI S_ 1 1#1
  let main_v14 : IVec S_ 1 := (fun x v => Host.reduce IntOp.andi x v reducesTo_S3072x1024_S_d0_1 h_S_) main_v13 main_c_3
  let main_v15 : IVec S_ 1 := andi main_v9 main_v14
  let main_v16 : FVec F S1024x1024 .f32 := (extf .f32 · bitsLt_bf16_f32) main_arg3
  let main_v17 : FVec F S1024x1024 .f32 := Host.absf main_v16
  fn_part1 (F := F) main_arg4 main_arg5 main_arg6 main_arg7 main_arg8 main_arg9 main_v15 main_v17
-- ==== Kernel.lean ====
abbrev S32x32x32x32 : Shape := ⟨4, ![32, 32, 32, 32]⟩
abbrev S3072x1024 : Shape := ⟨2, ![3072, 1024]⟩
abbrev S1024x1024 : Shape := ⟨2, ![1024, 1024]⟩
abbrev S1x1024 : Shape := ⟨2, ![1, 1024]⟩
abbrev S2x2x4x256 : Shape := ⟨4, ![2, 2, 4, 256]⟩
abbrev S3072x256 : Shape := ⟨2, ![3072, 256]⟩
abbrev S1024x256 : Shape := ⟨2, ![1024, 256]⟩
abbrev S1x1x4x256 : Shape := ⟨4, ![1, 1, 4, 256]⟩
abbrev S1024x3072 : Shape := ⟨2, ![1024, 3072]⟩
abbrev S1024x1 : Shape := ⟨2, ![1024, 1]⟩
abbrev S256 : Shape := ⟨1, ![256]⟩
abbrev S1x256 : Shape := ⟨2, ![1, 256]⟩
abbrev S2x256 : Shape := ⟨2, ![2, 256]⟩
abbrev S4x256 : Shape := ⟨2, ![4, 256]⟩
abbrev S2x2x2x256 : Shape := ⟨4, ![2, 2, 2, 256]⟩
abbrev S1x1x2x256 : Shape := ⟨4, ![1, 1, 2, 256]⟩

abbrev nBuf : Space → Nat
  | .hbm => 21
  | .vmem => 39
  | .smem => 0
  | _ => 0

abbrev bufTy : (tb : Table) → Fin (tcTables nBuf tb) → BufTy
  | .hbm, ⟨0, _⟩ => ⟨S32x32x32x32, .f32⟩
  | .hbm, ⟨1, _⟩ => ⟨S3072x1024, .bf16⟩
  | .hbm, ⟨2, _⟩ => ⟨S3072x1024, .bf16⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32x32x32x32, .f32⟩
  | .hbm, ⟨11, _⟩ => ⟨S1024x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S2x2x4x256, .f32⟩
  | .hbm, ⟨16, _⟩ => ⟨S1024x1024, .bf16⟩
  | .hbm, ⟨17, _⟩ => ⟨S2x2x2x256, .f32⟩
  | .hbm, ⟨18, _⟩ => ⟨S1024x1024, .f32⟩
  | .hbm, ⟨19, _⟩ => ⟨S32x32x32x32, .f32⟩
  | .hbm, ⟨20, _⟩ => ⟨S32x32x32x32, .f32⟩
  | .local _ .vmem, ⟨0, _⟩ => ⟨S1024x1024, .bf16⟩
  | .local _ .vmem, ⟨1, _⟩ => ⟨S3072x256, .bf16⟩
  | .local _ .vmem, ⟨2, _⟩ => ⟨S3072x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1x1x4x256, .f32⟩
  | .local _ .vmem, ⟨10, _⟩ => ⟨S1x1x4x256, .f32⟩
  | .local _ .vmem, ⟨11, _⟩ => ⟨S1024x3072, .bf16⟩
  | .local _ .vmem, ⟨12, _⟩ => ⟨S1024x1024, .bf16⟩
  | .local _ .vmem, ⟨13, _⟩ => ⟨S2x2x4x256, .f32⟩
  | .local _ .vmem, ⟨14, _⟩ => ⟨S3072x256, .bf16⟩
  | .local _ .vmem, ⟨15, _⟩ => ⟨S3072x256, .bf16⟩
  | .local _ .vmem, ⟨16, _⟩ => ⟨S1x1024, .f32⟩
  | .local _ .vmem, ⟨17, _⟩ => ⟨S1x1024, .f32⟩
  | .local _ .vmem, ⟨18, _⟩ => ⟨S1024x256, .bf16⟩
  | .local _ .vmem, ⟨19, _⟩ => ⟨S1024x256, .bf16⟩
  | .local _ .vmem, ⟨20, _⟩ => ⟨S1x1x2x256, .f32⟩
  | .local _ .vmem, ⟨21, _⟩ => ⟨S1x1x2x256, .f32⟩
  | .local _ .vmem, ⟨22, _⟩ => ⟨S1024x3072, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S2x2x4x256, .f32⟩
  | .local _ .vmem, ⟨28, _⟩ => ⟨S2x2x2x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1024x256, .f32⟩
  | .local _ .vmem, ⟨38, _⟩ => ⟨S1024x256, .f32⟩
  | _, _ => ⟨S32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem8_1 : DmaSem sig := 36

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2x2x4x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S3072x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x2x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_6 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_7 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2x2x4x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2x2x2x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  transposes_S32x32x32x32_S32x32x32x32_0_2_3_1 : S32x32x32x32.Transposes [0, 2, 3, 1] S32x32x32x32
  shapeCasts_S32x32x32x32_S1024x1024 : S32x32x32x32.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1_d0_w32 : S1024x1.Iotas .tc 32 [0]
  rotates_S1024x1024_d0 : S1024x1024.Rotates 0 none
  natLt_1_32 : 1 < 32
  broadcasts_S1024x1_S1024x1024 : S1024x1.Broadcasts S1024x1024
  concatenates_S1024x1024_S1024x1024_S1024x1024_S1024x3072_d1 : Shape.Concatenates [S1024x1024, S1024x1024, S1024x1024] S1024x3072 1
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  inb_S3072x256_S3072x256_0_0 : ∀ a, (![0, 0] : Fin 2 → Nat) a + S3072x256.size a ≤ S3072x256.size a
  h_S3072x256 : 0 < S3072x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  reduces_S1024x256_S256 : S1024x256.Reduces [0] S256
  shapeCasts_S256_S1x256 : S256.ShapeCasts S1x256
  concatenates_S1x256_S1x256_S2x256_d0 : Shape.Concatenates [S1x256, S1x256] S2x256 0
  concatenates_S2x256_S2x256_S4x256_d0 : Shape.Concatenates [S2x256, S2x256] S4x256 0
  inb_S1x1x4x256_S1x1x4x256_0_0_0_0 : ∀ a, (![0, 0, 0, 0] : Fin 4 → Nat) a + S1x1x4x256.size a ≤ S1x1x4x256.size a
  h_S1x1x4x256 : 0 < S1x1x4x256.numel
  shapeCasts_S1x1x4x256_S4x256 : S1x1x4x256.ShapeCasts S4x256
  shapeCasts_S4x256_S1x1x4x256 : S4x256.ShapeCasts S1x1x4x256
  inb_S2x2x4x256_S1x1x4x256_0_0_0_0 : ∀ a, (![0, 0, 0, 0] : Fin 4 → Nat) a + S1x1x4x256.size a ≤ S2x2x4x256.size a
  inb_S2x2x4x256_S1x1x4x256_0_1_0_0 : ∀ a, (![0, 1, 0, 0] : Fin 4 → Nat) a + S1x1x4x256.size a ≤ S2x2x4x256.size a
  inb_S2x2x4x256_S1x1x4x256_1_0_0_0 : ∀ a, (![1, 0, 0, 0] : Fin 4 → Nat) a + S1x1x4x256.size a ≤ S2x2x4x256.size a
  inb_S2x2x4x256_S1x1x4x256_1_1_0_0 : ∀ a, (![1, 1, 0, 0] : Fin 4 → Nat) a + S1x1x4x256.size a ≤ S2x2x4x256.size a
  rotates_S4x256_d1 : S4x256.Rotates 1 none
  slices_S4x256_o0_0_S1x256 : S4x256.Slices ![0, 0] S1x256
  slices_S4x256_o1_0_S1x256 : S4x256.Slices ![1, 0] S1x256
  concatenates_S1x256_S1x256_S1x256_S1x256_S1x1024_d1 : Shape.Concatenates [S1x256, S1x256, S1x256, S1x256] S1x1024 1
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  inb_S1x1x2x256_S1x1x2x256_0_0_0_0 : ∀ a, (![0, 0, 0, 0] : Fin 4 → Nat) a + S1x1x2x256.size a ≤ S1x1x2x256.size a
  h_S1x1x2x256 : 0 < S1x1x2x256.numel
  shapeCasts_S1x1x2x256_S2x256 : S1x1x2x256.ShapeCasts S2x256
  shapeCasts_S2x256_S1x1x2x256 : S2x256.ShapeCasts S1x1x2x256
  inb_S2x2x2x256_S1x1x2x256_0_0_0_0 : ∀ a, (![0, 0, 0, 0] : Fin 4 → Nat) a + S1x1x2x256.size a ≤ S2x2x2x256.size a
  inb_S2x2x2x256_S1x1x2x256_0_1_0_0 : ∀ a, (![0, 1, 0, 0] : Fin 4 → Nat) a + S1x1x2x256.size a ≤ S2x2x2x256.size a
  inb_S2x2x2x256_S1x1x2x256_1_0_0_0 : ∀ a, (![1, 0, 0, 0] : Fin 4 → Nat) a + S1x1x2x256.size a ≤ S2x2x2x256.size a
  inb_S2x2x2x256_S1x1x2x256_1_1_0_0 : ∀ a, (![1, 1, 0, 0] : Fin 4 → Nat) a + S1x1x2x256.size a ≤ S2x2x2x256.size a
  rotates_S2x256_d1 : S2x256.Rotates 1 none
  slices_S2x256_o0_0_S1x256 : S2x256.Slices ![0, 0] S1x256
  slices_S2x256_o1_0_S1x256 : S2x256.Slices ![1, 0] S1x256
  slices_S4x256_o2_0_S1x256 : S4x256.Slices ![2, 0] S1x256
  slices_S4x256_o3_0_S1x256 : S4x256.Slices ![3, 0] S1x256
  shapeCasts_S1024x256_S1024x256 : S1024x256.ShapeCasts S1024x256
  broadcasts_S1x256_S1024x256 : S1x256.Broadcasts S1024x256
  inb_S1x256_S1x256_0_0 : ∀ a, (![0, 0] : Fin 2 → Nat) a + S1x256.size a ≤ S1x256.size a
  h_S1x256 : 0 < S1x256.numel
  shapeCasts_S1024x1024_S32x32x32x32 : S1024x1024.ShapeCasts S32x32x32x32
  transposes_S32x32x32x32_S32x32x32x32_0_3_1_2 : S32x32x32x32.Transposes [0, 3, 1, 2] S32x32x32x32
  dot_S1024x3072_S3072x256_S1024x256_1_0_0_1_n_n_wf : DotDims.WF S1024x3072 S3072x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x1024.size a
  hwx0_1 : ∀ i : grid0.Coords, EltTy.bits .bf16 = 32 ∨ (Rect.block (s := S3072x1024) S3072x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x1024.size a
  hwx0_2 : ∀ i : grid0.Coords, EltTy.bits .bf16 = 32 ∨ (Rect.block (s := S1024x1024) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x1024.size a
  hwx0_3 : ∀ i : grid0.Coords, EltTy.bits .bf16 = 32 ∨ (Rect.block (s := S1024x1024) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x1024.size a
  hwx0_4 : ∀ i : grid0.Coords, EltTy.bits .bf16 = 32 ∨ (Rect.block (s := S1024x1024) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4x256.size a ≤ S2x2x4x256.size a
  hwx0_5 : ∀ i : grid0.Coords, EltTy.bits .f32 = 32 ∨ (Rect.block (s := S2x2x4x256) S1x1x4x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .bf16 = 32 ∨ (Rect.block (s := S1024x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x2x4x256.size a ≤ S2x2x4x256.size a
  hwx1_1 : ∀ i : grid1.Coords, EltTy.bits .f32 = 32 ∨ (Rect.block (s := S2x2x4x256) S2x2x4x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3072x256.size a ≤ S3072x1024.size a
  hwx1_2 : ∀ i : grid1.Coords, EltTy.bits .bf16 = 32 ∨ (Rect.block (s := S3072x1024) S3072x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S1024x1024.size a
  hwx1_5 : ∀ i : grid1.Coords, EltTy.bits .bf16 = 32 ∨ (Rect.block (s := S1024x1024) S1024x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x2x256.size a ≤ S2x2x2x256.size a
  hwx1_6 : ∀ i : grid1.Coords, EltTy.bits .f32 = 32 ∨ (Rect.block (s := S2x2x2x256) S1x1x2x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x1024.size a
  hwx2_0 : ∀ i : grid2.Coords, EltTy.bits .bf16 = 32 ∨ (Rect.block (s := S1024x1024) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x1024.size a
  hwx2_1 : ∀ i : grid2.Coords, EltTy.bits .bf16 = 32 ∨ (Rect.block (s := S1024x1024) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x2x4x256.size a ≤ S2x2x4x256.size a
  hwx2_2 : ∀ i : grid2.Coords, EltTy.bits .f32 = 32 ∨ (Rect.block (s := S2x2x4x256) S2x2x4x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x2x2x256.size a ≤ S2x2x2x256.size a
  hwx2_3 : ∀ i : grid2.Coords, EltTy.bits .f32 = 32 ∨ (Rect.block (s := S2x2x2x256) S2x2x2x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x1024.size a
  hwx2_4 : ∀ i : grid2.Coords, EltTy.bits .f32 = 32 ∨ (Rect.block (s := S1x1024) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x1024.size a
  hwx2_5 : ∀ i : grid2.Coords, EltTy.bits .f32 = 32 ∨ (Rect.block (s := S1x1024) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x1024.size a
  hwx2_6 : ∀ i : grid2.Coords, EltTy.bits .f32 = 32 ∨ (Rect.block (s := S1x1024) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x1024.size a
  hwx2_7 : ∀ i : grid2.Coords, EltTy.bits .f32 = 32 ∨ (Rect.block (s := S1x1024) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x256.size a ≤ S1024x1024.size a
  hwx2_8 : ∀ i : grid2.Coords, EltTy.bits .f32 = 32 ∨ (Rect.block (s := S1024x1024) S1024x256.size (cc2_transform_8 i) (hinb2_8 i)).WholeWords (EltTy.packing .f32)

variable [Facts₀]

def dot_S1024x3072_S3072x256_S1024x256_1_0_0_1_n_n : DotDims S1024x3072 S3072x256 S1024x256 where
  lhsContracting := [1]
  rhsContracting := [0]
  lhsNonContracting := [0]
  rhsNonContracting := [1]
  lhsBatch := []
  rhsBatch := []
  wf := dot_S1024x3072_S3072x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v2) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x4x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S2x2x4x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3072x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S1024x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S1x1x2x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_2) S2x2x4x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S2x2x2x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S1x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S1x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S1x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v5) S1024x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32x32x32x32 : Shape := ⟨4, ![32, 32, 32, 32]⟩
abbrev S3072x1024 : Shape := ⟨2, ![3072, 1024]⟩
abbrev S1024x1024 : Shape := ⟨2, ![1024, 1024]⟩
abbrev S1x1024 : Shape := ⟨2, ![1, 1024]⟩
abbrev S1024x1 : Shape := ⟨2, ![1024, 1]⟩
abbrev S1024x3072 : Shape := ⟨2, ![1024, 3072]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S32x32x32x32, .f32⟩
  | .hbm, ⟨1, _⟩ => ⟨S3072x1024, .bf16⟩
  | .hbm, ⟨2, _⟩ => ⟨S3072x1024, .bf16⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32x32x32x32, .f32⟩
  | .hbm, ⟨11, _⟩ => ⟨S1024x1024, .f32⟩
  | .hbm, ⟨12, _⟩ => ⟨S1024x1024, .f32⟩
  | .hbm, ⟨13, _⟩ => ⟨S32x32x32x32, .f32⟩
  | .hbm, ⟨14, _⟩ => ⟨S32x32x32x32, .f32⟩
  | .local _ .vmem, ⟨0, _⟩ => ⟨S1024x1024, .f32⟩
  | .local _ .vmem, ⟨1, _⟩ => ⟨S3072x1024, .bf16⟩
  | .local _ .vmem, ⟨2, _⟩ => ⟨S3072x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | _, _ => ⟨S32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  transposes_S32x32x32x32_S32x32x32x32_0_2_3_1 : S32x32x32x32.Transposes [0, 2, 3, 1] S32x32x32x32
  shapeCasts_S32x32x32x32_S1024x1024 : S32x32x32x32.ShapeCasts S1024x1024
  shapeCasts_S1024x1024_S32x32x32x32 : S1024x1024.ShapeCasts S32x32x32x32
  transposes_S32x32x32x32_S32x32x32x32_0_3_1_2 : S32x32x32x32.Transposes [0, 3, 1, 2] S32x32x32x32
  iota_S1024x1_d0_w32 : S1024x1.Iotas .tc 32 [0]
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  rotates_S1024x1024_d0 : S1024x1024.Rotates 0 none
  broadcasts_S1024x1_S1024x1024 : S1024x1.Broadcasts S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  reduces_S1024x1024_S1024 : S1024x1024.Reduces [0] S1024
  shapeCasts_S1024_S1x1024 : S1024.ShapeCasts S1x1024
  rotates_S1x1024_d1 : S1x1024.Rotates 1 none
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  dot_S1024x3072_S3072x1024_S1024x1024_1_0_0_1_n_n_wf : DotDims.WF S1024x3072 S3072x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .f32 = 32 ∨ (Rect.block (s := S1024x1024) S1024x1024.size (cc0_transform_10 i) (hinb0_10 i)).WholeWords (EltTy.packing .f32)

variable [Facts₀]

def dot_S1024x3072_S3072x1024_S1024x1024_1_0_0_1_n_n : DotDims S1024x3072 S3072x1024 S1024x1024 where
  lhsContracting := [1]
  rhsContracting := [0]
  lhsNonContracting := [0]
  rhsNonContracting := [1]
  lhsBatch := []
  rhsBatch := []
  wf := dot_S1024x3072_S3072x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_call0_v1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v2) S1024x1024.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== Proof.RefFrame.lean ====
/-
  The two conjuncts that need no value reasoning.

  * The idealized reference is one kernel region around host reshapes; its body only loads whole input
    blocks and stores one whole output block, so every weakly fair run terminates and leaves the ten
    argument arrays as launched.
  * The ideal pass rewrote no operation of the kernel, so the idealized kernel is the kernel's own text
    read over the extended reals and there is nothing to preserve beyond that.
-/
import proofs.«151177_g2000001997577596_pallasbulk_1280_5_alg».proof.Defs
import proofs.«151177_g2000001997577596_pallasbulk_1280_5_alg».proof.Proof.Gen.ReferenceIdeal.Frame

noncomputable section

namespace Cert.Proof.Claims

open Idealize.ShloMosaic Idealize.SL.Sem

/-- The reference's arguments end as launched. -/
theorem frame_ref [Cert.ReferenceIdeal.Facts] [Cert.Pre_finite_inputs.Facts] : Cert.frame_ReferenceIdeal :=
  fun m ρ _ => Cert.ReferenceIdeal.Gen.frame m ρ

/-- No operation was rewritten: the statement is `True`. -/
theorem preserves : Cert.preserves_Kernel_KernelIdeal := trivial

end Cert.Proof.Claims

end
-- ==== Proof.Kernel.Conv1.lean ====
/-
  The first call: both convolutions of the input as matrix products, one 256-lane column tile per grid point.

  At a point the body is handed the whole input (1024 rows of 1024 lanes), the tile's columns of the stacked
  three-tap weight matrix (3072 x 256) and of the 1x1 weight matrix (1024 x 256). At a point whose second
  coordinate is 0 it first builds, in a scratch buffer that outlives the point, the 1024 x 3072 left operand: the
  rows above, the rows themselves and the rows below, side by side, the rows across an image's top or bottom edge
  zeroed. At every point it multiplies that operand by the weight tile, multiplies the input by the 1x1 tile, stores
  the two products' tiles, and stores the four column statistics of the point (column sums and column sums of
  squares of both products).

  Since the input block is the same whole array at all four points, the scratch holds the same operand from the
  first point on; that is the invariant the call keeps between points.
-/
import proofs.«151177_g2000001997577596_pallasbulk_1280_5_alg».proof.Proof.Gen.Kernel.Skeleton
import proofs.«151177_g2000001997577596_pallasbulk_1280_5_alg».proof.Proof.Gen.Kernel.Launch
import proofs.«151177_g2000001997577596_pallasbulk_1280_5_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The input's block index is (0, 0) at every point: the block is the whole array. -/
theorem idx0_0 : ∀ t : Fin cfg0.N, ∀ a : Fin 2, win0_0.index t a = 0 :=
  (by decide +kernel : ∀ t : Fin grid0.N, ∀ a : Fin 2, win0_0.index t a = 0)

/-! ## The rectangles the body reads and writes -/

abbrev rX0 : Rect S1024x1024 := Rect.unit (s := S1024x1024) ![0, 0] S1024x1024.size inb_S1024x1024_S1024x1024_0_0
abbrev rT0 : Rect S3072x256 := Rect.unit (s := S3072x256) ![0, 0] S3072x256.size inb_S3072x256_S3072x256_0_0
abbrev rB0 : Rect S1024x256 := Rect.unit (s := S1024x256) ![0, 0] S1024x256.size inb_S1024x256_S1024x256_0_0
abbrev rQ0 : Rect S1x1x4x256 := Rect.unit (s := S1x1x4x256) ![0, 0, 0, 0] S1x1x4x256.size inb_S1x1x4x256_S1x1x4x256_0_0_0_0
abbrev rL0 : Rect S1024x3072 := Rect.unit (s := S1024x3072) ![0, 0] S1024x3072.size inb_S1024x3072_S1024x3072_0_0

/-! ## What the body leaves -/

/-- The left operand of the 3x3 convolution's product: rows above, rows, rows below of the input, side by side. -/
def lhs0 (x : Vec F S1024x1024 .bf16) : FVec F S1024x3072 .bf16 := k0_pay1 (View.ld x rX0)

/-- The scratch buffer once the operand is stored in it. -/
def scr0 (x : Vec F S1024x1024 .bf16) : Vec F S1024x3072 .bf16 := View.canon [⟨rL0, lhs0 x⟩]

/-- The three output tiles after the body, from the operand `l` it multiplies with and the input blocks. -/
def out0_3 (l : Vec F S1024x3072 .bf16) (t1 : Vec F S3072x256 .bf16) : Vec F S1024x256 .bf16 :=
  View.canon [⟨rB0, k0_pay4 l (View.ld t1 rT0)⟩]
def out0_4 (x : Vec F S1024x1024 .bf16) (tid : Vec F S1024x256 .bf16) : Vec F S1024x256 .bf16 :=
  View.canon [⟨rB0, k0_pay5 (View.ld x rX0) (View.ld tid rB0)⟩]
def out0_5 (l : Vec F S1024x3072 .bf16) (t1 : Vec F S3072x256 .bf16) (x : Vec F S1024x1024 .bf16) (tid : Vec F S1024x256 .bf16) : Vec F S1x1x4x256 .f32 :=
  View.canon [⟨rQ0, k0_pay6 l (View.ld t1 rT0) (View.ld x rX0) (View.ld tid rB0)⟩]

theorem coverB0 (p0 : Vec F S1024x256 .bf16) (y : S1024x256.Idx) :
    ∃ pc ∈ ([⟨rB0, p0⟩] : List (View.Piece (Elt F) S1024x256 .bf16)), y ∈ pc.1.set :=
  View.cover_of_tiled [⟨rB0, p0⟩] S1024x256.size (by rfl) y
theorem coverQ0 (p0 : Vec F S1x1x4x256 .f32) (y : S1x1x4x256.Idx) :
    ∃ pc ∈ ([⟨rQ0, p0⟩] : List (View.Piece (Elt F) S1x1x4x256 .f32)), y ∈ pc.1.set :=
  View.cover_of_tiled [⟨rQ0, p0⟩] S1x1x4x256.size (by rfl) y
theorem coverL0 (p0 : Vec F S1024x3072 .bf16) (y : S1024x3072.Idx) :
    ∃ pc ∈ ([⟨rL0, p0⟩] : List (View.Piece (Elt F) S1024x3072 .bf16)), y ∈ pc.1.set :=
  View.cover_of_tiled [⟨rL0, p0⟩] S1024x3072.size (by rfl) y

/-- Reading the scratch back through the whole rectangle gives the operand stored in it. -/
theorem zero2_0 : (![0, 0] : Fin 2 → Nat) = fun _ => 0 := by
  funext a; match a with | ⟨0, _⟩ => rfl | ⟨1, _⟩ => rfl

theorem ld_scr0 (x : Vec F S1024x1024 .bf16) :
    View.ld (scr0 x) rL0 = lhs0 x := by
  unfold scr0
  rw [View.canon_unit_zero (S := S1024x3072) zero2_0, View.ld_unit_zero (S := S1024x3072) zero2_0]

/-! ## The body's two runs -/

/-- The branch condition, as printed: the point's second coordinate is 0. -/
abbrev first0 (i : grid0.Coords) : Prop :=
  Scalar.cmpi .ne (Scalar.extui (Scalar.cmpi .eq (BitVec.ofNat 32 (i 1).val) 0#32)) 0#32 = 1#1

/-- Over the grid the condition holds exactly at the even points. -/
theorem first0_iff : ∀ t : Fin cfg0.N, first0 (grid0.coords t) ↔ t.val % 2 = 0 :=
  (by decide +kernel : ∀ t : Fin grid0.N, first0 (grid0.coords t) ↔ t.val % 2 = 0)

set_option maxHeartbeats 1000000 in
/-- At a point that builds the operand: from the inputs at given contents and everything else at anything, the body
    leaves the scratch at the operand of the input and the outputs at the products with it. -/
theorem sound_kernel0A (c : Dev nD) (E : Set ℕ) (i : grid0.Coords) (hc : first0 i) (arg2 : Memref sig .tc .vmem S1024x1024 .bf16) (harg2 : arg2.IsWhole) (arg3 : Memref sig .tc .vmem S3072x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1x1x4x256 .f32) (harg7 : arg7.IsWhole) (arg8 : Memref sig .tc .vmem S1024x3072 .bf16) (harg8 : arg8.IsWhole)
    (x0 : Vec F S1024x1024 .bf16) (x1 : Vec F S3072x256 .bf16) (x2 : Vec F S1024x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 (lhs0 x0) x1) ∗ owns (c : Thread nD τ) arg6 fullShare (out0_4 x0 x2) ∗ owns (c : Thread nD τ) arg7 fullShare (out0_5 (lhs0 x0) x1 x0 x2)
            ∗ owns (c : Thread nD τ) arg8 fullShare (scr0 x0)) -∗ K ⟨⟩))
      ⊢ wp frame (wpE (defs₀ (F := F)) Variants.none c none) E (cc0__k1 i arg2 harg2 arg3 harg3 arg4 harg4 arg5 harg5 arg6 harg6 arg7 harg7 arg8 harg8) K := by
  simp only [cc0__k1_eq_skeleton]; unfold cc0__k1_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    sl_unfold_words
    rw [View.readCov_cons_toLoadRect]
    exact View.read_writes_eq_canon _ _ _ (coverB0 _)
  isplitl [H4]
  · iexists _; isplitr
    swap; · iexact H4
    ipureintro
    try dsimp only
    exact View.read_writes_eq_canon _ _ _ (coverB0 _)
  isplitl [H5]
  · iexists _; isplitr
    swap; · iexact H5
    ipureintro
    try dsimp only
    sl_unfold_words
    rw [View.readCov_cons_toLoadRect]
    exact View.read_writes_eq_canon _ _ _ (coverQ0 _)
  iexists _; isplitr
  swap; · iexact H6
  ipureintro
  try dsimp only
  sl_unfold_words
  exact View.read_writes_eq_canon _ _ _ (coverL0 _)

set_option maxHeartbeats 1000000 in
/-- At a point that reuses the operand: the scratch, at given contents `s`, is left as it was and the outputs are the
    products with what is read back from it. -/
theorem sound_kernel0B (c : Dev nD) (E : Set ℕ) (i : grid0.Coords) (hc : ¬ first0 i) (arg2 : Memref sig .tc .vmem S1024x1024 .bf16) (harg2 : arg2.IsWhole) (arg3 : Memref sig .tc .vmem S3072x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1x1x4x256 .f32) (harg7 : arg7.IsWhole) (arg8 : Memref sig .tc .vmem S1024x3072 .bf16) (harg8 : arg8.IsWhole)
    (x0 : Vec F S1024x1024 .bf16) (x1 : Vec F S3072x256 .bf16) (x2 : Vec F S1024x256 .bf16) (s : Vec F S1024x3072 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare (out0_3 (View.ld s rL0) x1) ∗ owns (c : Thread nD τ) arg6 fullShare (out0_4 x0 x2) ∗ owns (c : Thread nD τ) arg7 fullShare (out0_5 (View.ld s rL0) x1 x0 x2)
            ∗ owns (c : Thread nD τ) arg8 fullShare s) -∗ K ⟨⟩))
      ⊢ wp frame (wpE (defs₀ (F := F)) Variants.none c none) E (cc0__k1 i arg2 harg2 arg3 harg3 arg4 harg4 arg5 harg5 arg6 harg6 arg7 harg7 arg8 harg8) K := by
  simp only [cc0__k1_eq_skeleton]; unfold cc0__k1_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
  subst hf0 hf1 hf2 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverB0 _)
  isplitl [H4]
  · iexists _; isplitr
    swap; · iexact H4
    ipureintro
    try dsimp only
    exact View.read_writes_eq_canon _ _ _ (coverB0 _)
  isplitl [H5]
  · iexists _; isplitr
    swap; · iexact H5
    ipureintro
    try dsimp only
    exact View.read_writes_eq_canon _ _ _ (coverQ0 _)
  iexists f6; isplitr; · ipureintro; rfl
  iexact H6

end Cert.Kernel.Hand

end
-- ==== Proof.Kernel.Conv1Data.lean ====
/-
  The first call over its four grid points: what each window's buffer holds after the body at each point, what the
  call keeps between points (the scratch at the three-tap operand of the input, from the first point on), and the
  body's run at every point from the pipeline's account of the buffers.
-/
import proofs.«151177_g2000001997577596_pallasbulk_1280_5_alg».proof.Proof.Kernel.Conv1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the operand is built from are the same at every point -/

/-- So window 0's block at any point is its block at the first point. -/
theorem iblk0_0_const (c : Dev nD) (t : Fin cfg0.N) :
    (iblk0 V c 0 t : S1024x1024.Idx → Elt F .bf16) = iblk0 V c 0 t0_0 := by
  funext y
  unfold iblk0
  rw [View.read_apply, View.read_apply]
  refine congrArg (V c (Pipeline.arrRef spec0 0)) ?_
  funext a
  apply Fin.ext
  show win0_0.index t a * _ + 1 * (y a).val = win0_0.index t0_0 a * _ + 1 * (y a).val
  rw [idx0_0 t a, idx0_0 t0_0 a]

/-- The operand built at any point is the one built at the first point. -/
theorem lhs0_const (c : Dev nD) (t : Fin cfg0.N) : (lhs0 (iblk0 V c 0 t)) = (lhs0 (iblk0 V c 0 t0_0)) := by
  rw [iblk0_0_const V c t]

/-! ## What the call keeps between points -/

/-- Once the operand is built: the scratch at the stored operand, every other scoped buffer that is no staging buffer
    of the call at some contents, the generator register at some state. -/
def keeps0 (c : Dev nD) (s : Vec F S1024x3072 .bf16) : sProp 𝕄 :=
  iprop(owns (c : Thread nD τ) (Memref.whole cc0_scratch0) fullShare s
    ∗ Pipeline.scopedRestBut (Ix := Unit) (Name := ℕ) (U := UR sig nD τ) (Lvl := ℕ) (Val := Elt F) spec0 c [cc0_scratch0]
    ∗ ∃ r, prngReg c r)

/-- Before the first point the scratch holds nothing in particular: the class's invariant opened at the scratch. -/
theorem phiA0_open (c : Dev nD) :
    (Pipeline.ΦA (U := UR sig nD τ) (Val := Elt F) spec0 c : sProp 𝕄)
      ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  unfold Pipeline.ΦA
  rw [scopedRest0_split]
  iintro ⟨⟨⟨%f, Hs⟩, Hrest⟩, Hp⟩
  isplitl [Hs]
  · iexists f; rw [owns_whole_eq]; iexists f; isplitr; · ipureintro; rfl
    iexact Hs
  isplitl [Hrest]; · iexact Hrest
  iexact Hp

/-- What is kept gives the class's invariant back: the scratch at some contents again. -/
theorem keeps0_close (c : Dev nD) (s : Vec F S1024x3072 .bf16) :
    keeps0 c s ⊢ (Pipeline.ΦA (U := UR sig nD τ) (Val := Elt F) spec0 c : sProp 𝕄) := by
  unfold keeps0 Pipeline.ΦA
  rw [scopedRest0_split, owns_whole_eq]
  iintro ⟨⟨%f, -, Hs⟩, Hrest, Hp⟩
  isplitl [Hs Hrest]
  · isplitl [Hs]; · iexists f; iexact Hs
    iexact Hrest
  iexact Hp

/-- What is kept, with the scratch's contents forgotten. -/
theorem keeps0_forget (c : Dev nD) (s : Vec F S1024x3072 .bf16) :
    keeps0 c s ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  unfold keeps0
  iintro ⟨Hs, Hrest, Hp⟩
  isplitl [Hs]; · iexists s; iexact Hs
  isplitl [Hrest]; · iexact Hrest
  iexact Hp

/-! ## The proof data of the call -/

/-- After the body at point `t` each input's buffer holds its block and each output's the product tiles and statistics
    of the blocks; before the first point the call holds the class's invariant, from then on the scratch at the
    operand; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (lhs0 (iblk0 V c 0 t)) (iblk0 V c 1 t)
    | ⟨4, _⟩ => out0_4 (iblk0 V c 0 t) (iblk0 V c 2 t)
    | ⟨5, _⟩ => out0_5 (lhs0 (iblk0 V c 0 t)) (iblk0 V c 1 t) (iblk0 V c 0 t) (iblk0 V c 2 t)
  Φ n := if n.val = 0 then Pipeline.ΦA spec0 c else keeps0 c (scr0 (iblk0 V c 0 t0_0))
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (lhs0 (iblk0 V c 0 t)) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (lhs0 (iblk0 V c 0 t)) (iblk0 V c 1 t) (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem phi0_zero (c : Dev nD) : (dat0 V c).Φ 0 = Pipeline.ΦA spec0 c := by
  dsimp only [dat0]; exact if_pos (by simp)

theorem phi0_succ (c : Dev nD) (t : Fin cfg0.N) : (dat0 V c).Φ t.succ = keeps0 c (scr0 (iblk0 V c 0 t0_0)) := by
  dsimp only [dat0]; rw [if_neg (by simp)]

theorem phi0_last (c : Dev nD) : (dat0 V c).Φ (Fin.last cfg0.N) = keeps0 c (scr0 (iblk0 V c 0 t0_0)) := by
  dsimp only [dat0]
  exact if_neg (by
    rw [Fin.val_last]
    have h : cfg0.N = 4 := N_0
    omega)

/-- At a point after the first, the invariant is what is kept. -/
theorem phi0_castSucc_pos (c : Dev nD) (t : Fin cfg0.N) (ht : t.val ≠ 0) :
    (dat0 V c).Φ t.castSucc = keeps0 c (scr0 (iblk0 V c 0 t0_0)) := by
  dsimp only [dat0]; rw [if_neg (by simpa using ht)]

/-- At any point, the invariant before the body at least holds the scratch at some contents. -/
theorem phi0_castSucc_forget (c : Dev nD) (t : Fin cfg0.N) :
    (dat0 V c).Φ t.castSucc ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  by_cases ht : t.val = 0
  · have e : (dat0 V c).Φ t.castSucc = Pipeline.ΦA spec0 c := by
      dsimp only [dat0]; rw [if_pos (by simpa using ht)]
    rw [e]; exact phiA0_open c
  · rw [phi0_castSucc_pos V c t ht]; exact keeps0_forget c _

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. At an even point it builds the operand, whatever the scratch held; at an odd point the
    scratch holds the operand built at the point before, which is the operand of this point's blocks too. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, phi0_succ,
    after0_0, after0_1, after0_2, after0_3, after0_4, after0_5]
  by_cases hp : t.val % 2 = 0
  · -- the operand is built here
    have hc : first0 (grid0.coords t) := (first0_iff t).mpr hp
    iintro ⟨HΦ, Ho, ⟨%d0, H0⟩, ⟨%d1, H1⟩, ⟨%d2, H2⟩, ⟨%d3, H3⟩, ⟨%d4, H4⟩, ⟨%d5, H5⟩⟩
    ihave HΦ' := (phi0_castSucc_forget V c t) $$ HΦ
    icases HΦ' with ⟨Hs, Hrest, Hp⟩
    iapply (sound_kernel0A c Set.univ (grid0.coords t) hc _ _ _ _ _ _ _ _ _ _ _ _ _ _ (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hs]; · iexact Hs
    iintro ⟨H0, H1, H2, H3, H4, H5, Hs⟩
    isplitl [Hs Hrest Hp]
    · unfold keeps0
      rw [show (scr0 (iblk0 V c 0 t0_0)) = (scr0 (iblk0 V c 0 t)) from by unfold scr0; rw [lhs0_const V c t]]
      isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · -- the operand is reused here
    have hc : ¬ first0 (grid0.coords t) := fun h => hp ((first0_iff t).mp h)
    have ht : t.val ≠ 0 := fun h => hp (by rw [h])
    rw [phi0_castSucc_pos V c t ht]
    have hl : View.ld (scr0 (iblk0 V c 0 t0_0)) rL0 = (lhs0 (iblk0 V c 0 t)) := by
      rw [ld_scr0, lhs0_const V c t]
    iintro ⟨HΦ, Ho, ⟨%d0, H0⟩, ⟨%d1, H1⟩, ⟨%d2, H2⟩, ⟨%d3, H3⟩, ⟨%d4, H4⟩, ⟨%d5, H5⟩⟩
    unfold keeps0
    icases HΦ with ⟨Hs, Hrest, Hp⟩
    iapply (sound_kernel0B c Set.univ (grid0.coords t) hc _ _ _ _ _ _ _ _ _ _ _ _ _ _ (iblk0 V c 0 t) (iblk0 V c 1 t) (iblk0 V c 2 t) (scr0 (iblk0 V c 0 t0_0)) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hs]; · iexact Hs
    rw [hl]
    iintro ⟨H0, H1, H2, H3, H4, H5, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Conv2.lean ====
/-
  The second call: the first batch normalisation and the second convolution, one 256-lane column tile per grid
  point.

  At a point the body is handed the whole first pre-activation (1024 x 1024), the whole array of the first call's
  partial column statistics, the tile's columns of the second stacked weight matrix (3072 x 256) and the two whole
  affine rows. At a point whose second coordinate is 0 it first forms the channel totals (the four partial
  statistics added, then the lanes of one channel added by lane rotations), the channel means and variances (mean
  of squares minus squared mean), normalises and clamps the pre-activation, and stores, in a scratch buffer that
  outlives the point, the three-tap left operand built from it. At every point it multiplies that operand by the
  weight tile and stores the product's tile and its two column statistics.

  The blocks the operand is built from are whole arrays, the same at all four points, so from the first point on the
  scratch holds one operand: the invariant the call keeps between points.
-/
import proofs.«151177_g2000001997577596_pallasbulk_1280_5_alg».proof.Proof.Gen.Kernel.Skeleton
import proofs.«151177_g2000001997577596_pallasbulk_1280_5_alg».proof.Proof.Gen.Kernel.Launch
import proofs.«151177_g2000001997577596_pallasbulk_1280_5_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rX1 : Rect S1024x1024 := Rect.unit (s := S1024x1024) ![0, 0] S1024x1024.size inb_S1024x1024_S1024x1024_0_0
abbrev rT1 : Rect S3072x256 := Rect.unit (s := S3072x256) ![0, 0] S3072x256.size inb_S3072x256_S3072x256_0_0
abbrev rB1 : Rect S1024x256 := Rect.unit (s := S1024x256) ![0, 0] S1024x256.size inb_S1024x256_S1024x256_0_0
abbrev rG1 : Rect S1x1024 := Rect.unit (s := S1x1024) ![0, 0] S1x1024.size inb_S1x1024_S1x1024_0_0
abbrev rP1 : Rect S1x1x2x256 := Rect.unit (s := S1x1x2x256) ![0, 0, 0, 0] S1x1x2x256.size inb_S1x1x2x256_S1x1x2x256_0_0_0_0
abbrev rL1 : Rect S1024x3072 := Rect.unit (s := S1024x3072) ![0, 0] S1024x3072.size inb_S1024x3072_S1024x3072_0_0
abbrev rS1_00 : Rect S2x2x4x256 := Rect.unit (s := S2x2x4x256) ![0, 0, 0, 0] S1x1x4x256.size inb_S2x2x4x256_S1x1x4x256_0_0_0_0
abbrev rS1_01 : Rect S2x2x4x256 := Rect.unit (s := S2x2x4x256) ![0, 1, 0, 0] S1x1x4x256.size inb_S2x2x4x256_S1x1x4x256_0_1_0_0
abbrev rS1_10 : Rect S2x2x4x256 := Rect.unit (s := S2x2x4x256) ![1, 0, 0, 0] S1x1x4x256.size inb_S2x2x4x256_S1x1x4x256_1_0_0_0
abbrev rS1_11 : Rect S2x2x4x256 := Rect.unit (s := S2x2x4x256) ![1, 1, 0, 0] S1x1x4x256.size inb_S2x2x4x256_S1x1x4x256_1_1_0_0

/-! ## What the body leaves -/

/-- The left operand of the second convolution's product: the normalised, clamped first pre-activation with its rows
    above and below, side by side. -/
def lhs1 (z1 : Vec F S1024x1024 .bf16) (s1 : Vec F S2x2x4x256 .f32) (g1 b1 : Vec F S1x1024 .f32) : FVec F S1024x3072 .bf16 :=
  k1_pay1 (k1_pay7 (View.ld s1 rS1_00) (View.ld s1 rS1_01) (View.ld s1 rS1_10) (View.ld s1 rS1_11))
    (k1_pay8 (View.ld s1 rS1_00) (View.ld s1 rS1_01) (View.ld s1 rS1_10) (View.ld s1 rS1_11) (View.ld g1 rG1))
    (k1_pay9 (View.ld z1 rX1)) (View.ld b1 rG1)

/-- The scratch buffer once the operand is stored in it. -/
def scr1 (z1 : Vec F S1024x1024 .bf16) (s1 : Vec F S2x2x4x256 .f32) (g1 b1 : Vec F S1x1024 .f32) : Vec F S1024x3072 .bf16 :=
  View.canon [⟨rL1, lhs1 z1 s1 g1 b1⟩]

/-- The two output tiles after the body, from the operand `l` it multiplies with and the weight tile. -/
def out1_5 (l : Vec F S1024x3072 .bf16) (t2 : Vec F S3072x256 .bf16) : Vec F S1024x256 .bf16 :=
  View.canon [⟨rB1, k1_pay3 l (View.ld t2 rT1)⟩]
def out1_6 (l : Vec F S1024x3072 .bf16) (t2 : Vec F S3072x256 .bf16) : Vec F S1x1x2x256 .f32 :=
  View.canon [⟨rP1, k1_pay4 l (View.ld t2 rT1)⟩]

theorem coverB1 (p0 : Vec F S1024x256 .bf16) (y : S1024x256.Idx) :
    ∃ pc ∈ ([⟨rB1, p0⟩] : List (View.Piece (Elt F) S1024x256 .bf16)), y ∈ pc.1.set :=
  View.cover_of_tiled [⟨rB1, p0⟩] S1024x256.size (by rfl) y
theorem coverP1 (p0 : Vec F S1x1x2x256 .f32) (y : S1x1x2x256.Idx) :
    ∃ pc ∈ ([⟨rP1, p0⟩] : List (View.Piece (Elt F) S1x1x2x256 .f32)), y ∈ pc.1.set :=
  View.cover_of_tiled [⟨rP1, p0⟩] S1x1x2x256.size (by rfl) y
theorem coverL1 (p0 : Vec F S1024x3072 .bf16) (y : S1024x3072.Idx) :
    ∃ pc ∈ ([⟨rL1, p0⟩] : List (View.Piece (Elt F) S1024x3072 .bf16)), y ∈ pc.1.set :=
  View.cover_of_tiled [⟨rL1, p0⟩] S1024x3072.size (by rfl) y

/-- Reading the scratch back through the whole rectangle gives the operand stored in it. -/
theorem zero2_1 : (![0, 0] : Fin 2 → Nat) = fun _ => 0 := by
  funext a; match a with | ⟨0, _⟩ => rfl | ⟨1, _⟩ => rfl

theorem ld_scr1 (z1 : Vec F S1024x1024 .bf16) (s1 : Vec F S2x2x4x256 .f32) (g1 b1 : Vec F S1x1024 .f32) :
    View.ld (scr1 z1 s1 g1 b1) rL1 = lhs1 z1 s1 g1 b1 := by
  unfold scr1
  rw [View.canon_unit_zero (S := S1024x3072) zero2_1, View.ld_unit_zero (S := S1024x3072) zero2_1]

/-! ## The body's two runs -/

/-- The branch condition, as printed: the point's second coordinate is 0. -/
abbrev first1 (i : grid1.Coords) : Prop :=
  Scalar.cmpi .ne (Scalar.extui (Scalar.cmpi .eq (BitVec.ofNat 32 (i 1).val) 0#32)) 0#32 = 1#1

/-- Over the grid the condition holds exactly at the even points. -/
theorem first1_iff : ∀ t : Fin cfg1.N, first1 (grid1.coords t) ↔ t.val % 2 = 0 :=
  (by decide +kernel : ∀ t : Fin grid1.N, first1 (grid1.coords t) ↔ t.val % 2 = 0)

set_option maxHeartbeats 1000000 in
/-- At a point that builds the operand: the scratch is left at the operand of the inputs and the outputs at the
    products with it. -/
theorem sound_kernel1A (c : Dev nD) (E : Set ℕ) (i : grid1.Coords) (hc : first1 i) (arg2 : Memref sig .tc .vmem S1024x1024 .bf16) (harg2 : arg2.IsWhole) (arg3 : Memref sig .tc .vmem S2x2x4x256 .f32) (harg3 : arg3.IsWhole) (arg4 : Memref sig .tc .vmem S3072x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .bf16) (harg7 : arg7.IsWhole) (arg8 : Memref sig .tc .vmem S1x1x2x256 .f32) (harg8 : arg8.IsWhole) (arg9 : Memref sig .tc .vmem S1024x3072 .bf16) (harg9 : arg9.IsWhole)
    (x0 : Vec F S1024x1024 .bf16) (x1 : Vec F S2x2x4x256 .f32) (x2 : Vec F S3072x256 .bf16) (x3 x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (lhs1 x0 x1 x3 x4) x2) ∗ owns (c : Thread nD τ) arg8 fullShare (out1_6 (lhs1 x0 x1 x3 x4) x2)
            ∗ owns (c : Thread nD τ) arg9 fullShare (scr1 x0 x1 x3 x4)) -∗ K ⟨⟩))
      ⊢ wp frame (wpE (defs₀ (F := F)) Variants.none c none) E (cc1__k2 i arg2 harg2 arg3 harg3 arg4 harg4 arg5 harg5 arg6 harg6 arg7 harg7 arg8 harg8 arg9 harg9) K := by
  simp only [cc1__k2_eq_skeleton]; unfold cc1__k2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    sl_unfold_words
    rw [View.readCov_cons_toLoadRect]
    exact View.read_writes_eq_canon _ _ _ (coverB1 _)
  isplitl [H6]
  · iexists _; isplitr
    swap; · iexact H6
    ipureintro
    try dsimp only
    sl_unfold_words
    rw [View.readCov_cons_toLoadRect]
    exact View.read_writes_eq_canon _ _ _ (coverP1 _)
  iexists _; isplitr
  swap; · iexact H7
  ipureintro
  try dsimp only
  sl_unfold_words
  exact View.read_writes_eq_canon _ _ _ (coverL1 _)

set_option maxHeartbeats 1000000 in
/-- At a point that reuses the operand: the scratch, at given contents `s`, is left as it was and the outputs are the
    products with what is read back from it. -/
theorem sound_kernel1B (c : Dev nD) (E : Set ℕ) (i : grid1.Coords) (hc : ¬ first1 i) (arg2 : Memref sig .tc .vmem S1024x1024 .bf16) (harg2 : arg2.IsWhole) (arg3 : Memref sig .tc .vmem S2x2x4x256 .f32) (harg3 : arg3.IsWhole) (arg4 : Memref sig .tc .vmem S3072x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .bf16) (harg7 : arg7.IsWhole) (arg8 : Memref sig .tc .vmem S1x1x2x256 .f32) (harg8 : arg8.IsWhole) (arg9 : Memref sig .tc .vmem S1024x3072 .bf16) (harg9 : arg9.IsWhole)
    (x0 : Vec F S1024x1024 .bf16) (x1 : Vec F S2x2x4x256 .f32) (x2 : Vec F S3072x256 .bf16) (x3 x4 : Vec F S1x1024 .f32) (s : Vec F S1024x3072 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (View.ld s rL1) x2) ∗ owns (c : Thread nD τ) arg8 fullShare (out1_6 (View.ld s rL1) x2)
            ∗ owns (c : Thread nD τ) arg9 fullShare s) -∗ K ⟨⟩))
      ⊢ wp frame (wpE (defs₀ (F := F)) Variants.none c none) E (cc1__k2 i arg2 harg2 arg3 harg3 arg4 harg4 arg5 harg5 arg6 harg6 arg7 harg7 arg8 harg8 arg9 harg9) K := by
  simp only [cc1__k2_eq_skeleton]; unfold cc1__k2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverB1 _)
  isplitl [H6]
  · iexists _; isplitr
    swap; · iexact H6
    ipureintro
    try dsimp only
    exact View.read_writes_eq_canon _ _ _ (coverP1 _)
  iexists f7; isplitr; · ipureintro; rfl
  iexact H7

end Cert.Kernel.Hand

end
-- ==== Proof.Kernel.Conv2Data.lean ====
/-
  The second call over its four grid points: what each window's buffer holds after the body at each point, what the
  call keeps between points (the scratch at the three-tap operand of the normalised first pre-activation, from the
  first point on), and the body's run at every point from the pipeline's account of the buffers.
-/
import proofs.«151177_g2000001997577596_pallasbulk_1280_5_alg».proof.Proof.Kernel.Conv2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the operand is built from are the same at every point -/

/-- Window 0's block index is zero on every axis at every point: the block is the whole array. -/
theorem idx1_0 : ∀ t : Fin cfg1.N, ∀ a : Fin 2, win1_0.index t a = 0 :=
  (by decide +kernel : ∀ t : Fin grid1.N, ∀ a : Fin 2, win1_0.index t a = 0)

/-- So window 0's block at any point is its block at the first point. -/
theorem iblk1_0_const (c : Dev nD) (t : Fin cfg1.N) :
    (iblk1 V c 0 t : S1024x1024.Idx → Elt F .bf16) = iblk1 V c 0 t1_0 := by
  funext y
  unfold iblk1
  rw [View.read_apply, View.read_apply]
  refine congrArg (V c (Pipeline.arrRef spec1 0)) ?_
  funext a
  apply Fin.ext
  show win1_0.index t a * _ + 1 * (y a).val = win1_0.index t1_0 a * _ + 1 * (y a).val
  rw [idx1_0 t a, idx1_0 t1_0 a]

/-- Window 1's block index is zero on every axis at every point: the block is the whole array. -/
theorem idx1_1 : ∀ t : Fin cfg1.N, ∀ a : Fin 4, win1_1.index t a = 0 :=
  (by decide +kernel : ∀ t : Fin grid1.N, ∀ a : Fin 4, win1_1.index t a = 0)

/-- So window 1's block at any point is its block at the first point. -/
theorem iblk1_1_const (c : Dev nD) (t : Fin cfg1.N) :
    (iblk1 V c 1 t : S2x2x4x256.Idx → Elt F .f32) = iblk1 V c 1 t1_0 := by
  funext y
  unfold iblk1
  rw [View.read_apply, View.read_apply]
  refine congrArg (V c (Pipeline.arrRef spec1 1)) ?_
  funext a
  apply Fin.ext
  show win1_1.index t a * _ + 1 * (y a).val = win1_1.index t1_0 a * _ + 1 * (y a).val
  rw [idx1_1 t a, idx1_1 t1_0 a]

/-- Window 3's block index is zero on every axis at every point: the block is the whole array. -/
theorem idx1_3 : ∀ t : Fin cfg1.N, ∀ a : Fin 2, win1_3.index t a = 0 :=
  (by decide +kernel : ∀ t : Fin grid1.N, ∀ a : Fin 2, win1_3.index t a = 0)

/-- So window 3's block at any point is its block at the first point. -/
theorem iblk1_3_const (c : Dev nD) (t : Fin cfg1.N) :
    (iblk1 V c 3 t : S1x1024.Idx → Elt F .f32) = iblk1 V c 3 t1_0 := by
  funext y
  unfold iblk1
  rw [View.read_apply, View.read_apply]
  refine congrArg (V c (Pipeline.arrRef spec1 3)) ?_
  funext a
  apply Fin.ext
  show win1_3.index t a * _ + 1 * (y a).val = win1_3.index t1_0 a * _ + 1 * (y a).val
  rw [idx1_3 t a, idx1_3 t1_0 a]

/-- Window 4's block index is zero on every axis at every point: the block is the whole array. -/
theorem idx1_4 : ∀ t : Fin cfg1.N, ∀ a : Fin 2, win1_4.index t a = 0 :=
  (by decide +kernel : ∀ t : Fin grid1.N, ∀ a : Fin 2, win1_4.index t a = 0)

/-- So window 4's block at any point is its block at the first point. -/
theorem iblk1_4_const (c : Dev nD) (t : Fin cfg1.N) :
    (iblk1 V c 4 t : S1x1024.Idx → Elt F .f32) = iblk1 V c 4 t1_0 := by
  funext y
  unfold iblk1
  rw [View.read_apply, View.read_apply]
  refine congrArg (V c (Pipeline.arrRef spec1 4)) ?_
  funext a
  apply Fin.ext
  show win1_4.index t a * _ + 1 * (y a).val = win1_4.index t1_0 a * _ + 1 * (y a).val
  rw [idx1_4 t a, idx1_4 t1_0 a]

/-- The operand built at any point is the one built at the first point. -/
theorem lhs1_const (c : Dev nD) (t : Fin cfg1.N) : (lhs1 (iblk1 V c 0 t) (iblk1 V c 1 t) (iblk1 V c 3 t) (iblk1 V c 4 t)) = (lhs1 (iblk1 V c 0 t1_0) (iblk1 V c 1 t1_0) (iblk1 V c 3 t1_0) (iblk1 V c 4 t1_0)) := by
  rw [iblk1_0_const V c t, iblk1_1_const V c t, iblk1_3_const V c t, iblk1_4_const V c t]

/-! ## What the call keeps between points -/

/-- Once the operand is built: the scratch at the stored operand, every other scoped buffer that is no staging buffer
    of the call at some contents, the generator register at some state. -/
def keeps1 (c : Dev nD) (s : Vec F S1024x3072 .bf16) : sProp 𝕄 :=
  iprop(owns (c : Thread nD τ) (Memref.whole cc1_scratch0) fullShare s
    ∗ Pipeline.scopedRestBut (Ix := Unit) (Name := ℕ) (U := UR sig nD τ) (Lvl := ℕ) (Val := Elt F) spec1 c [cc1_scratch0]
    ∗ ∃ r, prngReg c r)

/-- Before the first point the scratch holds nothing in particular: the class's invariant opened at the scratch. -/
theorem phiA1_open (c : Dev nD) :
    (Pipeline.ΦA (U := UR sig nD τ) (Val := Elt F) spec1 c : sProp 𝕄)
      ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  unfold Pipeline.ΦA
  rw [scopedRest1_split]
  iintro ⟨⟨⟨%f, Hs⟩, Hrest⟩, Hp⟩
  isplitl [Hs]
  · iexists f; rw [owns_whole_eq]; iexists f; isplitr; · ipureintro; rfl
    iexact Hs
  isplitl [Hrest]; · iexact Hrest
  iexact Hp

/-- What is kept gives the class's invariant back: the scratch at some contents again. -/
theorem keeps1_close (c : Dev nD) (s : Vec F S1024x3072 .bf16) :
    keeps1 c s ⊢ (Pipeline.ΦA (U := UR sig nD τ) (Val := Elt F) spec1 c : sProp 𝕄) := by
  unfold keeps1 Pipeline.ΦA
  rw [scopedRest1_split, owns_whole_eq]
  iintro ⟨⟨%f, -, Hs⟩, Hrest, Hp⟩
  isplitl [Hs Hrest]
  · isplitl [Hs]; · iexists f; iexact Hs
    iexact Hrest
  iexact Hp

/-- What is kept, with the scratch's contents forgotten. -/
theorem keeps1_forget (c : Dev nD) (s : Vec F S1024x3072 .bf16) :
    keeps1 c s ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  unfold keeps1
  iintro ⟨Hs, Hrest, Hp⟩
  isplitl [Hs]; · iexists s; iexact Hs
  isplitl [Hrest]; · iexact Hrest
  iexact Hp

/-! ## The proof data of the call -/

/-- After the body at point `t` each input's buffer holds its block and each output's the product tiles and statistics
    of the blocks; before the first point the call holds the class's invariant, from then on the scratch at the
    operand; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (lhs1 (iblk1 V c 0 t) (iblk1 V c 1 t) (iblk1 V c 3 t) (iblk1 V c 4 t)) (iblk1 V c 2 t)
    | ⟨6, _⟩ => out1_6 (lhs1 (iblk1 V c 0 t) (iblk1 V c 1 t) (iblk1 V c 3 t) (iblk1 V c 4 t)) (iblk1 V c 2 t)
  Φ n := if n.val = 0 then Pipeline.ΦA spec1 c else keeps1 c (scr1 (iblk1 V c 0 t1_0) (iblk1 V c 1 t1_0) (iblk1 V c 3 t1_0) (iblk1 V c 4 t1_0))
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (lhs1 (iblk1 V c 0 t) (iblk1 V c 1 t) (iblk1 V c 3 t) (iblk1 V c 4 t)) (iblk1 V c 2 t) := by dsimp only [dat1]
theorem after1_6 (c : Dev nD) (t : Fin cfg1.N) : (dat1 V c).after 6 t = out1_6 (lhs1 (iblk1 V c 0 t) (iblk1 V c 1 t) (iblk1 V c 3 t) (iblk1 V c 4 t)) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem phi1_zero (c : Dev nD) : (dat1 V c).Φ 0 = Pipeline.ΦA spec1 c := by
  dsimp only [dat1]; exact if_pos (by simp)

theorem phi1_succ (c : Dev nD) (t : Fin cfg1.N) : (dat1 V c).Φ t.succ = keeps1 c (scr1 (iblk1 V c 0 t1_0) (iblk1 V c 1 t1_0) (iblk1 V c 3 t1_0) (iblk1 V c 4 t1_0)) := by
  dsimp only [dat1]; rw [if_neg (by simp)]

theorem phi1_last (c : Dev nD) : (dat1 V c).Φ (Fin.last cfg1.N) = keeps1 c (scr1 (iblk1 V c 0 t1_0) (iblk1 V c 1 t1_0) (iblk1 V c 3 t1_0) (iblk1 V c 4 t1_0)) := by
  dsimp only [dat1]
  exact if_neg (by
    rw [Fin.val_last]
    have h : cfg1.N = 4 := N_1
    omega)

/-- At a point after the first, the invariant is what is kept. -/
theorem phi1_castSucc_pos (c : Dev nD) (t : Fin cfg1.N) (ht : t.val ≠ 0) :
    (dat1 V c).Φ t.castSucc = keeps1 c (scr1 (iblk1 V c 0 t1_0) (iblk1 V c 1 t1_0) (iblk1 V c 3 t1_0) (iblk1 V c 4 t1_0)) := by
  dsimp only [dat1]; rw [if_neg (by simpa using ht)]

/-- At any point, the invariant before the body at least holds the scratch at some contents. -/
theorem phi1_castSucc_forget (c : Dev nD) (t : Fin cfg1.N) :
    (dat1 V c).Φ t.castSucc ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  by_cases ht : t.val = 0
  · have e : (dat1 V c).Φ t.castSucc = Pipeline.ΦA spec1 c := by
      dsimp only [dat1]; rw [if_pos (by simpa using ht)]
    rw [e]; exact phiA1_open c
  · rw [phi1_castSucc_pos V c t ht]; exact keeps1_forget c _

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. At an even point it builds the operand, whatever the scratch held; at an odd point the
    scratch holds the operand built at the point before, which is the operand of this point's blocks too. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, phi1_succ,
    after1_0, after1_1, after1_2, after1_3, after1_4, after1_5, after1_6]
  by_cases hp : t.val % 2 = 0
  · -- the operand is built here
    have hc : first1 (grid1.coords t) := (first1_iff t).mpr hp
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (phi1_castSucc_forget V c t) $$ HΦ
    icases HΦ' with ⟨Hs, Hrest, Hp⟩
    iapply (sound_kernel1A c Set.univ (grid1.coords t) hc _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hrest Hp]
    · unfold keeps1
      rw [show (scr1 (iblk1 V c 0 t1_0) (iblk1 V c 1 t1_0) (iblk1 V c 3 t1_0) (iblk1 V c 4 t1_0)) = (scr1 (iblk1 V c 0 t) (iblk1 V c 1 t) (iblk1 V c 3 t) (iblk1 V c 4 t)) from by unfold scr1; rw [lhs1_const V c t]]
      isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · -- the operand is reused here
    have hc : ¬ first1 (grid1.coords t) := fun h => hp ((first1_iff t).mp h)
    have ht : t.val ≠ 0 := fun h => hp (by rw [h])
    rw [phi1_castSucc_pos V c t ht]
    have hl : View.ld (scr1 (iblk1 V c 0 t1_0) (iblk1 V c 1 t1_0) (iblk1 V c 3 t1_0) (iblk1 V c 4 t1_0)) rL1 = (lhs1 (iblk1 V c 0 t) (iblk1 V c 1 t) (iblk1 V c 3 t) (iblk1 V c 4 t)) := by
      rw [ld_scr1, lhs1_const V c t]
    iintro ⟨HΦ, Ho, ⟨%d0, H0⟩, ⟨%d1, H1⟩, ⟨%d2, H2⟩, ⟨%d3, H3⟩, ⟨%d4, H4⟩, ⟨%d5, H5⟩, ⟨%d6, H6⟩⟩
    unfold keeps1
    icases HΦ with ⟨Hs, Hrest, Hp⟩
    iapply (sound_kernel1B c Set.univ (grid1.coords t) hc _ _ _ _ _ _ _ _ _ _ _ _ _ _ _ _ (iblk1 V c 0 t) (iblk1 V c 1 t) (iblk1 V c 2 t) (iblk1 V c 3 t) (iblk1 V c 4 t) (scr1 (iblk1 V c 0 t1_0) (iblk1 V c 1 t1_0) (iblk1 V c 3 t1_0) (iblk1 V c 4 t1_0)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    rw [hl]
    iintro ⟨H0, H1, H2, H3, H4, H5, H6, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Final.lean ====
/-
  The third call: the last normalisation. At a grid point the body reads one 256-lane column tile of the second
  convolution's pre-activation and of the 1x1 branch's pre-activation, the two whole arrays of partial column
  statistics, and the tile's four affine rows; it forms the channel totals (the four partial statistics added, then
  the lanes of one channel added by lane rotations), the means and variances (mean of squares minus squared mean),
  normalises both tiles, adds them and clamps at zero, and stores the tile of the result. It keeps nothing between
  grid points, so the only fact the pipeline needs is what the output tile's buffer holds after the body, as a
  function of the input blocks.
-/
import proofs.«151177_g2000001997577596_pallasbulk_1280_5_alg».proof.Proof.Gen.Kernel.Skeleton
import proofs.«151177_g2000001997577596_pallasbulk_1280_5_alg».proof.Proof.Gen.Kernel.Launch
import proofs.«151177_g2000001997577596_pallasbulk_1280_5_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether it was fetched there or at an earlier point
    with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point, whether it was fetched there or at an earlier point
    with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block at every point, whether it was fetched there or at an earlier point
    with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block at every point, whether it was fetched there or at an earlier point
    with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block at every point, whether it was fetched there or at an earlier point
    with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block at every point, whether it was fetched there or at an earlier point
    with the same block index. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's buffer holds its block at every point, whether it was fetched there or at an earlier point
    with the same block index. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's buffer holds its block at every point, whether it was fetched there or at an earlier point
    with the same block index. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

/-- A whole column tile. -/
abbrev rB2 : Rect S1024x256 := Rect.unit (s := S1024x256) ![0, 0] S1024x256.size inb_S1024x256_S1024x256_0_0
/-- A whole affine row of the tile. -/
abbrev rR2 : Rect S1x256 := Rect.unit (s := S1x256) ![0, 0] S1x256.size inb_S1x256_S1x256_0_0
/-- The four partial statistics of the first call, one per grid point of that call. -/
abbrev rS4_00 : Rect S2x2x4x256 := Rect.unit (s := S2x2x4x256) ![0, 0, 0, 0] S1x1x4x256.size inb_S2x2x4x256_S1x1x4x256_0_0_0_0
abbrev rS4_01 : Rect S2x2x4x256 := Rect.unit (s := S2x2x4x256) ![0, 1, 0, 0] S1x1x4x256.size inb_S2x2x4x256_S1x1x4x256_0_1_0_0
abbrev rS4_10 : Rect S2x2x4x256 := Rect.unit (s := S2x2x4x256) ![1, 0, 0, 0] S1x1x4x256.size inb_S2x2x4x256_S1x1x4x256_1_0_0_0
abbrev rS4_11 : Rect S2x2x4x256 := Rect.unit (s := S2x2x4x256) ![1, 1, 0, 0] S1x1x4x256.size inb_S2x2x4x256_S1x1x4x256_1_1_0_0
/-- The four partial statistics of the second call. -/
abbrev rS2_00 : Rect S2x2x2x256 := Rect.unit (s := S2x2x2x256) ![0, 0, 0, 0] S1x1x2x256.size inb_S2x2x2x256_S1x1x2x256_0_0_0_0
abbrev rS2_01 : Rect S2x2x2x256 := Rect.unit (s := S2x2x2x256) ![0, 1, 0, 0] S1x1x2x256.size inb_S2x2x2x256_S1x1x2x256_0_1_0_0
abbrev rS2_10 : Rect S2x2x2x256 := Rect.unit (s := S2x2x2x256) ![1, 0, 0, 0] S1x1x2x256.size inb_S2x2x2x256_S1x1x2x256_1_0_0_0
abbrev rS2_11 : Rect S2x2x2x256 := Rect.unit (s := S2x2x2x256) ![1, 1, 0, 0] S1x1x2x256.size inb_S2x2x2x256_S1x1x2x256_1_1_0_0

/-! ## What the body leaves in the output tile's buffer -/

/-- The channel totals of the first call's statistics: the four partial statistics added and reduced over the lanes of
    a channel. -/
def tot1_2 (s1 : Vec F S2x2x4x256 .f32) : FVec F S4x256 .f32 :=
  k2_pay2 (View.ld s1 rS4_00) (View.ld s1 rS4_01) (View.ld s1 rS4_10) (View.ld s1 rS4_11)

/-- The output tile after the body, from the eight input blocks: its one store. -/
def out2_8 (z2 idz : Vec F S1024x256 .bf16) (s1 : Vec F S2x2x4x256 .f32) (s2 : Vec F S2x2x2x256 .f32)
    (g2 b2 gid bid : Vec F S1x256 .f32) : Vec F S1024x256 .f32 :=
  View.canon [⟨rB2, k2_pay1 (k2_pay6 (tot1_2 s1)) (k2_pay7 (tot1_2 s1))
      (k2_pay8 (k2_pay3 (View.ld s2 rS2_00)) (k2_pay4 (View.ld s2 rS2_01)) (k2_pay5 (View.ld s2 rS2_10)) (View.ld s2 rS2_11)
        (View.ld z2 rB2) (View.ld g2 rR2) (View.ld b2 rR2))
      (k2_pay9 (View.ld idz rB2)) (View.ld gid rR2) (View.ld bid rR2)⟩]

/-- The one store covers the tile. -/
theorem cover2_8 (p0 : Vec F S1024x256 .f32) (y : S1024x256.Idx) :
    ∃ pc ∈ ([⟨rB2, p0⟩] : List (View.Piece (Elt F) S1024x256 .f32)), y ∈ pc.1.set :=
  View.cover_of_tiled [⟨rB2, p0⟩] S1024x256.size (by rfl) y

/-! ## The body's run -/

set_option maxHeartbeats 1000000 in
/-- On whole buffers, the inputs' at given contents and the output's at anything, the body runs to its return leaving
    the inputs as they were and the output tile at `out2_8` of them. -/
theorem sound_kernel2 (c : Dev nD) (E : Set ℕ) (i : grid2.Coords) (arg2 : Memref sig .tc .vmem S1024x256 .bf16) (harg2 : arg2.IsWhole) (arg3 : Memref sig .tc .vmem S1024x256 .bf16) (harg3 : arg3.IsWhole) (arg4 : Memref sig .tc .vmem S2x2x4x256 .f32) (harg4 : arg4.IsWhole) (arg5 : Memref sig .tc .vmem S2x2x2x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole)
    (x0 x1 : Vec F S1024x256 .bf16) (x2 : Vec F S2x2x4x256 .f32) (x3 : Vec F S2x2x2x256 .f32) (x4 x5 x6 x7 : Vec F S1x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out2_8 x0 x1 x2 x3 x4 x5 x6 x7)) -∗ K ⟨⟩))
      ⊢ wp frame (wpE (defs₀ (F := F)) Variants.none c none) E (cc2__k3 i arg2 harg2 arg3 harg3 arg4 harg4 arg5 harg5 arg6 harg6 arg7 harg7 arg8 harg8 arg9 harg9 arg10 harg10) K := by
  simp only [cc2__k3_eq_skeleton]; unfold cc2__k3_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-! ## The proof data of the call -/

/-- After the body at point `t` each input's buffer holds its block and the output's holds `out2_8` of the blocks; the
    call keeps nothing of its own between points; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/-
  The whole program as a chain of segments: three host operations (the input relaid as 1024 rows of 1024 lanes), the
  three calls, two host operations (the result relaid as an image batch). Between two segments every unscoped buffer
  of a core holds named contents: the launch contents, then what the host operations compute, then, after a call,
  that call's output arrays at what its pipeline wrote back and everything else unchanged. The run of the chain ends
  with every unscoped buffer at the last of these contents; no segment writes an argument array, so each ends as
  launched.
-/
import proofs.«151177_g2000001997577596_pallasbulk_1280_5_alg».proof.Proof.Kernel.Conv1Data
import proofs.«151177_g2000001997577596_pallasbulk_1280_5_alg».proof.Proof.Kernel.Conv2Data
import proofs.«151177_g2000001997577596_pallasbulk_1280_5_alg».proof.Proof.Kernel.Final
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the calls (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves (an input as entered, an output its write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline leaves (an input as entered, an output its write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host operations behind the calls (the end). -/
abbrev W5 : Dev nD → Valuation τ sig (Elt F) := fun c => StableHlo.after hostOps3 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := (W3_arr m ρ c 4).trans (((dat1 (V2 m ρ) c).arrAt_in 4 rfl _).trans (A_eq1 (V2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := (W4_arr m ρ c 4).trans (((dat2 (V3 m ρ) c).arrAt_in 4 rfl _).trans (A_eq2 (V3 m ρ) c 4))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := (W4_arr m ρ c 5).trans (((dat2 (V3 m ρ) c).arrAt_in 5 rfl _).trans (A_eq2 (V3 m ρ) c 5))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := (W4_arr m ρ c 6).trans (((dat2 (V3 m ρ) c).arrAt_in 6 rfl _).trans (A_eq2 (V3 m ρ) c 6))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := (W4_arr m ρ c 7).trans (((dat2 (V3 m ρ) c).arrAt_in 7 rfl _).trans (A_eq2 (V3 m ρ) c 7))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m ρ c) ∗ ∃ r, prngReg c r)

/-! ## The calls as segments -/

-- `iapply` of a library lemma stated over the pinned configuration unifies only when unification may unfold plain
-- definitions in a metavariable's type
set_option backward.isDefEq.respectTransparency.types false in
/-- Call 0 over the thread state: entered from every unscoped buffer at `W1`, left at `W2`. Its arrays are split
    out of the unscoped buffers and put back at the exit contents; the generator register goes into the call's
    invariant and comes back; nothing is owed; the call has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from phi0_zero (V1 m ρ) c]; unfold Pipeline.ΦA
    iintro ⟨Hp, -, Hr⟩
    isplitl [Hr]; · iexact Hr
    iexact Hp
  hout c := by
    rw [Pipeline.ownSems0_none]
    refine (Entails.of_eq (phi0_last (V1 m ρ) c)).trans ((keeps0_close c _).trans ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 1 over the thread state: entered from every unscoped buffer at `W2`, left at `W3`. Its arrays are split
    out of the unscoped buffers and put back at the exit contents; the generator register goes into the call's
    invariant and comes back; nothing is owed; the call has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from phi1_zero (V2 m ρ) c]; unfold Pipeline.ΦA
    iintro ⟨Hp, -, Hr⟩
    isplitl [Hr]; · iexact Hr
    iexact Hp
  hout c := by
    rw [Pipeline.ownSems0_none]
    refine (Entails.of_eq (phi1_last (V2 m ρ) c)).trans ((keeps1_close c _).trans ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 2 over the thread state: entered from every unscoped buffer at `W3`, left at `W4`. Its arrays are split
    out of the unscoped buffers and put back at the exit contents; the generator register goes into the call's
    invariant and comes back; nothing is owed; the call has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .region (reg2 m ρ),
    .host (hseg hostOps3 hostOps3_sub ops3_fresh (W4 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters every weakly fair execution of the program terminates, nothing faulting, and
    every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c)⟩) (run_all m ρ)

end Cert.Kernel.Hand

end
-- ==== Proof.KernelIdeal.Conv1.lean ====
/-
  The first call: both convolutions of the input as matrix products, one 256-lane column tile per grid point.

  At a point the body is handed the whole input (1024 rows of 1024 lanes), the tile's columns of the stacked
  three-tap weight matrix (3072 x 256) and of the 1x1 weight matrix (1024 x 256). At a point whose second
  coordinate is 0 it first builds, in a scratch buffer that outlives the point, the 1024 x 3072 left operand: the
  rows above, the rows themselves and the rows below, side by side, the rows across an image's top or bottom edge
  zeroed. At every point it multiplies that operand by the weight tile, multiplies the input by the 1x1 tile, stores
  the two products' tiles, and stores the four column statistics of the point (column sums and column sums of
  squares of both products).

  Since the input block is the same whole array at all four points, the scratch holds the same operand from the
  first point on; that is the invariant the call keeps between points.
-/
import proofs.«151177_g2000001997577596_pallasbulk_1280_5_alg».proof.Proof.Gen.KernelIdeal.Skeleton
import proofs.«151177_g2000001997577596_pallasbulk_1280_5_alg».proof.Proof.Gen.KernelIdeal.Launch
import proofs.«151177_g2000001997577596_pallasbulk_1280_5_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The input's block index is (0, 0) at every point: the block is the whole array. -/
theorem idx0_0 : ∀ t : Fin cfg0.N, ∀ a : Fin 2, win0_0.index t a = 0 :=
  (by decide +kernel : ∀ t : Fin grid0.N, ∀ a : Fin 2, win0_0.index t a = 0)

/-! ## The rectangles the body reads and writes -/

abbrev rX0 : Rect S1024x1024 := Rect.unit (s := S1024x1024) ![0, 0] S1024x1024.size inb_S1024x1024_S1024x1024_0_0
abbrev rT0 : Rect S3072x256 := Rect.unit (s := S3072x256) ![0, 0] S3072x256.size inb_S3072x256_S3072x256_0_0
abbrev rB0 : Rect S1024x256 := Rect.unit (s := S1024x256) ![0, 0] S1024x256.size inb_S1024x256_S1024x256_0_0
abbrev rQ0 : Rect S1x1x4x256 := Rect.unit (s := S1x1x4x256) ![0, 0, 0, 0] S1x1x4x256.size inb_S1x1x4x256_S1x1x4x256_0_0_0_0
abbrev rL0 : Rect S1024x3072 := Rect.unit (s := S1024x3072) ![0, 0] S1024x3072.size inb_S1024x3072_S1024x3072_0_0

/-! ## What the body leaves -/

/-- The left operand of the 3x3 convolution's product: rows above, rows, rows below of the input, side by side. -/
def lhs0 (x : Vec F S1024x1024 .bf16) : FVec F S1024x3072 .bf16 := k0_pay1 (View.ld x rX0)

/-- The scratch buffer once the operand is stored in it. -/
def scr0 (x : Vec F S1024x1024 .bf16) : Vec F S1024x3072 .bf16 := View.canon [⟨rL0, lhs0 x⟩]

/-- The three output tiles after the body, from the operand `l` it multiplies with and the input blocks. -/
def out0_3 (l : Vec F S1024x3072 .bf16) (t1 : Vec F S3072x256 .bf16) : Vec F S1024x256 .bf16 :=
  View.canon [⟨rB0, k0_pay4 l (View.ld t1 rT0)⟩]
def out0_4 (x : Vec F S1024x1024 .bf16) (tid : Vec F S1024x256 .bf16) : Vec F S1024x256 .bf16 :=
  View.canon [⟨rB0, k0_pay5 (View.ld x rX0) (View.ld tid rB0)⟩]
def out0_5 (l : Vec F S1024x3072 .bf16) (t1 : Vec F S3072x256 .bf16) (x : Vec F S1024x1024 .bf16) (tid : Vec F S1024x256 .bf16) : Vec F S1x1x4x256 .f32 :=
  View.canon [⟨rQ0, k0_pay6 l (View.ld t1 rT0) (View.ld x rX0) (View.ld tid rB0)⟩]

theorem coverB0 (p0 : Vec F S1024x256 .bf16) (y : S1024x256.Idx) :
    ∃ pc ∈ ([⟨rB0, p0⟩] : List (View.Piece (Elt F) S1024x256 .bf16)), y ∈ pc.1.set :=
  View.cover_of_tiled [⟨rB0, p0⟩] S1024x256.size (by rfl) y
theorem coverQ0 (p0 : Vec F S1x1x4x256 .f32) (y : S1x1x4x256.Idx) :
    ∃ pc ∈ ([⟨rQ0, p0⟩] : List (View.Piece (Elt F) S1x1x4x256 .f32)), y ∈ pc.1.set :=
  View.cover_of_tiled [⟨rQ0, p0⟩] S1x1x4x256.size (by rfl) y
theorem coverL0 (p0 : Vec F S1024x3072 .bf16) (y : S1024x3072.Idx) :
    ∃ pc ∈ ([⟨rL0, p0⟩] : List (View.Piece (Elt F) S1024x3072 .bf16)), y ∈ pc.1.set :=
  View.cover_of_tiled [⟨rL0, p0⟩] S1024x3072.size (by rfl) y

/-- Reading the scratch back through the whole rectangle gives the operand stored in it. -/
theorem zero2_0 : (![0, 0] : Fin 2 → Nat) = fun _ => 0 := by
  funext a; match a with | ⟨0, _⟩ => rfl | ⟨1, _⟩ => rfl

theorem ld_scr0 (x : Vec F S1024x1024 .bf16) :
    View.ld (scr0 x) rL0 = lhs0 x := by
  unfold scr0
  rw [View.canon_unit_zero (S := S1024x3072) zero2_0, View.ld_unit_zero (S := S1024x3072) zero2_0]

/-! ## The body's two runs -/

/-- The branch condition, as printed: the point's second coordinate is 0. -/
abbrev first0 (i : grid0.Coords) : Prop :=
  Scalar.cmpi .ne (Scalar.extui (Scalar.cmpi .eq (BitVec.ofNat 32 (i 1).val) 0#32)) 0#32 = 1#1

/-- Over the grid the condition holds exactly at the even points. -/
theorem first0_iff : ∀ t : Fin cfg0.N, first0 (grid0.coords t) ↔ t.val % 2 = 0 :=
  (by decide +kernel : ∀ t : Fin grid0.N, first0 (grid0.coords t) ↔ t.val % 2 = 0)

set_option maxHeartbeats 1000000 in
/-- At a point that builds the operand: from the inputs at given contents and everything else at anything, the body
    leaves the scratch at the operand of the input and the outputs at the products with it. -/
theorem sound_kernel0A (c : Dev nD) (E : Set ℕ) (i : grid0.Coords) (hc : first0 i) (arg2 : Memref sig .tc .vmem S1024x1024 .bf16) (harg2 : arg2.IsWhole) (arg3 : Memref sig .tc .vmem S3072x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1x1x4x256 .f32) (harg7 : arg7.IsWhole) (arg8 : Memref sig .tc .vmem S1024x3072 .bf16) (harg8 : arg8.IsWhole)
    (x0 : Vec F S1024x1024 .bf16) (x1 : Vec F S3072x256 .bf16) (x2 : Vec F S1024x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 (lhs0 x0) x1) ∗ owns (c : Thread nD τ) arg6 fullShare (out0_4 x0 x2) ∗ owns (c : Thread nD τ) arg7 fullShare (out0_5 (lhs0 x0) x1 x0 x2)
            ∗ owns (c : Thread nD τ) arg8 fullShare (scr0 x0)) -∗ K ⟨⟩))
      ⊢ wp frame (wpE (defs₀ (F := F)) Variants.none c none) E (cc0__k1 i arg2 harg2 arg3 harg3 arg4 harg4 arg5 harg5 arg6 harg6 arg7 harg7 arg8 harg8) K := by
  simp only [cc0__k1_eq_skeleton]; unfold cc0__k1_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    sl_unfold_words
    rw [View.readCov_cons_toLoadRect]
    exact View.read_writes_eq_canon _ _ _ (coverB0 _)
  isplitl [H4]
  · iexists _; isplitr
    swap; · iexact H4
    ipureintro
    try dsimp only
    exact View.read_writes_eq_canon _ _ _ (coverB0 _)
  isplitl [H5]
  · iexists _; isplitr
    swap; · iexact H5
    ipureintro
    try dsimp only
    sl_unfold_words
    rw [View.readCov_cons_toLoadRect]
    exact View.read_writes_eq_canon _ _ _ (coverQ0 _)
  iexists _; isplitr
  swap; · iexact H6
  ipureintro
  try dsimp only
  sl_unfold_words
  exact View.read_writes_eq_canon _ _ _ (coverL0 _)

set_option maxHeartbeats 1000000 in
/-- At a point that reuses the operand: the scratch, at given contents `s`, is left as it was and the outputs are the
    products with what is read back from it. -/
theorem sound_kernel0B (c : Dev nD) (E : Set ℕ) (i : grid0.Coords) (hc : ¬ first0 i) (arg2 : Memref sig .tc .vmem S1024x1024 .bf16) (harg2 : arg2.IsWhole) (arg3 : Memref sig .tc .vmem S3072x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1x1x4x256 .f32) (harg7 : arg7.IsWhole) (arg8 : Memref sig .tc .vmem S1024x3072 .bf16) (harg8 : arg8.IsWhole)
    (x0 : Vec F S1024x1024 .bf16) (x1 : Vec F S3072x256 .bf16) (x2 : Vec F S1024x256 .bf16) (s : Vec F S1024x3072 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare (out0_3 (View.ld s rL0) x1) ∗ owns (c : Thread nD τ) arg6 fullShare (out0_4 x0 x2) ∗ owns (c : Thread nD τ) arg7 fullShare (out0_5 (View.ld s rL0) x1 x0 x2)
            ∗ owns (c : Thread nD τ) arg8 fullShare s) -∗ K ⟨⟩))
      ⊢ wp frame (wpE (defs₀ (F := F)) Variants.none c none) E (cc0__k1 i arg2 harg2 arg3 harg3 arg4 harg4 arg5 harg5 arg6 harg6 arg7 harg7 arg8 harg8) K := by
  simp only [cc0__k1_eq_skeleton]; unfold cc0__k1_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
  subst hf0 hf1 hf2 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverB0 _)
  isplitl [H4]
  · iexists _; isplitr
    swap; · iexact H4
    ipureintro
    try dsimp only
    exact View.read_writes_eq_canon _ _ _ (coverB0 _)
  isplitl [H5]
  · iexists _; isplitr
    swap; · iexact H5
    ipureintro
    try dsimp only
    exact View.read_writes_eq_canon _ _ _ (coverQ0 _)
  iexists f6; isplitr; · ipureintro; rfl
  iexact H6

end Cert.KernelIdeal.Hand

end
-- ==== Proof.KernelIdeal.Conv1Data.lean ====
/-
  The first call over its four grid points: what each window's buffer holds after the body at each point, what the
  call keeps between points (the scratch at the three-tap operand of the input, from the first point on), and the
  body's run at every point from the pipeline's account of the buffers.
-/
import proofs.«151177_g2000001997577596_pallasbulk_1280_5_alg».proof.Proof.KernelIdeal.Conv1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the operand is built from are the same at every point -/

/-- So window 0's block at any point is its block at the first point. -/
theorem iblk0_0_const (c : Dev nD) (t : Fin cfg0.N) :
    (iblk0 V c 0 t : S1024x1024.Idx → Elt F .bf16) = iblk0 V c 0 t0_0 := by
  funext y
  unfold iblk0
  rw [View.read_apply, View.read_apply]
  refine congrArg (V c (Pipeline.arrRef spec0 0)) ?_
  funext a
  apply Fin.ext
  show win0_0.index t a * _ + 1 * (y a).val = win0_0.index t0_0 a * _ + 1 * (y a).val
  rw [idx0_0 t a, idx0_0 t0_0 a]

/-- The operand built at any point is the one built at the first point. -/
theorem lhs0_const (c : Dev nD) (t : Fin cfg0.N) : (lhs0 (iblk0 V c 0 t)) = (lhs0 (iblk0 V c 0 t0_0)) := by
  rw [iblk0_0_const V c t]

/-! ## What the call keeps between points -/

/-- Once the operand is built: the scratch at the stored operand, every other scoped buffer that is no staging buffer
    of the call at some contents, the generator register at some state. -/
def keeps0 (c : Dev nD) (s : Vec F S1024x3072 .bf16) : sProp 𝕄 :=
  iprop(owns (c : Thread nD τ) (Memref.whole cc0_scratch0) fullShare s
    ∗ Pipeline.scopedRestBut (Ix := Unit) (Name := ℕ) (U := UR sig nD τ) (Lvl := ℕ) (Val := Elt F) spec0 c [cc0_scratch0]
    ∗ ∃ r, prngReg c r)

/-- Before the first point the scratch holds nothing in particular: the class's invariant opened at the scratch. -/
theorem phiA0_open (c : Dev nD) :
    (Pipeline.ΦA (U := UR sig nD τ) (Val := Elt F) spec0 c : sProp 𝕄)
      ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  unfold Pipeline.ΦA
  rw [scopedRest0_split]
  iintro ⟨⟨⟨%f, Hs⟩, Hrest⟩, Hp⟩
  isplitl [Hs]
  · iexists f; rw [owns_whole_eq]; iexists f; isplitr; · ipureintro; rfl
    iexact Hs
  isplitl [Hrest]; · iexact Hrest
  iexact Hp

/-- What is kept gives the class's invariant back: the scratch at some contents again. -/
theorem keeps0_close (c : Dev nD) (s : Vec F S1024x3072 .bf16) :
    keeps0 c s ⊢ (Pipeline.ΦA (U := UR sig nD τ) (Val := Elt F) spec0 c : sProp 𝕄) := by
  unfold keeps0 Pipeline.ΦA
  rw [scopedRest0_split, owns_whole_eq]
  iintro ⟨⟨%f, -, Hs⟩, Hrest, Hp⟩
  isplitl [Hs Hrest]
  · isplitl [Hs]; · iexists f; iexact Hs
    iexact Hrest
  iexact Hp

/-- What is kept, with the scratch's contents forgotten. -/
theorem keeps0_forget (c : Dev nD) (s : Vec F S1024x3072 .bf16) :
    keeps0 c s ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  unfold keeps0
  iintro ⟨Hs, Hrest, Hp⟩
  isplitl [Hs]; · iexists s; iexact Hs
  isplitl [Hrest]; · iexact Hrest
  iexact Hp

/-! ## The proof data of the call -/

/-- After the body at point `t` each input's buffer holds its block and each output's the product tiles and statistics
    of the blocks; before the first point the call holds the class's invariant, from then on the scratch at the
    operand; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (lhs0 (iblk0 V c 0 t)) (iblk0 V c 1 t)
    | ⟨4, _⟩ => out0_4 (iblk0 V c 0 t) (iblk0 V c 2 t)
    | ⟨5, _⟩ => out0_5 (lhs0 (iblk0 V c 0 t)) (iblk0 V c 1 t) (iblk0 V c 0 t) (iblk0 V c 2 t)
  Φ n := if n.val = 0 then Pipeline.ΦA spec0 c else keeps0 c (scr0 (iblk0 V c 0 t0_0))
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (lhs0 (iblk0 V c 0 t)) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (lhs0 (iblk0 V c 0 t)) (iblk0 V c 1 t) (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem phi0_zero (c : Dev nD) : (dat0 V c).Φ 0 = Pipeline.ΦA spec0 c := by
  dsimp only [dat0]; exact if_pos (by simp)

theorem phi0_succ (c : Dev nD) (t : Fin cfg0.N) : (dat0 V c).Φ t.succ = keeps0 c (scr0 (iblk0 V c 0 t0_0)) := by
  dsimp only [dat0]; rw [if_neg (by simp)]

theorem phi0_last (c : Dev nD) : (dat0 V c).Φ (Fin.last cfg0.N) = keeps0 c (scr0 (iblk0 V c 0 t0_0)) := by
  dsimp only [dat0]
  exact if_neg (by
    rw [Fin.val_last]
    have h : cfg0.N = 4 := N_0
    omega)

/-- At a point after the first, the invariant is what is kept. -/
theorem phi0_castSucc_pos (c : Dev nD) (t : Fin cfg0.N) (ht : t.val ≠ 0) :
    (dat0 V c).Φ t.castSucc = keeps0 c (scr0 (iblk0 V c 0 t0_0)) := by
  dsimp only [dat0]; rw [if_neg (by simpa using ht)]

/-- At any point, the invariant before the body at least holds the scratch at some contents. -/
theorem phi0_castSucc_forget (c : Dev nD) (t : Fin cfg0.N) :
    (dat0 V c).Φ t.castSucc ⊢ iprop((∃ d, owns (c : Thread nD τ) (Memref.whole cc0_scratch0) fullShare d)
        ∗ Pipeline.scopedRestBut (Ix := Unit) (Name := ℕ) (U := UR sig nD τ) (Lvl := ℕ) (Val := Elt F) spec0 c [cc0_scratch0]
        ∗ ∃ r, prngReg c r) := by
  by_cases ht : t.val = 0
  · have e : (dat0 V c).Φ t.castSucc = Pipeline.ΦA spec0 c := by
      dsimp only [dat0]; rw [if_pos (by simpa using ht)]
    rw [e]; exact phiA0_open c
  · rw [phi0_castSucc_pos V c t ht]; exact keeps0_forget c _

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. At an even point it builds the operand, whatever the scratch held; at an odd point the
    scratch holds the operand built at the point before, which is the operand of this point's blocks too. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, phi0_succ,
    after0_0, after0_1, after0_2, after0_3, after0_4, after0_5]
  by_cases hp : t.val % 2 = 0
  · -- the operand is built here
    have hc : first0 (grid0.coords t) := (first0_iff t).mpr hp
    iintro ⟨HΦ, Ho, ⟨%d0, H0⟩, ⟨%d1, H1⟩, ⟨%d2, H2⟩, ⟨%d3, H3⟩, ⟨%d4, H4⟩, ⟨%d5, H5⟩⟩
    ihave HΦ' := (phi0_castSucc_forget V c t) $$ HΦ
    icases HΦ' with ⟨Hs, Hrest, Hp⟩
    iapply (sound_kernel0A c Set.univ (grid0.coords t) hc _ _ _ _ _ _ _ _ _ _ _ _ _ _ (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hs]; · iexact Hs
    iintro ⟨H0, H1, H2, H3, H4, H5, Hs⟩
    isplitl [Hs Hrest Hp]
    · unfold keeps0
      rw [show (scr0 (iblk0 V c 0 t0_0)) = (scr0 (iblk0 V c 0 t)) from by unfold scr0; rw [lhs0_const V c t]]
      isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · -- the operand is reused here
    have hc : ¬ first0 (grid0.coords t) := fun h => hp ((first0_iff t).mp h)
    have ht : t.val ≠ 0 := fun h => hp (by rw [h])
    rw [phi0_castSucc_pos V c t ht]
    have hl : View.ld (scr0 (iblk0 V c 0 t0_0)) rL0 = (lhs0 (iblk0 V c 0 t)) := by
      rw [ld_scr0, lhs0_const V c t]
    iintro ⟨HΦ, Ho, ⟨%d0, H0⟩, ⟨%d1, H1⟩, ⟨%d2, H2⟩, ⟨%d3, H3⟩, ⟨%d4, H4⟩, ⟨%d5, H5⟩⟩
    unfold keeps0
    icases HΦ with ⟨Hs, Hrest, Hp⟩
    iapply (sound_kernel0B c Set.univ (grid0.coords t) hc _ _ _ _ _ _ _ _ _ _ _ _ _ _ (iblk0 V c 0 t) (iblk0 V c 1 t) (iblk0 V c 2 t) (scr0 (iblk0 V c 0 t0_0)) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hs]; · iexact Hs
    rw [hl]
    iintro ⟨H0, H1, H2, H3, H4, H5, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Conv2.lean ====
/-
  The second call: the first batch normalisation and the second convolution, one 256-lane column tile per grid
  point.

  At a point the body is handed the whole first pre-activation (1024 x 1024), the whole array of the first call's
  partial column statistics, the tile's columns of the second stacked weight matrix (3072 x 256) and the two whole
  affine rows. At a point whose second coordinate is 0 it first forms the channel totals (the four partial
  statistics added, then the lanes of one channel added by lane rotations), the channel means and variances (mean
  of squares minus squared mean), normalises and clamps the pre-activation, and stores, in a scratch buffer that
  outlives the point, the three-tap left operand built from it. At every point it multiplies that operand by the
  weight tile and stores the product's tile and its two column statistics.

  The blocks the operand is built from are whole arrays, the same at all four points, so from the first point on the
  scratch holds one operand: the invariant the call keeps between points.
-/
import proofs.«151177_g2000001997577596_pallasbulk_1280_5_alg».proof.Proof.Gen.KernelIdeal.Skeleton
import proofs.«151177_g2000001997577596_pallasbulk_1280_5_alg».proof.Proof.Gen.KernelIdeal.Launch
import proofs.«151177_g2000001997577596_pallasbulk_1280_5_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rX1 : Rect S1024x1024 := Rect.unit (s := S1024x1024) ![0, 0] S1024x1024.size inb_S1024x1024_S1024x1024_0_0
abbrev rT1 : Rect S3072x256 := Rect.unit (s := S3072x256) ![0, 0] S3072x256.size inb_S3072x256_S3072x256_0_0
abbrev rB1 : Rect S1024x256 := Rect.unit (s := S1024x256) ![0, 0] S1024x256.size inb_S1024x256_S1024x256_0_0
abbrev rG1 : Rect S1x1024 := Rect.unit (s := S1x1024) ![0, 0] S1x1024.size inb_S1x1024_S1x1024_0_0
abbrev rP1 : Rect S1x1x2x256 := Rect.unit (s := S1x1x2x256) ![0, 0, 0, 0] S1x1x2x256.size inb_S1x1x2x256_S1x1x2x256_0_0_0_0
abbrev rL1 : Rect S1024x3072 := Rect.unit (s := S1024x3072) ![0, 0] S1024x3072.size inb_S1024x3072_S1024x3072_0_0
abbrev rS1_00 : Rect S2x2x4x256 := Rect.unit (s := S2x2x4x256) ![0, 0, 0, 0] S1x1x4x256.size inb_S2x2x4x256_S1x1x4x256_0_0_0_0
abbrev rS1_01 : Rect S2x2x4x256 := Rect.unit (s := S2x2x4x256) ![0, 1, 0, 0] S1x1x4x256.size inb_S2x2x4x256_S1x1x4x256_0_1_0_0
abbrev rS1_10 : Rect S2x2x4x256 := Rect.unit (s := S2x2x4x256) ![1, 0, 0, 0] S1x1x4x256.size inb_S2x2x4x256_S1x1x4x256_1_0_0_0
abbrev rS1_11 : Rect S2x2x4x256 := Rect.unit (s := S2x2x4x256) ![1, 1, 0, 0] S1x1x4x256.size inb_S2x2x4x256_S1x1x4x256_1_1_0_0

/-! ## What the body leaves -/

/-- The left operand of the second convolution's product: the normalised, clamped first pre-activation with its rows
    above and below, side by side. -/
def lhs1 (z1 : Vec F S1024x1024 .bf16) (s1 : Vec F S2x2x4x256 .f32) (g1 b1 : Vec F S1x1024 .f32) : FVec F S1024x3072 .bf16 :=
  k1_pay1 (k1_pay7 (View.ld s1 rS1_00) (View.ld s1 rS1_01) (View.ld s1 rS1_10) (View.ld s1 rS1_11))
    (k1_pay8 (View.ld s1 rS1_00) (View.ld s1 rS1_01) (View.ld s1 rS1_10) (View.ld s1 rS1_11) (View.ld g1 rG1))
    (k1_pay9 (View.ld z1 rX1)) (View.ld b1 rG1)

/-- The scratch buffer once the operand is stored in it. -/
def scr1 (z1 : Vec F S1024x1024 .bf16) (s1 : Vec F S2x2x4x256 .f32) (g1 b1 : Vec F S1x1024 .f32) : Vec F S1024x3072 .bf16 :=
  View.canon [⟨rL1, lhs1 z1 s1 g1 b1⟩]

/-- The two output tiles after the body, from the operand `l` it multiplies with and the weight tile. -/
def out1_5 (l : Vec F S1024x3072 .bf16) (t2 : Vec F S3072x256 .bf16) : Vec F S1024x256 .bf16 :=
  View.canon [⟨rB1, k1_pay3 l (View.ld t2 rT1)⟩]
def out1_6 (l : Vec F S1024x3072 .bf16) (t2 : Vec F S3072x256 .bf16) : Vec F S1x1x2x256 .f32 :=
  View.canon [⟨rP1, k1_pay4 l (View.ld t2 rT1)⟩]

theorem coverB1 (p0 : Vec F S1024x256 .bf16) (y : S1024x256.Idx) :
    ∃ pc ∈ ([⟨rB1, p0⟩] : List (View.Piece (Elt F) S1024x256 .bf16)), y ∈ pc.1.set :=
  View.cover_of_tiled [⟨rB1, p0⟩] S1024x256.size (by rfl) y
theorem coverP1 (p0 : Vec F S1x1x2x256 .f32) (y : S1x1x2x256.Idx) :
    ∃ pc ∈ ([⟨rP1, p0⟩] : List (View.Piece (Elt F) S1x1x2x256 .f32)), y ∈ pc.1.set :=
  View.cover_of_tiled [⟨rP1, p0⟩] S1x1x2x256.size (by rfl) y
theorem coverL1 (p0 : Vec F S1024x3072 .bf16) (y : S1024x3072.Idx) :
    ∃ pc ∈ ([⟨rL1, p0⟩] : List (View.Piece (Elt F) S1024x3072 .bf16)), y ∈ pc.1.set :=
  View.cover_of_tiled [⟨rL1, p0⟩] S1024x3072.size (by rfl) y

/-- Reading the scratch back through the whole rectangle gives the operand stored in it. -/
theorem zero2_1 : (![0, 0] : Fin 2 → Nat) = fun _ => 0 := by
  funext a; match a with | ⟨0, _⟩ => rfl | ⟨1, _⟩ => rfl

theorem ld_scr1 (z1 : Vec F S1024x1024 .bf16) (s1 : Vec F S2x2x4x256 .f32) (g1 b1 : Vec F S1x1024 .f32) :
    View.ld (scr1 z1 s1 g1 b1) rL1 = lhs1 z1 s1 g1 b1 := by
  unfold scr1
  rw [View.canon_unit_zero (S := S1024x3072) zero2_1, View.ld_unit_zero (S := S1024x3072) zero2_1]

/-! ## The body's two runs -/

/-- The branch condition, as printed: the point's second coordinate is 0. -/
abbrev first1 (i : grid1.Coords) : Prop :=
  Scalar.cmpi .ne (Scalar.extui (Scalar.cmpi .eq (BitVec.ofNat 32 (i 1).val) 0#32)) 0#32 = 1#1

/-- Over the grid the condition holds exactly at the even points. -/
theorem first1_iff : ∀ t : Fin cfg1.N, first1 (grid1.coords t) ↔ t.val % 2 = 0 :=
  (by decide +kernel : ∀ t : Fin grid1.N, first1 (grid1.coords t) ↔ t.val % 2 = 0)

set_option maxHeartbeats 1000000 in
/-- At a point that builds the operand: the scratch is left at the operand of the inputs and the outputs at the
    products with it. -/
theorem sound_kernel1A (c : Dev nD) (E : Set ℕ) (i : grid1.Coords) (hc : first1 i) (arg2 : Memref sig .tc .vmem S1024x1024 .bf16) (harg2 : arg2.IsWhole) (arg3 : Memref sig .tc .vmem S2x2x4x256 .f32) (harg3 : arg3.IsWhole) (arg4 : Memref sig .tc .vmem S3072x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .bf16) (harg7 : arg7.IsWhole) (arg8 : Memref sig .tc .vmem S1x1x2x256 .f32) (harg8 : arg8.IsWhole) (arg9 : Memref sig .tc .vmem S1024x3072 .bf16) (harg9 : arg9.IsWhole)
    (x0 : Vec F S1024x1024 .bf16) (x1 : Vec F S2x2x4x256 .f32) (x2 : Vec F S3072x256 .bf16) (x3 x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (lhs1 x0 x1 x3 x4) x2) ∗ owns (c : Thread nD τ) arg8 fullShare (out1_6 (lhs1 x0 x1 x3 x4) x2)
            ∗ owns (c : Thread nD τ) arg9 fullShare (scr1 x0 x1 x3 x4)) -∗ K ⟨⟩))
      ⊢ wp frame (wpE (defs₀ (F := F)) Variants.none c none) E (cc1__k2 i arg2 harg2 arg3 harg3 arg4 harg4 arg5 harg5 arg6 harg6 arg7 harg7 arg8 harg8 arg9 harg9) K := by
  simp only [cc1__k2_eq_skeleton]; unfold cc1__k2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    sl_unfold_words
    rw [View.readCov_cons_toLoadRect]
    exact View.read_writes_eq_canon _ _ _ (coverB1 _)
  isplitl [H6]
  · iexists _; isplitr
    swap; · iexact H6
    ipureintro
    try dsimp only
    sl_unfold_words
    rw [View.readCov_cons_toLoadRect]
    exact View.read_writes_eq_canon _ _ _ (coverP1 _)
  iexists _; isplitr
  swap; · iexact H7
  ipureintro
  try dsimp only
  sl_unfold_words
  exact View.read_writes_eq_canon _ _ _ (coverL1 _)

set_option maxHeartbeats 1000000 in
/-- At a point that reuses the operand: the scratch, at given contents `s`, is left as it was and the outputs are the
    products with what is read back from it. -/
theorem sound_kernel1B (c : Dev nD) (E : Set ℕ) (i : grid1.Coords) (hc : ¬ first1 i) (arg2 : Memref sig .tc .vmem S1024x1024 .bf16) (harg2 : arg2.IsWhole) (arg3 : Memref sig .tc .vmem S2x2x4x256 .f32) (harg3 : arg3.IsWhole) (arg4 : Memref sig .tc .vmem S3072x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x256 .bf16) (harg7 : arg7.IsWhole) (arg8 : Memref sig .tc .vmem S1x1x2x256 .f32) (harg8 : arg8.IsWhole) (arg9 : Memref sig .tc .vmem S1024x3072 .bf16) (harg9 : arg9.IsWhole)
    (x0 : Vec F S1024x1024 .bf16) (x1 : Vec F S2x2x4x256 .f32) (x2 : Vec F S3072x256 .bf16) (x3 x4 : Vec F S1x1024 .f32) (s : Vec F S1024x3072 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (View.ld s rL1) x2) ∗ owns (c : Thread nD τ) arg8 fullShare (out1_6 (View.ld s rL1) x2)
            ∗ owns (c : Thread nD τ) arg9 fullShare s) -∗ K ⟨⟩))
      ⊢ wp frame (wpE (defs₀ (F := F)) Variants.none c none) E (cc1__k2 i arg2 harg2 arg3 harg3 arg4 harg4 arg5 harg5 arg6 harg6 arg7 harg7 arg8 harg8 arg9 harg9) K := by
  simp only [cc1__k2_eq_skeleton]; unfold cc1__k2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverB1 _)
  isplitl [H6]
  · iexists _; isplitr
    swap; · iexact H6
    ipureintro
    try dsimp only
    exact View.read_writes_eq_canon _ _ _ (coverP1 _)
  iexists f7; isplitr; · ipureintro; rfl
  iexact H7

end Cert.KernelIdeal.Hand

end
-- ==== Proof.KernelIdeal.Conv2Data.lean ====
/-
  The second call over its four grid points: what each window's buffer holds after the body at each point, what the
  call keeps between points (the scratch at the three-tap operand of the normalised first pre-activation, from the
  first point on), and the body's run at every point from the pipeline's account of the buffers.
-/
import proofs.«151177_g2000001997577596_pallasbulk_1280_5_alg».proof.Proof.KernelIdeal.Conv2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the operand is built from are the same at every point -/

/-- Window 0's block index is zero on every axis at every point: the block is the whole array. -/
theorem idx1_0 : ∀ t : Fin cfg1.N, ∀ a : Fin 2, win1_0.index t a = 0 :=
  (by decide +kernel : ∀ t : Fin grid1.N, ∀ a : Fin 2, win1_0.index t a = 0)

/-- So window 0's block at any point is its block at the first point. -/
theorem iblk1_0_const (c : Dev nD) (t : Fin cfg1.N) :
    (iblk1 V c 0 t : S1024x1024.Idx → Elt F .bf16) = iblk1 V c 0 t1_0 := by
  funext y
  unfold iblk1
  rw [View.read_apply, View.read_apply]
  refine congrArg (V c (Pipeline.arrRef spec1 0)) ?_
  funext a
  apply Fin.ext
  show win1_0.index t a * _ + 1 * (y a).val = win1_0.index t1_0 a * _ + 1 * (y a).val
  rw [idx1_0 t a, idx1_0 t1_0 a]

/-- Window 1's block index is zero on every axis at every point: the block is the whole array. -/
theorem idx1_1 : ∀ t : Fin cfg1.N, ∀ a : Fin 4, win1_1.index t a = 0 :=
  (by decide +kernel : ∀ t : Fin grid1.N, ∀ a : Fin 4, win1_1.index t a = 0)

/-- So window 1's block at any point is its block at the first point. -/
theorem iblk1_1_const (c : Dev nD) (t : Fin cfg1.N) :
    (iblk1 V c 1 t : S2x2x4x256.Idx → Elt F .f32) = iblk1 V c 1 t1_0 := by
  funext y
  unfold iblk1
  rw [View.read_apply, View.read_apply]
  refine congrArg (V c (Pipeline.arrRef spec1 1)) ?_
  funext a
  apply Fin.ext
  show win1_1.index t a * _ + 1 * (y a).val = win1_1.index t1_0 a * _ + 1 * (y a).val
  rw [idx1_1 t a, idx1_1 t1_0 a]

/-- Window 3's block index is zero on every axis at every point: the block is the whole array. -/
theorem idx1_3 : ∀ t : Fin cfg1.N, ∀ a : Fin 2, win1_3.index t a = 0 :=
  (by decide +kernel : ∀ t : Fin grid1.N, ∀ a : Fin 2, win1_3.index t a = 0)

/-- So window 3's block at any point is its block at the first point. -/
theorem iblk1_3_const (c : Dev nD) (t : Fin cfg1.N) :
    (iblk1 V c 3 t : S1x1024.Idx → Elt F .f32) = iblk1 V c 3 t1_0 := by
  funext y
  unfold iblk1
  rw [View.read_apply, View.read_apply]
  refine congrArg (V c (Pipeline.arrRef spec1 3)) ?_
  funext a
  apply Fin.ext
  show win1_3.index t a * _ + 1 * (y a).val = win1_3.index t1_0 a * _ + 1 * (y a).val
  rw [idx1_3 t a, idx1_3 t1_0 a]

/-- Window 4's block index is zero on every axis at every point: the block is the whole array. -/
theorem idx1_4 : ∀ t : Fin cfg1.N, ∀ a : Fin 2, win1_4.index t a = 0 :=
  (by decide +kernel : ∀ t : Fin grid1.N, ∀ a : Fin 2, win1_4.index t a = 0)

/-- So window 4's block at any point is its block at the first point. -/
theorem iblk1_4_const (c : Dev nD) (t : Fin cfg1.N) :
    (iblk1 V c 4 t : S1x1024.Idx → Elt F .f32) = iblk1 V c 4 t1_0 := by
  funext y
  unfold iblk1
  rw [View.read_apply, View.read_apply]
  refine congrArg (V c (Pipeline.arrRef spec1 4)) ?_
  funext a
  apply Fin.ext
  show win1_4.index t a * _ + 1 * (y a).val = win1_4.index t1_0 a * _ + 1 * (y a).val
  rw [idx1_4 t a, idx1_4 t1_0 a]

/-- The operand built at any point is the one built at the first point. -/
theorem lhs1_const (c : Dev nD) (t : Fin cfg1.N) : (lhs1 (iblk1 V c 0 t) (iblk1 V c 1 t) (iblk1 V c 3 t) (iblk1 V c 4 t)) = (lhs1 (iblk1 V c 0 t1_0) (iblk1 V c 1 t1_0) (iblk1 V c 3 t1_0) (iblk1 V c 4 t1_0)) := by
  rw [iblk1_0_const V c t, iblk1_1_const V c t, iblk1_3_const V c t, iblk1_4_const V c t]

/-! ## What the call keeps between points -/

/-- Once the operand is built: the scratch at the stored operand, every other scoped buffer that is no staging buffer
    of the call at some contents, the generator register at some state. -/
def keeps1 (c : Dev nD) (s : Vec F S1024x3072 .bf16) : sProp 𝕄 :=
  iprop(owns (c : Thread nD τ) (Memref.whole cc1_scratch0) fullShare s
    ∗ Pipeline.scopedRestBut (Ix := Unit) (Name := ℕ) (U := UR sig nD τ) (Lvl := ℕ) (Val := Elt F) spec1 c [cc1_scratch0]
    ∗ ∃ r, prngReg c r)

/-- Before the first point the scratch holds nothing in particular: the class's invariant opened at the scratch. -/
theorem phiA1_open (c : Dev nD) :
    (Pipeline.ΦA (U := UR sig nD τ) (Val := Elt F) spec1 c : sProp 𝕄)
      ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  unfold Pipeline.ΦA
  rw [scopedRest1_split]
  iintro ⟨⟨⟨%f, Hs⟩, Hrest⟩, Hp⟩
  isplitl [Hs]
  · iexists f; rw [owns_whole_eq]; iexists f; isplitr; · ipureintro; rfl
    iexact Hs
  isplitl [Hrest]; · iexact Hrest
  iexact Hp

/-- What is kept gives the class's invariant back: the scratch at some contents again. -/
theorem keeps1_close (c : Dev nD) (s : Vec F S1024x3072 .bf16) :
    keeps1 c s ⊢ (Pipeline.ΦA (U := UR sig nD τ) (Val := Elt F) spec1 c : sProp 𝕄) := by
  unfold keeps1 Pipeline.ΦA
  rw [scopedRest1_split, owns_whole_eq]
  iintro ⟨⟨%f, -, Hs⟩, Hrest, Hp⟩
  isplitl [Hs Hrest]
  · isplitl [Hs]; · iexists f; iexact Hs
    iexact Hrest
  iexact Hp

/-- What is kept, with the scratch's contents forgotten. -/
theorem keeps1_forget (c : Dev nD) (s : Vec F S1024x3072 .bf16) :
    keeps1 c s ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  unfold keeps1
  iintro ⟨Hs, Hrest, Hp⟩
  isplitl [Hs]; · iexists s; iexact Hs
  isplitl [Hrest]; · iexact Hrest
  iexact Hp

/-! ## The proof data of the call -/

/-- After the body at point `t` each input's buffer holds its block and each output's the product tiles and statistics
    of the blocks; before the first point the call holds the class's invariant, from then on the scratch at the
    operand; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (lhs1 (iblk1 V c 0 t) (iblk1 V c 1 t) (iblk1 V c 3 t) (iblk1 V c 4 t)) (iblk1 V c 2 t)
    | ⟨6, _⟩ => out1_6 (lhs1 (iblk1 V c 0 t) (iblk1 V c 1 t) (iblk1 V c 3 t) (iblk1 V c 4 t)) (iblk1 V c 2 t)
  Φ n := if n.val = 0 then Pipeline.ΦA spec1 c else keeps1 c (scr1 (iblk1 V c 0 t1_0) (iblk1 V c 1 t1_0) (iblk1 V c 3 t1_0) (iblk1 V c 4 t1_0))
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (lhs1 (iblk1 V c 0 t) (iblk1 V c 1 t) (iblk1 V c 3 t) (iblk1 V c 4 t)) (iblk1 V c 2 t) := by dsimp only [dat1]
theorem after1_6 (c : Dev nD) (t : Fin cfg1.N) : (dat1 V c).after 6 t = out1_6 (lhs1 (iblk1 V c 0 t) (iblk1 V c 1 t) (iblk1 V c 3 t) (iblk1 V c 4 t)) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem phi1_zero (c : Dev nD) : (dat1 V c).Φ 0 = Pipeline.ΦA spec1 c := by
  dsimp only [dat1]; exact if_pos (by simp)

theorem phi1_succ (c : Dev nD) (t : Fin cfg1.N) : (dat1 V c).Φ t.succ = keeps1 c (scr1 (iblk1 V c 0 t1_0) (iblk1 V c 1 t1_0) (iblk1 V c 3 t1_0) (iblk1 V c 4 t1_0)) := by
  dsimp only [dat1]; rw [if_neg (by simp)]

theorem phi1_last (c : Dev nD) : (dat1 V c).Φ (Fin.last cfg1.N) = keeps1 c (scr1 (iblk1 V c 0 t1_0) (iblk1 V c 1 t1_0) (iblk1 V c 3 t1_0) (iblk1 V c 4 t1_0)) := by
  dsimp only [dat1]
  exact if_neg (by
    rw [Fin.val_last]
    have h : cfg1.N = 4 := N_1
    omega)

/-- At a point after the first, the invariant is what is kept. -/
theorem phi1_castSucc_pos (c : Dev nD) (t : Fin cfg1.N) (ht : t.val ≠ 0) :
    (dat1 V c).Φ t.castSucc = keeps1 c (scr1 (iblk1 V c 0 t1_0) (iblk1 V c 1 t1_0) (iblk1 V c 3 t1_0) (iblk1 V c 4 t1_0)) := by
  dsimp only [dat1]; rw [if_neg (by simpa using ht)]

/-- At any point, the invariant before the body at least holds the scratch at some contents. -/
theorem phi1_castSucc_forget (c : Dev nD) (t : Fin cfg1.N) :
    (dat1 V c).Φ t.castSucc ⊢ iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]
        ∗ ∃ r, prngReg c r) := by
  by_cases ht : t.val = 0
  · have e : (dat1 V c).Φ t.castSucc = Pipeline.ΦA spec1 c := by
      dsimp only [dat1]; rw [if_pos (by simpa using ht)]
    rw [e]; exact phiA1_open c
  · rw [phi1_castSucc_pos V c t ht]; exact keeps1_forget c _

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. At an even point it builds the operand, whatever the scratch held; at an odd point the
    scratch holds the operand built at the point before, which is the operand of this point's blocks too. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, phi1_succ,
    after1_0, after1_1, after1_2, after1_3, after1_4, after1_5, after1_6]
  by_cases hp : t.val % 2 = 0
  · -- the operand is built here
    have hc : first1 (grid1.coords t) := (first1_iff t).mpr hp
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (phi1_castSucc_forget V c t) $$ HΦ
    icases HΦ' with ⟨Hs, Hrest, Hp⟩
    iapply (sound_kernel1A c Set.univ (grid1.coords t) hc _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hrest Hp]
    · unfold keeps1
      rw [show (scr1 (iblk1 V c 0 t1_0) (iblk1 V c 1 t1_0) (iblk1 V c 3 t1_0) (iblk1 V c 4 t1_0)) = (scr1 (iblk1 V c 0 t) (iblk1 V c 1 t) (iblk1 V c 3 t) (iblk1 V c 4 t)) from by unfold scr1; rw [lhs1_const V c t]]
      isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · -- the operand is reused here
    have hc : ¬ first1 (grid1.coords t) := fun h => hp ((first1_iff t).mp h)
    have ht : t.val ≠ 0 := fun h => hp (by rw [h])
    rw [phi1_castSucc_pos V c t ht]
    have hl : View.ld (scr1 (iblk1 V c 0 t1_0) (iblk1 V c 1 t1_0) (iblk1 V c 3 t1_0) (iblk1 V c 4 t1_0)) rL1 = (lhs1 (iblk1 V c 0 t) (iblk1 V c 1 t) (iblk1 V c 3 t) (iblk1 V c 4 t)) := by
      rw [ld_scr1, lhs1_const V c t]
    iintro ⟨HΦ, Ho, ⟨%d0, H0⟩, ⟨%d1, H1⟩, ⟨%d2, H2⟩, ⟨%d3, H3⟩, ⟨%d4, H4⟩, ⟨%d5, H5⟩, ⟨%d6, H6⟩⟩
    unfold keeps1
    icases HΦ with ⟨Hs, Hrest, Hp⟩
    iapply (sound_kernel1B c Set.univ (grid1.coords t) hc _ _ _ _ _ _ _ _ _ _ _ _ _ _ _ _ (iblk1 V c 0 t) (iblk1 V c 1 t) (iblk1 V c 2 t) (iblk1 V c 3 t) (iblk1 V c 4 t) (scr1 (iblk1 V c 0 t1_0) (iblk1 V c 1 t1_0) (iblk1 V c 3 t1_0) (iblk1 V c 4 t1_0)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    rw [hl]
    iintro ⟨H0, H1, H2, H3, H4, H5, H6, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Final.lean ====
/-
  The third call: the last normalisation. At a grid point the body reads one 256-lane column tile of the second
  convolution's pre-activation and of the 1x1 branch's pre-activation, the two whole arrays of partial column
  statistics, and the tile's four affine rows; it forms the channel totals (the four partial statistics added, then
  the lanes of one channel added by lane rotations), the means and variances (mean of squares minus squared mean),
  normalises both tiles, adds them and clamps at zero, and stores the tile of the result. It keeps nothing between
  grid points, so the only fact the pipeline needs is what the output tile's buffer holds after the body, as a
  function of the input blocks.
-/
import proofs.«151177_g2000001997577596_pallasbulk_1280_5_alg».proof.Proof.Gen.KernelIdeal.Skeleton
import proofs.«151177_g2000001997577596_pallasbulk_1280_5_alg».proof.Proof.Gen.KernelIdeal.Launch
import proofs.«151177_g2000001997577596_pallasbulk_1280_5_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body is handed -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether it was fetched there or at an earlier point
    with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point, whether it was fetched there or at an earlier point
    with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block at every point, whether it was fetched there or at an earlier point
    with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block at every point, whether it was fetched there or at an earlier point
    with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block at every point, whether it was fetched there or at an earlier point
    with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block at every point, whether it was fetched there or at an earlier point
    with the same block index. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's buffer holds its block at every point, whether it was fetched there or at an earlier point
    with the same block index. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's buffer holds its block at every point, whether it was fetched there or at an earlier point
    with the same block index. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

/-- A whole column tile. -/
abbrev rB2 : Rect S1024x256 := Rect.unit (s := S1024x256) ![0, 0] S1024x256.size inb_S1024x256_S1024x256_0_0
/-- A whole affine row of the tile. -/
abbrev rR2 : Rect S1x256 := Rect.unit (s := S1x256) ![0, 0] S1x256.size inb_S1x256_S1x256_0_0
/-- The four partial statistics of the first call, one per grid point of that call. -/
abbrev rS4_00 : Rect S2x2x4x256 := Rect.unit (s := S2x2x4x256) ![0, 0, 0, 0] S1x1x4x256.size inb_S2x2x4x256_S1x1x4x256_0_0_0_0
abbrev rS4_01 : Rect S2x2x4x256 := Rect.unit (s := S2x2x4x256) ![0, 1, 0, 0] S1x1x4x256.size inb_S2x2x4x256_S1x1x4x256_0_1_0_0
abbrev rS4_10 : Rect S2x2x4x256 := Rect.unit (s := S2x2x4x256) ![1, 0, 0, 0] S1x1x4x256.size inb_S2x2x4x256_S1x1x4x256_1_0_0_0
abbrev rS4_11 : Rect S2x2x4x256 := Rect.unit (s := S2x2x4x256) ![1, 1, 0, 0] S1x1x4x256.size inb_S2x2x4x256_S1x1x4x256_1_1_0_0
/-- The four partial statistics of the second call. -/
abbrev rS2_00 : Rect S2x2x2x256 := Rect.unit (s := S2x2x2x256) ![0, 0, 0, 0] S1x1x2x256.size inb_S2x2x2x256_S1x1x2x256_0_0_0_0
abbrev rS2_01 : Rect S2x2x2x256 := Rect.unit (s := S2x2x2x256) ![0, 1, 0, 0] S1x1x2x256.size inb_S2x2x2x256_S1x1x2x256_0_1_0_0
abbrev rS2_10 : Rect S2x2x2x256 := Rect.unit (s := S2x2x2x256) ![1, 0, 0, 0] S1x1x2x256.size inb_S2x2x2x256_S1x1x2x256_1_0_0_0
abbrev rS2_11 : Rect S2x2x2x256 := Rect.unit (s := S2x2x2x256) ![1, 1, 0, 0] S1x1x2x256.size inb_S2x2x2x256_S1x1x2x256_1_1_0_0

/-! ## What the body leaves in the output tile's buffer -/

/-- The channel totals of the first call's statistics: the four partial statistics added and reduced over the lanes of
    a channel. -/
def tot1_2 (s1 : Vec F S2x2x4x256 .f32) : FVec F S4x256 .f32 :=
  k2_pay2 (View.ld s1 rS4_00) (View.ld s1 rS4_01) (View.ld s1 rS4_10) (View.ld s1 rS4_11)

/-- The output tile after the body, from the eight input blocks: its one store. -/
def out2_8 (z2 idz : Vec F S1024x256 .bf16) (s1 : Vec F S2x2x4x256 .f32) (s2 : Vec F S2x2x2x256 .f32)
    (g2 b2 gid bid : Vec F S1x256 .f32) : Vec F S1024x256 .f32 :=
  View.canon [⟨rB2, k2_pay1 (k2_pay6 (tot1_2 s1)) (k2_pay7 (tot1_2 s1))
      (k2_pay8 (k2_pay3 (View.ld s2 rS2_00)) (k2_pay4 (View.ld s2 rS2_01)) (k2_pay5 (View.ld s2 rS2_10)) (View.ld s2 rS2_11)
        (View.ld z2 rB2) (View.ld g2 rR2) (View.ld b2 rR2))
      (k2_pay9 (View.ld idz rB2)) (View.ld gid rR2) (View.ld bid rR2)⟩]

/-- The one store covers the tile. -/
theorem cover2_8 (p0 : Vec F S1024x256 .f32) (y : S1024x256.Idx) :
    ∃ pc ∈ ([⟨rB2, p0⟩] : List (View.Piece (Elt F) S1024x256 .f32)), y ∈ pc.1.set :=
  View.cover_of_tiled [⟨rB2, p0⟩] S1024x256.size (by rfl) y

/-! ## The body's run -/

set_option maxHeartbeats 1000000 in
/-- On whole buffers, the inputs' at given contents and the output's at anything, the body runs to its return leaving
    the inputs as they were and the output tile at `out2_8` of them. -/
theorem sound_kernel2 (c : Dev nD) (E : Set ℕ) (i : grid2.Coords) (arg2 : Memref sig .tc .vmem S1024x256 .bf16) (harg2 : arg2.IsWhole) (arg3 : Memref sig .tc .vmem S1024x256 .bf16) (harg3 : arg3.IsWhole) (arg4 : Memref sig .tc .vmem S2x2x4x256 .f32) (harg4 : arg4.IsWhole) (arg5 : Memref sig .tc .vmem S2x2x2x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole)
    (x0 x1 : Vec F S1024x256 .bf16) (x2 : Vec F S2x2x4x256 .f32) (x3 : Vec F S2x2x2x256 .f32) (x4 x5 x6 x7 : Vec F S1x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out2_8 x0 x1 x2 x3 x4 x5 x6 x7)) -∗ K ⟨⟩))
      ⊢ wp frame (wpE (defs₀ (F := F)) Variants.none c none) E (cc2__k3 i arg2 harg2 arg3 harg3 arg4 harg4 arg5 harg5 arg6 harg6 arg7 harg7 arg8 harg8 arg9 harg9 arg10 harg10) K := by
  simp only [cc2__k3_eq_skeleton]; unfold cc2__k3_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-! ## The proof data of the call -/

/-- After the body at point `t` each input's buffer holds its block and the output's holds `out2_8` of the blocks; the
    call keeps nothing of its own between points; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/-
  The whole program as a chain of segments: three host operations (the input relaid as 1024 rows of 1024 lanes), the
  three calls, two host operations (the result relaid as an image batch). Between two segments every unscoped buffer
  of a core holds named contents: the launch contents, then what the host operations compute, then, after a call,
  that call's output arrays at what its pipeline wrote back and everything else unchanged. The run of the chain ends
  with every unscoped buffer at the last of these contents; no segment writes an argument array, so each ends as
  launched.
-/
import proofs.«151177_g2000001997577596_pallasbulk_1280_5_alg».proof.Proof.KernelIdeal.Conv1Data
import proofs.«151177_g2000001997577596_pallasbulk_1280_5_alg».proof.Proof.KernelIdeal.Conv2Data
import proofs.«151177_g2000001997577596_pallasbulk_1280_5_alg».proof.Proof.KernelIdeal.Final
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the calls (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves (an input as entered, an output its write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline leaves (an input as entered, an output its write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host operations behind the calls (the end). -/
abbrev W5 : Dev nD → Valuation τ sig (Elt F) := fun c => StableHlo.after hostOps3 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := (W3_arr m ρ c 4).trans (((dat1 (V2 m ρ) c).arrAt_in 4 rfl _).trans (A_eq1 (V2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := (W4_arr m ρ c 4).trans (((dat2 (V3 m ρ) c).arrAt_in 4 rfl _).trans (A_eq2 (V3 m ρ) c 4))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := (W4_arr m ρ c 5).trans (((dat2 (V3 m ρ) c).arrAt_in 5 rfl _).trans (A_eq2 (V3 m ρ) c 5))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := (W4_arr m ρ c 6).trans (((dat2 (V3 m ρ) c).arrAt_in 6 rfl _).trans (A_eq2 (V3 m ρ) c 6))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := (W4_arr m ρ c 7).trans (((dat2 (V3 m ρ) c).arrAt_in 7 rfl _).trans (A_eq2 (V3 m ρ) c 7))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m ρ c) ∗ ∃ r, prngReg c r)

/-! ## The calls as segments -/

-- `iapply` of a library lemma stated over the pinned configuration unifies only when unification may unfold plain
-- definitions in a metavariable's type
set_option backward.isDefEq.respectTransparency.types false in
/-- Call 0 over the thread state: entered from every unscoped buffer at `W1`, left at `W2`. Its arrays are split
    out of the unscoped buffers and put back at the exit contents; the generator register goes into the call's
    invariant and comes back; nothing is owed; the call has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from phi0_zero (V1 m ρ) c]; unfold Pipeline.ΦA
    iintro ⟨Hp, -, Hr⟩
    isplitl [Hr]; · iexact Hr
    iexact Hp
  hout c := by
    rw [Pipeline.ownSems0_none]
    refine (Entails.of_eq (phi0_last (V1 m ρ) c)).trans ((keeps0_close c _).trans ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 1 over the thread state: entered from every unscoped buffer at `W2`, left at `W3`. Its arrays are split
    out of the unscoped buffers and put back at the exit contents; the generator register goes into the call's
    invariant and comes back; nothing is owed; the call has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from phi1_zero (V2 m ρ) c]; unfold Pipeline.ΦA
    iintro ⟨Hp, -, Hr⟩
    isplitl [Hr]; · iexact Hr
    iexact Hp
  hout c := by
    rw [Pipeline.ownSems0_none]
    refine (Entails.of_eq (phi1_last (V2 m ρ) c)).trans ((keeps1_close c _).trans ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Call 2 over the thread state: entered from every unscoped buffer at `W3`, left at `W4`. Its arrays are split
    out of the unscoped buffers and put back at the exit contents; the generator register goes into the call's
    invariant and comes back; nothing is owed; the call has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .region (reg2 m ρ),
    .host (hseg hostOps3 hostOps3_sub ops3_fresh (W4 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters every weakly fair execution of the program terminates, nothing faulting, and
    every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c)⟩) (run_all m ρ)

end Cert.KernelIdeal.Hand

end
-- ==== Proof.RefRun.lean ====
/-
  The reference's value.

  The idealized reference is three stretches: two host operations (a transpose of the NCHW input to NHWC and
  its reshape to 1024 rows of 1024 lanes), one kernel region on a one-point grid whose every block is the whole
  array, and two host operations (the reshape back and the transpose back to NCHW).

  Here its result array is written as ONE function `result` of the ten argument arrays, and the run is re-posted
  with that function. The body's arithmetic is kept as the generated `Gen.out0_10` (the canonical form of its one
  store over the payloads of its loads); what is proved is only the plumbing around it:

  * the grid has one point and each window's block index is (0, 0) with the block's sizes the array's own, so
    reading a block out of an array is the identity (`iblk0` … `iblk9`), and the one write-back writes the whole
    array (`flushed_eq`, `cover`, `final`);
  * the array the region reads its first operand from was written by the two host operations before it
    (`V_v1`), the nine others are the arguments as launched;
  * the two host operations after the region read the region's result array and write the result (`tail_eq`).
-/
import proofs.«151177_g2000001997577596_pallasbulk_1280_5_alg».proof.Proof.Gen.ReferenceIdeal.Frame
import Idealize.ShloMosaic.Lib.Pipeline.Value
import Idealize.ShloMosaic.Lib.Tactic

-- membership in a rectangle of extent 1024 recurses once per coordinate
set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable {F : FTy → Type} [FloatOps F]

/-! ## The result as one function of the arguments -/

/-- The host operations before the region: the NCHW array transposed to NHWC and read as 1024 rows (image, height)
    of 1024 lanes (width, channel). -/
def toRows (x : Vec F S32x32x32x32 .f32) : Vec F S1024x1024 .f32 :=
  shapeCast S1024x1024 (transpose S32x32x32x32 [0, 2, 3, 1] x transposes_S32x32x32x32_S32x32x32x32_0_2_3_1)
    shapeCasts_S32x32x32x32_S1024x1024

/-- The host operations after the region: the rows read as an NHWC array and transposed back to NCHW. -/
def ofRows (y : Vec F S1024x1024 .f32) : Vec F S32x32x32x32 .f32 :=
  transpose S32x32x32x32 [0, 3, 1, 2] (shapeCast S32x32x32x32 y shapeCasts_S1024x1024_S32x32x32x32)
    transposes_S32x32x32x32_S32x32x32x32_0_3_1_2

/-- THE REFERENCE'S RESULT: the body's one store (`Gen.out0_10`) over the rows of the input and the nine other
    arguments, read back as an NCHW array. -/
def result (x : Vec F S32x32x32x32 .f32) (t1 t2 : Vec F S3072x1024 .bf16) (tid : Vec F S1024x1024 .bf16)
    (g1 b1 g2 b2 gid bid : Vec F S1x1024 .f32) : Vec F S32x32x32x32 .f32 :=
  ofRows (out0_10 (toRows x) t1 t2 tid g1 b1 g2 b2 gid bid)

variable (m : (ℓ : Loc nD τ sig) → Buf (Elt F) ℓ) (ρ : Dev nD → PrngReg)

/-! ## The arrays the region finds -/

/-- The region's first operand is the rows of the input: what the two host operations before it wrote. -/
theorem V_v1 (c : Dev nD) :
    (V m c main_call0_v1 : Vec F S1024x1024 .f32) = toRows (m ((c.tc : Thread nD τ).loc main_arg0)) := by
  show StableHlo.after hostOps0 (fun b => m (c, b)) (Proc.devRef .tc main_call0_v1) = _
  after_results
  rfl

/-! ## Each block is its whole array

At the grid's one point every window's block index is (0, 0) and the block has the array's own sizes: the block read
out of the array is the array. -/

theorem iblk0 (c : Dev nD) (t : Fin cfg0.N) :
    (iblk m c 0 t : Vec F S1024x1024 .f32) = V m c main_call0_v1 := by
  obtain rfl := fin_N0 t
  have hz' : (fun a => win0_0.index t0_0 a * main_call0_v1.ty.shape.size a) = fun _ => 0 :=
    funext fun a => by fin_cases a <;> decide
  exact Memref.read_access_unit_zero (Elt F) main_call0_v1 hz' (fun a => by rw [congrFun hz' a]; simp) (V m c main_call0_v1)

theorem iblk1 (c : Dev nD) (t : Fin cfg0.N) :
    (iblk m c 1 t : Vec F S3072x1024 .bf16) = V m c main_arg1 := by
  obtain rfl := fin_N0 t
  have hz' : (fun a => win0_1.index t0_0 a * main_arg1.ty.shape.size a) = fun _ => 0 :=
    funext fun a => by fin_cases a <;> decide
  exact Memref.read_access_unit_zero (Elt F) main_arg1 hz' (fun a => by rw [congrFun hz' a]; simp) (V m c main_arg1)

theorem iblk2 (c : Dev nD) (t : Fin cfg0.N) :
    (iblk m c 2 t : Vec F S3072x1024 .bf16) = V m c main_arg2 := by
  obtain rfl := fin_N0 t
  have hz' : (fun a => win0_2.index t0_0 a * main_arg2.ty.shape.size a) = fun _ => 0 :=
    funext fun a => by fin_cases a <;> decide
  exact Memref.read_access_unit_zero (Elt F) main_arg2 hz' (fun a => by rw [congrFun hz' a]; simp) (V m c main_arg2)

theorem iblk3 (c : Dev nD) (t : Fin cfg0.N) :
    (iblk m c 3 t : Vec F S1024x1024 .bf16) = V m c main_arg3 := by
  obtain rfl := fin_N0 t
  have hz' : (fun a => win0_3.index t0_0 a * main_arg3.ty.shape.size a) = fun _ => 0 :=
    funext fun a => by fin_cases a <;> decide
  exact Memref.read_access_unit_zero (Elt F) main_arg3 hz' (fun a => by rw [congrFun hz' a]; simp) (V m c main_arg3)

theorem iblk4 (c : Dev nD) (t : Fin cfg0.N) :
    (iblk m c 4 t : Vec F S1x1024 .f32) = V m c main_arg4 := by
  obtain rfl := fin_N0 t
  have hz' : (fun a => win0_4.index t0_0 a * main_arg4.ty.shape.size a) = fun _ => 0 :=
    funext fun a => by fin_cases a <;> decide
  exact Memref.read_access_unit_zero (Elt F) main_arg4 hz' (fun a => by rw [congrFun hz' a]; simp) (V m c main_arg4)

theorem iblk5 (c : Dev nD) (t : Fin cfg0.N) :
    (iblk m c 5 t : Vec F S1x1024 .f32) = V m c main_arg5 := by
  obtain rfl := fin_N0 t
  have hz' : (fun a => win0_5.index t0_0 a * main_arg5.ty.shape.size a) = fun _ => 0 :=
    funext fun a => by fin_cases a <;> decide
  exact Memref.read_access_unit_zero (Elt F) main_arg5 hz' (fun a => by rw [congrFun hz' a]; simp) (V m c main_arg5)

theorem iblk6 (c : Dev nD) (t : Fin cfg0.N) :
    (iblk m c 6 t : Vec F S1x1024 .f32) = V m c main_arg6 := by
  obtain rfl := fin_N0 t
  have hz' : (fun a => win0_6.index t0_0 a * main_arg6.ty.shape.size a) = fun _ => 0 :=
    funext fun a => by fin_cases a <;> decide
  exact Memref.read_access_unit_zero (Elt F) main_arg6 hz' (fun a => by rw [congrFun hz' a]; simp) (V m c main_arg6)

theorem iblk7 (c : Dev nD) (t : Fin cfg0.N) :
    (iblk m c 7 t : Vec F S1x1024 .f32) = V m c main_arg7 := by
  obtain rfl := fin_N0 t
  have hz' : (fun a => win0_7.index t0_0 a * main_arg7.ty.shape.size a) = fun _ => 0 :=
    funext fun a => by fin_cases a <;> decide
  exact Memref.read_access_unit_zero (Elt F) main_arg7 hz' (fun a => by rw [congrFun hz' a]; simp) (V m c main_arg7)

theorem iblk8 (c : Dev nD) (t : Fin cfg0.N) :
    (iblk m c 8 t : Vec F S1x1024 .f32) = V m c main_arg8 := by
  obtain rfl := fin_N0 t
  have hz' : (fun a => win0_8.index t0_0 a * main_arg8.ty.shape.size a) = fun _ => 0 :=
    funext fun a => by fin_cases a <;> decide
  exact Memref.read_access_unit_zero (Elt F) main_arg8 hz' (fun a => by rw [congrFun hz' a]; simp) (V m c main_arg8)

theorem iblk9 (c : Dev nD) (t : Fin cfg0.N) :
    (iblk m c 9 t : Vec F S1x1024 .f32) = V m c main_arg9 := by
  obtain rfl := fin_N0 t
  have hz' : (fun a => win0_9.index t0_0 a * main_arg9.ty.shape.size a) = fun _ => 0 :=
    funext fun a => by fin_cases a <;> decide
  exact Memref.read_access_unit_zero (Elt F) main_arg9 hz' (fun a => by rw [congrFun hz' a]; simp) (V m c main_arg9)

/-! ## The region's result array -/

/-- The region's result array, from the contents the region finds: the body's one store over whole arrays. -/
def regionOut (c : Dev nD) : Vec F S1024x1024 .f32 :=
  out0_10 (V m c main_call0_v1) (V m c main_arg1) (V m c main_arg2) (V m c main_arg3) (V m c main_arg4)
    (V m c main_arg5) (V m c main_arg6) (V m c main_arg7) (V m c main_arg8) (V m c main_arg9)

/-- What the body leaves in the output's buffer at the one point. -/
theorem after_eq (c : Dev nD) (t : Fin cfg0.N) : (dats m 0 c).after 10 t = regionOut m c := by
  rw [after0_10, iblk0, iblk1, iblk2, iblk3, iblk4, iblk5, iblk6, iblk7, iblk8, iblk9]
  rfl

/-- What the one point writes back is the whole of `regionOut`: its block, read out of an array, is that array. -/
theorem flushed_eq (c : Dev nD) (t : Fin cfg0.N) :
    (dats m 0 c).flushed 10 t = ((cfg0.win 10).blk t).view.read (Elt F) (regionOut m c) := by
  have hG := after_eq m c t
  obtain rfl := fin_N0 t
  show (cfg0.win 10).cut (grid0.coords t0_0) ((dats m 0 c).after 10 t0_0) = _
  rw [hG]
  have hz' : (fun a => win0_10.index t0_0 a * main_call0_v2.ty.shape.size a) = fun _ => 0 :=
    funext fun a => by fin_cases a <;> decide
  exact (Memref.read_access_unit_zero (Elt F) main_call0_v2 hz' (fun a => by rw [congrFun hz' a]; simp)
    (regionOut m c)).symm

/-- The one point's block covers the array: each coordinate lies between 0 and the array's extent, 1024. -/
theorem cover (i : S1024x1024.Idx) :
    ∃ t : Fin cfg0.N, (cfg0.win 10).flush t = true ∧ i ∈ ((cfg0.win 10).blk t).view.set := by
  refine ⟨t0_0, flush0_10 t0_0, ?_⟩
  show i ∈ ((View.whole main_call0_v2).slice (win0_10.rect t0_0)).set
  rw [View.set_slice_whole, Rect.mem_set_unit]
  intro a
  have h0 : (i 0 : Nat) < 1024 := (i 0).isLt
  have h1 : (i 1 : Nat) < 1024 := (i 1).isLt
  match a with
  | ⟨0, _⟩ =>
    show win0_10.index t0_0 0 * win0_10.size 0 ≤ (i 0 : Nat)
      ∧ (i 0 : Nat) < win0_10.index t0_0 0 * win0_10.size 0 + win0_10.xsize (grid0.coords t0_0) 0
    rw [show win0_10.index t0_0 0 * win0_10.size 0 = 0 from by decide +kernel,
      show win0_10.xsize (grid0.coords t0_0) 0 = 1024 from by decide +kernel]; omega
  | ⟨1, _⟩ =>
    show win0_10.index t0_0 1 * win0_10.size 1 ≤ (i 1 : Nat)
      ∧ (i 1 : Nat) < win0_10.index t0_0 1 * win0_10.size 1 + win0_10.xsize (grid0.coords t0_0) 1
    rw [show win0_10.index t0_0 1 * win0_10.size 1 = 0 from by decide +kernel,
      show win0_10.xsize (grid0.coords t0_0) 1 = 1024 from by decide +kernel]; omega

/-- So the region's result array ends holding `regionOut`. -/
theorem final (c : Dev nD) : (dats m 0 c).arrAt 10 cfg0.N = regionOut m c :=
  (dats m 0 c).arrAt_eq_of_cover 10 (regionOut m c) (fun t _ => flushed_eq m c t) cover

/-! ## The host operations after the region, and the run -/

/-- In terms of the launch contents: the first operand is the rows of the input, the others the arguments. -/
theorem ofRows_regionOut (c : Dev nD) :
    ofRows (regionOut m c) = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  unfold regionOut result
  rw [V_v1, V_main_arg1, V_main_arg2, V_main_arg3, V_main_arg4, V_main_arg5, V_main_arg6, V_main_arg7,
    V_main_arg8, V_main_arg9]

/-- The result buffer after the two host operations that follow the region: they read the region's result array. -/
theorem tail_eq (c : Dev nD) :
    Pipeline.afterTail₀ cfgs (dats m) 0 (V0 m) [hostOps1] c main_v0 = ofRows (regionOut m c) := by
  unfold Pipeline.afterTail₀
  show StableHlo.after hostOps1 _ (Proc.devRef .tc main_v0) = _
  after_results
  have e := Pipeline.withArrays_arr spec0 launch0.win.arr_inj c (V0 m c) (fun w => (dats m 0 c).arrAt w cfg0.N) 10
  show ofRows (Pipeline.withArrays spec0 c (V0 m c) (fun w => (dats m 0 c).arrAt w cfg0.N)
    (Proc.devRef .tc (Pipeline.arrRef spec0 10))) = _
  rw [e, final]

/-- THE REFERENCE'S RUN, READ: every weakly fair run terminates with the result array at `result` of the ten argument
    arrays as launched, and the arguments unchanged. -/
theorem run : θ_run defs (onTc (τ := τ) (main (F := F))) ⟨m, fun _ => 0, ρ⟩ (fun r => ∀ c : Dev nD,
      r.2.mem ((c.tc : Thread nD τ).loc main_v0)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(((h c).2 main_v0 (Pipeline.mem_restRefs_of main_v0 (by decide) (by decide))).trans (tail_eq m c)).trans
        (ofRows_regionOut m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.ReferenceIdeal.RefValue

end
-- ==== Proof.KernelIdeal.Ends.lean ====
/-
  The two host stretches of the idealized kernel, read as functions.

  Before the calls the input image batch is relaid as 1024 rows (image, image row) of 1024 lanes (column, channel),
  and narrowed to the matrix unit's input format, which over the extended reals changes nothing. After the calls the
  1024 x 1024 result rows are relaid as an image batch. Both relayings are the reference's own.
-/
import proofs.«151177_g2000001997577596_pallasbulk_1280_5_alg».proof.Proof.KernelIdeal.Run
import proofs.«151177_g2000001997577596_pallasbulk_1280_5_alg».proof.Proof.RefRun
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result is the rows the third call leaves, relaid as an image batch. -/
theorem tail_eq (c : Dev nD) :
    W5 (F := Ideal) m ρ c (Proc.devRef .tc main_v7)
      = Cert.ReferenceIdeal.RefValue.ofRows (F := Ideal) (W4 (F := Ideal) m ρ c (Proc.devRef .tc main_v5)) := by
  show StableHlo.after hostOps3 (W4 (F := Ideal) m ρ c) (Proc.devRef .tc main_v7) = _
  after_results
  rfl

/-- The first call's input is the argument relaid as rows. -/
theorem head_eq (c : Dev nD) :
    (V1 (F := Ideal) m ρ c main_v2 : S1024x1024.Idx → EReal)
      = Cert.ReferenceIdeal.RefValue.toRows (F := Ideal) (m ((c : Thread nD τ).loc main_arg0)) := by
  show StableHlo.after hostOps0 (W0 (F := Ideal) m ρ c) (Proc.devRef .tc main_v2) = _
  after_results
  rfl

end Cert.KernelIdeal.Hand

end
-- ==== Proof.KernelIdeal.Chain.lean ====
/-
  Which array each call finds in each of its windows.

  The first call reads the input rows and the first and 1x1 weight matrices; it writes the first pre-activation, the
  1x1 pre-activation and the first statistics. The second call reads the first pre-activation, the first statistics,
  the second weight matrix and the first two affine rows; it writes the second pre-activation and the second
  statistics. The third call reads both of those, the 1x1 pre-activation, the first statistics and the last four
  affine rows. No call and no host operation writes a parameter array, so each call finds it as launched.
-/
import proofs.«151177_g2000001997577596_pallasbulk_1280_5_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parameter arrays at each call's entry -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The arrays the calls hand on -/

/-- The second call's input: the first pre-activation as the first call left it. -/
theorem V2_z1 (c : Dev nD) : V2 m ρ c main_v3_0 = (dat0 (V1 m ρ) c).arrAt 3 cfg0.N := W2_arr m ρ c 3
/-- The second call's statistics input: the first statistics as the first call left them. -/
theorem V2_st1 (c : Dev nD) : V2 m ρ c main_v3_2 = (dat0 (V1 m ρ) c).arrAt 5 cfg0.N := W2_arr m ρ c 5
/-- The third call's inputs. -/
theorem V3_z2 (c : Dev nD) : V3 m ρ c main_v4_0 = (dat1 (V2 m ρ) c).arrAt 5 cfg1.N := W3_arr m ρ c 5
theorem V3_st2 (c : Dev nD) : V3 m ρ c main_v4_1 = (dat1 (V2 m ρ) c).arrAt 6 cfg1.N := W3_arr m ρ c 6
theorem V3_idz (c : Dev nD) : V3 m ρ c main_v3_1 = (dat0 (V1 m ρ) c).arrAt 4 cfg0.N :=
  (W3_of_ne m ρ c main_v3_1 (by decide)).trans (W2_arr m ρ c 4)
theorem V3_st1 (c : Dev nD) : V3 m ρ c main_v3_2 = (dat0 (V1 m ρ) c).arrAt 5 cfg0.N :=
  ((W3_arr m ρ c 1).trans (((dat1 (V2 m ρ) c).arrAt_in 1 rfl _).trans (A_eq1 (V2 m ρ) c 1))).trans (W2_arr m ρ c 5)
/-- The result rows are what the third call's pipeline wrote back. -/
theorem W4_rows (c : Dev nD) : W4 m ρ c (Proc.devRef .tc main_v5) = (dat2 (V3 m ρ) c).arrAt 8 cfg2.N := W4_arr m ρ c 8

end Cert.KernelIdeal.Hand

end
-- ==== Proof.KernelIdeal.FinalArray.lean ====
/-
  The third call, from blocks to arrays.

  The call runs on a 2 x 2 grid; the point with coordinates (c0, c1) works on column tile 2 c0 + c1, which is the
  point's own number t, lanes 256 t … 256 t + 255 of the 1024. Here

  * each tiled input block is read as the part of its array it is: block t of a 1024 x 1024 array is its columns
    256 t … 256 t + 255 (`iblk2_0_apply`, `iblk2_1_apply`), block t of an affine row its lanes 256 t … 256 t + 255
    (`iblk2_4_apply` … `iblk2_7_apply`); the two statistics arrays are handed over whole (`iblk2_2_eq`, `iblk2_3_eq`);
  * the output array after the call is ONE function `G2` of the entry contents: at (row, lane) it is the tile the body
    leaves at the lane's point, `tile2 … (lane / 256)`, read at (row, lane mod 256) — the four blocks tile the array,
    each point writes its own block back, so the array ends holding `G2` (`final2_8`);
  * the eight input arrays end as the call found them (`arrAt2_0` … `arrAt2_7`).

  The body's arithmetic stays folded in `out2_8`.
-/
import proofs.«151177_g2000001997577596_pallasbulk_1280_5_alg».proof.Proof.KernelIdeal.Final
import Idealize.ShloMosaic.Lib.Pipeline.Value
import Idealize.ShloMosaic.Lib.ValueIdxCoords
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The index maps over the grid

The grid is 2 x 2; a point's column tile is twice its first coordinate plus its second, which is the point's own number. -/

theorem idx2_0 : ∀ t : Fin cfg2.N, win2_0.index t (0 : Fin 2) = 0 ∧ win2_0.index t (1 : Fin 2) = t.val :=
  (by decide +kernel : ∀ t : Fin grid2.N, win2_0.index t (0 : Fin 2) = 0 ∧ win2_0.index t (1 : Fin 2) = t.val)
theorem idx2_1 : ∀ t : Fin cfg2.N, win2_1.index t (0 : Fin 2) = 0 ∧ win2_1.index t (1 : Fin 2) = t.val :=
  (by decide +kernel : ∀ t : Fin grid2.N, win2_1.index t (0 : Fin 2) = 0 ∧ win2_1.index t (1 : Fin 2) = t.val)
theorem idx2_4 : ∀ t : Fin cfg2.N, win2_4.index t (0 : Fin 2) = 0 ∧ win2_4.index t (1 : Fin 2) = t.val :=
  (by decide +kernel : ∀ t : Fin grid2.N, win2_4.index t (0 : Fin 2) = 0 ∧ win2_4.index t (1 : Fin 2) = t.val)
theorem idx2_5 : ∀ t : Fin cfg2.N, win2_5.index t (0 : Fin 2) = 0 ∧ win2_5.index t (1 : Fin 2) = t.val :=
  (by decide +kernel : ∀ t : Fin grid2.N, win2_5.index t (0 : Fin 2) = 0 ∧ win2_5.index t (1 : Fin 2) = t.val)
theorem idx2_6 : ∀ t : Fin cfg2.N, win2_6.index t (0 : Fin 2) = 0 ∧ win2_6.index t (1 : Fin 2) = t.val :=
  (by decide +kernel : ∀ t : Fin grid2.N, win2_6.index t (0 : Fin 2) = 0 ∧ win2_6.index t (1 : Fin 2) = t.val)
theorem idx2_7 : ∀ t : Fin cfg2.N, win2_7.index t (0 : Fin 2) = 0 ∧ win2_7.index t (1 : Fin 2) = t.val :=
  (by decide +kernel : ∀ t : Fin grid2.N, win2_7.index t (0 : Fin 2) = 0 ∧ win2_7.index t (1 : Fin 2) = t.val)
theorem idx2_8 : ∀ t : Fin cfg2.N, win2_8.index t (0 : Fin 2) = 0 ∧ win2_8.index t (1 : Fin 2) = t.val :=
  (by decide +kernel : ∀ t : Fin grid2.N, win2_8.index t (0 : Fin 2) = 0 ∧ win2_8.index t (1 : Fin 2) = t.val)
theorem idx2_2 : ∀ t : Fin cfg2.N, ∀ a : Fin 4, win2_2.index t a = 0 :=
  (by decide +kernel : ∀ t : Fin grid2.N, ∀ a : Fin 4, win2_2.index t a = 0)
theorem idx2_3 : ∀ t : Fin cfg2.N, ∀ a : Fin 4, win2_3.index t a = 0 :=
  (by decide +kernel : ∀ t : Fin grid2.N, ∀ a : Fin 4, win2_3.index t a = 0)

/-! ## The input blocks as parts of their arrays -/

/-- Window 0's block at point `t` is columns `256 t … 256 t + 255` of its array. -/
theorem iblk2_0_apply (c : Dev nD) (t : Fin cfg2.N) (y : S1024x256.Idx) (k : S1024x1024.Idx)
    (hk0 : (k 0).val = (y 0).val) (hk1 : (k 1).val = 256 * t.val + (y 1).val) :
    (iblk2 V c 0 t : Vec F S1024x256 .bf16) y = (V c (Pipeline.arrRef spec2 0) : Vec F S1024x1024 .bf16) k := by
  unfold iblk2
  rw [View.read_apply]
  refine congrArg (V c (Pipeline.arrRef spec2 0)) ?_
  funext a
  apply Fin.ext
  obtain ⟨e0, e1⟩ := idx2_0 t
  match a with
  | ⟨0, _⟩ => show win2_0.index t (0 : Fin 2) * 1024 + 1 * (y 0).val = (k 0).val; rw [e0, hk0]; omega
  | ⟨1, _⟩ => show win2_0.index t (1 : Fin 2) * 256 + 1 * (y 1).val = (k 1).val; rw [e1, hk1]; omega

/-- Window 1's block at point `t` is columns `256 t … 256 t + 255` of its array. -/
theorem iblk2_1_apply (c : Dev nD) (t : Fin cfg2.N) (y : S1024x256.Idx) (k : S1024x1024.Idx)
    (hk0 : (k 0).val = (y 0).val) (hk1 : (k 1).val = 256 * t.val + (y 1).val) :
    (iblk2 V c 1 t : Vec F S1024x256 .bf16) y = (V c (Pipeline.arrRef spec2 1) : Vec F S1024x1024 .bf16) k := by
  unfold iblk2
  rw [View.read_apply]
  refine congrArg (V c (Pipeline.arrRef spec2 1)) ?_
  funext a
  apply Fin.ext
  obtain ⟨e0, e1⟩ := idx2_1 t
  match a with
  | ⟨0, _⟩ => show win2_1.index t (0 : Fin 2) * 1024 + 1 * (y 0).val = (k 0).val; rw [e0, hk0]; omega
  | ⟨1, _⟩ => show win2_1.index t (1 : Fin 2) * 256 + 1 * (y 1).val = (k 1).val; rw [e1, hk1]; omega

/-- Window 4's block at point `t` is lanes `256 t … 256 t + 255` of its row. -/
theorem iblk2_4_apply (c : Dev nD) (t : Fin cfg2.N) (y : S1x256.Idx) (k : S1x1024.Idx)
    (hk1 : (k 1).val = 256 * t.val + (y 1).val) :
    (iblk2 V c 4 t : Vec F S1x256 .f32) y = (V c (Pipeline.arrRef spec2 4) : Vec F S1x1024 .f32) k := by
  unfold iblk2
  rw [View.read_apply]
  refine congrArg (V c (Pipeline.arrRef spec2 4)) ?_
  funext a
  apply Fin.ext
  obtain ⟨e0, e1⟩ := idx2_4 t
  have hy0 : (y 0).val < 1 := (y 0).isLt
  have hk0 : (k 0).val < 1 := (k 0).isLt
  match a with
  | ⟨0, _⟩ => show win2_4.index t (0 : Fin 2) * 1 + 1 * (y 0).val = (k 0).val; rw [e0]; omega
  | ⟨1, _⟩ => show win2_4.index t (1 : Fin 2) * 256 + 1 * (y 1).val = (k 1).val; rw [e1, hk1]; omega

/-- Window 5's block at point `t` is lanes `256 t … 256 t + 255` of its row. -/
theorem iblk2_5_apply (c : Dev nD) (t : Fin cfg2.N) (y : S1x256.Idx) (k : S1x1024.Idx)
    (hk1 : (k 1).val = 256 * t.val + (y 1).val) :
    (iblk2 V c 5 t : Vec F S1x256 .f32) y = (V c (Pipeline.arrRef spec2 5) : Vec F S1x1024 .f32) k := by
  unfold iblk2
  rw [View.read_apply]
  refine congrArg (V c (Pipeline.arrRef spec2 5)) ?_
  funext a
  apply Fin.ext
  obtain ⟨e0, e1⟩ := idx2_5 t
  have hy0 : (y 0).val < 1 := (y 0).isLt
  have hk0 : (k 0).val < 1 := (k 0).isLt
  match a with
  | ⟨0, _⟩ => show win2_5.index t (0 : Fin 2) * 1 + 1 * (y 0).val = (k 0).val; rw [e0]; omega
  | ⟨1, _⟩ => show win2_5.index t (1 : Fin 2) * 256 + 1 * (y 1).val = (k 1).val; rw [e1, hk1]; omega

/-- Window 6's block at point `t` is lanes `256 t … 256 t + 255` of its row. -/
theorem iblk2_6_apply (c : Dev nD) (t : Fin cfg2.N) (y : S1x256.Idx) (k : S1x1024.Idx)
    (hk1 : (k 1).val = 256 * t.val + (y 1).val) :
    (iblk2 V c 6 t : Vec F S1x256 .f32) y = (V c (Pipeline.arrRef spec2 6) : Vec F S1x1024 .f32) k := by
  unfold iblk2
  rw [View.read_apply]
  refine congrArg (V c (Pipeline.arrRef spec2 6)) ?_
  funext a
  apply Fin.ext
  obtain ⟨e0, e1⟩ := idx2_6 t
  have hy0 : (y 0).val < 1 := (y 0).isLt
  have hk0 : (k 0).val < 1 := (k 0).isLt
  match a with
  | ⟨0, _⟩ => show win2_6.index t (0 : Fin 2) * 1 + 1 * (y 0).val = (k 0).val; rw [e0]; omega
  | ⟨1, _⟩ => show win2_6.index t (1 : Fin 2) * 256 + 1 * (y 1).val = (k 1).val; rw [e1, hk1]; omega

/-- Window 7's block at point `t` is lanes `256 t … 256 t + 255` of its row. -/
theorem iblk2_7_apply (c : Dev nD) (t : Fin cfg2.N) (y : S1x256.Idx) (k : S1x1024.Idx)
    (hk1 : (k 1).val = 256 * t.val + (y 1).val) :
    (iblk2 V c 7 t : Vec F S1x256 .f32) y = (V c (Pipeline.arrRef spec2 7) : Vec F S1x1024 .f32) k := by
  unfold iblk2
  rw [View.read_apply]
  refine congrArg (V c (Pipeline.arrRef spec2 7)) ?_
  funext a
  apply Fin.ext
  obtain ⟨e0, e1⟩ := idx2_7 t
  have hy0 : (y 0).val < 1 := (y 0).isLt
  have hk0 : (k 0).val < 1 := (k 0).isLt
  match a with
  | ⟨0, _⟩ => show win2_7.index t (0 : Fin 2) * 1 + 1 * (y 0).val = (k 0).val; rw [e0]; omega
  | ⟨1, _⟩ => show win2_7.index t (1 : Fin 2) * 256 + 1 * (y 1).val = (k 1).val; rw [e1, hk1]; omega

/-- Window 2's block is its whole array, at every point. -/
theorem iblk2_2_eq (c : Dev nD) (t : Fin cfg2.N) :
    (iblk2 V c 2 t : Vec F S2x2x4x256 .f32) = V c (Pipeline.arrRef spec2 2) := by
  have hz' : (fun a => win2_2.index t a * main_v3_2.ty.shape.size a) = fun _ => 0 :=
    funext fun a => by rw [idx2_2 t a]; exact Nat.zero_mul _
  exact Memref.read_access_unit_zero (Elt F) main_v3_2 hz' (fun a => by rw [congrFun hz' a]; simp) (V c main_v3_2)

/-- Window 3's block is its whole array, at every point. -/
theorem iblk2_3_eq (c : Dev nD) (t : Fin cfg2.N) :
    (iblk2 V c 3 t : Vec F S2x2x2x256 .f32) = V c (Pipeline.arrRef spec2 3) := by
  have hz' : (fun a => win2_3.index t a * main_v4_1.ty.shape.size a) = fun _ => 0 :=
    funext fun a => by rw [idx2_3 t a]; exact Nat.zero_mul _
  exact Memref.read_access_unit_zero (Elt F) main_v4_1 hz' (fun a => by rw [congrFun hz' a]; simp) (V c main_v4_1)

/-! ## The output array -/

/-- The output tile the body leaves at point `t`, from the call's entry contents. -/
def tile2 (c : Dev nD) (t : Fin cfg2.N) : Vec F S1024x256 .f32 :=
  out2_8 (iblk2 V c 0 t) (iblk2 V c 1 t) (iblk2 V c 2 t) (iblk2 V c 3 t) (iblk2 V c 4 t) (iblk2 V c 5 t)
    (iblk2 V c 6 t) (iblk2 V c 7 t)

theorem after2_8_tile (c : Dev nD) (t : Fin cfg2.N) : (dat2 V c).after 8 t = tile2 V c t := by
  rw [after2_8]; rfl

/-- The grid point whose column tile holds lane `l` of the 1024 lanes (the remainder only makes it total). -/
def tileOf (l : Nat) : Fin cfg2.N :=
  ⟨l / 256 % 4, by rw [show cfg2.N = 4 from N_2]; omega⟩

/-- The index inside a column tile of row `r`, lane `l` of the array. -/
def inTile (r l : Nat) : S1024x256.Idx :=
  ix2 ⟨r % 1024, Nat.mod_lt _ (by decide)⟩ ⟨l % 256, Nat.mod_lt _ (by decide)⟩

/-- THE OUTPUT ARRAY as one function of the entry contents: at (row, lane) the tile of the lane's point, read at the
    row and at the lane inside the tile. -/
def G2 (c : Dev nD) : Vec F S1024x1024 .f32 :=
  fun i => tile2 V c (tileOf (i 1).val) (inTile (i 0).val (i 1).val)

/-- `G2` at the array index under tile `t`'s local index `y`. -/
theorem G2_apply (c : Dev nD) (t : Fin cfg2.N) (y : S1024x256.Idx) (i : S1024x1024.Idx)
    (hi0 : (i 0).val = (y 0).val) (hi1 : (i 1).val = 256 * t.val + (y 1).val) :
    G2 V c i = tile2 V c t y := by
  have hy0 : (y 0).val < 1024 := (y 0).isLt
  have hy1 : (y 1).val < 256 := (y 1).isLt
  have htN : t.val < 4 := by have h := t.isLt; have e : cfg2.N = 4 := N_2; omega
  have ht : tileOf (i 1).val = t := Fin.ext (by show (i 1).val / 256 % 4 = t.val; omega)
  have hy : inTile (i 0).val (i 1).val = y := by
    funext a
    match a with
    | ⟨0, _⟩ => exact Fin.ext (by show (i 0).val % 1024 = (y 0).val; omega)
    | ⟨1, _⟩ => exact Fin.ext (by show (i 1).val % 256 = (y 1).val; omega)
  show tile2 V c (tileOf (i 1).val) (inTile (i 0).val (i 1).val) = tile2 V c t y
  rw [ht, hy]

/-- A tile `X` put back at point `t` is block `t` of any array `G` that agrees with it on the tile's columns. -/
theorem cut2_8_eq_read (t : Fin cfg2.N) (X : Vec F S1024x256 .f32) (G : Vec F S1024x1024 .f32)
    (h : ∀ (y : S1024x256.Idx) (i : S1024x1024.Idx), (i 0).val = (y 0).val → (i 1).val = 256 * t.val + (y 1).val →
      G i = X y) :
    (cfg2.win 8).cut (grid2.coords t) X = ((cfg2.win 8).blk t).view.read (Elt F) G := by
  funext y
  rw [View.read_apply]
  obtain ⟨e0, e1⟩ := idx2_8 t
  have h0 : ((((cfg2.win 8).blk t).view.emb y) 0).val = (y 0).val := by
    show win2_8.index t (0 : Fin 2) * 1024 + 1 * (y 0).val = (y 0).val; rw [e0]; omega
  have h1 : ((((cfg2.win 8).blk t).view.emb y) 1).val = 256 * t.val + (y 1).val := by
    show win2_8.index t (1 : Fin 2) * 256 + 1 * (y 1).val = 256 * t.val + (y 1).val; rw [e1]; omega
  exact (h y (((cfg2.win 8).blk t).view.emb y) h0 h1).symm

/-- What point `t` writes back is block `t` of `G2`. -/
theorem flushed2_8_eq (c : Dev nD) (t : Fin cfg2.N) :
    (dat2 V c).flushed 8 t = ((cfg2.win 8).blk t).view.read (Elt F) (G2 V c) := by
  show (cfg2.win 8).cut (grid2.coords t) ((dat2 V c).after 8 t) = _
  rw [after2_8_tile]
  exact cut2_8_eq_read t (tile2 V c t) (G2 V c) (fun y i hi0 hi1 => G2_apply V c t y i hi0 hi1)

/-- An index of the output array is in point `t`'s block iff each coordinate is in the block's range on its axis. -/
theorem mem_blk2_8 (t : Fin cfg2.N) (i : S1024x1024.Idx) :
    i ∈ ((cfg2.win 8).blk t).view.set ↔ ∀ a : Fin 2, win2_8.index t a * S1024x256.size a ≤ (i a).val
      ∧ (i a).val < win2_8.index t a * S1024x256.size a + S1024x256.size a := by
  show i ∈ ((View.whole main_v5).slice (win2_8.rect t)).set ↔ _
  rw [View.set_slice_whole, Rect.mem_set_unit]
  exact Iff.rfl

/-- Every index of the output array is in the block of its lane's point. -/
theorem cover2_8_arr (i : S1024x1024.Idx) :
    ∃ t : Fin cfg2.N, (cfg2.win 8).flush t = true ∧ i ∈ ((cfg2.win 8).blk t).view.set := by
  refine ⟨tileOf (i 1).val, flush2_8 _, ?_⟩
  rw [mem_blk2_8]
  obtain ⟨e0, e1⟩ := idx2_8 (tileOf (i 1).val)
  have h0 : (i 0).val < 1024 := (i 0).isLt
  have h1 : (i 1).val < 1024 := (i 1).isLt
  have ht : (tileOf (i 1).val).val = (i 1).val / 256 % 4 := rfl
  intro a
  match a with
  | ⟨0, _⟩ =>
    show win2_8.index (tileOf (i 1).val) (0 : Fin 2) * 1024 ≤ (i 0).val
      ∧ (i 0).val < win2_8.index (tileOf (i 1).val) (0 : Fin 2) * 1024 + 1024
    rw [e0]; omega
  | ⟨1, _⟩ =>
    show win2_8.index (tileOf (i 1).val) (1 : Fin 2) * 256 ≤ (i 1).val
      ∧ (i 1).val < win2_8.index (tileOf (i 1).val) (1 : Fin 2) * 256 + 256
    rw [e1, ht]; omega

/-- THE OUTPUT ARRAY AFTER THE CALL is `G2` of the entry contents. -/
theorem final2_8 (c : Dev nD) : (dat2 V c).arrAt 8 cfg2.N = G2 V c :=
  (dat2 V c).arrAt_eq_of_cover 8 (G2 V c) (fun t _ => flushed2_8_eq V c t) cover2_8_arr

/-! ## The input arrays after the call -/

/-- An input's array is never written back: it ends as the call found it. -/
theorem arrAt2_in (c : Dev nD) (w : Fin cfg2.W) (hin : (cfg2.win w).isOut = false) :
    (dat2 V c).arrAt w cfg2.N = V c (Pipeline.arrRef spec2 w) :=
  ((dat2 V c).arrAt_in w hin _).trans (A_eq2 V c w)
theorem arrAt2_0 (c : Dev nD) : (dat2 V c).arrAt 0 cfg2.N = V c (Pipeline.arrRef spec2 0) := arrAt2_in V c 0 rfl
theorem arrAt2_1 (c : Dev nD) : (dat2 V c).arrAt 1 cfg2.N = V c (Pipeline.arrRef spec2 1) := arrAt2_in V c 1 rfl
theorem arrAt2_2 (c : Dev nD) : (dat2 V c).arrAt 2 cfg2.N = V c (Pipeline.arrRef spec2 2) := arrAt2_in V c 2 rfl
theorem arrAt2_3 (c : Dev nD) : (dat2 V c).arrAt 3 cfg2.N = V c (Pipeline.arrRef spec2 3) := arrAt2_in V c 3 rfl
theorem arrAt2_4 (c : Dev nD) : (dat2 V c).arrAt 4 cfg2.N = V c (Pipeline.arrRef spec2 4) := arrAt2_in V c 4 rfl
theorem arrAt2_5 (c : Dev nD) : (dat2 V c).arrAt 5 cfg2.N = V c (Pipeline.arrRef spec2 5) := arrAt2_in V c 5 rfl
theorem arrAt2_6 (c : Dev nD) : (dat2 V c).arrAt 6 cfg2.N = V c (Pipeline.arrRef spec2 6) := arrAt2_in V c 6 rfl
theorem arrAt2_7 (c : Dev nD) : (dat2 V c).arrAt 7 cfg2.N = V c (Pipeline.arrRef spec2 7) := arrAt2_in V c 7 rfl

end Cert.KernelIdeal.Hand

end
-- ==== Proof.KernelIdeal.Conv1Array.lean ====
/-
  The first call, from blocks to arrays.

  The call runs on a 2 x 2 grid; the point with coordinates (c0, c1) has number t = 2 c0 + c1 and works on column tile
  t, lanes 256 t … 256 t + 255 of the 1024. Here

  * the input blocks are read as the parts of their arrays they are: the input rows whole (`iblk0_0_eq`), block t of the
    two weight arrays their columns 256 t … 256 t + 255 (`iblk0_1_apply`, `iblk0_2_apply`);
  * each of the three output arrays after the call is ONE function of the entry contents: the two pre-activations at
    (row, lane) are the tile of the lane's point read at (row, lane mod 256) (`G0_3`, `G0_4`, `final0_3`, `final0_4`);
    the statistics array at (c0, c1, a, l) is the block of the point with coordinates (c0, c1) read at (0, 0, a, l)
    (`G0_5`, `final0_5`) — the points' blocks tile each array and each point writes its own block back;
  * the tiles with their one whole-block store and whole-block loads removed (`tile0_3_eq` … `tile0_5_eq`): payloads
    of the whole input and of the point's weight tiles, the payloads themselves kept folded;
  * the three input arrays end as the call found them (`arrAt0_0` … `arrAt0_2`).
-/
import proofs.«151177_g2000001997577596_pallasbulk_1280_5_alg».proof.Proof.KernelIdeal.Conv1Data
import proofs.«151177_g2000001997577596_pallasbulk_1280_5_alg».proof.Proof.KernelIdeal.FinalArray
import Idealize.ShloMosaic.Lib.Pipeline.Value
import Idealize.ShloMosaic.Lib.ValueIdxCoords
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The index maps over the grid -/

theorem idx0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx0_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem idx0_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
theorem idx0_5 : ∀ t : Fin cfg0.N, win0_5.index t (0 : Fin 4) = t.val / 2 ∧ win0_5.index t (1 : Fin 4) = t.val % 2
    ∧ win0_5.index t (2 : Fin 4) = 0 ∧ win0_5.index t (3 : Fin 4) = 0 :=
  (by decide +kernel : ∀ t : Fin grid0.N, win0_5.index t (0 : Fin 4) = t.val / 2 ∧ win0_5.index t (1 : Fin 4) = t.val % 2
    ∧ win0_5.index t (2 : Fin 4) = 0 ∧ win0_5.index t (3 : Fin 4) = 0)

/-! ## The input blocks as parts of their arrays -/

/-- Window 0's block is its whole array, at every point. -/
theorem iblk0_0_eq (c : Dev nD) (t : Fin cfg0.N) :
    (iblk0 V c 0 t : Vec F S1024x1024 .bf16) = V c (Pipeline.arrRef spec0 0) := by
  have hz' : (fun a => win0_0.index t a * main_v2.ty.shape.size a) = fun _ => 0 :=
    funext fun a => by rw [idx0_0 t a]; exact Nat.zero_mul _
  exact Memref.read_access_unit_zero (Elt F) main_v2 hz' (fun a => by rw [congrFun hz' a]; simp) (V c main_v2)

/-- Window 1's block at point `t` is columns `256 t … 256 t + 255` of its array. -/
theorem iblk0_1_apply (c : Dev nD) (t : Fin cfg0.N) (y : S3072x256.Idx) (k : S3072x1024.Idx)
    (hk0 : (k 0).val = (y 0).val) (hk1 : (k 1).val = 256 * t.val + (y 1).val) :
    (iblk0 V c 1 t : Vec F S3072x256 .bf16) y = (V c (Pipeline.arrRef spec0 1) : Vec F S3072x1024 .bf16) k := by
  unfold iblk0
  rw [View.read_apply]
  refine congrArg (V c (Pipeline.arrRef spec0 1)) ?_
  funext a
  apply Fin.ext
  obtain ⟨e0, e1⟩ := idx0_1 t
  match a with
  | ⟨0, _⟩ => show win0_1.index t (0 : Fin 2) * 3072 + 1 * (y 0).val = (k 0).val; rw [e0, hk0]; omega
  | ⟨1, _⟩ => show win0_1.index t (1 : Fin 2) * 256 + 1 * (y 1).val = (k 1).val; rw [e1, hk1]; omega

/-- Window 2's block at point `t` is columns `256 t … 256 t + 255` of its array. -/
theorem iblk0_2_apply (c : Dev nD) (t : Fin cfg0.N) (y : S1024x256.Idx) (k : S1024x1024.Idx)
    (hk0 : (k 0).val = (y 0).val) (hk1 : (k 1).val = 256 * t.val + (y 1).val) :
    (iblk0 V c 2 t : Vec F S1024x256 .bf16) y = (V c (Pipeline.arrRef spec0 2) : Vec F S1024x1024 .bf16) k := by
  unfold iblk0
  rw [View.read_apply]
  refine congrArg (V c (Pipeline.arrRef spec0 2)) ?_
  funext a
  apply Fin.ext
  obtain ⟨e0, e1⟩ := idx0_2 t
  match a with
  | ⟨0, _⟩ => show win0_2.index t (0 : Fin 2) * 1024 + 1 * (y 0).val = (k 0).val; rw [e0, hk0]; omega
  | ⟨1, _⟩ => show win0_2.index t (1 : Fin 2) * 256 + 1 * (y 1).val = (k 1).val; rw [e1, hk1]; omega

/-- The grid point whose column tile holds lane `l` of the 1024 lanes (the remainder only makes it total). -/
def tileOf0 (l : Nat) : Fin cfg0.N :=
  ⟨l / 256 % 4, by rw [show cfg0.N = 4 from N_0]; omega⟩

/-- The grid point with coordinates (a, b): number 2 a + b (the remainder only makes it total). -/
def pointOf0 (a b : Nat) : Fin cfg0.N :=
  ⟨(2 * a + b) % 4, by rw [show cfg0.N = 4 from N_0]; omega⟩

/-! ## Output window 3: the first convolution's pre-activation -/

/-- The tile the body leaves in window 3's buffer at point `t`, from the call's entry contents. -/
def tile0_3 (c : Dev nD) (t : Fin cfg0.N) : Vec F S1024x256 .bf16 :=
  out0_3 (lhs0 (iblk0 V c 0 t)) (iblk0 V c 1 t)

theorem after0_3_tile (c : Dev nD) (t : Fin cfg0.N) : (dat0 V c).after 3 t = tile0_3 V c t := by
  rw [after0_3]; rfl

/-- THE ARRAY of window 3 after the call, as one function of the entry contents: at (row, lane) the tile of the
    lane's point, read at the row and at the lane inside the tile. -/
def G0_3 (c : Dev nD) : Vec F S1024x1024 .bf16 :=
  fun i => tile0_3 V c (tileOf0 (i 1).val) (inTile (i 0).val (i 1).val)

/-- `G0_3` at the array index under tile `t`'s local index `y`. -/
theorem G0_3_apply (c : Dev nD) (t : Fin cfg0.N) (y : S1024x256.Idx) (i : S1024x1024.Idx)
    (hi0 : (i 0).val = (y 0).val) (hi1 : (i 1).val = 256 * t.val + (y 1).val) :
    G0_3 V c i = tile0_3 V c t y := by
  have hy0 : (y 0).val < 1024 := (y 0).isLt
  have hy1 : (y 1).val < 256 := (y 1).isLt
  have htN : t.val < 4 := by have h := t.isLt; have e : cfg0.N = 4 := N_0; omega
  have ht : tileOf0 (i 1).val = t := Fin.ext (by show (i 1).val / 256 % 4 = t.val; omega)
  have hy : inTile (i 0).val (i 1).val = y := by
    funext a
    match a with
    | ⟨0, _⟩ => exact Fin.ext (by show (i 0).val % 1024 = (y 0).val; omega)
    | ⟨1, _⟩ => exact Fin.ext (by show (i 1).val % 256 = (y 1).val; omega)
  show tile0_3 V c (tileOf0 (i 1).val) (inTile (i 0).val (i 1).val) = tile0_3 V c t y
  rw [ht, hy]

/-- A tile `X` put back at point `t` is block `t` of any array `G` that agrees with it on the tile's columns. -/
theorem cut0_3_eq_read (t : Fin cfg0.N) (X : Vec F S1024x256 .bf16) (G : Vec F S1024x1024 .bf16)
    (h : ∀ (y : S1024x256.Idx) (i : S1024x1024.Idx), (i 0).val = (y 0).val → (i 1).val = 256 * t.val + (y 1).val →
      G i = X y) :
    (cfg0.win 3).cut (grid0.coords t) X = ((cfg0.win 3).blk t).view.read (Elt F) G := by
  funext y
  rw [View.read_apply]
  obtain ⟨e0, e1⟩ := idx0_3 t
  have h0 : ((((cfg0.win 3).blk t).view.emb y) 0).val = (y 0).val := by
    show win0_3.index t (0 : Fin 2) * 1024 + 1 * (y 0).val = (y 0).val; rw [e0]; omega
  have h1 : ((((cfg0.win 3).blk t).view.emb y) 1).val = 256 * t.val + (y 1).val := by
    show win0_3.index t (1 : Fin 2) * 256 + 1 * (y 1).val = 256 * t.val + (y 1).val; rw [e1]; omega
  exact (h y (((cfg0.win 3).blk t).view.emb y) h0 h1).symm

/-- What point `t` writes back is block `t` of `G0_3`. -/
theorem flushed0_3_eq (c : Dev nD) (t : Fin cfg0.N) :
    (dat0 V c).flushed 3 t = ((cfg0.win 3).blk t).view.read (Elt F) (G0_3 V c) := by
  show (cfg0.win 3).cut (grid0.coords t) ((dat0 V c).after 3 t) = _
  rw [after0_3_tile]
  exact cut0_3_eq_read t (tile0_3 V c t) (G0_3 V c) (fun y i hi0 hi1 => G0_3_apply V c t y i hi0 hi1)

/-- An index of the array is in point `t`'s block iff each coordinate is in the block's range on its axis. -/
theorem mem_blk0_3 (t : Fin cfg0.N) (i : S1024x1024.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v3_0).slice (win0_3.rect t)).set ↔ _
  rw [View.set_slice_whole, Rect.mem_set_unit]
  exact Iff.rfl

/-- Every index of the array is in the block of its lane's point. -/
theorem cover0_3_arr (i : S1024x1024.Idx) :
    ∃ t : Fin cfg0.N, (cfg0.win 3).flush t = true ∧ i ∈ ((cfg0.win 3).blk t).view.set := by
  refine ⟨tileOf0 (i 1).val, flush0_3 _, ?_⟩
  rw [mem_blk0_3]
  obtain ⟨e0, e1⟩ := idx0_3 (tileOf0 (i 1).val)
  have h0 : (i 0).val < 1024 := (i 0).isLt
  have h1 : (i 1).val < 1024 := (i 1).isLt
  have ht : (tileOf0 (i 1).val).val = (i 1).val / 256 % 4 := rfl
  intro a
  match a with
  | ⟨0, _⟩ =>
    show win0_3.index (tileOf0 (i 1).val) (0 : Fin 2) * 1024 ≤ (i 0).val
      ∧ (i 0).val < win0_3.index (tileOf0 (i 1).val) (0 : Fin 2) * 1024 + 1024
    rw [e0]; omega
  | ⟨1, _⟩ =>
    show win0_3.index (tileOf0 (i 1).val) (1 : Fin 2) * 256 ≤ (i 1).val
      ∧ (i 1).val < win0_3.index (tileOf0 (i 1).val) (1 : Fin 2) * 256 + 256
    rw [e1, ht]; omega

/-- THE ARRAY of window 3 AFTER THE CALL is `G0_3` of the entry contents. -/
theorem final0_3 (c : Dev nD) : (dat0 V c).arrAt 3 cfg0.N = G0_3 V c :=
  (dat0 V c).arrAt_eq_of_cover 3 (G0_3 V c) (fun t _ => flushed0_3_eq V c t) cover0_3_arr

/-! ## Output window 4: the 1x1 branch's pre-activation -/

/-- The tile the body leaves in window 4's buffer at point `t`, from the call's entry contents. -/
def tile0_4 (c : Dev nD) (t : Fin cfg0.N) : Vec F S1024x256 .bf16 :=
  out0_4 (iblk0 V c 0 t) (iblk0 V c 2 t)

theorem after0_4_tile (c : Dev nD) (t : Fin cfg0.N) : (dat0 V c).after 4 t = tile0_4 V c t := by
  rw [after0_4]; rfl

/-- THE ARRAY of window 4 after the call, as one function of the entry contents: at (row, lane) the tile of the
    lane's point, read at the row and at the lane inside the tile. -/
def G0_4 (c : Dev nD) : Vec F S1024x1024 .bf16 :=
  fun i => tile0_4 V c (tileOf0 (i 1).val) (inTile (i 0).val (i 1).val)

/-- `G0_4` at the array index under tile `t`'s local index `y`. -/
theorem G0_4_apply (c : Dev nD) (t : Fin cfg0.N) (y : S1024x256.Idx) (i : S1024x1024.Idx)
    (hi0 : (i 0).val = (y 0).val) (hi1 : (i 1).val = 256 * t.val + (y 1).val) :
    G0_4 V c i = tile0_4 V c t y := by
  have hy0 : (y 0).val < 1024 := (y 0).isLt
  have hy1 : (y 1).val < 256 := (y 1).isLt
  have htN : t.val < 4 := by have h := t.isLt; have e : cfg0.N = 4 := N_0; omega
  have ht : tileOf0 (i 1).val = t := Fin.ext (by show (i 1).val / 256 % 4 = t.val; omega)
  have hy : inTile (i 0).val (i 1).val = y := by
    funext a
    match a with
    | ⟨0, _⟩ => exact Fin.ext (by show (i 0).val % 1024 = (y 0).val; omega)
    | ⟨1, _⟩ => exact Fin.ext (by show (i 1).val % 256 = (y 1).val; omega)
  show tile0_4 V c (tileOf0 (i 1).val) (inTile (i 0).val (i 1).val) = tile0_4 V c t y
  rw [ht, hy]

/-- A tile `X` put back at point `t` is block `t` of any array `G` that agrees with it on the tile's columns. -/
theorem cut0_4_eq_read (t : Fin cfg0.N) (X : Vec F S1024x256 .bf16) (G : Vec F S1024x1024 .bf16)
    (h : ∀ (y : S1024x256.Idx) (i : S1024x1024.Idx), (i 0).val = (y 0).val → (i 1).val = 256 * t.val + (y 1).val →
      G i = X y) :
    (cfg0.win 4).cut (grid0.coords t) X = ((cfg0.win 4).blk t).view.read (Elt F) G := by
  funext y
  rw [View.read_apply]
  obtain ⟨e0, e1⟩ := idx0_4 t
  have h0 : ((((cfg0.win 4).blk t).view.emb y) 0).val = (y 0).val := by
    show win0_4.index t (0 : Fin 2) * 1024 + 1 * (y 0).val = (y 0).val; rw [e0]; omega
  have h1 : ((((cfg0.win 4).blk t).view.emb y) 1).val = 256 * t.val + (y 1).val := by
    show win0_4.index t (1 : Fin 2) * 256 + 1 * (y 1).val = 256 * t.val + (y 1).val; rw [e1]; omega
  exact (h y (((cfg0.win 4).blk t).view.emb y) h0 h1).symm

/-- What point `t` writes back is block `t` of `G0_4`. -/
theorem flushed0_4_eq (c : Dev nD) (t : Fin cfg0.N) :
    (dat0 V c).flushed 4 t = ((cfg0.win 4).blk t).view.read (Elt F) (G0_4 V c) := by
  show (cfg0.win 4).cut (grid0.coords t) ((dat0 V c).after 4 t) = _
  rw [after0_4_tile]
  exact cut0_4_eq_read t (tile0_4 V c t) (G0_4 V c) (fun y i hi0 hi1 => G0_4_apply V c t y i hi0 hi1)

/-- An index of the array is in point `t`'s block iff each coordinate is in the block's range on its axis. -/
theorem mem_blk0_4 (t : Fin cfg0.N) (i : S1024x1024.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v3_1).slice (win0_4.rect t)).set ↔ _
  rw [View.set_slice_whole, Rect.mem_set_unit]
  exact Iff.rfl

/-- Every index of the array is in the block of its lane's point. -/
theorem cover0_4_arr (i : S1024x1024.Idx) :
    ∃ t : Fin cfg0.N, (cfg0.win 4).flush t = true ∧ i ∈ ((cfg0.win 4).blk t).view.set := by
  refine ⟨tileOf0 (i 1).val, flush0_4 _, ?_⟩
  rw [mem_blk0_4]
  obtain ⟨e0, e1⟩ := idx0_4 (tileOf0 (i 1).val)
  have h0 : (i 0).val < 1024 := (i 0).isLt
  have h1 : (i 1).val < 1024 := (i 1).isLt
  have ht : (tileOf0 (i 1).val).val = (i 1).val / 256 % 4 := rfl
  intro a
  match a with
  | ⟨0, _⟩ =>
    show win0_4.index (tileOf0 (i 1).val) (0 : Fin 2) * 1024 ≤ (i 0).val
      ∧ (i 0).val < win0_4.index (tileOf0 (i 1).val) (0 : Fin 2) * 1024 + 1024
    rw [e0]; omega
  | ⟨1, _⟩ =>
    show win0_4.index (tileOf0 (i 1).val) (1 : Fin 2) * 256 ≤ (i 1).val
      ∧ (i 1).val < win0_4.index (tileOf0 (i 1).val) (1 : Fin 2) * 256 + 256
    rw [e1, ht]; omega

/-- THE ARRAY of window 4 AFTER THE CALL is `G0_4` of the entry contents. -/
theorem final0_4 (c : Dev nD) : (dat0 V c).arrAt 4 cfg0.N = G0_4 V c :=
  (dat0 V c).arrAt_eq_of_cover 4 (G0_4 V c) (fun t _ => flushed0_4_eq V c t) cover0_4_arr

/-! ## Output window 5: the partial column statistics -/

/-- The index inside one point's statistics block of row `a`, lane `l`. -/
def inStat0 (a l : Nat) : S1x1x4x256.Idx :=
  ix4 (⟨0, Nat.one_pos⟩ : Fin 1) (⟨0, Nat.one_pos⟩ : Fin 1) ⟨a % 4, Nat.mod_lt _ (by decide)⟩ ⟨l % 256, Nat.mod_lt _ (by decide)⟩

/-- The statistics block the body leaves in window 5's buffer at point `t`, from the call's entry contents. -/
def tile0_5 (c : Dev nD) (t : Fin cfg0.N) : Vec F S1x1x4x256 .f32 :=
  out0_5 (lhs0 (iblk0 V c 0 t)) (iblk0 V c 1 t) (iblk0 V c 0 t) (iblk0 V c 2 t)

theorem after0_5_tile (c : Dev nD) (t : Fin cfg0.N) : (dat0 V c).after 5 t = tile0_5 V c t := by
  rw [after0_5]; rfl

/-- THE ARRAY of window 5 after the call, as one function of the entry contents: at (c0, c1, a, l) the block of the
    point with coordinates (c0, c1), read at (0, 0, a, l). -/
def G0_5 (c : Dev nD) : Vec F S2x2x4x256 .f32 :=
  fun i => tile0_5 V c (pointOf0 (i 0).val (i 1).val) (inStat0 (i 2).val (i 3).val)

/-- `G0_5` at the array index under point `t`'s local index `y`. -/
theorem G0_5_apply (c : Dev nD) (t : Fin cfg0.N) (y : S1x1x4x256.Idx) (i : S2x2x4x256.Idx)
    (hi0 : (i 0).val = t.val / 2) (hi1 : (i 1).val = t.val % 2) (hi2 : (i 2).val = (y 2).val) (hi3 : (i 3).val = (y 3).val) :
    G0_5 V c i = tile0_5 V c t y := by
  have hy0 : (y 0).val < 1 := (y 0).isLt
  have hy1 : (y 1).val < 1 := (y 1).isLt
  have hy2 : (y 2).val < 4 := (y 2).isLt
  have hy3 : (y 3).val < 256 := (y 3).isLt
  have htN : t.val < 4 := by have h := t.isLt; have e : cfg0.N = 4 := N_0; omega
  have ht : pointOf0 (i 0).val (i 1).val = t := Fin.ext (by show (2 * (i 0).val + (i 1).val) % 4 = t.val; omega)
  have hy : inStat0 (i 2).val (i 3).val = y := by
    funext a
    match a with
    | ⟨0, _⟩ => exact Fin.ext (by show 0 = (y 0).val; omega)
    | ⟨1, _⟩ => exact Fin.ext (by show 0 = (y 1).val; omega)
    | ⟨2, _⟩ => exact Fin.ext (by show (i 2).val % 4 = (y 2).val; omega)
    | ⟨3, _⟩ => exact Fin.ext (by show (i 3).val % 256 = (y 3).val; omega)
  show tile0_5 V c (pointOf0 (i 0).val (i 1).val) (inStat0 (i 2).val (i 3).val) = tile0_5 V c t y
  rw [ht, hy]

/-- A block `X` put back at point `t` is block `t` of any array `G` that agrees with it at the point's coordinates. -/
theorem cut0_5_eq_read (t : Fin cfg0.N) (X : Vec F S1x1x4x256 .f32) (G : Vec F S2x2x4x256 .f32)
    (h : ∀ (y : S1x1x4x256.Idx) (i : S2x2x4x256.Idx), (i 0).val = t.val / 2 → (i 1).val = t.val % 2 →
      (i 2).val = (y 2).val → (i 3).val = (y 3).val → G i = X y) :
    (cfg0.win 5).cut (grid0.coords t) X = ((cfg0.win 5).blk t).view.read (Elt F) G := by
  funext y
  rw [View.read_apply]
  obtain ⟨e0, e1, e2, e3⟩ := idx0_5 t
  have hy0 : (y 0).val < 1 := (y 0).isLt
  have hy1 : (y 1).val < 1 := (y 1).isLt
  have h0 : ((((cfg0.win 5).blk t).view.emb y) 0).val = t.val / 2 := by
    show win0_5.index t (0 : Fin 4) * 1 + 1 * (y 0).val = t.val / 2; rw [e0]; omega
  have h1 : ((((cfg0.win 5).blk t).view.emb y) 1).val = t.val % 2 := by
    show win0_5.index t (1 : Fin 4) * 1 + 1 * (y 1).val = t.val % 2; rw [e1]; omega
  have h2 : ((((cfg0.win 5).blk t).view.emb y) 2).val = (y 2).val := by
    show win0_5.index t (2 : Fin 4) * 4 + 1 * (y 2).val = (y 2).val; rw [e2]; omega
  have h3 : ((((cfg0.win 5).blk t).view.emb y) 3).val = (y 3).val := by
    show win0_5.index t (3 : Fin 4) * 256 + 1 * (y 3).val = (y 3).val; rw [e3]; omega
  exact (h y (((cfg0.win 5).blk t).view.emb y) h0 h1 h2 h3).symm

/-- What point `t` writes back is block `t` of `G0_5`. -/
theorem flushed0_5_eq (c : Dev nD) (t : Fin cfg0.N) :
    (dat0 V c).flushed 5 t = ((cfg0.win 5).blk t).view.read (Elt F) (G0_5 V c) := by
  show (cfg0.win 5).cut (grid0.coords t) ((dat0 V c).after 5 t) = _
  rw [after0_5_tile]
  exact cut0_5_eq_read t (tile0_5 V c t) (G0_5 V c)
    (fun y i hi0 hi1 hi2 hi3 => G0_5_apply V c t y i hi0 hi1 hi2 hi3)

/-- An index of the array is in point `t`'s block iff each coordinate is in the block's range on its axis. -/
theorem mem_blk0_5 (t : Fin cfg0.N) (i : S2x2x4x256.Idx) :
    i ∈ ((cfg0.win 5).blk t).view.set ↔ ∀ a : Fin 4, win0_5.index t a * S1x1x4x256.size a ≤ (i a).val
      ∧ (i a).val < win0_5.index t a * S1x1x4x256.size a + S1x1x4x256.size a := by
  show i ∈ ((View.whole main_v3_2).slice (win0_5.rect t)).set ↔ _
  rw [View.set_slice_whole, Rect.mem_set_unit]
  exact Iff.rfl

/-- Every index of the array is in the block of the point its first two coordinates name. -/
theorem cover0_5_arr (i : S2x2x4x256.Idx) :
    ∃ t : Fin cfg0.N, (cfg0.win 5).flush t = true ∧ i ∈ ((cfg0.win 5).blk t).view.set := by
  refine ⟨pointOf0 (i 0).val (i 1).val, flush0_5 _, ?_⟩
  rw [mem_blk0_5]
  obtain ⟨e0, e1, e2, e3⟩ := idx0_5 (pointOf0 (i 0).val (i 1).val)
  have h0 : (i 0).val < 2 := (i 0).isLt
  have h1 : (i 1).val < 2 := (i 1).isLt
  have h2 : (i 2).val < 4 := (i 2).isLt
  have h3 : (i 3).val < 256 := (i 3).isLt
  have ht : (pointOf0 (i 0).val (i 1).val).val = (2 * (i 0).val + (i 1).val) % 4 := rfl
  intro a
  match a with
  | ⟨0, _⟩ =>
    show win0_5.index (pointOf0 (i 0).val (i 1).val) (0 : Fin 4) * 1 ≤ (i 0).val
      ∧ (i 0).val < win0_5.index (pointOf0 (i 0).val (i 1).val) (0 : Fin 4) * 1 + 1
    rw [e0, ht]; omega
  | ⟨1, _⟩ =>
    show win0_5.index (pointOf0 (i 0).val (i 1).val) (1 : Fin 4) * 1 ≤ (i 1).val
      ∧ (i 1).val < win0_5.index (pointOf0 (i 0).val (i 1).val) (1 : Fin 4) * 1 + 1
    rw [e1, ht]; omega
  | ⟨2, _⟩ =>
    show win0_5.index (pointOf0 (i 0).val (i 1).val) (2 : Fin 4) * 4 ≤ (i 2).val
      ∧ (i 2).val < win0_5.index (pointOf0 (i 0).val (i 1).val) (2 : Fin 4) * 4 + 4
    rw [e2]; omega
  | ⟨3, _⟩ =>
    show win0_5.index (pointOf0 (i 0).val (i 1).val) (3 : Fin 4) * 256 ≤ (i 3).val
      ∧ (i 3).val < win0_5.index (pointOf0 (i 0).val (i 1).val) (3 : Fin 4) * 256 + 256
    rw [e3]; omega

/-- THE ARRAY of window 5 AFTER THE CALL is `G0_5` of the entry contents. -/
theorem final0_5 (c : Dev nD) : (dat0 V c).arrAt 5 cfg0.N = G0_5 V c :=
  (dat0 V c).arrAt_eq_of_cover 5 (G0_5 V c) (fun t _ => flushed0_5_eq V c t) cover0_5_arr

/-! ## The input arrays after the call -/

/-- An input's array is never written back: it ends as the call found it. -/
theorem arrAt0_in (c : Dev nD) (w : Fin cfg0.W) (hin : (cfg0.win w).isOut = false) :
    (dat0 V c).arrAt w cfg0.N = V c (Pipeline.arrRef spec0 w) :=
  ((dat0 V c).arrAt_in w hin _).trans (A_eq0 V c w)
theorem arrAt0_0 (c : Dev nD) : (dat0 V c).arrAt 0 cfg0.N = V c (Pipeline.arrRef spec0 0) := arrAt0_in V c 0 rfl
theorem arrAt0_1 (c : Dev nD) : (dat0 V c).arrAt 1 cfg0.N = V c (Pipeline.arrRef spec0 1) := arrAt0_in V c 1 rfl
theorem arrAt0_2 (c : Dev nD) : (dat0 V c).arrAt 2 cfg0.N = V c (Pipeline.arrRef spec0 2) := arrAt0_in V c 2 rfl

/-! ## The tiles with the one whole-block store and the whole-block loads removed -/

theorem zero4_0 : (![0, 0, 0, 0] : Fin 4 → Nat) = fun _ => 0 := by
  funext a; match a with | ⟨0, _⟩ => rfl | ⟨1, _⟩ => rfl | ⟨2, _⟩ => rfl | ⟨3, _⟩ => rfl

/-- The pre-activation tile is the product payload of the operand built from the whole input and the weight tile. -/
theorem tile0_3_eq (c : Dev nD) (t : Fin cfg0.N) :
    tile0_3 V c t = k0_pay4 (lhs0 (V c (Pipeline.arrRef spec0 0))) (iblk0 V c 1 t) := by
  unfold tile0_3 out0_3
  rw [View.canon_unit_zero (S := S1024x256) zero2_0, View.ld_unit_zero (S := S3072x256) zero2_0, iblk0_0_eq]

/-- The 1x1 branch's tile is the product payload of the whole input and the branch's weight tile. -/
theorem tile0_4_eq (c : Dev nD) (t : Fin cfg0.N) :
    tile0_4 V c t = k0_pay5 (V c (Pipeline.arrRef spec0 0)) (iblk0 V c 2 t) := by
  unfold tile0_4 out0_4
  rw [View.canon_unit_zero (S := S1024x256) zero2_0, View.ld_unit_zero (S := S1024x1024) zero2_0,
    View.ld_unit_zero (S := S1024x256) zero2_0, iblk0_0_eq]

/-- The statistics block is the statistics payload of the same operands. -/
theorem tile0_5_eq (c : Dev nD) (t : Fin cfg0.N) :
    tile0_5 V c t = k0_pay6 (lhs0 (V c (Pipeline.arrRef spec0 0))) (iblk0 V c 1 t) (V c (Pipeline.arrRef spec0 0)) (iblk0 V c 2 t) := by
  unfold tile0_5 out0_5
  rw [View.canon_unit_zero (S := S1x1x4x256) zero4_0, View.ld_unit_zero (S := S3072x256) zero2_0,
    View.ld_unit_zero (S := S1024x1024) zero2_0, View.ld_unit_zero (S := S1024x256) zero2_0, iblk0_0_eq]

end Cert.KernelIdeal.Hand

end
-- ==== Proof.Taps.lean ====
/-
  The three-tap operand: rows above, the rows themselves, rows below.

  A 3 x 3 convolution over rows that hold 32 images of 32 rows each, 1024 rows in all, is computed as one matrix
  product: the operand's row r is laid out as three pieces side by side,

      [ row r - 1 (or zeros when r is the first row of its image) | row r | row r + 1 (or zeros when r is the last) ],

  3 * 1024 lanes in all.  The neighbouring rows are brought in by rotating the whole array along the row axis (by 1,
  and by 1023 = -1 modulo 1024), and the rows that would come from another image are cancelled by multiplying with a
  column of zeros and ones: 1 where r mod 32 is not 0 (resp. not 31), 0 elsewhere.  The column is computed from the
  row number: r AND 31 = r mod 32, compared with 0 (resp. 31), the one-bit answer widened and converted.

  This module reads each of these operations at an index, over the extended reals, and then the whole construction
  (tapsOf).  It mentions no program: both sides of an equivalence use it.
-/
import Idealize.ShloMosaic.Lib.KernelVsHost
import Idealize.ShloMosaic.Lib.ValueLayout

open scoped BigOperators
open Idealize.ShloMosaic Idealize.ShloMosaic.ValueIdx

namespace Cert.Proof.Taps

/-! ## A rotation along the rows -/

/-- A rotation of the rows by sb, read at row r and lane k, is the operand at row r - sb around the end, same lane. -/
theorem rotate0_read {α : Type} {m n : ℕ} (hm : 0 < m) (sb : BitVec 32) (s : (⟨2, ![m, n]⟩ : Shape).Idx → α)
    (h : (⟨2, ![m, n]⟩ : Shape).Rotates 0 none) (r : Fin m) (k : Fin n) :
    dynamicRotate 0 sb none s h (ix2 r k) = s (ix2 ⟨(r.val + m - sb.toNat % m) % m, Nat.mod_lt _ hm⟩ k) :=
  dynamicRotate_apply (0 : Fin 2) sb s h (ix2 r k) (ix2 ⟨(r.val + m - sb.toNat % m) % m, Nat.mod_lt _ hm⟩ k) (by
    intro b
    match b with
    | ⟨0, _⟩ => rfl
    | ⟨1, _⟩ => rfl)

/-- The row above r, around the end: row r + 1023 modulo 1024. -/
abbrev rowUp (r : Fin 1024) : Fin 1024 := ⟨(r.val + 1023) % 1024, Nat.mod_lt _ (by decide)⟩
/-- The row below r, around the end: row r + 1 modulo 1024. -/
abbrev rowDn (r : Fin 1024) : Fin 1024 := ⟨(r.val + 1) % 1024, Nat.mod_lt _ (by decide)⟩

/-- Rotating 1024 rows by 1 brings row r - 1 (around the end) to row r. -/
theorem rotate_by_1 {α : Type} {n : ℕ} (s : (⟨2, ![1024, n]⟩ : Shape).Idx → α)
    (h : (⟨2, ![1024, n]⟩ : Shape).Rotates 0 none) (r : Fin 1024) (k : Fin n) :
    dynamicRotate 0 1#32 none s h (ix2 r k) = s (ix2 (rowUp r) k) :=
  (rotate0_read (by decide) 1#32 s h r k).trans (congrArg s (congrArg (fun a => ix2 a k) (Fin.ext (by
    show (r.val + 1024 - 1 % 1024) % 1024 = (r.val + 1023) % 1024
    omega))))

/-- Rotating 1024 rows by 1023 brings row r + 1 (around the end) to row r. -/
theorem rotate_by_1023 {α : Type} {n : ℕ} (s : (⟨2, ![1024, n]⟩ : Shape).Idx → α)
    (h : (⟨2, ![1024, n]⟩ : Shape).Rotates 0 none) (r : Fin 1024) (k : Fin n) :
    dynamicRotate 0 1023#32 none s h (ix2 r k) = s (ix2 (rowDn r) k) :=
  (rotate0_read (by decide) 1023#32 s h r k).trans (congrArg s (congrArg (fun a => ix2 a k) (Fin.ext (by
    show (r.val + 1024 - 1023 % 1024) % 1024 = (r.val + 1) % 1024
    omega))))

/-! ## The column of zeros and ones -/

/-- The word r AND 31 is the word of r mod 32, for a row number r below 2^32. -/
theorem and31 (r : ℕ) (hr : r < 4294967296) : IntOp.andi (BitVec.ofNat 32 r) 31#32 = BitVec.ofNat 32 (r % 32) := by
  apply BitVec.eq_of_toNat_eq
  show (BitVec.ofNat 32 r &&& 31#32).toNat = (BitVec.ofNat 32 (r % 32)).toNat
  rw [BitVec.toNat_and, BitVec.toNat_ofNat, BitVec.toNat_ofNat, BitVec.toNat_ofNat]
  have h31 : (31 : ℕ) % 2 ^ 32 = 2 ^ 5 - 1 := by decide
  rw [h31, Nat.and_two_pow_sub_one_eq_mod]
  omega

/-- "r mod 32 differs from c" as a one-bit word, widened to 32 bits and read as a signed integer, is 1 or 0. -/
theorem maskInt (r : ℕ) (hr : r < 4294967296) (c : BitVec 32) (hc : c.toNat < 32) :
    ((IntOp.cmpi .ne (IntOp.andi (BitVec.ofNat 32 r) 31#32) c).setWidth 32).toInt = if r % 32 ≠ c.toNat then 1 else 0 := by
  rw [and31 r hr]
  have hne : (BitVec.ofNat 32 (r % 32) != c) = decide (r % 32 ≠ c.toNat) := by
    by_cases e : r % 32 = c.toNat
    · have : BitVec.ofNat 32 (r % 32) = c := by
        apply BitVec.eq_of_toNat_eq
        rw [BitVec.toNat_ofNat, e]
        omega
      simp [this, e]
    · have : BitVec.ofNat 32 (r % 32) ≠ c := by
        intro h
        apply e
        rw [← h, BitVec.toNat_ofNat]
        omega
      simp [this, e]
  show ((BitVec.ofBool (BitVec.ofNat 32 (r % 32) != c)).setWidth 32).toInt = _
  rw [hne]
  by_cases e : r % 32 = c.toNat
  · simp [e]
  · simp [e]

/-- THE COLUMN AT A ROW, in single precision: iota along the rows, AND 31, "differs from c", widened, converted. -/
theorem mask_read (c : BitVec 32) (hc : c.toNat < 32) (hi : (⟨2, ![1024, 1]⟩ : Shape).Iotas .tc 32 [0]) (hlt : 1 < 32)
    (r : Fin 1024) (u : Fin 1) :
    (sitofp .f32 (extui 32 (cmpi .ne (andi (iota .tc ⟨2, ![1024, 1]⟩ 32 [0] hi) (broadcast ⟨2, ![1024, 1]⟩ 31#32))
        (broadcast ⟨2, ![1024, 1]⟩ c)) hlt) : FVec Ideal ⟨2, ![1024, 1]⟩ .f32) (ix2 r u)
      = if r.val % 32 ≠ c.toNat then 1 else 0 := by
  show (((IntOp.cmpi .ne (IntOp.andi (iota .tc ⟨2, ![1024, 1]⟩ 32 [0] hi (ix2 r u)) 31#32) c).setWidth 32).toInt : ℝ)
      = (_ : EReal)
  rw [iota_single_apply .tc ⟨2, ![1024, 1]⟩ 32 (0 : Fin 2) hi (ix2 r u)]
  show (((IntOp.cmpi .ne (IntOp.andi (BitVec.ofNat 32 r.val) 31#32) c).setWidth 32).toInt : ℝ) = (_ : EReal)
  rw [maskInt r.val (by have := r.isLt; omega) c hc]
  by_cases e : r.val % 32 = c.toNat
  · simp [e]
  · simp [e]

/-- The same column after a narrowing format change (the identity on extended reals): the half-precision spelling. -/
theorem mask_trunc_read {ψ : FTy} (hψ : ψ.bits < FTy.bits .f32) (c : BitVec 32) (hc : c.toNat < 32)
    (hi : (⟨2, ![1024, 1]⟩ : Shape).Iotas .tc 32 [0]) (hlt : 1 < 32) (r : Fin 1024) (u : Fin 1) :
    (truncf ψ (sitofp .f32 (extui 32 (cmpi .ne (andi (iota .tc ⟨2, ![1024, 1]⟩ 32 [0] hi) (broadcast ⟨2, ![1024, 1]⟩ 31#32))
        (broadcast ⟨2, ![1024, 1]⟩ c)) hlt) : FVec Ideal ⟨2, ![1024, 1]⟩ .f32) hψ : FVec Ideal ⟨2, ![1024, 1]⟩ ψ) (ix2 r u)
      = if r.val % 32 ≠ c.toNat then 1 else 0 :=
  mask_read c hc hi hlt r u

/-! ## A column broadcast along the lanes -/

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Three pieces side by side -/

/-- Three [m, n] pieces side by side along the lanes, read in the FIRST piece. -/
theorem concat3_read0 {α : Type} {m n N : ℕ} (x0 x1 x2 : (⟨2, ![m, n]⟩ : Shape).Idx → α)
    (h : Shape.Concatenates [(⟨2, ![m, n]⟩ : Shape), ⟨2, ![m, n]⟩, ⟨2, ![m, n]⟩] ⟨2, ![m, N]⟩ 1)
    (r : Fin m) (K : Fin N) (k : Fin n) (hk : k.val = K.val) :
    concatenate ⟨2, ![m, N]⟩ 1 [⟨⟨2, ![m, n]⟩, x0⟩, ⟨⟨2, ![m, n]⟩, x1⟩, ⟨⟨2, ![m, n]⟩, x2⟩] h (ix2 r K) = x0 (ix2 r k) :=
  concatenate_apply_piece (t := ⟨2, ![m, N]⟩) (1 : Fin 2) [⟨⟨2, ![m, n]⟩, x0⟩, ⟨⟨2, ![m, n]⟩, x1⟩, ⟨⟨2, ![m, n]⟩, x2⟩] h (ix2 r K) 0 (by show 0 < 3; decide) ⟨2, ![m, n]⟩ x0 rfl rfl 0 rfl (ix2 r k)
    (by
      intro b hb
      match b with
      | ⟨0, _⟩ => rfl
      | ⟨1, _⟩ => exact absurd rfl hb)
    (by show 0 + k.val = K.val; omega)

/-- … in the SECOND piece: lanes n to 2 n - 1. -/
theorem concat3_read1 {α : Type} {m n N : ℕ} (x0 x1 x2 : (⟨2, ![m, n]⟩ : Shape).Idx → α)
    (h : Shape.Concatenates [(⟨2, ![m, n]⟩ : Shape), ⟨2, ![m, n]⟩, ⟨2, ![m, n]⟩] ⟨2, ![m, N]⟩ 1)
    (r : Fin m) (K : Fin N) (k : Fin n) (hk : n + k.val = K.val) :
    concatenate ⟨2, ![m, N]⟩ 1 [⟨⟨2, ![m, n]⟩, x0⟩, ⟨⟨2, ![m, n]⟩, x1⟩, ⟨⟨2, ![m, n]⟩, x2⟩] h (ix2 r K) = x1 (ix2 r k) :=
  concatenate_apply_piece (t := ⟨2, ![m, N]⟩) (1 : Fin 2) [⟨⟨2, ![m, n]⟩, x0⟩, ⟨⟨2, ![m, n]⟩, x1⟩, ⟨⟨2, ![m, n]⟩, x2⟩] h (ix2 r K) 1 (by show 1 < 3; decide) ⟨2, ![m, n]⟩ x1 rfl rfl n rfl (ix2 r k)
    (by
      intro b hb
      match b with
      | ⟨0, _⟩ => rfl
      | ⟨1, _⟩ => exact absurd rfl hb)
    (by show n + k.val = K.val; omega)

/-- … in the THIRD piece: lanes 2 n to 3 n - 1. -/
theorem concat3_read2 {α : Type} {m n N : ℕ} (x0 x1 x2 : (⟨2, ![m, n]⟩ : Shape).Idx → α)
    (h : Shape.Concatenates [(⟨2, ![m, n]⟩ : Shape), ⟨2, ![m, n]⟩, ⟨2, ![m, n]⟩] ⟨2, ![m, N]⟩ 1)
    (r : Fin m) (K : Fin N) (k : Fin n) (hk : n + n + k.val = K.val) :
    concatenate ⟨2, ![m, N]⟩ 1 [⟨⟨2, ![m, n]⟩, x0⟩, ⟨⟨2, ![m, n]⟩, x1⟩, ⟨⟨2, ![m, n]⟩, x2⟩] h (ix2 r K) = x2 (ix2 r k) :=
  concatenate_apply_piece (t := ⟨2, ![m, N]⟩) (1 : Fin 2) [⟨⟨2, ![m, n]⟩, x0⟩, ⟨⟨2, ![m, n]⟩, x1⟩, ⟨⟨2, ![m, n]⟩, x2⟩] h (ix2 r K) 2 (by show 2 < 3; decide) ⟨2, ![m, n]⟩ x2 rfl rfl (n + n) rfl (ix2 r k)
    (by
      intro b hb
      match b with
      | ⟨0, _⟩ => rfl
      | ⟨1, _⟩ => exact absurd rfl hb)
    (by show n + n + k.val = K.val; omega)

/-! ## The three-tap operand -/

/-- THE THREE-TAP OPERAND of a 1024 x 1024 array v, as a function of the row r and the lane K < 3072: the row above
    (zero on an image's first row) in lanes 0 to 1023, the row itself in lanes 1024 to 2047, the row below (zero on an
    image's last row) in lanes 2048 to 3071. -/
noncomputable def tapsOf (v : Fin 1024 → Fin 1024 → EReal) (r : Fin 1024) (K : Fin 3072) : EReal :=
  if h0 : K.val < 1024 then
    v (rowUp r) ⟨K.val, h0⟩ * (if r.val % 32 ≠ 0 then 1 else 0)
  else if h1 : K.val < 2048 then
    v r ⟨K.val - 1024, by omega⟩
  else
    v (rowDn r) ⟨K.val - 2048, by omega⟩ * (if r.val % 32 ≠ 31 then 1 else 0)

/-- THE CONSTRUCTION READ AT AN INDEX.  For an array x and two columns mUp, mDn that read [r mod 32 ≠ 0] and
    [r mod 32 ≠ 31] at row r, the concatenation of (x rotated by 1) * mUp, x, (x rotated by 1023) * mDn is the
    three-tap operand of x. -/
theorem taps_read {φ : FTy} (x : FVec Ideal ⟨2, ![1024, 1024]⟩ φ) (mUp mDn : FVec Ideal ⟨2, ![1024, 1]⟩ φ)
    (hrot : (⟨2, ![1024, 1024]⟩ : Shape).Rotates 0 none)
    (hb : (⟨2, ![1024, 1]⟩ : Shape).Broadcasts ⟨2, ![1024, 1024]⟩)
    (hc : Shape.Concatenates [(⟨2, ![1024, 1024]⟩ : Shape), ⟨2, ![1024, 1024]⟩, ⟨2, ![1024, 1024]⟩] ⟨2, ![1024, 3072]⟩ 1)
    (hUp : ∀ (r : Fin 1024) (u : Fin 1), mUp (ix2 r u) = if r.val % 32 ≠ 0 then 1 else 0)
    (hDn : ∀ (r : Fin 1024) (u : Fin 1), mDn (ix2 r u) = if r.val % 32 ≠ 31 then 1 else 0)
    (r : Fin 1024) (K : Fin 3072) :
    (concatenate ⟨2, ![1024, 3072]⟩ 1
        [⟨⟨2, ![1024, 1024]⟩, mulf (dynamicRotate 0 1#32 none x hrot) (broadcastTo ⟨2, ![1024, 1024]⟩ mUp hb)⟩,
         ⟨⟨2, ![1024, 1024]⟩, x⟩,
         ⟨⟨2, ![1024, 1024]⟩, mulf (dynamicRotate 0 1023#32 none x hrot) (broadcastTo ⟨2, ![1024, 1024]⟩ mDn hb)⟩] hc
      : FVec Ideal ⟨2, ![1024, 3072]⟩ φ) (ix2 r K)
      = tapsOf (fun a b => x (ix2 a b)) r K := by
  unfold tapsOf
  by_cases h0 : K.val < 1024
  · rw [dif_pos h0]
    refine (concat3_read0 _ _ _ hc r K ⟨K.val, h0⟩ rfl).trans ?_
    refine (mulf_apply _ _ _).trans ?_
    exact congrArg₂ (· * ·) (rotate_by_1 x hrot r ⟨K.val, h0⟩)
      ((broadcastTo_a1_ab_apply mUp hb r ⟨K.val, h0⟩).trans (hUp r 0))
  · rw [dif_neg h0]
    by_cases h1 : K.val < 2048
    · rw [dif_pos h1]
      exact concat3_read1 _ _ _ hc r K ⟨K.val - 1024, by omega⟩ (by show 1024 + (K.val - 1024) = K.val; omega)
    · rw [dif_neg h1]
      have hK : K.val - 2048 < 1024 := by have := K.isLt; omega
      refine (concat3_read2 _ _ _ hc r K ⟨K.val - 2048, hK⟩ (by show 1024 + 1024 + (K.val - 2048) = K.val; omega)).trans ?_
      refine (mulf_apply _ _ _).trans ?_
      exact congrArg₂ (· * ·) (rotate_by_1023 x hrot r ⟨K.val - 2048, hK⟩)
        ((broadcastTo_a1_ab_apply mDn hb r ⟨K.val - 2048, hK⟩).trans (hDn r 0))

end Cert.Proof.Taps
-- ==== Proof.KernelIdeal.ConvRead.lean ====
/-
  The kernel's convolution operands and matrix products read at an index, at the ideal instance.

  Each 3 x 3 convolution is one matrix product of the three-tap operand (row above | row | row below, 3072 lanes; see
  the module on the three-tap operand) with a 3072-row weight matrix, computed one 256-column tile at a time.
-/
import proofs.«151177_g2000001997577596_pallasbulk_1280_5_alg».proof.Proof.Gen.KernelIdeal.Skeleton
import proofs.«151177_g2000001997577596_pallasbulk_1280_5_alg».proof.Proof.Taps
import Idealize.ShloMosaic.Lib.ValueLayout

open scoped BigOperators
open Idealize.ShloMosaic Idealize.ShloMosaic.ValueIdx Cert.Proof.Taps

namespace Cert.KernelIdeal.ConvRead

open Cert.KernelIdeal Cert.KernelIdeal.Gen

/-! ## The first convolution's operand -/

/-- The operand the first call stores: the three-tap operand of the input rows. -/
theorem k0_pay1_apply (v30 : Vec Ideal S1024x1024 .bf16) (r : Fin 1024) (K : Fin 3072) :
    k0_pay1 (F := Ideal) v30 (ix2 r K) = tapsOf (fun a b => v30 (ix2 a b)) r K := by
  unfold k0_pay1
  refine (congrFun (shapeCast_self _ shapeCasts_S1024x3072_S1024x3072) (ix2 r K)).trans ?_
  refine (taps_read (φ := .bf16) (shapeCast S1024x1024 v30 shapeCasts_S1024x1024_S1024x1024) _ _
    rotates_S1024x1024_d0 broadcasts_S1024x1_S1024x1024 concatenates_S1024x1024_S1024x1024_S1024x1024_S1024x3072_d1
    (fun r u => mask_trunc_read bitsLt_bf16_f32 0#32 (by decide) iota_S1024x1_d0_w32 natLt_1_32 r u)
    (fun r u => mask_trunc_read bitsLt_bf16_f32 31#32 (by decide) iota_S1024x1_d0_w32 natLt_1_32 r u) r K).trans ?_
  rw [shapeCast_self]

/-! ## The matrix products -/

/-- THE 3072-DEEP PRODUCT at an index: row r of the operand against column l of the weight tile. -/
theorem matmul3072_apply (A : FVec Ideal S1024x3072 .bf16) (B : FVec Ideal S3072x256 .bf16) (r : Fin 1024) (l : Fin 256) :
    FloatOps.matmul dot_S1024x3072_S3072x256_S1024x256_1_0_0_1_n_n none A B (constant (F := Ideal) S1024x256 .f32 0x00000000#32) (ix2 r l)
      = ∑ k : Fin 3072, A (ix2 r k) * B (ix2 k l) := by
  refine (Ideal.matmul_constant_zero_apply dot_S1024x3072_S3072x256_S1024x256_1_0_0_1_n_n none A B (ix2 r l)).trans ?_
  rw [← Equiv.sum_comp (contrEquiv1 dot_S1024x3072_S3072x256_S1024x256_1_0_0_1_n_n 3072 rfl rfl).symm]
  refine Finset.sum_congr rfl fun c _ => ?_
  have c2 := contrEquiv1_symm_val dot_S1024x3072_S3072x256_S1024x256_1_0_0_1_n_n 3072 rfl rfl c
  have l2 : dot_S1024x3072_S3072x256_S1024x256_1_0_0_1_n_n.lhsIdx (ix2 r l)
      ((contrEquiv1 dot_S1024x3072_S3072x256_S1024x256_1_0_0_1_n_n 3072 rfl rfl).symm c) = ix2 r c := by
    funext ax; apply Fin.ext
    match ax with
    | ⟨0, _⟩ => simp [DotDims.lhsIdx, dot_S1024x3072_S3072x256_S1024x256_1_0_0_1_n_n]; rfl
    | ⟨1, _⟩ => simp [DotDims.lhsIdx, dot_S1024x3072_S3072x256_S1024x256_1_0_0_1_n_n]; exact c2
  have r2 : dot_S1024x3072_S3072x256_S1024x256_1_0_0_1_n_n.rhsIdx (ix2 r l)
      ((contrEquiv1 dot_S1024x3072_S3072x256_S1024x256_1_0_0_1_n_n 3072 rfl rfl).symm c) = ix2 c l := by
    funext ax; apply Fin.ext
    match ax with
    | ⟨0, _⟩ => simp [DotDims.rhsIdx, dot_S1024x3072_S3072x256_S1024x256_1_0_0_1_n_n]; exact c2
    | ⟨1, _⟩ => simp [DotDims.rhsIdx, dot_S1024x3072_S3072x256_S1024x256_1_0_0_1_n_n]; rfl
  rw [l2, r2]

/-- The first convolution's product (before the format change). -/
theorem k0_pay2_apply (v3 : Vec Ideal S1024x3072 .bf16) (v4 : Vec Ideal S3072x256 .bf16) (r : Fin 1024) (l : Fin 256) :
    k0_pay2 (F := Ideal) v3 v4 (ix2 r l) = ∑ k : Fin 3072, v3 (ix2 r k) * v4 (ix2 k l) := by
  unfold k0_pay2
  exact matmul3072_apply v3 v4 r l

/-- THE 1024-DEEP PRODUCT at an index (the 1 x 1 convolution of the identity branch): row r against column l. -/
theorem matmul1024_apply (A : FVec Ideal S1024x1024 .bf16) (B : FVec Ideal S1024x256 .bf16) (r : Fin 1024) (l : Fin 256) :
    FloatOps.matmul dot_S1024x1024_S1024x256_S1024x256_1_0_0_1_n_n none A B (constant (F := Ideal) S1024x256 .f32 0x00000000#32) (ix2 r l)
      = ∑ k : Fin 1024, A (ix2 r k) * B (ix2 k l) := by
  refine (Ideal.matmul_constant_zero_apply dot_S1024x1024_S1024x256_S1024x256_1_0_0_1_n_n none A B (ix2 r l)).trans ?_
  rw [← Equiv.sum_comp (contrEquiv1 dot_S1024x1024_S1024x256_S1024x256_1_0_0_1_n_n 1024 rfl rfl).symm]
  refine Finset.sum_congr rfl fun c _ => ?_
  have c2 := contrEquiv1_symm_val dot_S1024x1024_S1024x256_S1024x256_1_0_0_1_n_n 1024 rfl rfl c
  have l2 : dot_S1024x1024_S1024x256_S1024x256_1_0_0_1_n_n.lhsIdx (ix2 r l)
      ((contrEquiv1 dot_S1024x1024_S1024x256_S1024x256_1_0_0_1_n_n 1024 rfl rfl).symm c) = ix2 r c := by
    funext ax; apply Fin.ext
    match ax with
    | ⟨0, _⟩ => simp [DotDims.lhsIdx, dot_S1024x1024_S1024x256_S1024x256_1_0_0_1_n_n]; rfl
    | ⟨1, _⟩ => simp [DotDims.lhsIdx, dot_S1024x1024_S1024x256_S1024x256_1_0_0_1_n_n]; exact c2
  have r2 : dot_S1024x1024_S1024x256_S1024x256_1_0_0_1_n_n.rhsIdx (ix2 r l)
      ((contrEquiv1 dot_S1024x1024_S1024x256_S1024x256_1_0_0_1_n_n 1024 rfl rfl).symm c) = ix2 c l := by
    funext ax; apply Fin.ext
    match ax with
    | ⟨0, _⟩ => simp [DotDims.rhsIdx, dot_S1024x1024_S1024x256_S1024x256_1_0_0_1_n_n]; exact c2
    | ⟨1, _⟩ => simp [DotDims.rhsIdx, dot_S1024x1024_S1024x256_S1024x256_1_0_0_1_n_n]; rfl
  rw [l2, r2]

/-- The identity branch's product (before the format change). -/
theorem k0_pay3_apply (v6 : Vec Ideal S1024x1024 .bf16) (v8 : Vec Ideal S1024x256 .bf16) (r : Fin 1024) (l : Fin 256) :
    k0_pay3 (F := Ideal) v6 v8 (ix2 r l) = ∑ k : Fin 1024, v6 (ix2 r k) * v8 (ix2 k l) := by
  unfold k0_pay3
  refine (matmul1024_apply (shapeCast S1024x1024 v6 shapeCasts_S1024x1024_S1024x1024) v8 r l).trans ?_
  rw [shapeCast_self]

/-- The first convolution's product as stored (the format change is the identity on extended reals). -/
theorem k0_pay4_apply (v3 : Vec Ideal S1024x3072 .bf16) (v4 : Vec Ideal S3072x256 .bf16) (r : Fin 1024) (l : Fin 256) :
    k0_pay4 (F := Ideal) v3 v4 (ix2 r l) = ∑ k : Fin 3072, v3 (ix2 r k) * v4 (ix2 k l) := by
  unfold k0_pay4
  exact k0_pay2_apply v3 v4 r l

/-- The identity branch's product as stored. -/
theorem k0_pay5_apply (v6 : Vec Ideal S1024x1024 .bf16) (v8 : Vec Ideal S1024x256 .bf16) (r : Fin 1024) (l : Fin 256) :
    k0_pay5 (F := Ideal) v6 v8 (ix2 r l) = ∑ k : Fin 1024, v6 (ix2 r k) * v8 (ix2 k l) := by
  unfold k0_pay5
  exact k0_pay3_apply v6 v8 r l

/-- The second convolution's product (before the format change). -/
theorem k1_pay2_apply (v3 : Vec Ideal S1024x3072 .bf16) (v4 : Vec Ideal S3072x256 .bf16) (r : Fin 1024) (l : Fin 256) :
    k1_pay2 (F := Ideal) v3 v4 (ix2 r l) = ∑ k : Fin 3072, v3 (ix2 r k) * v4 (ix2 k l) := by
  unfold k1_pay2
  exact matmul3072_apply v3 v4 r l

/-- The second convolution's product as stored. -/
theorem k1_pay3_apply (v3 : Vec Ideal S1024x3072 .bf16) (v4 : Vec Ideal S3072x256 .bf16) (r : Fin 1024) (l : Fin 256) :
    k1_pay3 (F := Ideal) v3 v4 (ix2 r l) = ∑ k : Fin 3072, v3 (ix2 r k) * v4 (ix2 k l) := by
  unfold k1_pay3
  exact k1_pay2_apply v3 v4 r l

/-! ## The second convolution's operand -/

/-- The first stage's output as the second call recomputes it: the stored product, normalised with the mean row m,
    the scale row s and the shift row t, clamped at zero. -/
noncomputable def act1 (v42 v48 : FVec Ideal S1x1024 .f32) (v50 : FVec Ideal S1024x1024 .bf16) (v56 : Vec Ideal S1x1024 .f32)
    (a b : Fin 1024) : EReal :=
  max ((v50 (ix2 a b) - v42 (ix2 (0 : Fin 1) b)) * v48 (ix2 (0 : Fin 1) b) + v56 (ix2 (0 : Fin 1) b))
    (Ideal.ofBits .f32 0x00000000#32)

/-- The operand the second call stores: the three-tap operand of the first stage's output. -/
theorem k1_pay1_apply (v42 v48 : FVec Ideal S1x1024 .f32) (v50 : FVec Ideal S1024x1024 .bf16) (v56 : Vec Ideal S1x1024 .f32)
    (r : Fin 1024) (K : Fin 3072) :
    k1_pay1 (F := Ideal) v42 v48 v50 v56 (ix2 r K) = tapsOf (act1 v42 v48 v50 v56) r K := by
  unfold k1_pay1
  refine (congrFun (shapeCast_self _ shapeCasts_S1024x3072_S1024x3072) (ix2 r K)).trans ?_
  refine (taps_read (φ := .bf16) _ _ _
    rotates_S1024x1024_d0 broadcasts_S1024x1_S1024x1024 concatenates_S1024x1024_S1024x1024_S1024x1024_S1024x3072_d1
    (fun r u => mask_trunc_read bitsLt_bf16_f32 0#32 (by decide) iota_S1024x1_d0_w32 natLt_1_32 r u)
    (fun r u => mask_trunc_read bitsLt_bf16_f32 31#32 (by decide) iota_S1024x1_d0_w32 natLt_1_32 r u) r K).trans ?_
  refine congrArg (fun f => tapsOf f r K) (funext fun a => funext fun b => ?_)
  show max ((v50 (ix2 a b) - broadcastTo S1024x1024 v42 broadcasts_S1x1024_S1024x1024 (ix2 a b))
        * broadcastTo S1024x1024 v48 broadcasts_S1x1024_S1024x1024 (ix2 a b)
        + broadcastTo S1024x1024 v56 broadcasts_S1x1024_S1024x1024 (ix2 a b)) (Ideal.ofBits .f32 0x00000000#32) = _
  unfold act1
  rw [broadcastTo_1b_ab_apply v42 broadcasts_S1x1024_S1024x1024 a b, broadcastTo_1b_ab_apply v48 broadcasts_S1x1024_S1024x1024 a b,
    broadcastTo_1b_ab_apply v56 broadcasts_S1x1024_S1024x1024 a b]

end Cert.KernelIdeal.ConvRead
-- ==== Proof.KernelIdeal.StatsTile.lean ====
/-
  The kernel's statistics tiles read at an index, at the ideal instance.

  Each grid step of the first call stores a tile of 4 rows of 256 lanes (with two leading unit axes): row 0 holds, lane by
  lane, the sum over the 1024 rows of the first matmul product's column, row 1 the sum of the squares of that column,
  rows 2 and 3 the same for the second product.  The second call stores the analogous 2-row tile of its one product.
  The tile is built by two levels of concatenation along the rows and a shape cast, all of which only move entries.
-/
import proofs.«151177_g2000001997577596_pallasbulk_1280_5_alg».proof.Proof.Gen.KernelIdeal.Skeleton
import Idealize.ShloMosaic.Lib.ValueLayout
import Idealize.ShloMosaic.PureOps.Ideal.Laws

open scoped BigOperators
open Idealize.ShloMosaic Idealize.ShloMosaic.ValueIdx

namespace Cert.KernelIdeal.StatsTile

open Cert.KernelIdeal Cert.KernelIdeal.Gen

/-! ## Layout operations at an index -/

/-- An [a, b] array cast to [1, 1, a, b] reads, at (u, u', i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one])

/-- Two blocks of m rows stacked: a row below m reads the first block. -/
theorem stack_lo {α : Type} {m n : ℕ} (x y : (⟨2, ![m, n]⟩ : Shape).Idx → α)
    (h : Shape.Concatenates [(⟨2, ![m, n]⟩ : Shape), ⟨2, ![m, n]⟩] ⟨2, ![m + m, n]⟩ 0) (i : Fin m) (l : Fin n) :
    concatenate ⟨2, ![m + m, n]⟩ 0 [⟨⟨2, ![m, n]⟩, x⟩, ⟨⟨2, ![m, n]⟩, y⟩] h (ix2 ⟨i.val, by omega⟩ l) = x (ix2 i l) :=
  concatenate_pair_apply_left (t := ⟨2, ![m + m, n]⟩) (0 : Fin 2) x y h (ix2 ⟨i.val, by omega⟩ l) rfl (ix2 i l) (fun b => by
    match b with
    | ⟨0, _⟩ => rfl
    | ⟨1, _⟩ => rfl)

/-- Two blocks of m rows stacked: row m + i reads row i of the second block. -/
theorem stack_hi {α : Type} {m n : ℕ} (x y : (⟨2, ![m, n]⟩ : Shape).Idx → α)
    (h : Shape.Concatenates [(⟨2, ![m, n]⟩ : Shape), ⟨2, ![m, n]⟩] ⟨2, ![m + m, n]⟩ 0) (i : Fin m) (l : Fin n) :
    concatenate ⟨2, ![m + m, n]⟩ 0 [⟨⟨2, ![m, n]⟩, x⟩, ⟨⟨2, ![m, n]⟩, y⟩] h (ix2 ⟨m + i.val, by omega⟩ l) = y (ix2 i l) :=
  concatenate_pair_apply_right (t := ⟨2, ![m + m, n]⟩) (0 : Fin 2) x y h (ix2 ⟨m + i.val, by omega⟩ l) rfl rfl (ix2 i l) (fun b hb => by
    match b with
    | ⟨0, _⟩ => exact absurd rfl hb
    | ⟨1, _⟩ => rfl) (by show i.val + m = m + i.val; omega)

/-- The sum over the 1024 rows of a 1024 x 256 array, lane by lane. -/
theorem colSum_apply (src : FVec Ideal S1024x256 .f32) (h : S1024x256.Reduces [0] S256) (hφ : FKind.Formats .f32)
    (hacc : (0x00000000#32 : BitVec FTy.f32.bits) = FKind.add.neutral .f32 hφ) (l : Fin 256) :
    multiReduction (F := Ideal) .add [0] S256 src 0x00000000#32 h hφ hacc (ix1 l) = ∑ k : Fin 1024, src (ix2 k l) := by
  refine (Ideal.multiReduction_add_single src 0x00000000#32 h hφ hacc (ix1 l)).trans ?_
  refine Finset.sum_congr rfl fun k _ => congrArg src ?_
  funext b
  match b with
  | ⟨0, _⟩ => exact Fin.ext rfl
  | ⟨1, _⟩ => exact Fin.ext rfl

/-! ## The first call's statistics tile -/

/-- Row 0: the column sums of the first product. -/
theorem k0_pay6_row0 (v3 : Vec Ideal S1024x3072 .bf16) (v4 : Vec Ideal S3072x256 .bf16) (v6 : Vec Ideal S1024x1024 .bf16)
    (v8 : Vec Ideal S1024x256 .bf16) (u u' : Fin 1) (l : Fin 256) :
    k0_pay6 (F := Ideal) v3 v4 v6 v8 (ix4 u u' (0 : Fin 4) l) = ∑ k : Fin 1024, k0_pay2 (F := Ideal) v3 v4 (ix2 k l) := by
  unfold k0_pay6
  refine (shapeCast_ab_11ab_apply _ _ u u' (0 : Fin 4) l).trans ?_
  refine (stack_lo (m := 2) _ _ _ (0 : Fin 2) l).trans ?_
  refine (stack_lo (m := 1) _ _ _ (0 : Fin 1) l).trans ?_
  refine (shapeCast_a_1a_apply _ _ (0 : Fin 1) l).trans ?_
  exact colSum_apply _ _ _ _ l

/-- Row 1: the column sums of the squares of the first product. -/
theorem k0_pay6_row1 (v3 : Vec Ideal S1024x3072 .bf16) (v4 : Vec Ideal S3072x256 .bf16) (v6 : Vec Ideal S1024x1024 .bf16)
    (v8 : Vec Ideal S1024x256 .bf16) (u u' : Fin 1) (l : Fin 256) :
    k0_pay6 (F := Ideal) v3 v4 v6 v8 (ix4 u u' (1 : Fin 4) l)
      = ∑ k : Fin 1024, k0_pay2 (F := Ideal) v3 v4 (ix2 k l) * k0_pay2 (F := Ideal) v3 v4 (ix2 k l) := by
  unfold k0_pay6
  refine (shapeCast_ab_11ab_apply _ _ u u' (1 : Fin 4) l).trans ?_
  refine (stack_lo (m := 2) _ _ _ (1 : Fin 2) l).trans ?_
  refine (stack_hi (m := 1) _ _ _ (0 : Fin 1) l).trans ?_
  refine (shapeCast_a_1a_apply _ _ (0 : Fin 1) l).trans ?_
  refine (colSum_apply _ _ _ _ l).trans ?_
  exact Finset.sum_congr rfl fun k _ => rfl

/-- Row 2: the column sums of the second product. -/
theorem k0_pay6_row2 (v3 : Vec Ideal S1024x3072 .bf16) (v4 : Vec Ideal S3072x256 .bf16) (v6 : Vec Ideal S1024x1024 .bf16)
    (v8 : Vec Ideal S1024x256 .bf16) (u u' : Fin 1) (l : Fin 256) :
    k0_pay6 (F := Ideal) v3 v4 v6 v8 (ix4 u u' (2 : Fin 4) l) = ∑ k : Fin 1024, k0_pay3 (F := Ideal) v6 v8 (ix2 k l) := by
  unfold k0_pay6
  refine (shapeCast_ab_11ab_apply _ _ u u' (2 : Fin 4) l).trans ?_
  refine (stack_hi (m := 2) _ _ _ (0 : Fin 2) l).trans ?_
  refine (stack_lo (m := 1) _ _ _ (0 : Fin 1) l).trans ?_
  refine (shapeCast_a_1a_apply _ _ (0 : Fin 1) l).trans ?_
  exact colSum_apply _ _ _ _ l

/-- Row 3: the column sums of the squares of the second product. -/
theorem k0_pay6_row3 (v3 : Vec Ideal S1024x3072 .bf16) (v4 : Vec Ideal S3072x256 .bf16) (v6 : Vec Ideal S1024x1024 .bf16)
    (v8 : Vec Ideal S1024x256 .bf16) (u u' : Fin 1) (l : Fin 256) :
    k0_pay6 (F := Ideal) v3 v4 v6 v8 (ix4 u u' (3 : Fin 4) l)
      = ∑ k : Fin 1024, k0_pay3 (F := Ideal) v6 v8 (ix2 k l) * k0_pay3 (F := Ideal) v6 v8 (ix2 k l) := by
  unfold k0_pay6
  refine (shapeCast_ab_11ab_apply _ _ u u' (3 : Fin 4) l).trans ?_
  refine (stack_hi (m := 2) _ _ _ (1 : Fin 2) l).trans ?_
  refine (stack_hi (m := 1) _ _ _ (0 : Fin 1) l).trans ?_
  refine (shapeCast_a_1a_apply _ _ (0 : Fin 1) l).trans ?_
  refine (colSum_apply _ _ _ _ l).trans ?_
  exact Finset.sum_congr rfl fun k _ => rfl

/-! ## The second call's statistics tile -/

/-- Row 0: the column sums of the second call's product. -/
theorem k1_pay4_row0 (v3 : Vec Ideal S1024x3072 .bf16) (v4 : Vec Ideal S3072x256 .bf16) (u u' : Fin 1) (l : Fin 256) :
    k1_pay4 (F := Ideal) v3 v4 (ix4 u u' (0 : Fin 2) l) = ∑ k : Fin 1024, k1_pay2 (F := Ideal) v3 v4 (ix2 k l) := by
  unfold k1_pay4
  refine (shapeCast_ab_11ab_apply _ _ u u' (0 : Fin 2) l).trans ?_
  refine (stack_lo (m := 1) _ _ _ (0 : Fin 1) l).trans ?_
  refine (shapeCast_a_1a_apply _ _ (0 : Fin 1) l).trans ?_
  exact colSum_apply _ _ _ _ l

/-- Row 1: the column sums of the squares of the second call's product. -/
theorem k1_pay4_row1 (v3 : Vec Ideal S1024x3072 .bf16) (v4 : Vec Ideal S3072x256 .bf16) (u u' : Fin 1) (l : Fin 256) :
    k1_pay4 (F := Ideal) v3 v4 (ix4 u u' (1 : Fin 2) l)
      = ∑ k : Fin 1024, k1_pay2 (F := Ideal) v3 v4 (ix2 k l) * k1_pay2 (F := Ideal) v3 v4 (ix2 k l) := by
  unfold k1_pay4
  refine (shapeCast_ab_11ab_apply _ _ u u' (1 : Fin 2) l).trans ?_
  refine (stack_hi (m := 1) _ _ _ (0 : Fin 1) l).trans ?_
  refine (shapeCast_a_1a_apply _ _ (0 : Fin 1) l).trans ?_
  refine (colSum_apply _ _ _ _ l).trans ?_
  exact Finset.sum_congr rfl fun k _ => rfl

end Cert.KernelIdeal.StatsTile
-- ==== Proof.StatsLaw.lean ====
/-
  The batch-normalisation statistics on the extended reals.

  A batch normalisation needs, per channel, the mean and the (biased) variance of a finite family of values.
  One program computes the variance as the mean of the squared deviations, E[(y - m)^2]; the other as
  E[y^2] - m^2.  Over the reals the two agree whenever the constant k that stands for "one over the number
  of values" really satisfies k * N = 1; over the extended reals they agree as soon as every value is finite,
  because then every intermediate quantity is the coercion of a real number and the real identity transfers.

  Everything here is stated with the constant on the right of the sum ("sum times k") and the mean on the right
  of the difference ("y minus mean"), which is how both programs spell these operations.
-/
import Idealize.ShloMosaic.PureOps.Ideal

open scoped BigOperators
open Idealize.ShloMosaic

namespace Cert.Proof.Stats

/-! ## Coercion of finite sums -/

/-- The coercion from the reals to the extended reals commutes with finite sums. -/
theorem coe_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real_of_finite {ι : Type*} (y : ι → EReal) (h : ∀ i, y i ≠ ⊤ ∧ y i ≠ ⊥) :
    ∃ r : ι → ℝ, y = fun i => (r i : EReal) :=
  ⟨fun i => (y i).toReal, funext fun i => (EReal.coe_toReal (h i).1 (h i).2).symm⟩

/-- The coercion of a family of reals has no infinite member. -/
theorem finite_of_real {ι : Type*} (r : ι → ℝ) (i : ι) :
    ((r i : ℝ) : EReal) ≠ ⊤ ∧ ((r i : ℝ) : EReal) ≠ ⊥ :=
  ⟨EReal.coe_ne_top _, EReal.coe_ne_bot _⟩

/-! ## The variance law over the reals -/

/-- Over the reals, with S the sum of the r i, m = S * k the mean and k * N = 1 (N the number of values):
    the mean of the squared deviations is the mean of the squares minus the squared mean. -/
theorem variance_real {ι : Type*} [Fintype ι] (r : ι → ℝ) (k : ℝ) (hk : k * (Fintype.card ι : ℝ) = 1) :
    (∑ i, (r i - (∑ j, r j) * k) * (r i - (∑ j, r j) * k)) * k
      = (∑ i, r i * r i) * k - ((∑ j, r j) * k) * ((∑ j, r j) * k) := by
  have hexp : ∀ i, (r i - (∑ j, r j) * k) * (r i - (∑ j, r j) * k)
      = r i * r i - (2 * ((∑ j, r j) * k)) * r i + ((∑ j, r j) * k) * ((∑ j, r j) * k) := fun i => by ring
  simp only [hexp]
  rw [Finset.sum_add_distrib, Finset.sum_sub_distrib, ← Finset.mul_sum, Finset.sum_const, Finset.card_univ,
    nsmul_eq_mul]
  linear_combination (((∑ j, r j) * k) * ((∑ j, r j) * k)) * hk

/-! ## The variance law over the extended reals -/

/-- THE VARIANCE LAW, for values given as coercions of reals.  With mean = (∑ y) * k:
    (∑ (y - mean) * (y - mean)) * k = (∑ y * y) * k - mean * mean,
    whenever k is (the coercion of) a real with k * N = 1. -/
theorem variance_coe {ι : Type*} [Fintype ι] (r : ι → ℝ) (k : ℝ) (hk : k * (Fintype.card ι : ℝ) = 1) :
    (∑ i, ((r i : EReal) - (∑ j, (r j : EReal)) * (k : EReal)) * ((r i : EReal) - (∑ j, (r j : EReal)) * (k : EReal)))
        * (k : EReal)
      = (∑ i, (r i : EReal) * (r i : EReal)) * (k : EReal)
        - ((∑ j, (r j : EReal)) * (k : EReal)) * ((∑ j, (r j : EReal)) * (k : EReal)) := by
  have h := congrArg (fun x : ℝ => (x : EReal)) (variance_real r k hk)
  simp only [EReal.coe_mul, EReal.coe_sub, coe_sum] at h
  exact h

/-- THE VARIANCE LAW, for values none of which is infinite; the constant is any extended real kE that is the
    coercion of a real k with k * N = 1. -/
theorem variance_law {ι : Type*} [Fintype ι] (y : ι → EReal) (hy : ∀ i, y i ≠ ⊤ ∧ y i ≠ ⊥)
    (kE : EReal) (k : ℝ) (hkE : kE = (k : EReal)) (hk : k * (Fintype.card ι : ℝ) = 1) :
    (∑ i, (y i - (∑ j, y j) * kE) * (y i - (∑ j, y j) * kE)) * kE
      = (∑ i, y i * y i) * kE - ((∑ j, y j) * kE) * ((∑ j, y j) * kE) := by
  obtain ⟨r, rfl⟩ := exists_real_of_finite y hy
  subst hkE
  exact variance_coe r k hk

/-! ## The same with the values indexed by a pair and summed one coordinate after the other -/

/-- THE VARIANCE LAW FOR ITERATED SUMS.  The values are indexed by a pair (a, b); every sum is the sum over a
    of the sums over b.  The constant must satisfy k * (number of a's * number of b's) = 1. -/
theorem variance_law₂ {α β : Type*} [Fintype α] [Fintype β] (y : α → β → EReal)
    (hy : ∀ a b, y a b ≠ ⊤ ∧ y a b ≠ ⊥)
    (kE : EReal) (k : ℝ) (hkE : kE = (k : EReal))
    (hk : k * ((Fintype.card α : ℝ) * (Fintype.card β : ℝ)) = 1) :
    (∑ a, ∑ b, (y a b - (∑ a', ∑ b', y a' b') * kE) * (y a b - (∑ a', ∑ b', y a' b') * kE)) * kE
      = (∑ a, ∑ b, y a b * y a b) * kE
        - ((∑ a', ∑ b', y a' b') * kE) * ((∑ a', ∑ b', y a' b') * kE) := by
  have h := variance_law (ι := α × β) (fun p => y p.1 p.2) (fun p => hy p.1 p.2) kE k hkE
    (by rw [Fintype.card_prod]; push_cast; exact hk)
  simp only [Fintype.sum_prod_type] at h
  exact h

/-! ## Finiteness is preserved -/

/-- A finite sum of coercions of reals is the coercion of the real sum (so it is finite). -/
theorem sum_coe_eq {ι : Type*} (s : Finset ι) (r : ι → ℝ) :
    ∑ i ∈ s, (r i : EReal) = ((∑ i ∈ s, r i : ℝ) : EReal) := (coe_sum s r).symm

/-- A finite sum of extended reals none of which is infinite is not infinite. -/
theorem sum_finite {ι : Type*} (s : Finset ι) (y : ι → EReal) (hy : ∀ i ∈ s, y i ≠ ⊤ ∧ y i ≠ ⊥) :
    ∑ i ∈ s, y i ≠ ⊤ ∧ ∑ i ∈ s, y i ≠ ⊥ := by
  have : ∑ i ∈ s, y i = ((∑ i ∈ s, (y i).toReal : ℝ) : EReal) := by
    rw [coe_sum]
    exact Finset.sum_congr rfl fun i hi => (EReal.coe_toReal (hy i hi).1 (hy i hi).2).symm
  rw [this]
  exact ⟨EReal.coe_ne_top _, EReal.coe_ne_bot _⟩

/-- An iterated finite sum of extended reals none of which is infinite is not infinite. -/
theorem sum₂_finite {α β : Type*} (s : Finset α) (t : Finset β) (y : α → β → EReal)
    (hy : ∀ a ∈ s, ∀ b ∈ t, y a b ≠ ⊤ ∧ y a b ≠ ⊥) :
    ∑ a ∈ s, ∑ b ∈ t, y a b ≠ ⊤ ∧ ∑ a ∈ s, ∑ b ∈ t, y a b ≠ ⊥ :=
  sum_finite s _ fun a ha => sum_finite t _ fun b hb => hy a ha b hb

/-- Products, sums and differences of two extended reals that are not infinite are not infinite. -/
theorem mul_finite {x y : EReal} (hx : x ≠ ⊤ ∧ x ≠ ⊥) (hy : y ≠ ⊤ ∧ y ≠ ⊥) : x * y ≠ ⊤ ∧ x * y ≠ ⊥ := by
  rw [← EReal.coe_toReal hx.1 hx.2, ← EReal.coe_toReal hy.1 hy.2, ← EReal.coe_mul]
  exact ⟨EReal.coe_ne_top _, EReal.coe_ne_bot _⟩

theorem add_finite {x y : EReal} (hx : x ≠ ⊤ ∧ x ≠ ⊥) (hy : y ≠ ⊤ ∧ y ≠ ⊥) : x + y ≠ ⊤ ∧ x + y ≠ ⊥ := by
  rw [← EReal.coe_toReal hx.1 hx.2, ← EReal.coe_toReal hy.1 hy.2, ← EReal.coe_add]
  exact ⟨EReal.coe_ne_top _, EReal.coe_ne_bot _⟩

theorem sub_finite {x y : EReal} (hx : x ≠ ⊤ ∧ x ≠ ⊥) (hy : y ≠ ⊤ ∧ y ≠ ⊥) : x - y ≠ ⊤ ∧ x - y ≠ ⊥ := by
  rw [← EReal.coe_toReal hx.1 hx.2, ← EReal.coe_toReal hy.1 hy.2, ← EReal.coe_sub]
  exact ⟨EReal.coe_ne_top _, EReal.coe_ne_bot _⟩

/-- The coercion of a real is not infinite. -/
theorem coe_finite (x : ℝ) : (x : EReal) ≠ ⊤ ∧ (x : EReal) ≠ ⊥ := ⟨EReal.coe_ne_top _, EReal.coe_ne_bot _⟩

/-- THE MEAN IS FINITE: with finite values and a real constant, (∑ y) * k is not infinite. -/
theorem mean_finite {ι : Type*} [Fintype ι] (y : ι → EReal) (hy : ∀ i, y i ≠ ⊤ ∧ y i ≠ ⊥) (k : ℝ) :
    (∑ i, y i) * (k : EReal) ≠ ⊤ ∧ (∑ i, y i) * (k : EReal) ≠ ⊥ :=
  mul_finite (sum_finite _ y fun i _ => hy i) (coe_finite k)

/-- THE VARIANCE IS FINITE, in the "mean of squares minus squared mean" form. -/
theorem var_finite {ι : Type*} [Fintype ι] (y : ι → EReal) (hy : ∀ i, y i ≠ ⊤ ∧ y i ≠ ⊥) (k : ℝ) :
    (∑ i, y i * y i) * (k : EReal) - ((∑ j, y j) * (k : EReal)) * ((∑ j, y j) * (k : EReal)) ≠ ⊤
      ∧ (∑ i, y i * y i) * (k : EReal) - ((∑ j, y j) * (k : EReal)) * ((∑ j, y j) * (k : EReal)) ≠ ⊥ :=
  sub_finite (mul_finite (sum_finite _ _ fun i _ => mul_finite (hy i) (hy i)) (coe_finite k))
    (mul_finite (mean_finite y hy k) (mean_finite y hy k))

/-- THE VARIANCE IS NONNEGATIVE (real form): the mean of squared deviations is ≥ 0 when k ≥ 0.  Useful for the
    reciprocal square root of variance + eps, which both programs take of the same quantity once the law is applied. -/
theorem var_real_nonneg {ι : Type*} [Fintype ι] (r : ι → ℝ) (m k : ℝ) (hk : 0 ≤ k) :
    0 ≤ (∑ i, (r i - m) * (r i - m)) * k :=
  mul_nonneg (Finset.sum_nonneg fun i _ => mul_self_nonneg _) hk

/-! ## The constant one over the number of values -/

/-- The 32-bit word 0x38000000 denotes 2^-15 = 1 / 32768. -/
theorem invM_word : Ideal.ofBits .f32 0x38000000#32 = (((1 : ℝ) / 32768 : ℝ) : EReal) := by
  simp [Ideal.ofBits, Ideal.ieee, -EReal.coe_mul]; norm_num

/-- 1 / 32768 times the number of values of a channel, 32 lane groups of 1024 rows, is 1. -/
theorem invM_card : ((1 : ℝ) / 32768) * (((Fintype.card (Fin 32) : ℕ) : ℝ) * ((Fintype.card (Fin 1024) : ℕ) : ℝ)) = 1 := by
  simp only [Fintype.card_fin]; norm_num

/-- The same with the two numbers written as literals. -/
theorem invM_card' : ((1 : ℝ) / 32768) * ((32 : ℝ) * (1024 : ℝ)) = 1 := by norm_num

end Cert.Proof.Stats
-- ==== Proof.StatsFinite.lean ====
/-
  Finiteness through a batch normalisation.

  The second normalisation of the network consumes the output of the first, so its variance law needs that output to be
  finite.  A normalised value is (z - mean) * (g * (1 / √(var + eps))) + b; it is finite as soon as z, mean, g, b are finite,
  var is finite and nonnegative and eps is finite and positive, because the reciprocal square root of a positive real is
  a real.  A variance in the "mean of squared deviations" form is nonnegative, being a nonnegative multiple of a sum of
  squares of reals.
-/
import proofs.«151177_g2000001997577596_pallasbulk_1280_5_alg».proof.Proof.StatsLaw

open scoped BigOperators
open Idealize.ShloMosaic

namespace Cert.Proof.Stats

/-- THE VARIANCE IS NONNEGATIVE (mean of squared deviations form), for finite values and a constant k ≥ 0. -/
theorem var_nonneg {ι : Type*} [Fintype ι] (y : ι → EReal) (hy : ∀ i, y i ≠ ⊤ ∧ y i ≠ ⊥)
    (kE : EReal) (k : ℝ) (hkE : kE = (k : EReal)) (hk0 : 0 ≤ k) :
    0 ≤ (∑ i, (y i - (∑ j, y j) * kE) * (y i - (∑ j, y j) * kE)) * kE := by
  obtain ⟨r, rfl⟩ := exists_real_of_finite y hy
  subst hkE
  have h : (((∑ i, (r i - (∑ j, r j) * k) * (r i - (∑ j, r j) * k)) * k : ℝ) : EReal)
      = (∑ i, ((r i : EReal) - (∑ j, (r j : EReal)) * (k : EReal))
          * ((r i : EReal) - (∑ j, (r j : EReal)) * (k : EReal))) * (k : EReal) := by
    simp only [EReal.coe_mul, EReal.coe_sub, coe_sum]
  rw [← h]
  exact EReal.coe_nonneg.2 (var_real_nonneg r _ k hk0)

/-- The same for values indexed by a pair and summed one coordinate after the other. -/
theorem var_nonneg₂ {α β : Type*} [Fintype α] [Fintype β] (y : α → β → EReal)
    (hy : ∀ a b, y a b ≠ ⊤ ∧ y a b ≠ ⊥) (kE : EReal) (k : ℝ) (hkE : kE = (k : EReal)) (hk0 : 0 ≤ k) :
    0 ≤ (∑ a, ∑ b, (y a b - (∑ a', ∑ b', y a' b') * kE) * (y a b - (∑ a', ∑ b', y a' b') * kE)) * kE := by
  have h := var_nonneg (ι := α × β) (fun p => y p.1 p.2) (fun p => hy p.1 p.2) kE k hkE hk0
  simp only [Fintype.sum_prod_type] at h
  exact h

/-- The reciprocal square root of x + e is finite when x is finite and nonnegative and e is finite and positive. -/
theorem rsqrt_finite (x e : EReal) (hx : x ≠ ⊤ ∧ x ≠ ⊥) (hx0 : 0 ≤ x) (he : e ≠ ⊤ ∧ e ≠ ⊥) (he0 : 0 < e) :
    Ideal.rsqrt (x + e) ≠ ⊤ ∧ Ideal.rsqrt (x + e) ≠ ⊥ := by
  lift x to ℝ using hx
  lift e to ℝ using he
  have ha : 0 ≤ x := EReal.coe_nonneg.1 hx0
  have hb : 0 < e := EReal.coe_pos.1 he0
  have hpos : 0 < x + e := by linarith
  rw [← EReal.coe_add, Ideal.rsqrt_coe, if_neg (not_lt.2 hpos.le), if_neg hpos.ne']
  exact ⟨EReal.coe_ne_top _, EReal.coe_ne_bot _⟩

/-- The 32-bit word 0x3727C5AC (the eps of the normalisation) denotes a positive extended real … -/
theorem eps_word_pos : 0 < Ideal.ofBits .f32 0x3727C5AC#32 := by
  simp [Ideal.ofBits, Ideal.ieee, -EReal.coe_mul]

/-- … that is finite. -/
theorem eps_word_finite : Ideal.ofBits .f32 0x3727C5AC#32 ≠ ⊤ ∧ Ideal.ofBits .f32 0x3727C5AC#32 ≠ ⊥ := by
  simp [Ideal.ofBits, Ideal.ieee, -EReal.coe_mul]

/-- The constant 1 / 32768 is finite and nonnegative, as an extended real. -/
theorem invM_word_finite : Ideal.ofBits .f32 0x38000000#32 ≠ ⊤ ∧ Ideal.ofBits .f32 0x38000000#32 ≠ ⊥ := by
  rw [invM_word]; exact coe_finite _

/-- The maximum of two finite extended reals is finite. -/
theorem max_finite {x y : EReal} (hx : x ≠ ⊤ ∧ x ≠ ⊥) (hy : y ≠ ⊤ ∧ y ≠ ⊥) : max x y ≠ ⊤ ∧ max x y ≠ ⊥ := by
  rcases max_choice x y with h | h <;> rw [h] <;> assumption

/-- Zero is finite. -/
theorem zero_finite : (0 : EReal) ≠ ⊤ ∧ (0 : EReal) ≠ ⊥ := ⟨EReal.zero_ne_top, EReal.zero_ne_bot⟩

/-- A NORMALISED VALUE IS FINITE: (z - mean) * (g * rsqrt (var + eps)) + b, with z, mean, g, b finite, var finite and
    nonnegative, eps finite and positive. -/
theorem bn_finite (z mean g b var eps : EReal) (hz : z ≠ ⊤ ∧ z ≠ ⊥) (hm : mean ≠ ⊤ ∧ mean ≠ ⊥) (hg : g ≠ ⊤ ∧ g ≠ ⊥)
    (hb : b ≠ ⊤ ∧ b ≠ ⊥) (hv : var ≠ ⊤ ∧ var ≠ ⊥) (hv0 : 0 ≤ var) (he : eps ≠ ⊤ ∧ eps ≠ ⊥) (he0 : 0 < eps) :
    (z - mean) * (g * Ideal.rsqrt (var + eps)) + b ≠ ⊤ ∧ (z - mean) * (g * Ideal.rsqrt (var + eps)) + b ≠ ⊥ :=
  add_finite (mul_finite (sub_finite hz hm) (mul_finite hg (rsqrt_finite var eps hv hv0 he he0))) hb

end Cert.Proof.Stats
-- ==== Proof.Spec.lean ====
/-
  The batch statistics of a 1024 x 1024 array of rows, as plain sums over the extended reals.

  A lane belongs to the channel given by its residue mod 32; a channel's statistics run over all 1024 rows and over the
  32 lanes of the channel. Both programs normalise with the channel mean and a channel variance; one takes the
  variance as the mean of squared deviations, the other as the mean of squares minus the squared mean. For entries
  none of which is infinite the two agree (the law of proof/Proof/StatsLaw.lean, summed over lanes and rows), and so
  do the normalised arrays.
-/
import proofs.«151177_g2000001997577596_pallasbulk_1280_5_alg».proof.Proof.StatsLaw
import proofs.«151177_g2000001997577596_pallasbulk_1280_5_alg».proof.Proof.StatsFinite

noncomputable section

namespace Cert.Proof.Spec

open Idealize.ShloMosaic Cert.Proof.Stats

/-- An extended real that is not infinite. -/
abbrev Fin' (x : EReal) : Prop := x ≠ ⊤ ∧ x ≠ ⊥

/-- 1 / (rows x lanes per channel), the programs' word. -/
def invM : EReal := Ideal.ofBits .f32 0x38000000#32
/-- The programs' epsilon word. -/
def epsW : EReal := Ideal.ofBits .f32 0x3727C5AC#32

theorem invM_eq : invM = (((1 : ℝ) / 32768 : ℝ) : EReal) := invM_word
theorem invM_fin : Fin' invM := invM_word_finite
theorem epsW_fin : Fin' epsW := eps_word_finite
theorem epsW_pos : 0 < epsW := eps_word_pos

/-- The `q`-th lane of lane `L`'s channel. -/
def chanLane (L : Fin 1024) (q : Fin 32) : Fin 1024 := ⟨L.val % 32 + 32 * q.val, by omega⟩

theorem chanLane_chanLane (L : Fin 1024) (q q' : Fin 32) : chanLane (chanLane L q) q' = chanLane L q' := by
  apply Fin.ext
  show (L.val % 32 + 32 * q.val) % 32 + 32 * q'.val = L.val % 32 + 32 * q'.val
  omega

/-- The sum of an array over a lane's channel: over the 32 lanes of the channel, and under each over the 1024 rows. -/
def chanSum (Y : Fin 1024 → Fin 1024 → EReal) (L : Fin 1024) : EReal := ∑ q : Fin 32, ∑ r : Fin 1024, Y r (chanLane L q)

theorem chanSum_chanLane (Y : Fin 1024 → Fin 1024 → EReal) (L : Fin 1024) (q : Fin 32) :
    chanSum Y (chanLane L q) = chanSum Y L := by
  unfold chanSum; simp only [chanLane_chanLane]

/-- The channel mean at a lane. -/
def meanOf (Y : Fin 1024 → Fin 1024 → EReal) (L : Fin 1024) : EReal := chanSum Y L * invM

theorem meanOf_chanLane (Y : Fin 1024 → Fin 1024 → EReal) (L : Fin 1024) (q : Fin 32) :
    meanOf Y (chanLane L q) = meanOf Y L := by
  unfold meanOf; rw [chanSum_chanLane]

/-- The channel variance as the mean of squares minus the squared mean. -/
def varSq (Y : Fin 1024 → Fin 1024 → EReal) (L : Fin 1024) : EReal :=
  chanSum (fun r l => Y r l * Y r l) L * invM - meanOf Y L * meanOf Y L

/-- The channel variance as the mean of squared deviations from the channel mean. -/
def varDev (Y : Fin 1024 → Fin 1024 → EReal) (L : Fin 1024) : EReal :=
  chanSum (fun r l => (Y r l - meanOf Y l) * (Y r l - meanOf Y l)) L * invM

/-- For entries none of which is infinite the two variances agree. -/
theorem varDev_eq_varSq (Y : Fin 1024 → Fin 1024 → EReal) (hY : ∀ r l, Fin' (Y r l)) (L : Fin 1024) :
    varDev Y L = varSq Y L := by
  unfold varDev varSq
  show (∑ q : Fin 32, ∑ r : Fin 1024, (Y r (chanLane L q) - meanOf Y (chanLane L q)) * (Y r (chanLane L q) - meanOf Y (chanLane L q))) * invM
      = (∑ q : Fin 32, ∑ r : Fin 1024, Y r (chanLane L q) * Y r (chanLane L q)) * invM - meanOf Y L * meanOf Y L
  simp only [meanOf_chanLane]
  exact variance_law₂ (fun q r => Y r (chanLane L q)) (fun q r => hY r _) invM ((1 : ℝ) / 32768) invM_eq invM_card

theorem chanSum_fin (Y : Fin 1024 → Fin 1024 → EReal) (hY : ∀ r l, Fin' (Y r l)) (L : Fin 1024) : Fin' (chanSum Y L) :=
  sum₂_finite _ _ _ fun q _ r _ => hY r _

theorem meanOf_fin (Y : Fin 1024 → Fin 1024 → EReal) (hY : ∀ r l, Fin' (Y r l)) (L : Fin 1024) : Fin' (meanOf Y L) :=
  mul_finite (chanSum_fin Y hY L) invM_fin

theorem varDev_nonneg (Y : Fin 1024 → Fin 1024 → EReal) (hY : ∀ r l, Fin' (Y r l)) (L : Fin 1024) : 0 ≤ varDev Y L := by
  unfold varDev
  show 0 ≤ (∑ q : Fin 32, ∑ r : Fin 1024, (Y r (chanLane L q) - meanOf Y (chanLane L q)) * (Y r (chanLane L q) - meanOf Y (chanLane L q))) * invM
  simp only [meanOf_chanLane]
  exact var_nonneg₂ (fun q r => Y r (chanLane L q)) (fun q r => hY r _) invM ((1 : ℝ) / 32768) invM_eq (by norm_num)

theorem varDev_fin (Y : Fin 1024 → Fin 1024 → EReal) (hY : ∀ r l, Fin' (Y r l)) (L : Fin 1024) : Fin' (varDev Y L) :=
  mul_finite (chanSum_fin _ (fun r l => mul_finite (sub_finite (hY r l) (meanOf_fin Y hY l)) (sub_finite (hY r l) (meanOf_fin Y hY l))) L) invM_fin

/-- A batch-normalised entry, with a given variance row. -/
def normed (var : Fin 1024 → EReal) (Y : Fin 1024 → Fin 1024 → EReal) (g b : Fin 1024 → EReal) (r L : Fin 1024) : EReal :=
  (Y r L - meanOf Y L) * (g L * Ideal.rsqrt (var L + epsW)) + b L

/-- Normalising with either variance gives the same array, for entries none of which is infinite. -/
theorem normed_varSq_eq (Y : Fin 1024 → Fin 1024 → EReal) (hY : ∀ r l, Fin' (Y r l)) (g b : Fin 1024 → EReal) (r L : Fin 1024) :
    normed (varSq Y) Y g b r L = normed (varDev Y) Y g b r L := by
  unfold normed; rw [varDev_eq_varSq Y hY L]

/-- A normalised entry is not infinite, when nothing that enters it is. -/
theorem normed_fin (Y : Fin 1024 → Fin 1024 → EReal) (hY : ∀ r l, Fin' (Y r l)) (g b : Fin 1024 → EReal)
    (hg : ∀ l, Fin' (g l)) (hb : ∀ l, Fin' (b l)) (r L : Fin 1024) : Fin' (normed (varDev Y) Y g b r L) :=
  bn_finite _ _ _ _ _ _ (hY r L) (meanOf_fin Y hY L) (hg L) (hb L) (varDev_fin Y hY L) (varDev_nonneg Y hY L) epsW_fin epsW_pos

/-- A matrix product's entry is not infinite, when no entry of either factor is. -/
theorem dot_fin {n : ℕ} (a b : Fin n → EReal) (ha : ∀ k, Fin' (a k)) (hb : ∀ k, Fin' (b k)) : Fin' (∑ k : Fin n, a k * b k) :=
  sum_finite _ _ fun k _ => mul_finite (ha k) (hb k)

end Cert.Proof.Spec

end
-- ==== Proof.Net.lean ====
/-
  The residual block as one function of its arrays, over the extended reals.

  From the input rows X (1024 x 1024), the two stacked three-tap weight matrices (3072 x 1024), the 1x1 weight matrix
  (1024 x 1024) and six affine rows: the first convolution is the product of the three-tap operand of X with the first
  weight matrix; it is batch-normalised and clamped at zero; the second convolution is the product of the three-tap
  operand of that with the second weight matrix, batch-normalised; the 1x1 branch is the product of X with the 1x1
  matrix, batch-normalised; the result is their sum clamped at zero.

  The block is stated for a given variance form and a given three-tap operand. With either variance form it is the
  same function, provided no input entry is infinite and the three-tap operand of an array with no infinite entry has
  none: then every intermediate entry is finite, and on finite entries the two variance forms agree.
-/
import proofs.«151177_g2000001997577596_pallasbulk_1280_5_alg».proof.Proof.Spec
import Idealize.ShloMosaic.PureOps.Ideal.Laws

noncomputable section

namespace Cert.Proof.Net

open Idealize.ShloMosaic Cert.Proof.Stats Cert.Proof.Spec

abbrev Arr := Fin 1024 → Fin 1024 → EReal
abbrev Wt := Fin 3072 → Fin 1024 → EReal
abbrev Row := Fin 1024 → EReal

/-- The programs' zero word. -/
def zeroW : EReal := Ideal.ofBits .f32 0x00000000#32

theorem zeroW_fin : Fin' zeroW := by
  unfold zeroW; rw [Ideal.ofBits_zero_f32]; exact zero_finite

variable (var : Arr → Row) (taps : Arr → Fin 1024 → Fin 3072 → EReal)

/-- A 3x3 convolution as a product: the three-tap operand of `v` times a stacked weight matrix. -/
def conv (v : Arr) (t : Wt) : Arr := fun r L => ∑ k : Fin 3072, taps v r k * t k L

/-- The 1x1 convolution as a product. -/
def conv1x1 (v : Arr) (t : Arr) : Arr := fun r L => ∑ k : Fin 1024, v r k * t k L

/-- The first convolution, batch-normalised and clamped at zero. -/
def hidden (X : Arr) (T1 : Wt) (g1 b1 : Row) : Arr := fun r L =>
  max (normed (var (conv taps X T1)) (conv taps X T1) g1 b1 r L) zeroW

/-- The whole block. -/
def block (X : Arr) (T1 T2 : Wt) (Tid : Arr) (g1 b1 g2 b2 gid bid : Row) : Arr := fun r L =>
  max (normed (var (conv taps (hidden var taps X T1 g1 b1) T2)) (conv taps (hidden var taps X T1 g1 b1) T2) g2 b2 r L
      + normed (var (conv1x1 X Tid)) (conv1x1 X Tid) gid bid r L) zeroW

variable {taps}

theorem conv_fin (htaps : ∀ v : Arr, (∀ r l, Fin' (v r l)) → ∀ r k, Fin' (taps v r k))
    (v : Arr) (hv : ∀ r l, Fin' (v r l)) (t : Wt) (ht : ∀ k l, Fin' (t k l)) (r L : Fin 1024) : Fin' (conv taps v t r L) :=
  dot_fin _ _ (fun k => htaps v hv r k) (fun k => ht k L)

theorem conv1x1_fin (v : Arr) (hv : ∀ r l, Fin' (v r l)) (t : Arr) (ht : ∀ k l, Fin' (t k l)) (r L : Fin 1024) :
    Fin' (conv1x1 v t r L) :=
  dot_fin _ _ (fun k => hv r k) (fun k => ht k L)

/-- With finite inputs, the hidden activation is the same for both variance forms, and finite. -/
theorem hidden_eq (htaps : ∀ v : Arr, (∀ r l, Fin' (v r l)) → ∀ r k, Fin' (taps v r k))
    (X : Arr) (hX : ∀ r l, Fin' (X r l)) (T1 : Wt) (hT1 : ∀ k l, Fin' (T1 k l)) (g1 b1 : Row) :
    hidden varSq taps X T1 g1 b1 = hidden varDev taps X T1 g1 b1 := by
  funext r L
  unfold hidden
  rw [normed_varSq_eq _ (conv_fin htaps X hX T1 hT1)]

theorem hidden_fin (htaps : ∀ v : Arr, (∀ r l, Fin' (v r l)) → ∀ r k, Fin' (taps v r k))
    (X : Arr) (hX : ∀ r l, Fin' (X r l)) (T1 : Wt) (hT1 : ∀ k l, Fin' (T1 k l)) (g1 b1 : Row)
    (hg1 : ∀ l, Fin' (g1 l)) (hb1 : ∀ l, Fin' (b1 l)) (r L : Fin 1024) : Fin' (hidden varDev taps X T1 g1 b1 r L) :=
  max_finite (normed_fin _ (conv_fin htaps X hX T1 hT1) g1 b1 hg1 hb1 r L) zeroW_fin

/-- THE BLOCK IS ONE FUNCTION: with finite inputs the two variance forms give the same result. -/
theorem block_eq (htaps : ∀ v : Arr, (∀ r l, Fin' (v r l)) → ∀ r k, Fin' (taps v r k))
    (X : Arr) (hX : ∀ r l, Fin' (X r l)) (T1 T2 : Wt) (hT1 : ∀ k l, Fin' (T1 k l)) (hT2 : ∀ k l, Fin' (T2 k l))
    (Tid : Arr) (hTid : ∀ k l, Fin' (Tid k l)) (g1 b1 g2 b2 gid bid : Row)
    (hg1 : ∀ l, Fin' (g1 l)) (hb1 : ∀ l, Fin' (b1 l)) :
    block varSq taps X T1 T2 Tid g1 b1 g2 b2 gid bid = block varDev taps X T1 T2 Tid g1 b1 g2 b2 gid bid := by
  funext r L
  unfold block
  rw [hidden_eq htaps X hX T1 hT1 g1 b1,
    normed_varSq_eq _ (conv_fin htaps _ (hidden_fin htaps X hX T1 hT1 g1 b1 hg1 hb1) T2 hT2),
    normed_varSq_eq _ (conv1x1_fin X hX Tid hTid)]

end Cert.Proof.Net

end
-- ==== Proof.StatsRotate.lean ====
/-
  The log-step all-reduce over the lanes by rotations.

  A row of n lanes holds 32 interleaved channels: lane m belongs to channel m mod 32, so a channel occupies the
  n / 32 lanes c, c + 32, c + 64, ... of the row.  Starting from a row v, the steps

      s ↦ s + (s rotated by 32),   s ↦ s + (s rotated by 64),   ...,   s ↦ s + (s rotated by n / 2)

  leave in EVERY lane the total of that lane's channel.  Indeed a rotation by K brings to lane l the entry of lane
  l - K (around the end), so after the steps for 32, 64, ..., 32 * p / 2 lane l holds the p entries of lanes
  l, l - 32, ..., l - 32 * (p - 1); each step doubles p, and when 32 * p = n these p lanes are the whole residue
  class of l modulo 32.  Only commutativity and associativity of the addition are used.

  Lanes "around the end" are handled by reading a row at a natural number modulo n (rd below), and going back by 32
  is going forward by D = n - 32.
-/
import Idealize.ShloMosaic.Lib.KernelVsHost

open scoped BigOperators
open Idealize.ShloMosaic Idealize.ShloMosaic.ValueIdx

namespace Cert.Proof.Stats

/-! ## Reading a row at a lane taken modulo the row's length -/

/-- Entry of row a of v at lane m mod n. -/
def rd {α : Type} {r n : ℕ} (hn : 0 < n) (v : (⟨2, ![r, n]⟩ : Shape).Idx → α) (a : Fin r) (m : ℕ) : α :=
  v (ix2 a ⟨m % n, Nat.mod_lt _ hn⟩)

/-- Reading at a lane below n is reading that lane. -/
theorem rd_val {α : Type} {r n : ℕ} (hn : 0 < n) (v : (⟨2, ![r, n]⟩ : Shape).Idx → α) (a : Fin r) (l : Fin n) :
    rd hn v a l.val = v (ix2 a l) := by
  unfold rd
  exact congrArg v (congrArg (ix2 a) (Fin.ext (Nat.mod_eq_of_lt l.isLt)))

/-- A rotation of the lanes by sb, read at lane l of row a, is the operand at lane l - sb around the end. -/
theorem rotate_read {α : Type} {r n : ℕ} (hn : 0 < n) (sb : BitVec 32) (s : (⟨2, ![r, n]⟩ : Shape).Idx → α)
    (h : (⟨2, ![r, n]⟩ : Shape).Rotates 1 none) (a : Fin r) (l : Fin n) :
    dynamicRotate 1 sb none s h (ix2 a l) = s (ix2 a ⟨(l.val + n - sb.toNat % n) % n, Nat.mod_lt _ hn⟩) :=
  dynamicRotate_apply (1 : Fin 2) sb s h (ix2 a l) (ix2 a ⟨(l.val + n - sb.toNat % n) % n, Nat.mod_lt _ hn⟩) (by
    intro b
    match b with
    | ⟨0, _⟩ => rfl
    | ⟨1, _⟩ => rfl)

/-! ## One doubling step -/

/-- ONE STEP.  If every lane l of s holds the p entries of v at lanes l, l + D, ..., l + (p - 1) * D (mod n), then
    every lane of s + (s rotated by K) holds the 2 * p entries at l, l + D, ..., l + (2 * p - 1) * D, provided going back
    by K is going forward by p * D modulo n (hmod, an arithmetic fact about the literals). -/
theorem step {φ : FTy} {r n : ℕ} (hn : 0 < n) (D p K : ℕ) (v s : FVec Ideal ⟨2, ![r, n]⟩ φ)
    (h : (⟨2, ![r, n]⟩ : Shape).Rotates 1 none) (sb : BitVec 32) (hsb : sb.toNat = K)
    (hmod : ∀ l g : ℕ, l < n → g < p → ((l + n - K % n) % n + g * D) % n = (l + (p + g) * D) % n)
    (hP : ∀ (a : Fin r) (l : Fin n), s (ix2 a l) = ∑ g ∈ Finset.range p, rd hn v a (l.val + g * D)) :
    ∀ (a : Fin r) (l : Fin n), addf s (dynamicRotate 1 sb none s h) (ix2 a l)
        = ∑ g ∈ Finset.range (p + p), rd hn v a (l.val + g * D) := by
  intro a l
  rw [addf_apply, rotate_read hn sb s h a l, hP, hP, Finset.sum_range_add]
  congr 1
  refine Finset.sum_congr rfl fun g hg => ?_
  unfold rd
  refine congrArg v (congrArg (ix2 a) (Fin.ext ?_))
  show ((l.val + n - sb.toNat % n) % n + g * D) % n = (l.val + (p + g) * D) % n
  rw [hsb]
  exact hmod l.val g l.isLt (Finset.mem_range.1 hg)

/-- THE START: every lane of v holds the one entry of v at that lane. -/
theorem start {φ : FTy} {r n : ℕ} (hn : 0 < n) (D : ℕ) (v : FVec Ideal ⟨2, ![r, n]⟩ φ) :
    ∀ (a : Fin r) (l : Fin n), v (ix2 a l) = ∑ g ∈ Finset.range 1, rd hn v a (l.val + g * D) := by
  intro a l
  rw [Finset.sum_range_one, Nat.zero_mul, Nat.add_zero, rd_val]

/-! ## Rows of 256 lanes: rotations by 32, 64, 128 -/

/-- In a row of 256 lanes, the 8 lanes l, l - 32, ..., l - 224 (around the end) are the lanes c, c + 32, ..., c + 224
    of the channel c = l mod 32. -/
theorem reindex256 {α : Type} [AddCommMonoid α] {r : ℕ} (v : (⟨2, ![r, 256]⟩ : Shape).Idx → α) (a : Fin r)
    (l : Fin 256) :
    ∑ g ∈ Finset.range 8, rd (by decide : 0 < 256) v a (l.val + g * 224)
      = ∑ q : Fin 8, v (ix2 a ⟨l.val % 32 + 32 * q.val, by omega⟩) := by
  have hl : l.val < 256 := l.isLt
  rw [← Fin.sum_univ_eq_sum_range (fun g => rd (by decide : 0 < 256) v a (l.val + g * 224)) 8]
  refine Fintype.sum_equiv
    ⟨fun g : Fin 8 => (⟨((l.val + g.val * 224) % 256) / 32, by omega⟩ : Fin 8),
     fun q : Fin 8 => (⟨(l.val / 32 + 8 - q.val) % 8, by omega⟩ : Fin 8),
     fun g => Fin.ext (by show (l.val / 32 + 8 - ((l.val + g.val * 224) % 256) / 32) % 8 = g.val; omega),
     fun q => Fin.ext (by
       show ((l.val + ((l.val / 32 + 8 - q.val) % 8) * 224) % 256) / 32 = q.val; omega)⟩ _ _ ?_
  intro g
  unfold rd
  refine congrArg v (congrArg (ix2 a) (Fin.ext ?_))
  show (l.val + g.val * 224) % 256 = l.val % 32 + 32 * (((l.val + g.val * 224) % 256) / 32)
  omega

/-- THE ALL-REDUCE OVER 256 LANES (any number of rows).  After the three steps with rotations by 32, 64 and 128, lane l
    of row a holds the sum of the 8 entries of row a of v in the lanes of l's channel: l mod 32 + 32 * q, q < 8.
    The three rotation amounts are any 32-bit words with values 32, 64, 128, and the intermediate vectors are named
    so that the statement applies to a program that names them. -/
theorem allReduce256 {φ : FTy} {r : ℕ} (v s1 s2 s3 : FVec Ideal ⟨2, ![r, 256]⟩ φ)
    (h : (⟨2, ![r, 256]⟩ : Shape).Rotates 1 none) (c32 c64 c128 : BitVec 32)
    (h32 : c32.toNat = 32) (h64 : c64.toNat = 64) (h128 : c128.toNat = 128)
    (e1 : s1 = addf v (dynamicRotate 1 c32 none v h))
    (e2 : s2 = addf s1 (dynamicRotate 1 c64 none s1 h))
    (e3 : s3 = addf s2 (dynamicRotate 1 c128 none s2 h))
    (a : Fin r) (l : Fin 256) :
    s3 (ix2 a l) = ∑ q : Fin 8, v (ix2 a ⟨l.val % 32 + 32 * q.val, by omega⟩) := by
  have hn : 0 < 256 := by decide
  have p1 := step hn 224 1 32 v v h c32 h32 (by intro l g hl hg; omega) (start hn 224 v)
  rw [← e1] at p1
  have p2 := step hn 224 2 64 v s1 h c64 h64 (by intro l g hl hg; omega) p1
  rw [← e2] at p2
  have p3 := step hn 224 4 128 v s2 h c128 h128 (by intro l g hl hg; omega) p2
  rw [← e3] at p3
  rw [p3 a l]
  exact reindex256 v a l

/-- The same for the literal rotation amounts, with the chain written out. -/
theorem allReduce256_lit {φ : FTy} {r : ℕ} (v : FVec Ideal ⟨2, ![r, 256]⟩ φ)
    (h : (⟨2, ![r, 256]⟩ : Shape).Rotates 1 none) (a : Fin r) (l : Fin 256) :
    addf (addf (addf v (dynamicRotate 1 32#32 none v h))
          (dynamicRotate 1 64#32 none (addf v (dynamicRotate 1 32#32 none v h)) h))
        (dynamicRotate 1 128#32 none
          (addf (addf v (dynamicRotate 1 32#32 none v h))
            (dynamicRotate 1 64#32 none (addf v (dynamicRotate 1 32#32 none v h)) h)) h) (ix2 a l)
      = ∑ q : Fin 8, v (ix2 a ⟨l.val % 32 + 32 * q.val, by omega⟩) :=
  allReduce256 v _ _ _ h 32#32 64#32 128#32 rfl rfl rfl rfl rfl rfl a l

/-! ## Rows of 1024 lanes: rotations by 32, 64, 128, 256, 512 -/

/-- In a row of 1024 lanes, the 32 lanes l, l - 32, ..., l - 992 (around the end) are the lanes c + 32 * q, q < 32, of
    the channel c = l mod 32. -/
theorem reindex1024 {α : Type} [AddCommMonoid α] {r : ℕ} (v : (⟨2, ![r, 1024]⟩ : Shape).Idx → α) (a : Fin r)
    (l : Fin 1024) :
    ∑ g ∈ Finset.range 32, rd (by decide : 0 < 1024) v a (l.val + g * 992)
      = ∑ q : Fin 32, v (ix2 a ⟨l.val % 32 + 32 * q.val, by omega⟩) := by
  have hl : l.val < 1024 := l.isLt
  rw [← Fin.sum_univ_eq_sum_range (fun g => rd (by decide : 0 < 1024) v a (l.val + g * 992)) 32]
  refine Fintype.sum_equiv
    ⟨fun g : Fin 32 => (⟨((l.val + g.val * 992) % 1024) / 32, by omega⟩ : Fin 32),
     fun q : Fin 32 => (⟨(l.val / 32 + 32 - q.val) % 32, by omega⟩ : Fin 32),
     fun g => Fin.ext (by show (l.val / 32 + 32 - ((l.val + g.val * 992) % 1024) / 32) % 32 = g.val; omega),
     fun q => Fin.ext (by
       show ((l.val + ((l.val / 32 + 32 - q.val) % 32) * 992) % 1024) / 32 = q.val; omega)⟩ _ _ ?_
  intro g
  unfold rd
  refine congrArg v (congrArg (ix2 a) (Fin.ext ?_))
  show (l.val + g.val * 992) % 1024 = l.val % 32 + 32 * (((l.val + g.val * 992) % 1024) / 32)
  omega

/-- THE ALL-REDUCE OVER 1024 LANES (any number of rows).  After the five steps with rotations by 32, 64, 128, 256 and
    512, lane l of row a holds the sum of the 32 entries of row a of v in the lanes of l's channel:
    l mod 32 + 32 * q, q < 32. -/
theorem allReduce1024 {φ : FTy} {r : ℕ} (v s1 s2 s3 s4 s5 : FVec Ideal ⟨2, ![r, 1024]⟩ φ)
    (h : (⟨2, ![r, 1024]⟩ : Shape).Rotates 1 none) (c32 c64 c128 c256 c512 : BitVec 32)
    (h32 : c32.toNat = 32) (h64 : c64.toNat = 64) (h128 : c128.toNat = 128)
    (h256 : c256.toNat = 256) (h512 : c512.toNat = 512)
    (e1 : s1 = addf v (dynamicRotate 1 c32 none v h))
    (e2 : s2 = addf s1 (dynamicRotate 1 c64 none s1 h))
    (e3 : s3 = addf s2 (dynamicRotate 1 c128 none s2 h))
    (e4 : s4 = addf s3 (dynamicRotate 1 c256 none s3 h))
    (e5 : s5 = addf s4 (dynamicRotate 1 c512 none s4 h))
    (a : Fin r) (l : Fin 1024) :
    s5 (ix2 a l) = ∑ q : Fin 32, v (ix2 a ⟨l.val % 32 + 32 * q.val, by omega⟩) := by
  have hn : 0 < 1024 := by decide
  have p1 := step hn 992 1 32 v v h c32 h32 (by intro l g hl hg; omega) (start hn 992 v)
  rw [← e1] at p1
  have p2 := step hn 992 2 64 v s1 h c64 h64 (by intro l g hl hg; omega) p1
  rw [← e2] at p2
  have p3 := step hn 992 4 128 v s2 h c128 h128 (by intro l g hl hg; omega) p2
  rw [← e3] at p3
  have p4 := step hn 992 8 256 v s3 h c256 h256 (by intro l g hl hg; omega) p3
  rw [← e4] at p4
  have p5 := step hn 992 16 512 v s4 h c512 h512 (by intro l g hl hg; omega) p4
  rw [← e5] at p5
  rw [p5 a l]
  exact reindex1024 v a l

/-! ## The same totals with the lanes written l + 32 * g modulo the row's length -/

/-- In a row of 256 lanes the lanes l mod 32 + 32 * q, q < 8, are the lanes (l + 32 * g) mod 256, g < 8. -/
theorem residue256_mod {α : Type} [AddCommMonoid α] {r : ℕ} (v : (⟨2, ![r, 256]⟩ : Shape).Idx → α) (a : Fin r)
    (l : Fin 256) :
    ∑ q : Fin 8, v (ix2 a ⟨l.val % 32 + 32 * q.val, by omega⟩)
      = ∑ g : Fin 8, v (ix2 a ⟨(l.val + 32 * g.val) % 256, Nat.mod_lt _ (by decide)⟩) := by
  have hl : l.val < 256 := l.isLt
  refine Fintype.sum_equiv
    ⟨fun q : Fin 8 => (⟨(q.val + 8 - l.val / 32) % 8, by omega⟩ : Fin 8),
     fun g : Fin 8 => (⟨(l.val / 32 + g.val) % 8, by omega⟩ : Fin 8),
     fun q => Fin.ext (by show (l.val / 32 + (q.val + 8 - l.val / 32) % 8) % 8 = q.val; omega),
     fun g => Fin.ext (by show ((l.val / 32 + g.val) % 8 + 8 - l.val / 32) % 8 = g.val; omega)⟩ _ _ ?_
  intro q
  refine congrArg v (congrArg (ix2 a) (Fin.ext ?_))
  show l.val % 32 + 32 * q.val = (l.val + 32 * ((q.val + 8 - l.val / 32) % 8)) % 256
  omega

/-- In a row of 1024 lanes the lanes l mod 32 + 32 * q, q < 32, are the lanes (l + 32 * g) mod 1024, g < 32. -/
theorem residue1024_mod {α : Type} [AddCommMonoid α] {r : ℕ} (v : (⟨2, ![r, 1024]⟩ : Shape).Idx → α) (a : Fin r)
    (l : Fin 1024) :
    ∑ q : Fin 32, v (ix2 a ⟨l.val % 32 + 32 * q.val, by omega⟩)
      = ∑ g : Fin 32, v (ix2 a ⟨(l.val + 32 * g.val) % 1024, Nat.mod_lt _ (by decide)⟩) := by
  have hl : l.val < 1024 := l.isLt
  refine Fintype.sum_equiv
    ⟨fun q : Fin 32 => (⟨(q.val + 32 - l.val / 32) % 32, by omega⟩ : Fin 32),
     fun g : Fin 32 => (⟨(l.val / 32 + g.val) % 32, by omega⟩ : Fin 32),
     fun q => Fin.ext (by show (l.val / 32 + (q.val + 32 - l.val / 32) % 32) % 32 = q.val; omega),
     fun g => Fin.ext (by show ((l.val / 32 + g.val) % 32 + 32 - l.val / 32) % 32 = g.val; omega)⟩ _ _ ?_
  intro q
  refine congrArg v (congrArg (ix2 a) (Fin.ext ?_))
  show l.val % 32 + 32 * q.val = (l.val + 32 * ((q.val + 32 - l.val / 32) % 32)) % 1024
  omega

/-! ## A channel's 32 lanes in a row of 1024 as 8 lanes in each of four tiles of 256 -/

/-- The 32 lanes c + 32 * Q, Q < 32, of a channel in a row of 1024 lanes are, tile of 256 lanes by tile, the lanes
    c + 32 * q, q < 8, of the tiles starting at lanes 0, 256, 512 and 768.  The four tiles are added in that order,
    ((t0 + t1) + t2) + t3, lane by lane, before the sum over q. -/
theorem sum32_tiles {α : Type} [AddCommMonoid α] (F : ℕ → α) (c : ℕ) :
    ∑ Q : Fin 32, F (c + 32 * Q.val)
      = ∑ q : Fin 8, (F (c + 32 * q.val) + F (256 + (c + 32 * q.val)) + F (512 + (c + 32 * q.val))
          + F (768 + (c + 32 * q.val))) := by
  rw [Fin.sum_univ_eq_sum_range (fun Q => F (c + 32 * Q)) 32,
    Fin.sum_univ_eq_sum_range (fun q => F (c + 32 * q) + F (256 + (c + 32 * q)) + F (512 + (c + 32 * q))
      + F (768 + (c + 32 * q))) 8]
  have h32 : Finset.range 32 = Finset.range (8 + 8 + 8 + 8) := rfl
  rw [h32, Finset.sum_range_add, Finset.sum_range_add, Finset.sum_range_add]
  simp only [Finset.sum_add_distrib]
  refine congrArg₂ (· + ·) (congrArg₂ (· + ·) (congrArg₂ (· + ·) rfl ?_) ?_) ?_ <;>
    exact Finset.sum_congr rfl fun q _ => congrArg F (by omega)

end Cert.Proof.Stats
-- ==== Proof.SpecTiles.lean ====
/-
  A channel's sum over 1024 lanes, gathered tile by tile.

  A row of 1024 lanes is four tiles of 256 lanes.  The 32 lanes c + 32 * Q of a channel c fall 8 in each tile, at the
  tile's lanes c + 32 * q.  So the channel sum of an array (over the channel's lanes and, under each, over the rows) is
  the sum over q < 8 of the four tiles' column sums at the tile lane c + 32 * q, the tiles added ((t0 + t1) + t2) + t3.
-/
import proofs.«151177_g2000001997577596_pallasbulk_1280_5_alg».proof.Proof.Spec
import proofs.«151177_g2000001997577596_pallasbulk_1280_5_alg».proof.Proof.StatsRotate

open scoped BigOperators

noncomputable section

namespace Cert.Proof.Spec

open Cert.Proof.Stats

/-- Lane l' of tile j, as a lane of the row of 1024. -/
def col (j : Fin 4) (l' : Fin 256) : Fin 1024 := ⟨256 * j.val + l'.val, by omega⟩

/-- Lane (l' mod 32) + 32 * q of a tile of 256 lanes. -/
abbrev chLane' (l' : Fin 256) (q : Fin 8) : Fin 256 := ⟨l'.val % 32 + 32 * q.val, by omega⟩

/-- THE CHANNEL SUM TILE BY TILE, for any way of naming the tile lanes: cl j q is lane 256 * j + (c + 32 * q) of the row,
    c the channel of L. -/
theorem tiles_chanSum_gen (Y : Fin 1024 → Fin 1024 → EReal) (L : Fin 1024) (cl : Fin 4 → Fin 8 → Fin 1024)
    (hcl : ∀ j q, (cl j q).val = 256 * j.val + (L.val % 32 + 32 * q.val)) :
    (∑ q : Fin 8, ((∑ r : Fin 1024, Y r (cl 0 q)) + (∑ r : Fin 1024, Y r (cl 1 q)) + (∑ r : Fin 1024, Y r (cl 2 q))
        + (∑ r : Fin 1024, Y r (cl 3 q)))) = chanSum Y L := by
  let F : ℕ → EReal := fun m => if h : m < 1024 then ∑ r : Fin 1024, Y r ⟨m, h⟩ else 0
  have hF : ∀ x : Fin 1024, F x.val = ∑ r : Fin 1024, Y r x := fun x => by
    show (if h : x.val < 1024 then ∑ r : Fin 1024, Y r ⟨x.val, h⟩ else 0) = _
    rw [dif_pos x.isLt]
  have hT : ∀ (j : Fin 4) (n : ℕ) (q : Fin 8), j.val = n →
      F (256 * n + (L.val % 32 + 32 * q.val)) = ∑ r : Fin 1024, Y r (cl j q) := fun j n q hj => by
    rw [← hF (cl j q), hcl j q, hj]
  symm
  unfold chanSum
  have h1 : ∀ Q : Fin 32, ∑ r : Fin 1024, Y r (chanLane L Q) = F (L.val % 32 + 32 * Q.val) :=
    fun Q => (hF (chanLane L Q)).symm
  rw [Finset.sum_congr rfl fun Q _ => h1 Q, sum32_tiles F (L.val % 32)]
  refine Finset.sum_congr rfl fun q _ => ?_
  have e0 := hT 0 0 q rfl
  have e1 := hT 1 1 q rfl
  have e2 := hT 2 2 q rfl
  have e3 := hT 3 3 q rfl
  rw [← e0, ← e1, ← e2, ← e3]
  have a0 : 256 * 0 + (L.val % 32 + 32 * q.val) = L.val % 32 + 32 * q.val := by omega
  have a1 : 256 * 1 + (L.val % 32 + 32 * q.val) = 256 + (L.val % 32 + 32 * q.val) := by omega
  have a2 : 256 * 2 + (L.val % 32 + 32 * q.val) = 512 + (L.val % 32 + 32 * q.val) := by omega
  have a3 : 256 * 3 + (L.val % 32 + 32 * q.val) = 768 + (L.val % 32 + 32 * q.val) := by omega
  rw [a0, a1, a2, a3]

/-- THE CHANNEL SUM TILE BY TILE, at a tile lane l' whose channel is that of L: the tile lanes are
    chLane' l' q = (l' mod 32) + 32 * q and the row's lanes col j (chLane' l' q). -/
theorem tiles_chanSum (Y : Fin 1024 → Fin 1024 → EReal) (L : Fin 1024) (l' : Fin 256) (hl : l'.val % 32 = L.val % 32) :
    (∑ q : Fin 8, ((∑ r : Fin 1024, Y r (col 0 (chLane' l' q))) + (∑ r : Fin 1024, Y r (col 1 (chLane' l' q)))
        + (∑ r : Fin 1024, Y r (col 2 (chLane' l' q))) + (∑ r : Fin 1024, Y r (col 3 (chLane' l' q))))) = chanSum Y L :=
  tiles_chanSum_gen Y L (fun j q => col j (chLane' l' q)) (fun j q => by
    show 256 * j.val + (l'.val % 32 + 32 * q.val) = 256 * j.val + (L.val % 32 + 32 * q.val)
    rw [hl])

/-- The same at the tile lane L mod 256 of a lane L of the row. -/
theorem tiles_chanSum_mod (Y : Fin 1024 → Fin 1024 → EReal) (L : Fin 1024) :
    (∑ q : Fin 8, ((∑ r : Fin 1024, Y r (col 0 (chLane' ⟨L.val % 256, Nat.mod_lt _ (by decide)⟩ q)))
        + (∑ r : Fin 1024, Y r (col 1 (chLane' ⟨L.val % 256, Nat.mod_lt _ (by decide)⟩ q)))
        + (∑ r : Fin 1024, Y r (col 2 (chLane' ⟨L.val % 256, Nat.mod_lt _ (by decide)⟩ q)))
        + (∑ r : Fin 1024, Y r (col 3 (chLane' ⟨L.val % 256, Nat.mod_lt _ (by decide)⟩ q))))) = chanSum Y L :=
  tiles_chanSum Y L ⟨L.val % 256, Nat.mod_lt _ (by decide)⟩ (by show L.val % 256 % 32 = L.val % 32; omega)

end Cert.Proof.Spec

end
-- ==== Proof.KernelIdeal.Rows1.lean ====
/-
  The first call's layer: what its three output arrays hold, as functions of the arrays it finds.

  With X the input rows, T1 the first stacked weight matrix and Tid the 1x1 weight matrix: the first pre-activation is
  the product of the three-tap operand of X with T1, the 1x1 pre-activation the product of X with Tid, and the
  statistics array holds, per column tile, the column sums of the two pre-activations and of their squares.
-/
import proofs.«151177_g2000001997577596_pallasbulk_1280_5_alg».proof.Proof.KernelIdeal.Conv1Array
import proofs.«151177_g2000001997577596_pallasbulk_1280_5_alg».proof.Proof.KernelIdeal.ConvRead
import proofs.«151177_g2000001997577596_pallasbulk_1280_5_alg».proof.Proof.KernelIdeal.StatsTile
import proofs.«151177_g2000001997577596_pallasbulk_1280_5_alg».proof.Proof.Net
import proofs.«151177_g2000001997577596_pallasbulk_1280_5_alg».proof.Proof.SpecTiles
import proofs.«151177_g2000001997577596_pallasbulk_1280_5_alg».proof.Proof.Taps

set_option maxRecDepth 16384

noncomputable section

namespace Cert.KernelIdeal.Hand

open Cert.KernelIdeal Cert.KernelIdeal.Gen Cert.KernelIdeal.ConvRead Cert.KernelIdeal.StatsTile
open Cert.Proof.Taps Cert.Proof.Net Cert.Proof.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A 1024 x 1024 array as a function of row and lane. -/
abbrev arr2 (x : Vec Ideal S1024x1024 .bf16) : Fin 1024 → Fin 1024 → EReal := fun a b => x (ix2 a b)
/-- A stacked 3072 x 1024 weight matrix as a function of row and lane. -/
abbrev wt2 (x : Vec Ideal S3072x1024 .bf16) : Fin 3072 → Fin 1024 → EReal := fun a b => x (ix2 a b)

/-- The first pre-activation is the convolution of the input rows. -/
theorem z1_apply (c : Dev nD) (t : Fin cfg0.N) (r : Fin 1024) (l : Fin 256) (L : Fin 1024) (hL : L.val = 256 * t.val + l.val)
    (x : Vec Ideal S1024x1024 .bf16) (t1 : Vec Ideal S3072x1024 .bf16)
    (h0 : V c (Pipeline.arrRef spec0 0) = x) (h1 : V c (Pipeline.arrRef spec0 1) = t1)
    (z : Vec Ideal S1024x1024 .bf16) (hz : (dat0 V c).arrAt 3 cfg0.N = z) :
    z (ix2 r L) = conv tapsOf (arr2 x) (wt2 t1) r L := by
  subst hz
  rw [final0_3, G0_3_apply V c t (ix2 r l) (ix2 r L) rfl hL, tile0_3_eq, k0_pay4_apply]
  unfold conv
  refine Finset.sum_congr rfl fun k _ => ?_
  unfold lhs0
  rw [View.ld_unit_zero (S := S1024x1024) zero2_0, k0_pay1_apply, iblk0_1_apply V c t (ix2 k l) (ix2 k L) rfl hL, h0, h1]

/-- The 1x1 pre-activation is the product of the input rows with the 1x1 weight matrix. -/
theorem idz_apply (c : Dev nD) (t : Fin cfg0.N) (r : Fin 1024) (l : Fin 256) (L : Fin 1024) (hL : L.val = 256 * t.val + l.val)
    (x tid : Vec Ideal S1024x1024 .bf16)
    (h0 : V c (Pipeline.arrRef spec0 0) = x) (h2 : V c (Pipeline.arrRef spec0 2) = tid)
    (z : Vec Ideal S1024x1024 .bf16) (hz : (dat0 V c).arrAt 4 cfg0.N = z) :
    z (ix2 r L) = conv1x1 (arr2 x) (arr2 tid) r L := by
  subst hz
  rw [final0_4, G0_4_apply V c t (ix2 r l) (ix2 r L) rfl hL, tile0_4_eq, k0_pay5_apply]
  unfold conv1x1
  refine Finset.sum_congr rfl fun k _ => ?_
  rw [iblk0_2_apply V c t (ix2 k l) (ix2 k L) rfl hL, h0, h2]

/-! ## The products inside one tile -/

/-- The first product's entry in tile `t` at tile lane `l'` is the convolution at the tile's column. -/
theorem prod1_tile (c : Dev nD) (t : Fin cfg0.N) (j : Fin 4) (hj : j.val = t.val) (r : Fin 1024) (l' : Fin 256)
    (x : Vec Ideal S1024x1024 .bf16) (t1 : Vec Ideal S3072x1024 .bf16)
    (h0 : V c (Pipeline.arrRef spec0 0) = x) (h1 : V c (Pipeline.arrRef spec0 1) = t1) :
    k0_pay2 (F := Ideal) (lhs0 (V c (Pipeline.arrRef spec0 0))) (iblk0 V c 1 t) (ix2 r l') = conv tapsOf (arr2 x) (wt2 t1) r (col j l') := by
  rw [k0_pay2_apply]
  unfold conv
  refine Finset.sum_congr rfl fun k _ => ?_
  unfold lhs0
  rw [View.ld_unit_zero (S := S1024x1024) zero2_0, k0_pay1_apply,
    iblk0_1_apply V c t (ix2 k l') (ix2 k (col j l')) rfl (by show 256 * j.val + l'.val = 256 * t.val + l'.val; rw [hj]), h0, h1]

/-- The 1x1 product's entry in tile `t` at tile lane `l'`. -/
theorem prodId_tile (c : Dev nD) (t : Fin cfg0.N) (j : Fin 4) (hj : j.val = t.val) (r : Fin 1024) (l' : Fin 256)
    (x tid : Vec Ideal S1024x1024 .bf16)
    (h0 : V c (Pipeline.arrRef spec0 0) = x) (h2 : V c (Pipeline.arrRef spec0 2) = tid) :
    k0_pay3 (F := Ideal) (V c (Pipeline.arrRef spec0 0)) (iblk0 V c 2 t) (ix2 r l') = conv1x1 (arr2 x) (arr2 tid) r (col j l') := by
  rw [k0_pay3_apply]
  unfold conv1x1
  refine Finset.sum_congr rfl fun k _ => ?_
  rw [iblk0_2_apply V c t (ix2 k l') (ix2 k (col j l')) rfl (by show 256 * j.val + l'.val = 256 * t.val + l'.val; rw [hj]), h0, h2]

/-! ## The statistics array -/

/-- The statistics array at the place of tile `t` (coordinates t / 2, t % 2), row `a`, tile lane `l'`: the tile's block. -/
theorem s1_tile (c : Dev nD) (t : Fin cfg0.N) (c0 c1 : Fin 2) (hc0 : c0.val = t.val / 2) (hc1 : c1.val = t.val % 2) (a : Fin 4) (l' : Fin 256)
    (s1 : Vec Ideal S2x2x4x256 .f32) (hs : (dat0 V c).arrAt 5 cfg0.N = s1) :
    s1 (ix4 c0 c1 a l')
      = k0_pay6 (F := Ideal) (lhs0 (V c (Pipeline.arrRef spec0 0))) (iblk0 V c 1 t) (V c (Pipeline.arrRef spec0 0)) (iblk0 V c 2 t)
          (ix4 (0 : Fin 1) (0 : Fin 1) a l') := by
  subst hs
  rw [final0_5, G0_5_apply V c t (ix4 (0 : Fin 1) (0 : Fin 1) a l') (ix4 c0 c1 a l') hc0 hc1 rfl rfl, tile0_5_eq]

/-- Row 0 of a tile's statistics: the column sums of the first pre-activation over the tile's columns. -/
theorem s1_row0 (c : Dev nD) (t : Fin cfg0.N) (j : Fin 4) (hj : j.val = t.val) (c0 c1 : Fin 2) (hc0 : c0.val = t.val / 2) (hc1 : c1.val = t.val % 2)
    (l' : Fin 256) (x : Vec Ideal S1024x1024 .bf16) (t1 : Vec Ideal S3072x1024 .bf16)
    (h0 : V c (Pipeline.arrRef spec0 0) = x) (h1 : V c (Pipeline.arrRef spec0 1) = t1)
    (s1 : Vec Ideal S2x2x4x256 .f32) (hs : (dat0 V c).arrAt 5 cfg0.N = s1) :
    s1 (ix4 c0 c1 (0 : Fin 4) l')
      = ∑ r : Fin 1024, conv tapsOf (arr2 x) (wt2 t1) r (col j l') := by
  rw [s1_tile V c t c0 c1 hc0 hc1 _ l' s1 hs, k0_pay6_row0]
  exact Finset.sum_congr rfl fun r _ => prod1_tile V c t j hj r l' x t1 h0 h1

/-- Row 1: the column sums of its square. -/
theorem s1_row1 (c : Dev nD) (t : Fin cfg0.N) (j : Fin 4) (hj : j.val = t.val) (c0 c1 : Fin 2) (hc0 : c0.val = t.val / 2) (hc1 : c1.val = t.val % 2)
    (l' : Fin 256) (x : Vec Ideal S1024x1024 .bf16) (t1 : Vec Ideal S3072x1024 .bf16)
    (h0 : V c (Pipeline.arrRef spec0 0) = x) (h1 : V c (Pipeline.arrRef spec0 1) = t1)
    (s1 : Vec Ideal S2x2x4x256 .f32) (hs : (dat0 V c).arrAt 5 cfg0.N = s1) :
    s1 (ix4 c0 c1 (1 : Fin 4) l')
      = ∑ r : Fin 1024, conv tapsOf (arr2 x) (wt2 t1) r (col j l') * conv tapsOf (arr2 x) (wt2 t1) r (col j l') := by
  rw [s1_tile V c t c0 c1 hc0 hc1 _ l' s1 hs, k0_pay6_row1]
  exact Finset.sum_congr rfl fun r _ => by rw [prod1_tile V c t j hj r l' x t1 h0 h1]

/-- Row 2: the column sums of the 1x1 pre-activation. -/
theorem s1_row2 (c : Dev nD) (t : Fin cfg0.N) (j : Fin 4) (hj : j.val = t.val) (c0 c1 : Fin 2) (hc0 : c0.val = t.val / 2) (hc1 : c1.val = t.val % 2)
    (l' : Fin 256) (x tid : Vec Ideal S1024x1024 .bf16)
    (h0 : V c (Pipeline.arrRef spec0 0) = x) (h2 : V c (Pipeline.arrRef spec0 2) = tid)
    (s1 : Vec Ideal S2x2x4x256 .f32) (hs : (dat0 V c).arrAt 5 cfg0.N = s1) :
    s1 (ix4 c0 c1 (2 : Fin 4) l')
      = ∑ r : Fin 1024, conv1x1 (arr2 x) (arr2 tid) r (col j l') := by
  rw [s1_tile V c t c0 c1 hc0 hc1 _ l' s1 hs, k0_pay6_row2]
  exact Finset.sum_congr rfl fun r _ => prodId_tile V c t j hj r l' x tid h0 h2

/-- Row 3: the column sums of its square. -/
theorem s1_row3 (c : Dev nD) (t : Fin cfg0.N) (j : Fin 4) (hj : j.val = t.val) (c0 c1 : Fin 2) (hc0 : c0.val = t.val / 2) (hc1 : c1.val = t.val % 2)
    (l' : Fin 256) (x tid : Vec Ideal S1024x1024 .bf16)
    (h0 : V c (Pipeline.arrRef spec0 0) = x) (h2 : V c (Pipeline.arrRef spec0 2) = tid)
    (s1 : Vec Ideal S2x2x4x256 .f32) (hs : (dat0 V c).arrAt 5 cfg0.N = s1) :
    s1 (ix4 c0 c1 (3 : Fin 4) l')
      = ∑ r : Fin 1024, conv1x1 (arr2 x) (arr2 tid) r (col j l') * conv1x1 (arr2 x) (arr2 tid) r (col j l') := by
  rw [s1_tile V c t c0 c1 hc0 hc1 _ l' s1 hs, k0_pay6_row3]
  exact Finset.sum_congr rfl fun r _ => by rw [prodId_tile V c t j hj r l' x tid h0 h2]

end Cert.KernelIdeal.Hand

end
-- ==== Proof.KernelIdeal.Conv2Array.lean ====
/-
  The second call, from blocks to arrays.

  The call runs on a 2 x 2 grid; the point with coordinates (c0, c1) has number t = 2 c0 + c1 and works on column tile
  t, lanes 256 t … 256 t + 255 of the 1024. Here

  * the input blocks are read as the parts of their arrays they are: the first pre-activation, the first statistics
    and the two affine rows whole (`iblk1_0_eq`, `iblk1_1_eq`, `iblk1_3_eq`, `iblk1_4_eq`), block t of the weight array
    its columns 256 t … 256 t + 255 (`iblk1_2_apply`);
  * each of the two output arrays after the call is ONE function of the entry contents: the second pre-activation at
    (row, lane) is the tile of the lane's point read at (row, lane mod 256) (`G1_5`, `final1_5`); the statistics array
    at (c0, c1, a, l) is the block of the point with coordinates (c0, c1) read at (0, 0, a, l) (`G1_6`, `final1_6`);
  * the tiles with their one whole-block store and whole-block loads removed (`tile1_5_eq`, `tile1_6_eq`): payloads of
    the operand built from the whole arrays (`lhs1_arr`) and of the point's weight tile, the payloads kept folded;
  * the five input arrays end as the call found them (`arrAt1_0` … `arrAt1_4`).
-/
import proofs.«151177_g2000001997577596_pallasbulk_1280_5_alg».proof.Proof.KernelIdeal.Conv2Data
import proofs.«151177_g2000001997577596_pallasbulk_1280_5_alg».proof.Proof.KernelIdeal.FinalArray
import Idealize.ShloMosaic.Lib.Pipeline.Value
import Idealize.ShloMosaic.Lib.ValueIdxCoords
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The index maps over the grid -/

theorem idx1_2 : ∀ t : Fin cfg1.N, win1_2.index t (0 : Fin 2) = 0 ∧ win1_2.index t (1 : Fin 2) = t.val :=
  (by decide +kernel : ∀ t : Fin grid1.N, win1_2.index t (0 : Fin 2) = 0 ∧ win1_2.index t (1 : Fin 2) = t.val)
theorem idx1_5 : ∀ t : Fin cfg1.N, win1_5.index t (0 : Fin 2) = 0 ∧ win1_5.index t (1 : Fin 2) = t.val :=
  (by decide +kernel : ∀ t : Fin grid1.N, win1_5.index t (0 : Fin 2) = 0 ∧ win1_5.index t (1 : Fin 2) = t.val)
theorem idx1_6 : ∀ t : Fin cfg1.N, win1_6.index t (0 : Fin 4) = t.val / 2 ∧ win1_6.index t (1 : Fin 4) = t.val % 2
    ∧ win1_6.index t (2 : Fin 4) = 0 ∧ win1_6.index t (3 : Fin 4) = 0 :=
  (by decide +kernel : ∀ t : Fin grid1.N, win1_6.index t (0 : Fin 4) = t.val / 2 ∧ win1_6.index t (1 : Fin 4) = t.val % 2
    ∧ win1_6.index t (2 : Fin 4) = 0 ∧ win1_6.index t (3 : Fin 4) = 0)

/-! ## The input blocks as parts of their arrays -/

/-- Window 0's block is its whole array, at every point. -/
theorem iblk1_0_eq (c : Dev nD) (t : Fin cfg1.N) :
    (iblk1 V c 0 t : Vec F S1024x1024 .bf16) = V c (Pipeline.arrRef spec1 0) := by
  have hz' : (fun a => win1_0.index t a * main_v3_0.ty.shape.size a) = fun _ => 0 :=
    funext fun a => by rw [idx1_0 t a]; exact Nat.zero_mul _
  exact Memref.read_access_unit_zero (Elt F) main_v3_0 hz' (fun a => by rw [congrFun hz' a]; simp) (V c main_v3_0)

/-- Window 1's block is its whole array, at every point. -/
theorem iblk1_1_eq (c : Dev nD) (t : Fin cfg1.N) :
    (iblk1 V c 1 t : Vec F S2x2x4x256 .f32) = V c (Pipeline.arrRef spec1 1) := by
  have hz' : (fun a => win1_1.index t a * main_v3_2.ty.shape.size a) = fun _ => 0 :=
    funext fun a => by rw [idx1_1 t a]; exact Nat.zero_mul _
  exact Memref.read_access_unit_zero (Elt F) main_v3_2 hz' (fun a => by rw [congrFun hz' a]; simp) (V c main_v3_2)

/-- Window 3's block is its whole array, at every point. -/
theorem iblk1_3_eq (c : Dev nD) (t : Fin cfg1.N) :
    (iblk1 V c 3 t : Vec F S1x1024 .f32) = V c (Pipeline.arrRef spec1 3) := by
  have hz' : (fun a => win1_3.index t a * main_arg4.ty.shape.size a) = fun _ => 0 :=
    funext fun a => by rw [idx1_3 t a]; exact Nat.zero_mul _
  exact Memref.read_access_unit_zero (Elt F) main_arg4 hz' (fun a => by rw [congrFun hz' a]; simp) (V c main_arg4)

/-- Window 4's block is its whole array, at every point. -/
theorem iblk1_4_eq (c : Dev nD) (t : Fin cfg1.N) :
    (iblk1 V c 4 t : Vec F S1x1024 .f32) = V c (Pipeline.arrRef spec1 4) := by
  have hz' : (fun a => win1_4.index t a * main_arg5.ty.shape.size a) = fun _ => 0 :=
    funext fun a => by rw [idx1_4 t a]; exact Nat.zero_mul _
  exact Memref.read_access_unit_zero (Elt F) main_arg5 hz' (fun a => by rw [congrFun hz' a]; simp) (V c main_arg5)

/-- Window 2's block at point `t` is columns `256 t … 256 t + 255` of its array. -/
theorem iblk1_2_apply (c : Dev nD) (t : Fin cfg1.N) (y : S3072x256.Idx) (k : S3072x1024.Idx)
    (hk0 : (k 0).val = (y 0).val) (hk1 : (k 1).val = 256 * t.val + (y 1).val) :
    (iblk1 V c 2 t : Vec F S3072x256 .bf16) y = (V c (Pipeline.arrRef spec1 2) : Vec F S3072x1024 .bf16) k := by
  unfold iblk1
  rw [View.read_apply]
  refine congrArg (V c (Pipeline.arrRef spec1 2)) ?_
  funext a
  apply Fin.ext
  obtain ⟨e0, e1⟩ := idx1_2 t
  match a with
  | ⟨0, _⟩ => show win1_2.index t (0 : Fin 2) * 3072 + 1 * (y 0).val = (k 0).val; rw [e0, hk0]; omega
  | ⟨1, _⟩ => show win1_2.index t (1 : Fin 2) * 256 + 1 * (y 1).val = (k 1).val; rw [e1, hk1]; omega

/-- The grid point whose column tile holds lane `l` of the 1024 lanes (the remainder only makes it total). -/
def tileOf1 (l : Nat) : Fin cfg1.N :=
  ⟨l / 256 % 4, by rw [show cfg1.N = 4 from N_1]; omega⟩

/-- The grid point with coordinates (a, b): number 2 a + b (the remainder only makes it total). -/
def pointOf1 (a b : Nat) : Fin cfg1.N :=
  ⟨(2 * a + b) % 4, by rw [show cfg1.N = 4 from N_1]; omega⟩

/-! ## Output window 5: the second convolution's pre-activation -/

/-- The tile the body leaves in window 5's buffer at point `t`, from the call's entry contents. -/
def tile1_5 (c : Dev nD) (t : Fin cfg1.N) : Vec F S1024x256 .bf16 :=
  out1_5 (lhs1 (iblk1 V c 0 t) (iblk1 V c 1 t) (iblk1 V c 3 t) (iblk1 V c 4 t)) (iblk1 V c 2 t)

theorem after1_5_tile (c : Dev nD) (t : Fin cfg1.N) : (dat1 V c).after 5 t = tile1_5 V c t := by
  rw [after1_5]; rfl

/-- THE ARRAY of window 5 after the call, as one function of the entry contents: at (row, lane) the tile of the
    lane's point, read at the row and at the lane inside the tile. -/
def G1_5 (c : Dev nD) : Vec F S1024x1024 .bf16 :=
  fun i => tile1_5 V c (tileOf1 (i 1).val) (inTile (i 0).val (i 1).val)

/-- `G1_5` at the array index under tile `t`'s local index `y`. -/
theorem G1_5_apply (c : Dev nD) (t : Fin cfg1.N) (y : S1024x256.Idx) (i : S1024x1024.Idx)
    (hi0 : (i 0).val = (y 0).val) (hi1 : (i 1).val = 256 * t.val + (y 1).val) :
    G1_5 V c i = tile1_5 V c t y := by
  have hy0 : (y 0).val < 1024 := (y 0).isLt
  have hy1 : (y 1).val < 256 := (y 1).isLt
  have htN : t.val < 4 := by have h := t.isLt; have e : cfg1.N = 4 := N_1; omega
  have ht : tileOf1 (i 1).val = t := Fin.ext (by show (i 1).val / 256 % 4 = t.val; omega)
  have hy : inTile (i 0).val (i 1).val = y := by
    funext a
    match a with
    | ⟨0, _⟩ => exact Fin.ext (by show (i 0).val % 1024 = (y 0).val; omega)
    | ⟨1, _⟩ => exact Fin.ext (by show (i 1).val % 256 = (y 1).val; omega)
  show tile1_5 V c (tileOf1 (i 1).val) (inTile (i 0).val (i 1).val) = tile1_5 V c t y
  rw [ht, hy]

/-- A tile `X` put back at point `t` is block `t` of any array `G` that agrees with it on the tile's columns. -/
theorem cut1_5_eq_read (t : Fin cfg1.N) (X : Vec F S1024x256 .bf16) (G : Vec F S1024x1024 .bf16)
    (h : ∀ (y : S1024x256.Idx) (i : S1024x1024.Idx), (i 0).val = (y 0).val → (i 1).val = 256 * t.val + (y 1).val →
      G i = X y) :
    (cfg1.win 5).cut (grid1.coords t) X = ((cfg1.win 5).blk t).view.read (Elt F) G := by
  funext y
  rw [View.read_apply]
  obtain ⟨e0, e1⟩ := idx1_5 t
  have h0 : ((((cfg1.win 5).blk t).view.emb y) 0).val = (y 0).val := by
    show win1_5.index t (0 : Fin 2) * 1024 + 1 * (y 0).val = (y 0).val; rw [e0]; omega
  have h1 : ((((cfg1.win 5).blk t).view.emb y) 1).val = 256 * t.val + (y 1).val := by
    show win1_5.index t (1 : Fin 2) * 256 + 1 * (y 1).val = 256 * t.val + (y 1).val; rw [e1]; omega
  exact (h y (((cfg1.win 5).blk t).view.emb y) h0 h1).symm

/-- What point `t` writes back is block `t` of `G1_5`. -/
theorem flushed1_5_eq (c : Dev nD) (t : Fin cfg1.N) :
    (dat1 V c).flushed 5 t = ((cfg1.win 5).blk t).view.read (Elt F) (G1_5 V c) := by
  show (cfg1.win 5).cut (grid1.coords t) ((dat1 V c).after 5 t) = _
  rw [after1_5_tile]
  exact cut1_5_eq_read t (tile1_5 V c t) (G1_5 V c) (fun y i hi0 hi1 => G1_5_apply V c t y i hi0 hi1)

/-- An index of the array is in point `t`'s block iff each coordinate is in the block's range on its axis. -/
theorem mem_blk1_5 (t : Fin cfg1.N) (i : S1024x1024.Idx) :
    i ∈ ((cfg1.win 5).blk t).view.set ↔ ∀ a : Fin 2, win1_5.index t a * S1024x256.size a ≤ (i a).val
      ∧ (i a).val < win1_5.index t a * S1024x256.size a + S1024x256.size a := by
  show i ∈ ((View.whole main_v4_0).slice (win1_5.rect t)).set ↔ _
  rw [View.set_slice_whole, Rect.mem_set_unit]
  exact Iff.rfl

/-- Every index of the array is in the block of its lane's point. -/
theorem cover1_5_arr (i : S1024x1024.Idx) :
    ∃ t : Fin cfg1.N, (cfg1.win 5).flush t = true ∧ i ∈ ((cfg1.win 5).blk t).view.set := by
  refine ⟨tileOf1 (i 1).val, flush1_5 _, ?_⟩
  rw [mem_blk1_5]
  obtain ⟨e0, e1⟩ := idx1_5 (tileOf1 (i 1).val)
  have h0 : (i 0).val < 1024 := (i 0).isLt
  have h1 : (i 1).val < 1024 := (i 1).isLt
  have ht : (tileOf1 (i 1).val).val = (i 1).val / 256 % 4 := rfl
  intro a
  match a with
  | ⟨0, _⟩ =>
    show win1_5.index (tileOf1 (i 1).val) (0 : Fin 2) * 1024 ≤ (i 0).val
      ∧ (i 0).val < win1_5.index (tileOf1 (i 1).val) (0 : Fin 2) * 1024 + 1024
    rw [e0]; omega
  | ⟨1, _⟩ =>
    show win1_5.index (tileOf1 (i 1).val) (1 : Fin 2) * 256 ≤ (i 1).val
      ∧ (i 1).val < win1_5.index (tileOf1 (i 1).val) (1 : Fin 2) * 256 + 256
    rw [e1, ht]; omega

/-- THE ARRAY of window 5 AFTER THE CALL is `G1_5` of the entry contents. -/
theorem final1_5 (c : Dev nD) : (dat1 V c).arrAt 5 cfg1.N = G1_5 V c :=
  (dat1 V c).arrAt_eq_of_cover 5 (G1_5 V c) (fun t _ => flushed1_5_eq V c t) cover1_5_arr

/-! ## Output window 6: the partial column statistics -/

/-- The index inside one point's statistics block of row `a`, lane `l`. -/
def inStat1 (a l : Nat) : S1x1x2x256.Idx :=
  ix4 (⟨0, Nat.one_pos⟩ : Fin 1) (⟨0, Nat.one_pos⟩ : Fin 1) ⟨a % 2, Nat.mod_lt _ (by decide)⟩ ⟨l % 256, Nat.mod_lt _ (by decide)⟩

/-- The statistics block the body leaves in window 6's buffer at point `t`, from the call's entry contents. -/
def tile1_6 (c : Dev nD) (t : Fin cfg1.N) : Vec F S1x1x2x256 .f32 :=
  out1_6 (lhs1 (iblk1 V c 0 t) (iblk1 V c 1 t) (iblk1 V c 3 t) (iblk1 V c 4 t)) (iblk1 V c 2 t)

theorem after1_6_tile (c : Dev nD) (t : Fin cfg1.N) : (dat1 V c).after 6 t = tile1_6 V c t := by
  rw [after1_6]; rfl

/-- THE ARRAY of window 6 after the call, as one function of the entry contents: at (c0, c1, a, l) the block of the
    point with coordinates (c0, c1), read at (0, 0, a, l). -/
def G1_6 (c : Dev nD) : Vec F S2x2x2x256 .f32 :=
  fun i => tile1_6 V c (pointOf1 (i 0).val (i 1).val) (inStat1 (i 2).val (i 3).val)

/-- `G1_6` at the array index under point `t`'s local index `y`. -/
theorem G1_6_apply (c : Dev nD) (t : Fin cfg1.N) (y : S1x1x2x256.Idx) (i : S2x2x2x256.Idx)
    (hi0 : (i 0).val = t.val / 2) (hi1 : (i 1).val = t.val % 2) (hi2 : (i 2).val = (y 2).val) (hi3 : (i 3).val = (y 3).val) :
    G1_6 V c i = tile1_6 V c t y := by
  have hy0 : (y 0).val < 1 := (y 0).isLt
  have hy1 : (y 1).val < 1 := (y 1).isLt
  have hy2 : (y 2).val < 2 := (y 2).isLt
  have hy3 : (y 3).val < 256 := (y 3).isLt
  have htN : t.val < 4 := by have h := t.isLt; have e : cfg1.N = 4 := N_1; omega
  have ht : pointOf1 (i 0).val (i 1).val = t := Fin.ext (by show (2 * (i 0).val + (i 1).val) % 4 = t.val; omega)
  have hy : inStat1 (i 2).val (i 3).val = y := by
    funext a
    match a with
    | ⟨0, _⟩ => exact Fin.ext (by show 0 = (y 0).val; omega)
    | ⟨1, _⟩ => exact Fin.ext (by show 0 = (y 1).val; omega)
    | ⟨2, _⟩ => exact Fin.ext (by show (i 2).val % 2 = (y 2).val; omega)
    | ⟨3, _⟩ => exact Fin.ext (by show (i 3).val % 256 = (y 3).val; omega)
  show tile1_6 V c (pointOf1 (i 0).val (i 1).val) (inStat1 (i 2).val (i 3).val) = tile1_6 V c t y
  rw [ht, hy]

/-- A block `X` put back at point `t` is block `t` of any array `G` that agrees with it at the point's coordinates. -/
theorem cut1_6_eq_read (t : Fin cfg1.N) (X : Vec F S1x1x2x256 .f32) (G : Vec F S2x2x2x256 .f32)
    (h : ∀ (y : S1x1x2x256.Idx) (i : S2x2x2x256.Idx), (i 0).val = t.val / 2 → (i 1).val = t.val % 2 →
      (i 2).val = (y 2).val → (i 3).val = (y 3).val → G i = X y) :
    (cfg1.win 6).cut (grid1.coords t) X = ((cfg1.win 6).blk t).view.read (Elt F) G := by
  funext y
  rw [View.read_apply]
  obtain ⟨e0, e1, e2, e3⟩ := idx1_6 t
  have hy0 : (y 0).val < 1 := (y 0).isLt
  have hy1 : (y 1).val < 1 := (y 1).isLt
  have h0 : ((((cfg1.win 6).blk t).view.emb y) 0).val = t.val / 2 := by
    show win1_6.index t (0 : Fin 4) * 1 + 1 * (y 0).val = t.val / 2; rw [e0]; omega
  have h1 : ((((cfg1.win 6).blk t).view.emb y) 1).val = t.val % 2 := by
    show win1_6.index t (1 : Fin 4) * 1 + 1 * (y 1).val = t.val % 2; rw [e1]; omega
  have h2 : ((((cfg1.win 6).blk t).view.emb y) 2).val = (y 2).val := by
    show win1_6.index t (2 : Fin 4) * 2 + 1 * (y 2).val = (y 2).val; rw [e2]; omega
  have h3 : ((((cfg1.win 6).blk t).view.emb y) 3).val = (y 3).val := by
    show win1_6.index t (3 : Fin 4) * 256 + 1 * (y 3).val = (y 3).val; rw [e3]; omega
  exact (h y (((cfg1.win 6).blk t).view.emb y) h0 h1 h2 h3).symm

/-- What point `t` writes back is block `t` of `G1_6`. -/
theorem flushed1_6_eq (c : Dev nD) (t : Fin cfg1.N) :
    (dat1 V c).flushed 6 t = ((cfg1.win 6).blk t).view.read (Elt F) (G1_6 V c) := by
  show (cfg1.win 6).cut (grid1.coords t) ((dat1 V c).after 6 t) = _
  rw [after1_6_tile]
  exact cut1_6_eq_read t (tile1_6 V c t) (G1_6 V c)
    (fun y i hi0 hi1 hi2 hi3 => G1_6_apply V c t y i hi0 hi1 hi2 hi3)

/-- An index of the array is in point `t`'s block iff each coordinate is in the block's range on its axis. -/
theorem mem_blk1_6 (t : Fin cfg1.N) (i : S2x2x2x256.Idx) :
    i ∈ ((cfg1.win 6).blk t).view.set ↔ ∀ a : Fin 4, win1_6.index t a * S1x1x2x256.size a ≤ (i a).val
      ∧ (i a).val < win1_6.index t a * S1x1x2x256.size a + S1x1x2x256.size a := by
  show i ∈ ((View.whole main_v4_1).slice (win1_6.rect t)).set ↔ _
  rw [View.set_slice_whole, Rect.mem_set_unit]
  exact Iff.rfl

/-- Every index of the array is in the block of the point its first two coordinates name. -/
theorem cover1_6_arr (i : S2x2x2x256.Idx) :
    ∃ t : Fin cfg1.N, (cfg1.win 6).flush t = true ∧ i ∈ ((cfg1.win 6).blk t).view.set := by
  refine ⟨pointOf1 (i 0).val (i 1).val, flush1_6 _, ?_⟩
  rw [mem_blk1_6]
  obtain ⟨e0, e1, e2, e3⟩ := idx1_6 (pointOf1 (i 0).val (i 1).val)
  have h0 : (i 0).val < 2 := (i 0).isLt
  have h1 : (i 1).val < 2 := (i 1).isLt
  have h2 : (i 2).val < 2 := (i 2).isLt
  have h3 : (i 3).val < 256 := (i 3).isLt
  have ht : (pointOf1 (i 0).val (i 1).val).val = (2 * (i 0).val + (i 1).val) % 4 := rfl
  intro a
  match a with
  | ⟨0, _⟩ =>
    show win1_6.index (pointOf1 (i 0).val (i 1).val) (0 : Fin 4) * 1 ≤ (i 0).val
      ∧ (i 0).val < win1_6.index (pointOf1 (i 0).val (i 1).val) (0 : Fin 4) * 1 + 1
    rw [e0, ht]; omega
  | ⟨1, _⟩ =>
    show win1_6.index (pointOf1 (i 0).val (i 1).val) (1 : Fin 4) * 1 ≤ (i 1).val
      ∧ (i 1).val < win1_6.index (pointOf1 (i 0).val (i 1).val) (1 : Fin 4) * 1 + 1
    rw [e1, ht]; omega
  | ⟨2, _⟩ =>
    show win1_6.index (pointOf1 (i 0).val (i 1).val) (2 : Fin 4) * 2 ≤ (i 2).val
      ∧ (i 2).val < win1_6.index (pointOf1 (i 0).val (i 1).val) (2 : Fin 4) * 2 + 2
    rw [e2]; omega
  | ⟨3, _⟩ =>
    show win1_6.index (pointOf1 (i 0).val (i 1).val) (3 : Fin 4) * 256 ≤ (i 3).val
      ∧ (i 3).val < win1_6.index (pointOf1 (i 0).val (i 1).val) (3 : Fin 4) * 256 + 256
    rw [e3]; omega

/-- THE ARRAY of window 6 AFTER THE CALL is `G1_6` of the entry contents. -/
theorem final1_6 (c : Dev nD) : (dat1 V c).arrAt 6 cfg1.N = G1_6 V c :=
  (dat1 V c).arrAt_eq_of_cover 6 (G1_6 V c) (fun t _ => flushed1_6_eq V c t) cover1_6_arr

/-! ## The input arrays after the call -/

/-- An input's array is never written back: it ends as the call found it. -/
theorem arrAt1_in (c : Dev nD) (w : Fin cfg1.W) (hin : (cfg1.win w).isOut = false) :
    (dat1 V c).arrAt w cfg1.N = V c (Pipeline.arrRef spec1 w) :=
  ((dat1 V c).arrAt_in w hin _).trans (A_eq1 V c w)
theorem arrAt1_0 (c : Dev nD) : (dat1 V c).arrAt 0 cfg1.N = V c (Pipeline.arrRef spec1 0) := arrAt1_in V c 0 rfl
theorem arrAt1_1 (c : Dev nD) : (dat1 V c).arrAt 1 cfg1.N = V c (Pipeline.arrRef spec1 1) := arrAt1_in V c 1 rfl
theorem arrAt1_2 (c : Dev nD) : (dat1 V c).arrAt 2 cfg1.N = V c (Pipeline.arrRef spec1 2) := arrAt1_in V c 2 rfl
theorem arrAt1_3 (c : Dev nD) : (dat1 V c).arrAt 3 cfg1.N = V c (Pipeline.arrRef spec1 3) := arrAt1_in V c 3 rfl
theorem arrAt1_4 (c : Dev nD) : (dat1 V c).arrAt 4 cfg1.N = V c (Pipeline.arrRef spec1 4) := arrAt1_in V c 4 rfl

/-! ## The tiles with the one whole-block store and the whole-block loads removed -/

theorem zero4_1 : (![0, 0, 0, 0] : Fin 4 → Nat) = fun _ => 0 := by
  funext a; match a with | ⟨0, _⟩ => rfl | ⟨1, _⟩ => rfl | ⟨2, _⟩ => rfl | ⟨3, _⟩ => rfl

/-- The operand the call multiplies with, from the whole arrays it is built from. -/
def lhs1_arr (c : Dev nD) : FVec F S1024x3072 .bf16 :=
  lhs1 (V c (Pipeline.arrRef spec1 0)) (V c (Pipeline.arrRef spec1 1)) (V c (Pipeline.arrRef spec1 3)) (V c (Pipeline.arrRef spec1 4))

theorem lhs1_iblk (c : Dev nD) (t : Fin cfg1.N) :
    lhs1 (iblk1 V c 0 t) (iblk1 V c 1 t) (iblk1 V c 3 t) (iblk1 V c 4 t) = lhs1_arr V c := by
  rw [iblk1_0_eq, iblk1_1_eq, iblk1_3_eq, iblk1_4_eq]; rfl

/-- The pre-activation tile is the product payload of the operand and the weight tile. -/
theorem tile1_5_eq (c : Dev nD) (t : Fin cfg1.N) :
    tile1_5 V c t = k1_pay3 (lhs1_arr V c) (iblk1 V c 2 t) := by
  unfold tile1_5 out1_5
  rw [View.canon_unit_zero (S := S1024x256) zero2_1, View.ld_unit_zero (S := S3072x256) zero2_1, lhs1_iblk]

/-- The statistics block is the statistics payload of the same operands. -/
theorem tile1_6_eq (c : Dev nD) (t : Fin cfg1.N) :
    tile1_6 V c t = k1_pay4 (lhs1_arr V c) (iblk1 V c 2 t) := by
  unfold tile1_6 out1_6
  rw [View.canon_unit_zero (S := S1x1x2x256) zero4_1, View.ld_unit_zero (S := S3072x256) zero2_1, lhs1_iblk]

end Cert.KernelIdeal.Hand

end
-- ==== Proof.KernelIdeal.StatsRead.lean ====
/-
  The kernel's statistics values read at an index, at the ideal instance.

  The channel totals: four tiles of partial sums (each one 4 rows of 256 lanes, stored with two leading unit axes) are
  added lane by lane, ((t0 + t1) + t2) + t3, and the three rotate-and-add steps by 32, 64, 128 then leave in lane l
  of row a the sum over the 8 lanes of l's channel, c + 32 * q with c = l mod 32, of the four tiles' entries.
-/
import proofs.«151177_g2000001997577596_pallasbulk_1280_5_alg».proof.Proof.Gen.KernelIdeal.Skeleton
import proofs.«151177_g2000001997577596_pallasbulk_1280_5_alg».proof.Proof.StatsRotate
import proofs.«151177_g2000001997577596_pallasbulk_1280_5_alg».proof.Proof.StatsLaw
import Idealize.ShloMosaic.Lib.ValueLayout

open scoped BigOperators
open Idealize.ShloMosaic Idealize.ShloMosaic.ValueIdx Cert.Proof.Stats

namespace Cert.KernelIdeal.StatsRead

open Cert.KernelIdeal Cert.KernelIdeal.Gen

/-! ## Layout: two leading unit axes dropped by a shape cast -/

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Lane c + 32 * q of a row of 256 lanes, where c = l mod 32 is the channel of lane l and q < 8 the lane group. -/
abbrev chLane (l : Fin 256) (q : Fin 8) : Fin 256 := ⟨l.val % 32 + 32 * q.val, by omega⟩

/-! ## The channel totals of four 4 x 256 tiles -/

/-- The totals of the first call's statistics as the third call computes them: at row a, lane l, the sum over the 8
    lanes of l's channel of the four tiles' entries at row a. -/
theorem k2_pay2_apply (v0 v2 v4 v6 : Vec Ideal S1x1x4x256 .f32) (a : Fin 4) (l : Fin 256) :
    k2_pay2 (F := Ideal) v0 v2 v4 v6 (ix2 a l)
      = ∑ q : Fin 8, (v0 (ix4 (0 : Fin 1) (0 : Fin 1) a (chLane l q)) + v2 (ix4 (0 : Fin 1) (0 : Fin 1) a (chLane l q))
          + v4 (ix4 (0 : Fin 1) (0 : Fin 1) a (chLane l q)) + v6 (ix4 (0 : Fin 1) (0 : Fin 1) a (chLane l q))) := by
  unfold k2_pay2
  refine (allReduce256_lit (φ := .f32) _ _ a l).trans ?_
  refine Finset.sum_congr rfl fun q _ => ?_
  refine congrArg₂ (· + ·) (congrArg₂ (· + ·) (congrArg₂ (· + ·) ?_ ?_) ?_) ?_ <;>
    exact shapeCast_11ab_ab_apply _ _ a (chLane l q)

/-- The same totals as the second call computes them (the same text). -/
theorem k1_pay5_apply (v17 v19 v21 v23 : Vec Ideal S1x1x4x256 .f32) (a : Fin 4) (l : Fin 256) :
    k1_pay5 (F := Ideal) v17 v19 v21 v23 (ix2 a l)
      = ∑ q : Fin 8, (v17 (ix4 (0 : Fin 1) (0 : Fin 1) a (chLane l q)) + v19 (ix4 (0 : Fin 1) (0 : Fin 1) a (chLane l q))
          + v21 (ix4 (0 : Fin 1) (0 : Fin 1) a (chLane l q)) + v23 (ix4 (0 : Fin 1) (0 : Fin 1) a (chLane l q))) := by
  unfold k1_pay5
  refine (allReduce256_lit (φ := .f32) _ _ a l).trans ?_
  refine Finset.sum_congr rfl fun q _ => ?_
  refine congrArg₂ (· + ·) (congrArg₂ (· + ·) (congrArg₂ (· + ·) ?_ ?_) ?_) ?_ <;>
    exact shapeCast_11ab_ab_apply _ _ a (chLane l q)

/-! ## The channel totals of the second call's statistics (2 rows of 256 lanes) -/

/-- The totals of the second call's statistics as the third call computes them (the first ten operations of its
    normalisation payload): three tiles already cast to 2 x 256 and a fourth still carrying its two unit axes, added
    ((t0 + t1) + t2) + t3, then the three rotate-and-add steps. -/
noncomputable def tot2 (v18 v20 v22 : FVec Ideal S2x256 .f32) (v23 : Vec Ideal S1x1x2x256 .f32) : FVec Ideal S2x256 .f32 :=
  have v24 : FVec Ideal S2x256 .f32 := shapeCast S2x256 v23 shapeCasts_S1x1x2x256_S2x256
  have v25 : FVec Ideal S2x256 .f32 := addf v18 v20
  have v26 : FVec Ideal S2x256 .f32 := addf v25 v22
  have v27 : FVec Ideal S2x256 .f32 := addf v26 v24
  have v28 : FVec Ideal S2x256 .f32 := dynamicRotate 1 32#32 none v27 rotates_S2x256_d1
  have v29 : FVec Ideal S2x256 .f32 := addf v27 v28
  have v30 : FVec Ideal S2x256 .f32 := dynamicRotate 1 64#32 none v29 rotates_S2x256_d1
  have v31 : FVec Ideal S2x256 .f32 := addf v29 v30
  have v32 : FVec Ideal S2x256 .f32 := dynamicRotate 1 128#32 none v31 rotates_S2x256_d1
  have v33 : FVec Ideal S2x256 .f32 := addf v31 v32
  v33

/-- At row a, lane l: the sum over the 8 lanes of l's channel of the four tiles' entries at row a. -/
theorem tot2_apply (v18 v20 v22 : FVec Ideal S2x256 .f32) (v23 : Vec Ideal S1x1x2x256 .f32) (a : Fin 2) (l : Fin 256) :
    tot2 v18 v20 v22 v23 (ix2 a l)
      = ∑ q : Fin 8, (v18 (ix2 a (chLane l q)) + v20 (ix2 a (chLane l q)) + v22 (ix2 a (chLane l q))
          + v23 (ix4 (0 : Fin 1) (0 : Fin 1) a (chLane l q))) := by
  unfold tot2
  refine (allReduce256_lit (φ := .f32) _ _ a l).trans ?_
  refine Finset.sum_congr rfl fun q _ => ?_
  refine congrArg₂ (· + ·) rfl ?_
  exact shapeCast_11ab_ab_apply _ _ a (chLane l q)

/-! ## Rows of the totals times the constant: means and variances -/

/-- Row o of an m x 256 array, cut out as a 1 x 256 array, read at lane l. -/
theorem sliceRow_apply {m : ℕ} (o : ℕ) (X : (⟨2, ![m, 256]⟩ : Shape).Idx → EReal)
    (h : (⟨2, ![m, 256]⟩ : Shape).Slices ![o, 0] ⟨2, ![1, 256]⟩) (k : Fin m) (hk : k.val = o) (u : Fin 1) (l : Fin 256) :
    extractStridedSlice ⟨2, ![1, 256]⟩ ![o, 0] X h (ix2 u l) = X (ix2 k l) :=
  slice2_axis0_apply o X h u l k (by omega)

/-- The mean row of the identity branch: row 2 of the totals times the constant. -/
theorem k2_pay6_apply (v16 : FVec Ideal S4x256 .f32) (u : Fin 1) (l : Fin 256) :
    k2_pay6 (F := Ideal) v16 (ix2 u l) = v16 (ix2 (2 : Fin 4) l) * Ideal.ofBits .f32 0x38000000#32 := by
  unfold k2_pay6
  show extractStridedSlice S1x256 ![2, 0] v16 slices_S4x256_o2_0_S1x256 (ix2 u l) * Ideal.ofBits .f32 0x38000000#32 = _
  rw [sliceRow_apply 2 v16 slices_S4x256_o2_0_S1x256 (2 : Fin 4) rfl u l]

/-- The variance row of the identity branch: row 3 of the totals times the constant, minus the squared mean. -/
theorem k2_pay7_apply (v16 : FVec Ideal S4x256 .f32) (u : Fin 1) (l : Fin 256) :
    k2_pay7 (F := Ideal) v16 (ix2 u l)
      = v16 (ix2 (3 : Fin 4) l) * Ideal.ofBits .f32 0x38000000#32
        - (v16 (ix2 (2 : Fin 4) l) * Ideal.ofBits .f32 0x38000000#32)
          * (v16 (ix2 (2 : Fin 4) l) * Ideal.ofBits .f32 0x38000000#32) := by
  unfold k2_pay7
  show extractStridedSlice S1x256 ![3, 0] v16 slices_S4x256_o3_0_S1x256 (ix2 u l) * Ideal.ofBits .f32 0x38000000#32
      - k2_pay6 (F := Ideal) v16 (ix2 u l) * k2_pay6 (F := Ideal) v16 (ix2 u l) = _
  rw [sliceRow_apply 3 v16 slices_S4x256_o3_0_S1x256 (3 : Fin 4) rfl u l, k2_pay6_apply]

/-- The second call's mean row: row 0 of the totals of the first call's statistics times the constant. -/
theorem k1_pay6_apply (v17 v19 v21 v23 : Vec Ideal S1x1x4x256 .f32) (u : Fin 1) (l : Fin 256) :
    k1_pay6 (F := Ideal) v17 v19 v21 v23 (ix2 u l)
      = k1_pay5 (F := Ideal) v17 v19 v21 v23 (ix2 (0 : Fin 4) l) * Ideal.ofBits .f32 0x38000000#32 := by
  unfold k1_pay6
  show extractStridedSlice S1x256 ![0, 0] (k1_pay5 (F := Ideal) v17 v19 v21 v23) slices_S4x256_o0_0_S1x256 (ix2 u l)
      * Ideal.ofBits .f32 0x38000000#32 = _
  rw [sliceRow_apply 0 _ slices_S4x256_o0_0_S1x256 (0 : Fin 4) rfl u l]

/-! ## The two normalisations of the third call, entry by entry -/

/-- THE SECOND NORMALISATION (of the second convolution's product) at row p, lane l of the tile: with T the totals of
    the second call's statistics, mean = T[0, l] * k and var = T[1, l] * k - mean * mean,
    (z - mean) * (g * rsqrt (var + eps)) + b. -/
theorem k2_pay8_apply (v18 v20 v22 : FVec Ideal S2x256 .f32) (v23 : Vec Ideal S1x1x2x256 .f32)
    (v50 : Vec Ideal S1024x256 .bf16) (v55 v62 : Vec Ideal S1x256 .f32) (p : Fin 1024) (l : Fin 256) :
    k2_pay8 (F := Ideal) v18 v20 v22 v23 v50 v55 v62 (ix2 p l)
      = (v50 (ix2 p l) - tot2 v18 v20 v22 v23 (ix2 (0 : Fin 2) l) * Ideal.ofBits .f32 0x38000000#32)
          * (v55 (ix2 (0 : Fin 1) l)
              * Ideal.rsqrt ((tot2 v18 v20 v22 v23 (ix2 (1 : Fin 2) l) * Ideal.ofBits .f32 0x38000000#32
                    - (tot2 v18 v20 v22 v23 (ix2 (0 : Fin 2) l) * Ideal.ofBits .f32 0x38000000#32)
                      * (tot2 v18 v20 v22 v23 (ix2 (0 : Fin 2) l) * Ideal.ofBits .f32 0x38000000#32))
                  + Ideal.ofBits .f32 0x3727C5AC#32))
        + v62 (ix2 (0 : Fin 1) l) := by
  unfold k2_pay8
  show (shapeCast S1024x256 v50 shapeCasts_S1024x256_S1024x256 (ix2 p l)
        - broadcastTo S1024x256 (mulf (extractStridedSlice S1x256 ![0, 0] (tot2 v18 v20 v22 v23) slices_S2x256_o0_0_S1x256)
            (broadcast S1x256 (Ideal.ofBits .f32 0x38000000#32))) broadcasts_S1x256_S1024x256 (ix2 p l))
      * broadcastTo S1024x256 (mulf v55 (rsqrt (addf (subf
            (mulf (extractStridedSlice S1x256 ![1, 0] (tot2 v18 v20 v22 v23) slices_S2x256_o1_0_S1x256)
              (broadcast S1x256 (Ideal.ofBits .f32 0x38000000#32)))
            (mulf (mulf (extractStridedSlice S1x256 ![0, 0] (tot2 v18 v20 v22 v23) slices_S2x256_o0_0_S1x256)
                (broadcast S1x256 (Ideal.ofBits .f32 0x38000000#32)))
              (mulf (extractStridedSlice S1x256 ![0, 0] (tot2 v18 v20 v22 v23) slices_S2x256_o0_0_S1x256)
                (broadcast S1x256 (Ideal.ofBits .f32 0x38000000#32)))))
          (broadcast S1x256 (Ideal.ofBits .f32 0x3727C5AC#32))))) broadcasts_S1x256_S1024x256 (ix2 p l)
      + broadcastTo S1024x256 v62 broadcasts_S1x256_S1024x256 (ix2 p l) = _
  rw [shapeCast_self, broadcastTo_1b_ab_apply, broadcastTo_1b_ab_apply, broadcastTo_1b_ab_apply]
  show (v50 (ix2 p l)
        - extractStridedSlice S1x256 ![0, 0] (tot2 v18 v20 v22 v23) slices_S2x256_o0_0_S1x256 (ix2 (0 : Fin 1) l)
          * Ideal.ofBits .f32 0x38000000#32)
      * (v55 (ix2 (0 : Fin 1) l) * Ideal.rsqrt ((
          extractStridedSlice S1x256 ![1, 0] (tot2 v18 v20 v22 v23) slices_S2x256_o1_0_S1x256 (ix2 (0 : Fin 1) l)
            * Ideal.ofBits .f32 0x38000000#32
          - (extractStridedSlice S1x256 ![0, 0] (tot2 v18 v20 v22 v23) slices_S2x256_o0_0_S1x256 (ix2 (0 : Fin 1) l)
              * Ideal.ofBits .f32 0x38000000#32)
            * (extractStridedSlice S1x256 ![0, 0] (tot2 v18 v20 v22 v23) slices_S2x256_o0_0_S1x256 (ix2 (0 : Fin 1) l)
              * Ideal.ofBits .f32 0x38000000#32))
          + Ideal.ofBits .f32 0x3727C5AC#32))
      + v62 (ix2 (0 : Fin 1) l) = _
  rw [sliceRow_apply 0 (tot2 v18 v20 v22 v23) slices_S2x256_o0_0_S1x256 (0 : Fin 2) rfl (0 : Fin 1) l,
    sliceRow_apply 1 (tot2 v18 v20 v22 v23) slices_S2x256_o1_0_S1x256 (1 : Fin 2) rfl (0 : Fin 1) l]

/-- THE IDENTITY BRANCH'S NORMALISATION, THE ADDITION AND THE FINAL MAXIMUM at row p, lane l of the tile: with the mean row
    v44 and the variance row v49, max (y + ((z - mean) * (g * rsqrt (var + eps)) + b)) 0. -/
theorem k2_pay1_apply (v44 v49 : FVec Ideal S1x256 .f32) (v64 : FVec Ideal S1024x256 .f32)
    (v66 : FVec Ideal S1024x256 .bf16) (v70 v77 : Vec Ideal S1x256 .f32) (p : Fin 1024) (l : Fin 256) :
    k2_pay1 (F := Ideal) v44 v49 v64 v66 v70 v77 (ix2 p l)
      = max (v64 (ix2 p l)
          + ((v66 (ix2 p l) - v44 (ix2 (0 : Fin 1) l))
              * (v70 (ix2 (0 : Fin 1) l) * Ideal.rsqrt (v49 (ix2 (0 : Fin 1) l) + Ideal.ofBits .f32 0x3727C5AC#32))
            + v77 (ix2 (0 : Fin 1) l)))
          (Ideal.ofBits .f32 0x00000000#32) := by
  unfold k2_pay1
  show max (v64 (ix2 p l)
      + ((v66 (ix2 p l) - broadcastTo S1024x256 v44 broadcasts_S1x256_S1024x256 (ix2 p l))
          * broadcastTo S1024x256 (mulf v70 (rsqrt (addf v49 (broadcast S1x256 (Ideal.ofBits .f32 0x3727C5AC#32)))))
              broadcasts_S1x256_S1024x256 (ix2 p l)
        + broadcastTo S1024x256 v77 broadcasts_S1x256_S1024x256 (ix2 p l)))
      (Ideal.ofBits .f32 0x00000000#32) = _
  rw [broadcastTo_1b_ab_apply, broadcastTo_1b_ab_apply, broadcastTo_1b_ab_apply]
  rfl

end Cert.KernelIdeal.StatsRead
-- ==== Proof.KernelIdeal.StatsRead2.lean ====
/-
  The second call's mean and scale rows read at an index, at the ideal instance.

  The second call normalises all 1024 lanes at once, so it repeats the 256-lane mean row (and the 256-lane variance row)
  four times side by side: lane L of the 1024 reads lane L mod 256 of the 256-lane row.  Since a lane's channel is its
  residue modulo 32 and 256 is a multiple of 32, lane L mod 256 has the channel of lane L.
-/
import proofs.«151177_g2000001997577596_pallasbulk_1280_5_alg».proof.Proof.KernelIdeal.StatsRead

open scoped BigOperators
open Idealize.ShloMosaic Idealize.ShloMosaic.ValueIdx Cert.Proof.Stats

namespace Cert.KernelIdeal.StatsRead

open Cert.KernelIdeal Cert.KernelIdeal.Gen

/-- Lane L mod 256 of a row of 256 lanes, for a lane L of a row of 1024. -/
abbrev lane256 (L : Fin 1024) : Fin 256 := ⟨L.val % 256, Nat.mod_lt _ (by decide)⟩

/-- The channel lanes of L mod 256 are those of the channel L mod 32. -/
theorem chLane_lane256 (L : Fin 1024) (q : Fin 8) : (chLane (lane256 L) q).val = L.val % 32 + 32 * q.val := by
  show L.val % 256 % 32 + 32 * q.val = L.val % 32 + 32 * q.val
  omega

/-- Four copies of one 1 x 256 row side by side, read at lane L: the row at lane L mod 256. -/
theorem rep4_apply {α : Type} (X : (⟨2, ![1, 256]⟩ : Shape).Idx → α)
    (h : Shape.Concatenates [(⟨2, ![1, 256]⟩ : Shape), ⟨2, ![1, 256]⟩, ⟨2, ![1, 256]⟩, ⟨2, ![1, 256]⟩] ⟨2, ![1, 1024]⟩ 1)
    (u : Fin 1) (L : Fin 1024) :
    concatenate ⟨2, ![1, 1024]⟩ 1 [⟨⟨2, ![1, 256]⟩, X⟩, ⟨⟨2, ![1, 256]⟩, X⟩, ⟨⟨2, ![1, 256]⟩, X⟩, ⟨⟨2, ![1, 256]⟩, X⟩] h (ix2 u L)
      = X (ix2 u (lane256 L)) :=
  concatenate_replicate_apply (t := ⟨2, ![1, 1024]⟩) (s₁ := ⟨2, ![1, 256]⟩) (1 : Fin 2) 4 X h rfl (ix2 u L)
    (ix2 u (lane256 L)) rfl (fun b hb => by
      match b with
      | ⟨0, _⟩ => rfl
      | ⟨1, _⟩ => exact absurd rfl hb)

/-- The second call's mean row over 1024 lanes: row 0 of the totals at lane L mod 256, times the constant. -/
theorem k1_pay7_apply (v17 v19 v21 v23 : Vec Ideal S1x1x4x256 .f32) (u : Fin 1) (L : Fin 1024) :
    k1_pay7 (F := Ideal) v17 v19 v21 v23 (ix2 u L)
      = k1_pay5 (F := Ideal) v17 v19 v21 v23 (ix2 (0 : Fin 4) (lane256 L)) * Ideal.ofBits .f32 0x38000000#32 := by
  unfold k1_pay7
  refine (rep4_apply _ _ u L).trans ?_
  exact k1_pay6_apply v17 v19 v21 v23 u (lane256 L)

/-- The second call's scale row over 1024 lanes: g * rsqrt (var + eps) with var = T[1] * k - (T[0] * k) * (T[0] * k) read at
    lane L mod 256 of the totals T. -/
theorem k1_pay8_apply (v17 v19 v21 v23 : Vec Ideal S1x1x4x256 .f32) (v44 : Vec Ideal S1x1024 .f32) (u : Fin 1)
    (L : Fin 1024) :
    k1_pay8 (F := Ideal) v17 v19 v21 v23 v44 (ix2 u L)
      = v44 (ix2 u L)
        * Ideal.rsqrt ((k1_pay5 (F := Ideal) v17 v19 v21 v23 (ix2 (1 : Fin 4) (lane256 L)) * Ideal.ofBits .f32 0x38000000#32
              - (k1_pay5 (F := Ideal) v17 v19 v21 v23 (ix2 (0 : Fin 4) (lane256 L)) * Ideal.ofBits .f32 0x38000000#32)
                * (k1_pay5 (F := Ideal) v17 v19 v21 v23 (ix2 (0 : Fin 4) (lane256 L)) * Ideal.ofBits .f32 0x38000000#32))
            + Ideal.ofBits .f32 0x3727C5AC#32) := by
  unfold k1_pay8
  show v44 (ix2 u L) * Ideal.rsqrt (concatenate S1x1024 1 _ _ (ix2 u L) + Ideal.ofBits .f32 0x3727C5AC#32) = _
  rw [rep4_apply]
  show v44 (ix2 u L) * Ideal.rsqrt ((extractStridedSlice S1x256 ![1, 0] (k1_pay5 (F := Ideal) v17 v19 v21 v23)
          slices_S4x256_o1_0_S1x256 (ix2 u (lane256 L)) * Ideal.ofBits .f32 0x38000000#32
        - k1_pay6 (F := Ideal) v17 v19 v21 v23 (ix2 u (lane256 L)) * k1_pay6 (F := Ideal) v17 v19 v21 v23 (ix2 u (lane256 L)))
      + Ideal.ofBits .f32 0x3727C5AC#32) = _
  rw [sliceRow_apply 1 _ slices_S4x256_o1_0_S1x256 (1 : Fin 4) rfl u (lane256 L), k1_pay6_apply]

/-! ## The payloads that are only shape casts -/

/-- A cast of a 1024 x 1024 array to its own shape changes nothing (second call). -/
theorem k1_pay9_eq (v49 : Vec Ideal S1024x1024 .bf16) : k1_pay9 (F := Ideal) v49 = v49 :=
  shapeCast_self v49 _

/-- A cast of a 1024 x 256 array to its own shape changes nothing (third call). -/
theorem k2_pay9_eq (v65 : Vec Ideal S1024x256 .bf16) : k2_pay9 (F := Ideal) v65 = v65 :=
  shapeCast_self v65 _

/-- A statistics tile of the second call with its two unit axes dropped, read at (a, l). -/
theorem k2_pay3_apply (v17 : Vec Ideal S1x1x2x256 .f32) (a : Fin 2) (l : Fin 256) :
    k2_pay3 (F := Ideal) v17 (ix2 a l) = v17 (ix4 (0 : Fin 1) (0 : Fin 1) a l) :=
  shapeCast_11ab_ab_apply v17 _ a l

theorem k2_pay4_apply (v19 : Vec Ideal S1x1x2x256 .f32) (a : Fin 2) (l : Fin 256) :
    k2_pay4 (F := Ideal) v19 (ix2 a l) = v19 (ix4 (0 : Fin 1) (0 : Fin 1) a l) :=
  shapeCast_11ab_ab_apply v19 _ a l

theorem k2_pay5_apply (v21 : Vec Ideal S1x1x2x256 .f32) (a : Fin 2) (l : Fin 256) :
    k2_pay5 (F := Ideal) v21 (ix2 a l) = v21 (ix4 (0 : Fin 1) (0 : Fin 1) a l) :=
  shapeCast_11ab_ab_apply v21 _ a l

end Cert.KernelIdeal.StatsRead
-- ==== Proof.KernelIdeal.Rows2.lean ====
/-
  The second call's layer: what its two output arrays hold, as functions of the arrays it finds.

  With Z1 the first pre-activation, G1 and B1 the first affine rows and T2 the second stacked weight matrix: the
  channel means and variances of Z1 are recovered from the four tiles of partial column sums (a channel's 32 lanes fall
  8 in each tile), Z1 is normalised with them and clamped at zero, the second pre-activation is the product of the
  three-tap operand of that with T2, and the statistics array holds, per column tile, the column sums of the second
  pre-activation and of its square.
-/
import proofs.«151177_g2000001997577596_pallasbulk_1280_5_alg».proof.Proof.KernelIdeal.Conv2Array
import proofs.«151177_g2000001997577596_pallasbulk_1280_5_alg».proof.Proof.KernelIdeal.ConvRead
import proofs.«151177_g2000001997577596_pallasbulk_1280_5_alg».proof.Proof.KernelIdeal.StatsTile
import proofs.«151177_g2000001997577596_pallasbulk_1280_5_alg».proof.Proof.KernelIdeal.StatsRead2
import proofs.«151177_g2000001997577596_pallasbulk_1280_5_alg».proof.Proof.Net
import proofs.«151177_g2000001997577596_pallasbulk_1280_5_alg».proof.Proof.SpecTiles
import proofs.«151177_g2000001997577596_pallasbulk_1280_5_alg».proof.Proof.Taps

set_option maxRecDepth 16384

noncomputable section

namespace Cert.KernelIdeal.Hand

open Cert.KernelIdeal Cert.KernelIdeal.Gen Cert.KernelIdeal.ConvRead Cert.KernelIdeal.StatsTile Cert.KernelIdeal.StatsRead
open Cert.Proof.Taps Cert.Proof.Net Cert.Proof.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## A tile of the first statistics read through its rectangle is the array at the tile's place -/

theorem ld_rS1_00 (s : Vec Ideal S2x2x4x256 .f32) (a : Fin 4) (l : Fin 256) :
    View.ld s rS1_00 (ix4 (0 : Fin 1) (0 : Fin 1) a l) = s (ix4 (0 : Fin 2) (0 : Fin 2) a l) := by
  show s (rS1_00.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS1_01 (s : Vec Ideal S2x2x4x256 .f32) (a : Fin 4) (l : Fin 256) :
    View.ld s rS1_01 (ix4 (0 : Fin 1) (0 : Fin 1) a l) = s (ix4 (0 : Fin 2) (1 : Fin 2) a l) := by
  show s (rS1_01.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS1_10 (s : Vec Ideal S2x2x4x256 .f32) (a : Fin 4) (l : Fin 256) :
    View.ld s rS1_10 (ix4 (0 : Fin 1) (0 : Fin 1) a l) = s (ix4 (1 : Fin 2) (0 : Fin 2) a l) := by
  show s (rS1_10.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS1_11 (s : Vec Ideal S2x2x4x256 .f32) (a : Fin 4) (l : Fin 256) :
    View.ld s rS1_11 (ix4 (0 : Fin 1) (0 : Fin 1) a l) = s (ix4 (1 : Fin 2) (1 : Fin 2) a l) := by
  show s (rS1_11.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)

/-! ## The channel totals -/

/-- The totals the second call forms from the four tiles: at row a and tile lane l, the sum over the 8 lanes of l's
    channel of the four tiles' entries. -/
theorem tot1_read (s1 : Vec Ideal S2x2x4x256 .f32) (a : Fin 4) (l : Fin 256) :
    k1_pay5 (F := Ideal) (View.ld s1 rS1_00) (View.ld s1 rS1_01) (View.ld s1 rS1_10) (View.ld s1 rS1_11) (ix2 a l)
      = ∑ q : Fin 8, (s1 (ix4 (0 : Fin 2) (0 : Fin 2) a (chLane l q)) + s1 (ix4 (0 : Fin 2) (1 : Fin 2) a (chLane l q))
          + s1 (ix4 (1 : Fin 2) (0 : Fin 2) a (chLane l q)) + s1 (ix4 (1 : Fin 2) (1 : Fin 2) a (chLane l q))) := by
  rw [k1_pay5_apply]
  refine Finset.sum_congr rfl fun q _ => ?_
  rw [ld_rS1_00, ld_rS1_01, ld_rS1_10, ld_rS1_11]

/-- Row 0 of the totals, at the tile lane of a lane L of the row: the channel sum of Z1 at L. -/
theorem tot1_row0 (s1 : Vec Ideal S2x2x4x256 .f32) (Z1 : Fin 1024 → Fin 1024 → EReal)
    (hs0 : ∀ (j : Fin 4) (c0 c1 : Fin 2) (l' : Fin 256), c0.val = j.val / 2 → c1.val = j.val % 2 →
        s1 (ix4 c0 c1 (0 : Fin 4) l') = ∑ r : Fin 1024, Z1 r (col j l')) (L : Fin 1024) :
    k1_pay5 (F := Ideal) (View.ld s1 rS1_00) (View.ld s1 rS1_01) (View.ld s1 rS1_10) (View.ld s1 rS1_11) (ix2 (0 : Fin 4) (lane256 L)) = chanSum Z1 L := by
  rw [tot1_read]
  refine Eq.trans ?_ (tiles_chanSum Z1 L (lane256 L) (by show L.val % 256 % 32 = L.val % 32; omega))
  refine Finset.sum_congr rfl fun q _ => ?_
  rw [hs0 0 0 0 _ (by decide) (by decide), hs0 1 0 1 _ (by decide) (by decide), hs0 2 1 0 _ (by decide) (by decide),
    hs0 3 1 1 _ (by decide) (by decide)]

/-- Row 1 of the totals: the channel sum of the squares of Z1 at L. -/
theorem tot1_row1 (s1 : Vec Ideal S2x2x4x256 .f32) (Z1 : Fin 1024 → Fin 1024 → EReal)
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l')) (L : Fin 1024) :
    k1_pay5 (F := Ideal) (View.ld s1 rS1_00) (View.ld s1 rS1_01) (View.ld s1 rS1_10) (View.ld s1 rS1_11) (ix2 (1 : Fin 4) (lane256 L)) = chanSum (fun r l => Z1 r l * Z1 r l) L := by
  rw [tot1_read]
  refine Eq.trans ?_ (tiles_chanSum (fun r l => Z1 r l * Z1 r l) L (lane256 L) (by show L.val % 256 % 32 = L.val % 32; omega))
  refine Finset.sum_congr rfl fun q _ => ?_
  rw [hs1 0 0 0 _ (by decide) (by decide), hs1 1 0 1 _ (by decide) (by decide), hs1 2 1 0 _ (by decide) (by decide),
    hs1 3 1 1 _ (by decide) (by decide)]

/-! ## The mean row and the scale row -/

/-- THE MEAN ROW the second call forms is the channel mean of Z1. -/
theorem mean1_row (s1 : Vec Ideal S2x2x4x256 .f32) (Z1 : Fin 1024 → Fin 1024 → EReal)
    (hs0 : ∀ (j : Fin 4) (c0 c1 : Fin 2) (l' : Fin 256), c0.val = j.val / 2 → c1.val = j.val % 2 →
        s1 (ix4 c0 c1 (0 : Fin 4) l') = ∑ r : Fin 1024, Z1 r (col j l')) (L : Fin 1024) :
    k1_pay7 (F := Ideal) (View.ld s1 rS1_00) (View.ld s1 rS1_01) (View.ld s1 rS1_10) (View.ld s1 rS1_11) (ix2 (0 : Fin 1) L) = meanOf Z1 L := by
  rw [k1_pay7_apply, tot1_row0 s1 Z1 hs0 L]
  rfl

/-- THE SCALE ROW it forms is the affine scale times the reciprocal root of the channel variance (mean of squares
    minus squared mean) plus epsilon. -/
theorem scale1_row (s1 : Vec Ideal S2x2x4x256 .f32) (g1 : Vec Ideal S1x1024 .f32) (Z1 : Fin 1024 → Fin 1024 → EReal)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l')) (L : Fin 1024) :
    k1_pay8 (F := Ideal) (View.ld s1 rS1_00) (View.ld s1 rS1_01) (View.ld s1 rS1_10) (View.ld s1 rS1_11) (View.ld g1 rG1) (ix2 (0 : Fin 1) L)
      = g1 (ix2 (0 : Fin 1) L) * Ideal.rsqrt (varSq Z1 L + epsW) := by
  rw [k1_pay8_apply, tot1_row0 s1 Z1 hs0 L, tot1_row1 s1 Z1 hs1 L, View.ld_unit_zero (S := S1x1024) zero2_1]
  rfl

/-! ## The operand of the second convolution -/

/-- The first stage's output: Z1 batch-normalised, with the variance as the mean of squares minus the squared mean, and
    clamped at zero. -/
abbrev hidOf (Z1 : Fin 1024 → Fin 1024 → EReal) (G1 B1 : Fin 1024 → EReal) : Fin 1024 → Fin 1024 → EReal :=
  fun a b => max (normed (varSq Z1) Z1 G1 B1 a b) zeroW

/-- The array the second call normalises and clamps is that output, entry by entry. -/
theorem act1_hid (z1 : Vec Ideal S1024x1024 .bf16) (s1 : Vec Ideal S2x2x4x256 .f32) (g1 b1 : Vec Ideal S1x1024 .f32)
    (Z1 : Fin 1024 → Fin 1024 → EReal) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l')) (a b : Fin 1024) :
    act1 (k1_pay7 (F := Ideal) (View.ld s1 rS1_00) (View.ld s1 rS1_01) (View.ld s1 rS1_10) (View.ld s1 rS1_11)) (k1_pay8 (F := Ideal) (View.ld s1 rS1_00) (View.ld s1 rS1_01) (View.ld s1 rS1_10) (View.ld s1 rS1_11) (View.ld g1 rG1))
        (k1_pay9 (F := Ideal) (View.ld z1 rX1)) (View.ld b1 rG1) a b
      = hidOf Z1 (fun l => g1 (ix2 (0 : Fin 1) l)) (fun l => b1 (ix2 (0 : Fin 1) l)) a b := by
  unfold act1
  rw [mean1_row s1 Z1 hs0 b, scale1_row s1 g1 Z1 hs0 hs1 b, k1_pay9_eq, View.ld_unit_zero (S := S1024x1024) zero2_1,
    View.ld_unit_zero (S := S1x1024) zero2_1, hz1]
  rfl

/-- THE OPERAND the second call multiplies is the three-tap operand of the first stage's output. -/
theorem lhs1_arr_apply (c : Dev nD) (z1 : Vec Ideal S1024x1024 .bf16) (s1 : Vec Ideal S2x2x4x256 .f32) (g1 b1 : Vec Ideal S1x1024 .f32)
    (Z1 : Fin 1024 → Fin 1024 → EReal)
    (hz : V c (Pipeline.arrRef spec1 0) = z1) (hs : V c (Pipeline.arrRef spec1 1) = s1)
    (hg : V c (Pipeline.arrRef spec1 3) = g1) (hb : V c (Pipeline.arrRef spec1 4) = b1) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l')) (r : Fin 1024) (K : Fin 3072) :
    lhs1_arr V c (ix2 r K) = tapsOf (hidOf Z1 (fun l => g1 (ix2 (0 : Fin 1) l)) (fun l => b1 (ix2 (0 : Fin 1) l))) r K := by
  unfold lhs1_arr lhs1
  rw [hz, hs, hg, hb, k1_pay1_apply]
  exact congrArg (fun f => tapsOf f r K) (funext fun a => funext fun b => act1_hid z1 s1 g1 b1 Z1 hz1 hs0 hs1 a b)

/-! ## The second pre-activation -/

/-- THE SECOND PRE-ACTIVATION is the convolution of the first stage's output with the second stacked weight matrix. -/
theorem z2_apply (c : Dev nD) (t : Fin cfg1.N) (r : Fin 1024) (l : Fin 256) (L : Fin 1024) (hL : L.val = 256 * t.val + l.val)
    (z1 : Vec Ideal S1024x1024 .bf16) (s1 : Vec Ideal S2x2x4x256 .f32) (t2 : Vec Ideal S3072x1024 .bf16) (g1 b1 : Vec Ideal S1x1024 .f32)
    (Z1 : Fin 1024 → Fin 1024 → EReal)
    (hz : V c (Pipeline.arrRef spec1 0) = z1) (hs : V c (Pipeline.arrRef spec1 1) = s1) (ht : V c (Pipeline.arrRef spec1 2) = t2)
    (hg : V c (Pipeline.arrRef spec1 3) = g1) (hb : V c (Pipeline.arrRef spec1 4) = b1) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l'))
    (z2 : Vec Ideal S1024x1024 .bf16) (hz2 : (dat1 V c).arrAt 5 cfg1.N = z2) :
    z2 (ix2 r L) = conv tapsOf (hidOf Z1 (fun l => g1 (ix2 (0 : Fin 1) l)) (fun l => b1 (ix2 (0 : Fin 1) l))) (fun k l => t2 (ix2 k l)) r L := by
  subst hz2
  rw [final1_5, G1_5_apply V c t (ix2 r l) (ix2 r L) rfl hL, tile1_5_eq, k1_pay3_apply]
  unfold conv
  refine Finset.sum_congr rfl fun k _ => ?_
  rw [lhs1_arr_apply V c z1 s1 g1 b1 Z1 hz hs hg hb hz1 hs0 hs1 r k, iblk1_2_apply V c t (ix2 k l) (ix2 k L) rfl hL, ht]

/-- The product's entry in tile t at tile lane l' is the convolution at the tile's column. -/
theorem prod2_tile (c : Dev nD) (t : Fin cfg1.N) (j : Fin 4) (hj : j.val = t.val) (r : Fin 1024) (l' : Fin 256)
    (z1 : Vec Ideal S1024x1024 .bf16) (s1 : Vec Ideal S2x2x4x256 .f32) (t2 : Vec Ideal S3072x1024 .bf16) (g1 b1 : Vec Ideal S1x1024 .f32)
    (Z1 : Fin 1024 → Fin 1024 → EReal)
    (hz : V c (Pipeline.arrRef spec1 0) = z1) (hs : V c (Pipeline.arrRef spec1 1) = s1) (ht : V c (Pipeline.arrRef spec1 2) = t2)
    (hg : V c (Pipeline.arrRef spec1 3) = g1) (hb : V c (Pipeline.arrRef spec1 4) = b1) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l')) :
    k1_pay2 (F := Ideal) (lhs1_arr V c) (iblk1 V c 2 t) (ix2 r l') = conv tapsOf (hidOf Z1 (fun l => g1 (ix2 (0 : Fin 1) l)) (fun l => b1 (ix2 (0 : Fin 1) l))) (fun k l => t2 (ix2 k l)) r (col j l') := by
  rw [k1_pay2_apply]
  unfold conv
  refine Finset.sum_congr rfl fun k _ => ?_
  rw [lhs1_arr_apply V c z1 s1 g1 b1 Z1 hz hs hg hb hz1 hs0 hs1 r k,
    iblk1_2_apply V c t (ix2 k l') (ix2 k (col j l')) rfl (by show 256 * j.val + l'.val = 256 * t.val + l'.val; rw [hj]), ht]

/-! ## The second statistics array -/

/-- The statistics array at the place of tile t (coordinates t / 2, t % 2), row a, tile lane l': the tile's block. -/
theorem s2_tile (c : Dev nD) (t : Fin cfg1.N) (c0 c1 : Fin 2) (hc0 : c0.val = t.val / 2) (hc1 : c1.val = t.val % 2) (a : Fin 2) (l' : Fin 256)
    (s2 : Vec Ideal S2x2x2x256 .f32) (hs2 : (dat1 V c).arrAt 6 cfg1.N = s2) :
    s2 (ix4 c0 c1 a l') = k1_pay4 (F := Ideal) (lhs1_arr V c) (iblk1 V c 2 t) (ix4 (0 : Fin 1) (0 : Fin 1) a l') := by
  subst hs2
  rw [final1_6, G1_6_apply V c t (ix4 (0 : Fin 1) (0 : Fin 1) a l') (ix4 c0 c1 a l') hc0 hc1 rfl rfl, tile1_6_eq]

/-- Row 0 of a tile's statistics: the column sums of the second pre-activation over the tile's columns. -/
theorem s2_row0 (c : Dev nD) (t : Fin cfg1.N) (j : Fin 4) (hj : j.val = t.val) (c0 c1 : Fin 2) (hc0 : c0.val = t.val / 2) (hc1 : c1.val = t.val % 2)
    (l' : Fin 256)
    (z1 : Vec Ideal S1024x1024 .bf16) (s1 : Vec Ideal S2x2x4x256 .f32) (t2 : Vec Ideal S3072x1024 .bf16) (g1 b1 : Vec Ideal S1x1024 .f32)
    (Z1 : Fin 1024 → Fin 1024 → EReal)
    (hz : V c (Pipeline.arrRef spec1 0) = z1) (hs : V c (Pipeline.arrRef spec1 1) = s1) (ht : V c (Pipeline.arrRef spec1 2) = t2)
    (hg : V c (Pipeline.arrRef spec1 3) = g1) (hb : V c (Pipeline.arrRef spec1 4) = b1) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l'))
    (s2 : Vec Ideal S2x2x2x256 .f32) (hs2 : (dat1 V c).arrAt 6 cfg1.N = s2) :
    s2 (ix4 c0 c1 (0 : Fin 2) l') = ∑ r : Fin 1024, conv tapsOf (hidOf Z1 (fun l => g1 (ix2 (0 : Fin 1) l)) (fun l => b1 (ix2 (0 : Fin 1) l))) (fun k l => t2 (ix2 k l)) r (col j l') := by
  rw [s2_tile V c t c0 c1 hc0 hc1 (0 : Fin 2) l' s2 hs2, k1_pay4_row0]
  exact Finset.sum_congr rfl fun r _ => prod2_tile V c t j hj r l' z1 s1 t2 g1 b1 Z1 hz hs ht hg hb hz1 hs0 hs1

/-- Row 1: the column sums of its square. -/
theorem s2_row1 (c : Dev nD) (t : Fin cfg1.N) (j : Fin 4) (hj : j.val = t.val) (c0 c1 : Fin 2) (hc0 : c0.val = t.val / 2) (hc1 : c1.val = t.val % 2)
    (l' : Fin 256)
    (z1 : Vec Ideal S1024x1024 .bf16) (s1 : Vec Ideal S2x2x4x256 .f32) (t2 : Vec Ideal S3072x1024 .bf16) (g1 b1 : Vec Ideal S1x1024 .f32)
    (Z1 : Fin 1024 → Fin 1024 → EReal)
    (hz : V c (Pipeline.arrRef spec1 0) = z1) (hs : V c (Pipeline.arrRef spec1 1) = s1) (ht : V c (Pipeline.arrRef spec1 2) = t2)
    (hg : V c (Pipeline.arrRef spec1 3) = g1) (hb : V c (Pipeline.arrRef spec1 4) = b1) (hz1 : ∀ a b : Fin 1024, z1 (ix2 a b) = Z1 a b)
    (hs0 : ∀ (j : Fin 4) (c0 c1 : Fin 2) (l' : Fin 256), c0.val = j.val / 2 → c1.val = j.val % 2 →
        s1 (ix4 c0 c1 (0 : Fin 4) l') = ∑ r : Fin 1024, Z1 r (col j l'))
    (hs1 : ∀ (j : Fin 4) (c0 c1 : Fin 2) (l' : Fin 256), c0.val = j.val / 2 → c1.val = j.val % 2 →
        s1 (ix4 c0 c1 (1 : Fin 4) l') = ∑ r : Fin 1024, Z1 r (col j l') * Z1 r (col j l'))
    (s2 : Vec Ideal S2x2x2x256 .f32) (hs2 : (dat1 V c).arrAt 6 cfg1.N = s2) :
    s2 (ix4 c0 c1 (1 : Fin 2) l')
      = ∑ r : Fin 1024, conv tapsOf (hidOf Z1 (fun l => g1 (ix2 (0 : Fin 1) l)) (fun l => b1 (ix2 (0 : Fin 1) l))) (fun k l => t2 (ix2 k l)) r (col j l') * conv tapsOf (hidOf Z1 (fun l => g1 (ix2 (0 : Fin 1) l)) (fun l => b1 (ix2 (0 : Fin 1) l))) (fun k l => t2 (ix2 k l)) r (col j l') := by
  rw [s2_tile V c t c0 c1 hc0 hc1 (1 : Fin 2) l' s2 hs2, k1_pay4_row1]
  exact Finset.sum_congr rfl fun r _ => by rw [prod2_tile V c t j hj r l' z1 s1 t2 g1 b1 Z1 hz hs ht hg hb hz1 hs0 hs1]

end Cert.KernelIdeal.Hand

end
-- ==== Proof.KernelIdeal.Rows3.lean ====
/-
  The third call's layer: the result rows in terms of the arrays the call finds.

  At row r and lane L, in the column tile L / 256 at lane l = L % 256: the channel totals are the four partial
  statistics added and summed over the 8 lanes of l's channel inside the tile; the means are the totals times 1/M,
  the variances the totals of squares times 1/M minus the squared means; the result is the normalised second
  pre-activation plus the normalised 1x1 pre-activation, clamped at zero.
-/
import proofs.«151177_g2000001997577596_pallasbulk_1280_5_alg».proof.Proof.KernelIdeal.FinalArray
import proofs.«151177_g2000001997577596_pallasbulk_1280_5_alg».proof.Proof.KernelIdeal.StatsRead2
import Idealize.ShloMosaic.PureOps.Ideal

set_option maxRecDepth 16384

noncomputable section

namespace Cert.KernelIdeal.Hand

open Cert.KernelIdeal Cert.KernelIdeal.Gen Cert.KernelIdeal.StatsRead
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_2 : (![0, 0] : Fin 2 → Nat) = fun _ => 0 := by
  funext a; match a with | ⟨0, _⟩ => rfl | ⟨1, _⟩ => rfl

/-! ## A statistics tile read through its rectangle is the array at the tile's place -/

theorem ld_rS2_00 (s : Vec Ideal S2x2x2x256 .f32) (a : Fin 2) (l : Fin 256) :
    View.ld s rS2_00 (ix4 (0 : Fin 1) (0 : Fin 1) a l) = s (ix4 (0 : Fin 2) (0 : Fin 2) a l) := by
  show s (rS2_00.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS2_01 (s : Vec Ideal S2x2x2x256 .f32) (a : Fin 2) (l : Fin 256) :
    View.ld s rS2_01 (ix4 (0 : Fin 1) (0 : Fin 1) a l) = s (ix4 (0 : Fin 2) (1 : Fin 2) a l) := by
  show s (rS2_01.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS2_10 (s : Vec Ideal S2x2x2x256 .f32) (a : Fin 2) (l : Fin 256) :
    View.ld s rS2_10 (ix4 (0 : Fin 1) (0 : Fin 1) a l) = s (ix4 (1 : Fin 2) (0 : Fin 2) a l) := by
  show s (rS2_10.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS2_11 (s : Vec Ideal S2x2x2x256 .f32) (a : Fin 2) (l : Fin 256) :
    View.ld s rS2_11 (ix4 (0 : Fin 1) (0 : Fin 1) a l) = s (ix4 (1 : Fin 2) (1 : Fin 2) a l) := by
  show s (rS2_11.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS4_00 (s : Vec Ideal S2x2x4x256 .f32) (a : Fin 4) (l : Fin 256) :
    View.ld s rS4_00 (ix4 (0 : Fin 1) (0 : Fin 1) a l) = s (ix4 (0 : Fin 2) (0 : Fin 2) a l) := by
  show s (rS4_00.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS4_01 (s : Vec Ideal S2x2x4x256 .f32) (a : Fin 4) (l : Fin 256) :
    View.ld s rS4_01 (ix4 (0 : Fin 1) (0 : Fin 1) a l) = s (ix4 (0 : Fin 2) (1 : Fin 2) a l) := by
  show s (rS4_01.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS4_10 (s : Vec Ideal S2x2x4x256 .f32) (a : Fin 4) (l : Fin 256) :
    View.ld s rS4_10 (ix4 (0 : Fin 1) (0 : Fin 1) a l) = s (ix4 (1 : Fin 2) (0 : Fin 2) a l) := by
  show s (rS4_10.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)
theorem ld_rS4_11 (s : Vec Ideal S2x2x4x256 .f32) (a : Fin 4) (l : Fin 256) :
    View.ld s rS4_11 (ix4 (0 : Fin 1) (0 : Fin 1) a l) = s (ix4 (1 : Fin 2) (1 : Fin 2) a l) := by
  show s (rS4_11.idx (ix4 (0 : Fin 1) (0 : Fin 1) a l)) = _
  refine congrArg s ?_
  funext d
  match d with
  | ⟨0, _⟩ => exact Fin.ext rfl
  | ⟨1, _⟩ => exact Fin.ext rfl
  | ⟨2, _⟩ => exact Fin.ext (by show 0 + 1 * a.val = a.val; omega)
  | ⟨3, _⟩ => exact Fin.ext (by show 0 + 1 * l.val = l.val; omega)

/-- The channel totals of the second call's statistics, at row `a` and tile lane `l`. -/
def tot2At (s2 : Vec Ideal S2x2x2x256 .f32) (a : Fin 2) (l : Fin 256) : EReal :=
  (∑ q : Fin 8, (s2 (ix4 (0 : Fin 2) (0 : Fin 2) a (chLane l q)) + s2 (ix4 (0 : Fin 2) (1 : Fin 2) a (chLane l q))
          + s2 (ix4 (1 : Fin 2) (0 : Fin 2) a (chLane l q)) + s2 (ix4 (1 : Fin 2) (1 : Fin 2) a (chLane l q))))

/-- The channel totals of the first call's statistics, at row `a` and tile lane `l`. -/
def tot1At (s1 : Vec Ideal S2x2x4x256 .f32) (a : Fin 4) (l : Fin 256) : EReal :=
  (∑ q : Fin 8, (s1 (ix4 (0 : Fin 2) (0 : Fin 2) a (chLane l q)) + s1 (ix4 (0 : Fin 2) (1 : Fin 2) a (chLane l q))
          + s1 (ix4 (1 : Fin 2) (0 : Fin 2) a (chLane l q)) + s1 (ix4 (1 : Fin 2) (1 : Fin 2) a (chLane l q))))

/-- The second call's totals as the third call computes them, from the array of partial statistics. -/
theorem tot2_tiles (s2 : Vec Ideal S2x2x2x256 .f32) (a : Fin 2) (l : Fin 256) :
    tot2 (k2_pay3 (F := Ideal) (View.ld s2 rS2_00)) (k2_pay4 (F := Ideal) (View.ld s2 rS2_01)) (k2_pay5 (F := Ideal) (View.ld s2 rS2_10))
        (View.ld s2 rS2_11) (ix2 a l) = tot2At s2 a l := by
  rw [tot2_apply]; unfold tot2At
  refine Finset.sum_congr rfl fun q _ => ?_
  rw [k2_pay3_apply, k2_pay4_apply, k2_pay5_apply, ld_rS2_00, ld_rS2_01, ld_rS2_10, ld_rS2_11]

/-- The first call's totals as the third call computes them, from the array of partial statistics. -/
theorem tot1_tiles (s1 : Vec Ideal S2x2x4x256 .f32) (a : Fin 4) (l : Fin 256) :
    tot1_2 (F := Ideal) s1 (ix2 a l) = tot1At s1 a l := by
  unfold tot1_2; rw [k2_pay2_apply]; unfold tot1At
  refine Finset.sum_congr rfl fun q _ => ?_
  rw [ld_rS4_00, ld_rS4_01, ld_rS4_10, ld_rS4_11]

/-- The result rows, in terms of the arrays the third call finds (`z2`, `idz`: the two pre-activations; `s1`, `s2`: the
    two arrays of partial statistics; the four affine rows). -/
theorem rows3_apply (c : Dev nD) (t : Fin cfg2.N) (r : Fin 1024) (l : Fin 256) (L : Fin 1024) (hL : L.val = 256 * t.val + l.val)
    (z2 idz : Vec Ideal S1024x1024 .bf16) (s1 : Vec Ideal S2x2x4x256 .f32) (s2 : Vec Ideal S2x2x2x256 .f32)
    (g2 b2 gid bid : Vec Ideal S1x1024 .f32)
    (h0 : V c (Pipeline.arrRef spec2 0) = z2) (h1 : V c (Pipeline.arrRef spec2 1) = idz)
    (h2 : V c (Pipeline.arrRef spec2 2) = s1) (h3 : V c (Pipeline.arrRef spec2 3) = s2)
    (h4 : V c (Pipeline.arrRef spec2 4) = g2) (h5 : V c (Pipeline.arrRef spec2 5) = b2)
    (h6 : V c (Pipeline.arrRef spec2 6) = gid) (h7 : V c (Pipeline.arrRef spec2 7) = bid) :
    (dat2 V c).arrAt 8 cfg2.N (ix2 r L)
      = max ((z2 (ix2 r L) - tot2At s2 0 l * Ideal.ofBits .f32 0x38000000#32)
              * (g2 (ix2 (0 : Fin 1) L)
                  * Ideal.rsqrt ((tot2At s2 1 l * Ideal.ofBits .f32 0x38000000#32 - (tot2At s2 0 l * Ideal.ofBits .f32 0x38000000#32) * (tot2At s2 0 l * Ideal.ofBits .f32 0x38000000#32)) + Ideal.ofBits .f32 0x3727C5AC#32))
              + b2 (ix2 (0 : Fin 1) L)
            + ((idz (ix2 r L) - tot1At s1 2 l * Ideal.ofBits .f32 0x38000000#32)
                * (gid (ix2 (0 : Fin 1) L)
                    * Ideal.rsqrt ((tot1At s1 3 l * Ideal.ofBits .f32 0x38000000#32 - (tot1At s1 2 l * Ideal.ofBits .f32 0x38000000#32) * (tot1At s1 2 l * Ideal.ofBits .f32 0x38000000#32)) + Ideal.ofBits .f32 0x3727C5AC#32))
                + bid (ix2 (0 : Fin 1) L)))
          (Ideal.ofBits .f32 0x00000000#32) := by
  rw [final2_8, G2_apply V c t (ix2 r l) (ix2 r L) rfl hL]
  unfold tile2 out2_8
  rw [View.canon_unit_zero (S := S1024x256) zero2_2]
  simp only [View.ld_unit_zero (S := S1024x256) zero2_2, View.ld_unit_zero (S := S1x256) zero2_2, iblk2_2_eq, iblk2_3_eq]
  rw [k2_pay1_apply, k2_pay8_apply, k2_pay9_eq, k2_pay6_apply, k2_pay7_apply]
  simp only [tot2_tiles, tot1_tiles]
  rw [iblk2_0_apply V c t (ix2 r l) (ix2 r L) rfl hL, iblk2_1_apply V c t (ix2 r l) (ix2 r L) rfl hL,
    iblk2_4_apply V c t (ix2 (0 : Fin 1) l) (ix2 (0 : Fin 1) L) hL, iblk2_5_apply V c t (ix2 (0 : Fin 1) l) (ix2 (0 : Fin 1) L) hL,
    iblk2_6_apply V c t (ix2 (0 : Fin 1) l) (ix2 (0 : Fin 1) L) hL, iblk2_7_apply V c t (ix2 (0 : Fin 1) l) (ix2 (0 : Fin 1) L) hL,
    h0, h1, h2, h3, h4, h5, h6, h7]

end Cert.KernelIdeal.Hand

end
-- ==== Proof.KernelIdeal.Rows3Spec.lean ====
/-
  The third call's layer in terms of the channel statistics of the two pre-activations.

  The arrays of partial statistics hold, tile by tile (four tiles of 256 lanes, tile j at coordinates (j / 2, j mod 2)),
  the sums over the 1024 rows of a pre-activation's columns and of their squares.  Adding the four tiles and summing
  over the 8 lanes of a channel inside a tile gives the sum over the channel's 32 lanes of the row of 1024; so the
  totals times 1/M are the channel mean and the channel mean of squares, and the layer's entry is the sum of the two
  normalised pre-activations, with the variance taken as the mean of squares minus the squared mean, clamped at zero.
-/
import proofs.«151177_g2000001997577596_pallasbulk_1280_5_alg».proof.Proof.KernelIdeal.Rows3
import proofs.«151177_g2000001997577596_pallasbulk_1280_5_alg».proof.Proof.Spec
import proofs.«151177_g2000001997577596_pallasbulk_1280_5_alg».proof.Proof.SpecTiles
import proofs.«151177_g2000001997577596_pallasbulk_1280_5_alg».proof.Proof.Net

open scoped BigOperators

noncomputable section

namespace Cert.KernelIdeal.Hand

open Cert.KernelIdeal Cert.KernelIdeal.StatsRead
open Idealize.ShloMosaic Idealize.ShloMosaic.ValueIdx
open Cert.Proof.Spec

/-! ## The totals of four tiles of column sums are the channel sum -/

/-- Row a of the second call's statistics holding the tile-wise column sums of Y, its channel totals at a tile lane l
    whose channel is that of the lane L are the channel sum of Y at L. -/
theorem tot2At_chanSum (s2 : Vec Ideal S2x2x2x256 .f32) (a : Fin 2) (Y : Fin 1024 → Fin 1024 → EReal)
    (hs : ∀ (j : Fin 4) (c0 c1 : Fin 2) (l' : Fin 256), c0.val = j.val / 2 → c1.val = j.val % 2 →
      s2 (ix4 c0 c1 a l') = ∑ r : Fin 1024, Y r (col j l'))
    (L : Fin 1024) (l : Fin 256) (hl : l.val % 32 = L.val % 32) :
    tot2At s2 a l = chanSum Y L := by
  unfold tot2At
  rw [← tiles_chanSum Y L l hl]
  refine Finset.sum_congr rfl fun q _ => ?_
  exact congrArg₂ (· + ·) (congrArg₂ (· + ·) (congrArg₂ (· + ·)
    (hs 0 0 0 (chLane l q) (by decide) (by decide)) (hs 1 0 1 (chLane l q) (by decide) (by decide)))
    (hs 2 1 0 (chLane l q) (by decide) (by decide))) (hs 3 1 1 (chLane l q) (by decide) (by decide))

/-- The same for a row of the first call's statistics. -/
theorem tot1At_chanSum (s1 : Vec Ideal S2x2x4x256 .f32) (a : Fin 4) (Y : Fin 1024 → Fin 1024 → EReal)
    (hs : ∀ (j : Fin 4) (c0 c1 : Fin 2) (l' : Fin 256), c0.val = j.val / 2 → c1.val = j.val % 2 →
      s1 (ix4 c0 c1 a l') = ∑ r : Fin 1024, Y r (col j l'))
    (L : Fin 1024) (l : Fin 256) (hl : l.val % 32 = L.val % 32) :
    tot1At s1 a l = chanSum Y L := by
  unfold tot1At
  rw [← tiles_chanSum Y L l hl]
  refine Finset.sum_congr rfl fun q _ => ?_
  exact congrArg₂ (· + ·) (congrArg₂ (· + ·) (congrArg₂ (· + ·)
    (hs 0 0 0 (chLane l q) (by decide) (by decide)) (hs 1 0 1 (chLane l q) (by decide) (by decide)))
    (hs 2 1 0 (chLane l q) (by decide) (by decide))) (hs 3 1 1 (chLane l q) (by decide) (by decide))

/-! ## Means and variances -/

/-- The second pre-activation's mean: the totals of its column sums times 1/M. -/
theorem mean2_spec (s2 : Vec Ideal S2x2x2x256 .f32) (Z2 : Fin 1024 → Fin 1024 → EReal)
    (hs2_0 : ∀ (j : Fin 4) (c0 c1 : Fin 2) (l' : Fin 256), c0.val = j.val / 2 → c1.val = j.val % 2 →
      s2 (ix4 c0 c1 (0 : Fin 2) l') = ∑ r : Fin 1024, Z2 r (col j l'))
    (L : Fin 1024) (l : Fin 256) (hl : l.val % 32 = L.val % 32) :
    tot2At s2 0 l * Ideal.ofBits .f32 0x38000000#32 = meanOf Z2 L := by
  rw [tot2At_chanSum s2 0 Z2 hs2_0 L l hl]
  rfl

/-- The second pre-activation's variance: the totals of squares times 1/M minus the squared mean. -/
theorem var2_spec (s2 : Vec Ideal S2x2x2x256 .f32) (Z2 : Fin 1024 → Fin 1024 → EReal)
    (hs2_0 : ∀ (j : Fin 4) (c0 c1 : Fin 2) (l' : Fin 256), c0.val = j.val / 2 → c1.val = j.val % 2 →
      s2 (ix4 c0 c1 (0 : Fin 2) l') = ∑ r : Fin 1024, Z2 r (col j l'))
    (hs2_1 : ∀ (j : Fin 4) (c0 c1 : Fin 2) (l' : Fin 256), c0.val = j.val / 2 → c1.val = j.val % 2 →
      s2 (ix4 c0 c1 (1 : Fin 2) l') = ∑ r : Fin 1024, Z2 r (col j l') * Z2 r (col j l'))
    (L : Fin 1024) (l : Fin 256) (hl : l.val % 32 = L.val % 32) :
    tot2At s2 1 l * Ideal.ofBits .f32 0x38000000#32
        - (tot2At s2 0 l * Ideal.ofBits .f32 0x38000000#32) * (tot2At s2 0 l * Ideal.ofBits .f32 0x38000000#32)
      = varSq Z2 L := by
  rw [tot2At_chanSum s2 1 (fun r l => Z2 r l * Z2 r l) hs2_1 L l hl, tot2At_chanSum s2 0 Z2 hs2_0 L l hl]
  rfl

/-- The 1x1 pre-activation's mean. -/
theorem meanId_spec (s1 : Vec Ideal S2x2x4x256 .f32) (Zi : Fin 1024 → Fin 1024 → EReal)
    (hs1_2 : ∀ (j : Fin 4) (c0 c1 : Fin 2) (l' : Fin 256), c0.val = j.val / 2 → c1.val = j.val % 2 →
      s1 (ix4 c0 c1 (2 : Fin 4) l') = ∑ r : Fin 1024, Zi r (col j l'))
    (L : Fin 1024) (l : Fin 256) (hl : l.val % 32 = L.val % 32) :
    tot1At s1 2 l * Ideal.ofBits .f32 0x38000000#32 = meanOf Zi L := by
  rw [tot1At_chanSum s1 2 Zi hs1_2 L l hl]
  rfl

/-- The 1x1 pre-activation's variance. -/
theorem varId_spec (s1 : Vec Ideal S2x2x4x256 .f32) (Zi : Fin 1024 → Fin 1024 → EReal)
    (hs1_2 : ∀ (j : Fin 4) (c0 c1 : Fin 2) (l' : Fin 256), c0.val = j.val / 2 → c1.val = j.val % 2 →
      s1 (ix4 c0 c1 (2 : Fin 4) l') = ∑ r : Fin 1024, Zi r (col j l'))
    (hs1_3 : ∀ (j : Fin 4) (c0 c1 : Fin 2) (l' : Fin 256), c0.val = j.val / 2 → c1.val = j.val % 2 →
      s1 (ix4 c0 c1 (3 : Fin 4) l') = ∑ r : Fin 1024, Zi r (col j l') * Zi r (col j l'))
    (L : Fin 1024) (l : Fin 256) (hl : l.val % 32 = L.val % 32) :
    tot1At s1 3 l * Ideal.ofBits .f32 0x38000000#32
        - (tot1At s1 2 l * Ideal.ofBits .f32 0x38000000#32) * (tot1At s1 2 l * Ideal.ofBits .f32 0x38000000#32)
      = varSq Zi L := by
  rw [tot1At_chanSum s1 3 (fun r l => Zi r l * Zi r l) hs1_3 L l hl, tot1At_chanSum s1 2 Zi hs1_2 L l hl]
  rfl

/-! ## The layer -/

/-- THE LAYER IN TERMS OF THE CHANNEL STATISTICS.  The entry the third call leaves at row r, lane L (l the lane inside
    L's tile) is the second pre-activation normalised plus the 1x1 pre-activation normalised, each with the variance
    as the mean of squares minus the squared mean, clamped at zero. -/
theorem rows3_spec (z2 idz : Vec Ideal S1024x1024 .bf16) (s1 : Vec Ideal S2x2x4x256 .f32) (s2 : Vec Ideal S2x2x2x256 .f32)
    (g2 b2 gid bid : Vec Ideal S1x1024 .f32) (Z2 Zi : Fin 1024 → Fin 1024 → EReal) (G2 B2 Gid Bid : Fin 1024 → EReal)
    (hs2_0 : ∀ (j : Fin 4) (c0 c1 : Fin 2) (l' : Fin 256), c0.val = j.val / 2 → c1.val = j.val % 2 →
      s2 (ix4 c0 c1 (0 : Fin 2) l') = ∑ r : Fin 1024, Z2 r (col j l'))
    (hs2_1 : ∀ (j : Fin 4) (c0 c1 : Fin 2) (l' : Fin 256), c0.val = j.val / 2 → c1.val = j.val % 2 →
      s2 (ix4 c0 c1 (1 : Fin 2) l') = ∑ r : Fin 1024, Z2 r (col j l') * Z2 r (col j l'))
    (hs1_2 : ∀ (j : Fin 4) (c0 c1 : Fin 2) (l' : Fin 256), c0.val = j.val / 2 → c1.val = j.val % 2 →
      s1 (ix4 c0 c1 (2 : Fin 4) l') = ∑ r : Fin 1024, Zi r (col j l'))
    (hs1_3 : ∀ (j : Fin 4) (c0 c1 : Fin 2) (l' : Fin 256), c0.val = j.val / 2 → c1.val = j.val % 2 →
      s1 (ix4 c0 c1 (3 : Fin 4) l') = ∑ r : Fin 1024, Zi r (col j l') * Zi r (col j l'))
    (hz2 : ∀ r L : Fin 1024, z2 (ix2 r L) = Z2 r L) (hidz : ∀ r L : Fin 1024, idz (ix2 r L) = Zi r L)
    (hG2 : ∀ L : Fin 1024, g2 (ix2 (0 : Fin 1) L) = G2 L) (hB2 : ∀ L : Fin 1024, b2 (ix2 (0 : Fin 1) L) = B2 L)
    (hGid : ∀ L : Fin 1024, gid (ix2 (0 : Fin 1) L) = Gid L) (hBid : ∀ L : Fin 1024, bid (ix2 (0 : Fin 1) L) = Bid L)
    (r L : Fin 1024) (l : Fin 256) (hl : l.val % 32 = L.val % 32) :
    max ((z2 (ix2 r L) - tot2At s2 0 l * Ideal.ofBits .f32 0x38000000#32)
              * (g2 (ix2 (0 : Fin 1) L)
                  * Ideal.rsqrt ((tot2At s2 1 l * Ideal.ofBits .f32 0x38000000#32 - (tot2At s2 0 l * Ideal.ofBits .f32 0x38000000#32) * (tot2At s2 0 l * Ideal.ofBits .f32 0x38000000#32)) + Ideal.ofBits .f32 0x3727C5AC#32))
              + b2 (ix2 (0 : Fin 1) L)
            + ((idz (ix2 r L) - tot1At s1 2 l * Ideal.ofBits .f32 0x38000000#32)
                * (gid (ix2 (0 : Fin 1) L)
                    * Ideal.rsqrt ((tot1At s1 3 l * Ideal.ofBits .f32 0x38000000#32 - (tot1At s1 2 l * Ideal.ofBits .f32 0x38000000#32) * (tot1At s1 2 l * Ideal.ofBits .f32 0x38000000#32)) + Ideal.ofBits .f32 0x3727C5AC#32))
                + bid (ix2 (0 : Fin 1) L)))
          (Ideal.ofBits .f32 0x00000000#32)
      = max (normed (varSq Z2) Z2 G2 B2 r L + normed (varSq Zi) Zi Gid Bid r L) Cert.Proof.Net.zeroW := by
  rw [var2_spec s2 Z2 hs2_0 hs2_1 L l hl, varId_spec s1 Zi hs1_2 hs1_3 L l hl, mean2_spec s2 Z2 hs2_0 L l hl,
    meanId_spec s1 Zi hs1_2 L l hl, hz2, hidz, hG2, hB2, hGid, hBid]
  rfl

end Cert.KernelIdeal.Hand

end
-- ==== Proof.KernelIdeal.Rows.lean ====
/-
  The kernel's result rows as one function of the arrays: the three calls' layers composed.

  The first call leaves the two pre-activations and their tile-wise column statistics; the second call normalises the
  first pre-activation with the channel statistics those add up to, clamps it, and leaves the second pre-activation
  and its statistics; the third call normalises both remaining pre-activations and adds them. Read as functions of
  row and lane, the result is the residual block of proof/Proof/Net.lean with the variance taken as the mean of
  squares minus the squared mean.
-/
import proofs.«151177_g2000001997577596_pallasbulk_1280_5_alg».proof.Proof.KernelIdeal.Chain
import proofs.«151177_g2000001997577596_pallasbulk_1280_5_alg».proof.Proof.KernelIdeal.Ends
import proofs.«151177_g2000001997577596_pallasbulk_1280_5_alg».proof.Proof.KernelIdeal.Rows1
import proofs.«151177_g2000001997577596_pallasbulk_1280_5_alg».proof.Proof.KernelIdeal.Rows2
import proofs.«151177_g2000001997577596_pallasbulk_1280_5_alg».proof.Proof.KernelIdeal.Rows3
import proofs.«151177_g2000001997577596_pallasbulk_1280_5_alg».proof.Proof.KernelIdeal.Rows3Spec
import proofs.«151177_g2000001997577596_pallasbulk_1280_5_alg».proof.Proof.Net
import proofs.«151177_g2000001997577596_pallasbulk_1280_5_alg».proof.Proof.Taps

set_option maxRecDepth 16384

noncomputable section

namespace Cert.KernelIdeal.Hand

open Cert.KernelIdeal Cert.KernelIdeal.Gen
open Cert.Proof.Taps Cert.Proof.Net Cert.Proof.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The grid point whose column tile holds lane `L`, in each call's own numbering of its four points, and the lane inside
    the tile. -/
def tl0 (L : Fin 1024) : Fin cfg0.N := ⟨L.val / 256, by rw [show cfg0.N = 4 from N_0]; omega⟩
def tl1 (L : Fin 1024) : Fin cfg1.N := ⟨L.val / 256, by rw [show cfg1.N = 4 from N_1]; omega⟩
def tl2 (L : Fin 1024) : Fin cfg2.N := ⟨L.val / 256, by rw [show cfg2.N = 4 from N_2]; omega⟩
def ln (L : Fin 1024) : Fin 256 := ⟨L.val % 256, Nat.mod_lt _ (by decide)⟩
/-- Tile `j` as a grid point of the first and of the second call. -/
def pt0 (j : Fin 4) : Fin cfg0.N := ⟨j.val, by rw [show cfg0.N = 4 from N_0]; exact j.isLt⟩
def pt1 (j : Fin 4) : Fin cfg1.N := ⟨j.val, by rw [show cfg1.N = 4 from N_1]; exact j.isLt⟩

theorem lane_split (L : Fin 1024) : L.val = 256 * (L.val / 256) + L.val % 256 := by omega

/-- An affine row as a function of the lane. -/
abbrev row2 (x : Vec Ideal S1x1024 .f32) : Fin 1024 → EReal := fun l => x (ix2 (0 : Fin 1) l)

/-- THE KERNEL'S ROWS: the residual block of the input rows and the nine parameter arrays, with the variance as the
    mean of squares minus the squared mean. -/
theorem kernel_rows (c : Dev nD) (r L : Fin 1024)
    (x : Vec Ideal S1024x1024 .bf16) (t1 t2 : Vec Ideal S3072x1024 .bf16) (tid : Vec Ideal S1024x1024 .bf16)
    (g1 b1 g2 b2 gid bid : Vec Ideal S1x1024 .f32) (rows : Vec Ideal S1024x1024 .f32)
    (hx : V1 (F := Ideal) m ρ c main_v2 = x)
    (ht1 : m ((c : Thread nD τ).loc main_arg1) = t1) (ht2 : m ((c : Thread nD τ).loc main_arg2) = t2) (htid : m ((c : Thread nD τ).loc main_arg3) = tid)
    (hg1 : m ((c : Thread nD τ).loc main_arg4) = g1) (hb1 : m ((c : Thread nD τ).loc main_arg5) = b1)
    (hg2 : m ((c : Thread nD τ).loc main_arg6) = g2) (hb2 : m ((c : Thread nD τ).loc main_arg7) = b2)
    (hgid : m ((c : Thread nD τ).loc main_arg8) = gid) (hbid : m ((c : Thread nD τ).loc main_arg9) = bid)
    (hrows : W4 (F := Ideal) m ρ c (Proc.devRef .tc main_v5) = rows) :
    rows (ix2 r L)
      = block varSq tapsOf (arr2 x) (wt2 t1) (wt2 t2) (arr2 tid) (row2 g1) (row2 b1) (row2 g2) (row2 b2) (row2 gid) (row2 bid) r L := by
  -- the first call: its entry contents at its windows
  have e0_1 : V1 (F := Ideal) m ρ c (Pipeline.arrRef spec0 1) = t1 := (W1_main_arg1 m ρ c).trans ht1
  have e0_2 : V1 (F := Ideal) m ρ c (Pipeline.arrRef spec0 2) = tid := (W1_main_arg3 m ρ c).trans htid
  -- what it leaves
  have hz1 : ∀ a b : Fin 1024, ((dat0 (V1 (F := Ideal) m ρ) c).arrAt 3 cfg0.N : Vec Ideal S1024x1024 .bf16) (ix2 a b)
      = conv tapsOf (arr2 x) (wt2 t1) a b := fun a b =>
    z1_apply (V1 m ρ) c (tl0 b) a (ln b) b (lane_split b) x t1 hx e0_1 _ rfl
  have hidz : ∀ a b : Fin 1024, ((dat0 (V1 (F := Ideal) m ρ) c).arrAt 4 cfg0.N : Vec Ideal S1024x1024 .bf16) (ix2 a b)
      = conv1x1 (arr2 x) (arr2 tid) a b := fun a b =>
    idz_apply (V1 m ρ) c (tl0 b) a (ln b) b (lane_split b) x tid hx e0_2 _ rfl
  have hs1_0 : ∀ (j : Fin 4) (c0 c1 : Fin 2) (l' : Fin 256), c0.val = j.val / 2 → c1.val = j.val % 2 →
      ((dat0 (V1 (F := Ideal) m ρ) c).arrAt 5 cfg0.N : Vec Ideal S2x2x4x256 .f32) (ix4 c0 c1 (0 : Fin 4) l')
        = ∑ r : Fin 1024, conv tapsOf (arr2 x) (wt2 t1) r (col j l') := fun j c0 c1 l' h0 h1 =>
    s1_row0 (V1 m ρ) c (pt0 j) j rfl c0 c1 h0 h1 l' x t1 hx e0_1 _ rfl
  have hs1_1 : ∀ (j : Fin 4) (c0 c1 : Fin 2) (l' : Fin 256), c0.val = j.val / 2 → c1.val = j.val % 2 →
      ((dat0 (V1 (F := Ideal) m ρ) c).arrAt 5 cfg0.N : Vec Ideal S2x2x4x256 .f32) (ix4 c0 c1 (1 : Fin 4) l')
        = ∑ r : Fin 1024, conv tapsOf (arr2 x) (wt2 t1) r (col j l') * conv tapsOf (arr2 x) (wt2 t1) r (col j l') := fun j c0 c1 l' h0 h1 =>
    s1_row1 (V1 m ρ) c (pt0 j) j rfl c0 c1 h0 h1 l' x t1 hx e0_1 _ rfl
  have hs1_2 : ∀ (j : Fin 4) (c0 c1 : Fin 2) (l' : Fin 256), c0.val = j.val / 2 → c1.val = j.val % 2 →
      ((dat0 (V1 (F := Ideal) m ρ) c).arrAt 5 cfg0.N : Vec Ideal S2x2x4x256 .f32) (ix4 c0 c1 (2 : Fin 4) l')
        = ∑ r : Fin 1024, conv1x1 (arr2 x) (arr2 tid) r (col j l') := fun j c0 c1 l' h0 h1 =>
    s1_row2 (V1 m ρ) c (pt0 j) j rfl c0 c1 h0 h1 l' x tid hx e0_2 _ rfl
  have hs1_3 : ∀ (j : Fin 4) (c0 c1 : Fin 2) (l' : Fin 256), c0.val = j.val / 2 → c1.val = j.val % 2 →
      ((dat0 (V1 (F := Ideal) m ρ) c).arrAt 5 cfg0.N : Vec Ideal S2x2x4x256 .f32) (ix4 c0 c1 (3 : Fin 4) l')
        = ∑ r : Fin 1024, conv1x1 (arr2 x) (arr2 tid) r (col j l') * conv1x1 (arr2 x) (arr2 tid) r (col j l') := fun j c0 c1 l' h0 h1 =>
    s1_row3 (V1 m ρ) c (pt0 j) j rfl c0 c1 h0 h1 l' x tid hx e0_2 _ rfl
  -- the second call: its entry contents at its windows
  have e1_2 : V2 (F := Ideal) m ρ c (Pipeline.arrRef spec1 2) = t2 := (W2_main_arg2 m ρ c).trans ht2
  have e1_3 : V2 (F := Ideal) m ρ c (Pipeline.arrRef spec1 3) = g1 := (W2_main_arg4 m ρ c).trans hg1
  have e1_4 : V2 (F := Ideal) m ρ c (Pipeline.arrRef spec1 4) = b1 := (W2_main_arg5 m ρ c).trans hb1
  -- what it leaves
  have hz2 : ∀ a b : Fin 1024, ((dat1 (V2 (F := Ideal) m ρ) c).arrAt 5 cfg1.N : Vec Ideal S1024x1024 .bf16) (ix2 a b)
      = conv tapsOf (hidOf (conv tapsOf (arr2 x) (wt2 t1)) (row2 g1) (row2 b1)) (wt2 t2) a b := fun a b =>
    z2_apply (V2 m ρ) c (tl1 b) a (ln b) b (lane_split b) _ _ t2 g1 b1 (conv tapsOf (arr2 x) (wt2 t1))
      (V2_z1 m ρ c) (V2_st1 m ρ c) e1_2 e1_3 e1_4 hz1 hs1_0 hs1_1 _ rfl
  have hs2_0 : ∀ (j : Fin 4) (c0 c1 : Fin 2) (l' : Fin 256), c0.val = j.val / 2 → c1.val = j.val % 2 →
      ((dat1 (V2 (F := Ideal) m ρ) c).arrAt 6 cfg1.N : Vec Ideal S2x2x2x256 .f32) (ix4 c0 c1 (0 : Fin 2) l')
        = ∑ r : Fin 1024, conv tapsOf (hidOf (conv tapsOf (arr2 x) (wt2 t1)) (row2 g1) (row2 b1)) (wt2 t2) r (col j l') := fun j c0 c1 l' h0 h1 =>
    s2_row0 (V2 m ρ) c (pt1 j) j rfl c0 c1 h0 h1 l' _ _ t2 g1 b1 (conv tapsOf (arr2 x) (wt2 t1))
      (V2_z1 m ρ c) (V2_st1 m ρ c) e1_2 e1_3 e1_4 hz1 hs1_0 hs1_1 _ rfl
  have hs2_1 : ∀ (j : Fin 4) (c0 c1 : Fin 2) (l' : Fin 256), c0.val = j.val / 2 → c1.val = j.val % 2 →
      ((dat1 (V2 (F := Ideal) m ρ) c).arrAt 6 cfg1.N : Vec Ideal S2x2x2x256 .f32) (ix4 c0 c1 (1 : Fin 2) l')
        = ∑ r : Fin 1024, conv tapsOf (hidOf (conv tapsOf (arr2 x) (wt2 t1)) (row2 g1) (row2 b1)) (wt2 t2) r (col j l')
            * conv tapsOf (hidOf (conv tapsOf (arr2 x) (wt2 t1)) (row2 g1) (row2 b1)) (wt2 t2) r (col j l') := fun j c0 c1 l' h0 h1 =>
    s2_row1 (V2 m ρ) c (pt1 j) j rfl c0 c1 h0 h1 l' _ _ t2 g1 b1 (conv tapsOf (arr2 x) (wt2 t1))
      (V2_z1 m ρ c) (V2_st1 m ρ c) e1_2 e1_3 e1_4 hz1 hs1_0 hs1_1 _ rfl
  -- the third call
  subst hrows
  rw [W4_rows,
    rows3_apply (V3 m ρ) c (tl2 L) r (ln L) L (lane_split L) _ _ _ _ g2 b2 gid bid
      (V3_z2 m ρ c) (V3_idz m ρ c) (V3_st1 m ρ c) (V3_st2 m ρ c)
      ((W3_main_arg6 m ρ c).trans hg2) ((W3_main_arg7 m ρ c).trans hb2) ((W3_main_arg8 m ρ c).trans hgid) ((W3_main_arg9 m ρ c).trans hbid),
    rows3_spec _ _ _ _ g2 b2 gid bid _ _ (row2 g2) (row2 b2) (row2 gid) (row2 bid) hs2_0 hs2_1 hs1_2 hs1_3 hz2 hidz
      (fun _ => rfl) (fun _ => rfl) (fun _ => rfl) (fun _ => rfl) r L (ln L) (by show L.val % 256 % 32 = L.val % 32; omega)]
  rfl

end Cert.KernelIdeal.Hand

end
-- ==== Proof.ReferenceIdeal.RefRead.lean ====
/-
  The reference body's values read at an index, at the ideal instance.

  The body works on whole 1024 x 1024 arrays of 32 interleaved channels (lane m belongs to channel m mod 32).  Its
  batch normalisation of an array y is: the sums over the rows (a vector of 1024 lanes), the rotate-and-add chain by
  32, 64, 128, 256, 512 that leaves in every lane the total of the lane's channel, times the constant 2^-15 (the mean);
  the centred array y - mean; the same channel mean of its square (the variance); and
  centred * (gain * rsqrt (variance + eps)) + bias.  The blocks of that computation are named below once, each with
  its reading at an index, and every payload of the body is then one or two of these blocks.
-/
import proofs.«151177_g2000001997577596_pallasbulk_1280_5_alg».proof.Proof.Gen.ReferenceIdeal.Skeleton
import proofs.«151177_g2000001997577596_pallasbulk_1280_5_alg».proof.Proof.StatsRotate
import Idealize.ShloMosaic.Lib.ValueLayout
import Idealize.ShloMosaic.PureOps.Ideal.Laws

open scoped BigOperators
open Idealize.ShloMosaic Idealize.ShloMosaic.ValueIdx Cert.Proof.Stats

namespace Cert.ReferenceIdeal.RefRead

open Cert.ReferenceIdeal Cert.ReferenceIdeal.Gen

/-! ## The lanes of a channel -/

/-- Lane c + 32 * q of a row of 1024 lanes, where c = l mod 32 is the channel of lane l and q < 32 the lane group. -/
abbrev chLane (l : Fin 1024) (q : Fin 32) : Fin 1024 := ⟨l.val % 32 + 32 * q.val, by omega⟩

/-- The lanes of the channel of a lane of l's channel are the lanes of l's channel. -/
theorem chLane_chLane (l : Fin 1024) (q q' : Fin 32) : chLane (chLane l q) q' = chLane l q' :=
  Fin.ext (by show (l.val % 32 + 32 * q.val) % 32 + 32 * q'.val = l.val % 32 + 32 * q'.val; omega)

/-! ## The blocks of the batch normalisation -/

/-- The sums over the 1024 rows, lane by lane. -/
theorem rowSum_apply (src : FVec Ideal S1024x1024 .f32) (h : S1024x1024.Reduces [0] S1024) (hφ : FKind.Formats .f32)
    (hacc : (0x00000000#32 : BitVec FTy.f32.bits) = FKind.add.neutral .f32 hφ) (l : Fin 1024) :
    multiReduction (F := Ideal) .add [0] S1024 src 0x00000000#32 h hφ hacc (ix1 l) = ∑ k : Fin 1024, src (ix2 k l) := by
  refine (Ideal.multiReduction_add_single src 0x00000000#32 h hφ hacc (ix1 l)).trans ?_
  refine Finset.sum_congr rfl fun k _ => congrArg src ?_
  funext b
  match b with
  | ⟨0, _⟩ => exact Fin.ext rfl
  | ⟨1, _⟩ => exact Fin.ext rfl

/-- The sums over the rows as the body writes them. -/
noncomputable def rowSum (y : FVec Ideal S1024x1024 .f32) : FVec Ideal S1024 .f32 :=
  multiReduction (F := Ideal) .add [0] S1024 y 0x00000000#32 reduces_S1024x1024_S1024 (.inl rfl) rfl

theorem rowSum_def_apply (y : FVec Ideal S1024x1024 .f32) (l : Fin 1024) :
    rowSum y (ix1 l) = ∑ k : Fin 1024, y (ix2 k l) :=
  rowSum_apply y _ _ _ l

/-- The channel totals of a vector of 1024 lanes: laid out as one row, then the five rotate-and-add steps. -/
noncomputable def chanTot (S : FVec Ideal S1024 .f32) : FVec Ideal S1x1024 .f32 :=
  have v24 : FVec Ideal S1x1024 .f32 := shapeCast S1x1024 S shapeCasts_S1024_S1x1024
  have v25 : FVec Ideal S1x1024 .f32 := dynamicRotate 1 32#32 none v24 rotates_S1x1024_d1
  have v26 : FVec Ideal S1x1024 .f32 := addf v24 v25
  have v27 : FVec Ideal S1x1024 .f32 := dynamicRotate 1 64#32 none v26 rotates_S1x1024_d1
  have v28 : FVec Ideal S1x1024 .f32 := addf v26 v27
  have v29 : FVec Ideal S1x1024 .f32 := dynamicRotate 1 128#32 none v28 rotates_S1x1024_d1
  have v30 : FVec Ideal S1x1024 .f32 := addf v28 v29
  have v31 : FVec Ideal S1x1024 .f32 := dynamicRotate 1 256#32 none v30 rotates_S1x1024_d1
  have v32 : FVec Ideal S1x1024 .f32 := addf v30 v31
  have v33 : FVec Ideal S1x1024 .f32 := dynamicRotate 1 512#32 none v32 rotates_S1x1024_d1
  have v34 : FVec Ideal S1x1024 .f32 := addf v32 v33
  v34

/-- Lane l of the channel totals: the sum of the vector over the 32 lanes of l's channel. -/
theorem chanTot_apply (S : FVec Ideal S1024 .f32) (u : Fin 1) (l : Fin 1024) :
    chanTot S (ix2 u l) = ∑ q : Fin 32, S (ix1 (chLane l q)) := by
  unfold chanTot
  refine (allReduce1024 (φ := .f32) (shapeCast S1x1024 S shapeCasts_S1024_S1x1024) _ _ _ _ _ rotates_S1x1024_d1
    32#32 64#32 128#32 256#32 512#32 rfl rfl rfl rfl rfl rfl rfl rfl rfl rfl u l).trans ?_
  exact Finset.sum_congr rfl fun q _ => shapeCast_a_1a_apply S shapeCasts_S1024_S1x1024 u (chLane l q)

/-- The mean row: the channel totals times the constant. -/
noncomputable def meanRow (S : FVec Ideal S1024 .f32) : FVec Ideal S1x1024 .f32 :=
  mulf (chanTot S) (broadcast S1x1024 (Scalar.ofBits (F := Ideal) .f32 0x38000000#32))

theorem meanRow_apply (S : FVec Ideal S1024 .f32) (u : Fin 1) (l : Fin 1024) :
    meanRow S (ix2 u l) = (∑ q : Fin 32, S (ix1 (chLane l q))) * Ideal.ofBits .f32 0x38000000#32 := by
  show chanTot S (ix2 u l) * Ideal.ofBits .f32 0x38000000#32 = _
  rw [chanTot_apply]

/-- An array minus the mean row of a vector of sums, every row alike. -/
noncomputable def centred (y : FVec Ideal S1024x1024 .f32) (S : FVec Ideal S1024 .f32) : FVec Ideal S1024x1024 .f32 :=
  subf y (broadcastTo S1024x1024 (meanRow S) broadcasts_S1x1024_S1024x1024)

theorem centred_apply (y : FVec Ideal S1024x1024 .f32) (S : FVec Ideal S1024 .f32) (r l : Fin 1024) :
    centred y S (ix2 r l)
      = y (ix2 r l) - (∑ q : Fin 32, S (ix1 (chLane l q))) * Ideal.ofBits .f32 0x38000000#32 := by
  show y (ix2 r l) - broadcastTo S1024x1024 (meanRow S) broadcasts_S1x1024_S1024x1024 (ix2 r l) = _
  rw [broadcastTo_1b_ab_apply, meanRow_apply]

/-- The sums over the rows of the square of an array. -/
noncomputable def rowSumSq (c : FVec Ideal S1024x1024 .f32) : FVec Ideal S1024 .f32 := rowSum (mulf c c)

theorem rowSumSq_apply (c : FVec Ideal S1024x1024 .f32) (l : Fin 1024) :
    rowSumSq c (ix1 l) = ∑ k : Fin 1024, c (ix2 k l) * c (ix2 k l) :=
  rowSum_def_apply (mulf c c) l

/-- The scale row: gain * rsqrt (mean row of a vector of sums of squares + eps). -/
noncomputable def scaleRow (Q : FVec Ideal S1024 .f32) (g : Vec Ideal S1x1024 .f32) : FVec Ideal S1x1024 .f32 :=
  mulf g (rsqrt (addf (meanRow Q) (broadcast S1x1024 (Scalar.ofBits (F := Ideal) .f32 0x3727C5AC#32))))

theorem scaleRow_apply (Q : FVec Ideal S1024 .f32) (g : Vec Ideal S1x1024 .f32) (u : Fin 1) (l : Fin 1024) :
    scaleRow Q g (ix2 u l)
      = g (ix2 u l) * Ideal.rsqrt ((∑ q : Fin 32, Q (ix1 (chLane l q))) * Ideal.ofBits .f32 0x38000000#32
          + Ideal.ofBits .f32 0x3727C5AC#32) := by
  show g (ix2 u l) * Ideal.rsqrt (meanRow Q (ix2 u l) + Ideal.ofBits .f32 0x3727C5AC#32) = _
  rw [meanRow_apply]

/-- A centred array times the scale row plus the bias row. -/
noncomputable def normalised (c : FVec Ideal S1024x1024 .f32) (Q : FVec Ideal S1024 .f32) (g b : Vec Ideal S1x1024 .f32) :
    FVec Ideal S1024x1024 .f32 :=
  addf (mulf c (broadcastTo S1024x1024 (scaleRow Q g) broadcasts_S1x1024_S1024x1024))
    (broadcastTo S1024x1024 b broadcasts_S1x1024_S1024x1024)

theorem normalised_apply (c : FVec Ideal S1024x1024 .f32) (Q : FVec Ideal S1024 .f32) (g b : Vec Ideal S1x1024 .f32)
    (r l : Fin 1024) :
    normalised c Q g b (ix2 r l)
      = c (ix2 r l) * (g (ix2 (0 : Fin 1) l)
            * Ideal.rsqrt ((∑ q : Fin 32, Q (ix1 (chLane l q))) * Ideal.ofBits .f32 0x38000000#32
                + Ideal.ofBits .f32 0x3727C5AC#32))
        + b (ix2 (0 : Fin 1) l) := by
  show c (ix2 r l) * broadcastTo S1024x1024 (scaleRow Q g) broadcasts_S1x1024_S1024x1024 (ix2 r l)
      + broadcastTo S1024x1024 b broadcasts_S1x1024_S1024x1024 (ix2 r l) = _
  rw [broadcastTo_1b_ab_apply, broadcastTo_1b_ab_apply, scaleRow_apply]

/-! ## A matrix product into the zero array -/

/-- An m x K by K x n product (contracting the left operand's columns with the right operand's rows) into the zero
    array reads, at (r, l), the sum over the K contracted positions of the products of the entries. -/
theorem matmul_plain_apply {m K n : ℕ} {φ₁ φ₂ : FTy}
    (w : DotDims.WF ⟨2, ![m, K]⟩ ⟨2, ![K, n]⟩ ⟨2, ![m, n]⟩ [1] [0] [0] [1] [] [])
    (A : FVec Ideal ⟨2, ![m, K]⟩ φ₁) (B : FVec Ideal ⟨2, ![K, n]⟩ φ₂) (r : Fin m) (l : Fin n) :
    matmul (F := Ideal) (⟨[1], [0], [0], [1], [], [], w⟩ : DotDims ⟨2, ![m, K]⟩ ⟨2, ![K, n]⟩ ⟨2, ![m, n]⟩) none A B
        (constant (F := Ideal) ⟨2, ![m, n]⟩ .f32 0x00000000#32) (ix2 r l)
      = ∑ k : Fin K, A (ix2 r k) * B (ix2 k l) := by
  refine (Ideal.matmul_constant_zero_apply
    (⟨[1], [0], [0], [1], [], [], w⟩ : DotDims ⟨2, ![m, K]⟩ ⟨2, ![K, n]⟩ ⟨2, ![m, n]⟩) none A B (ix2 r l)).trans ?_
  rw [← Equiv.sum_comp
    (contrEquiv1 (⟨[1], [0], [0], [1], [], [], w⟩ : DotDims ⟨2, ![m, K]⟩ ⟨2, ![K, n]⟩ ⟨2, ![m, n]⟩) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 r l)
      ((contrEquiv1 _ K rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 r l)
      ((contrEquiv1 _ K rfl rfl).symm c) = ix2 c l := by
    funext ax; apply Fin.ext
    match ax with
    | ⟨0, _⟩ => simp [DotDims.rhsIdx]; exact c2
    | ⟨1, _⟩ => simp [DotDims.rhsIdx]; rfl
  rw [l2, r2]

/-! ## The whole batch normalisation of an array, given the vector of its row sums -/

/-- The channel total, at lane l, of the row sums of the square of an array centred by the mean row of S: the sum over
    the 32 lanes of l's channel and the 1024 rows of the squares of the entries minus the channel mean at l. -/
theorem chan_rowSumSq_centred (y : FVec Ideal S1024x1024 .f32) (S : FVec Ideal S1024 .f32) (l : Fin 1024) :
    ∑ q : Fin 32, rowSumSq (centred y S) (ix1 (chLane l q))
      = ∑ q : Fin 32, ∑ k : Fin 1024,
          (y (ix2 k (chLane l q)) - (∑ q' : Fin 32, S (ix1 (chLane l q'))) * Ideal.ofBits .f32 0x38000000#32)
            * (y (ix2 k (chLane l q)) - (∑ q' : Fin 32, S (ix1 (chLane l q'))) * Ideal.ofBits .f32 0x38000000#32) := by
  refine Finset.sum_congr rfl fun q _ => ?_
  rw [rowSumSq_apply]
  refine Finset.sum_congr rfl fun k _ => ?_
  rw [centred_apply]
  have hch : (∑ q' : Fin 32, S (ix1 (chLane (chLane l q) q'))) = ∑ q' : Fin 32, S (ix1 (chLane l q')) :=
    Finset.sum_congr rfl fun q' _ => by rw [chLane_chLane]
  rw [hch]

/-- The batch normalisation of y, S being the vector of the sums over its rows: centre by the channel mean, take the
    channel mean of the square, scale and shift. -/
noncomputable def batchNorm (y : FVec Ideal S1024x1024 .f32) (S : FVec Ideal S1024 .f32) (g b : Vec Ideal S1x1024 .f32) :
    FVec Ideal S1024x1024 .f32 :=
  normalised (centred y S) (rowSumSq (centred y S)) g b

/-- Entry (r, l) of the batch normalisation, with M the channel mean at lane l:
    (y - M) * (g * rsqrt (mean over the channel of (y - M)^2 + eps)) + b. -/
theorem batchNorm_apply (y : FVec Ideal S1024x1024 .f32) (S : FVec Ideal S1024 .f32) (g b : Vec Ideal S1x1024 .f32)
    (r l : Fin 1024) :
    batchNorm y S g b (ix2 r l)
      = (y (ix2 r l) - (∑ q' : Fin 32, S (ix1 (chLane l q'))) * Ideal.ofBits .f32 0x38000000#32)
          * (g (ix2 (0 : Fin 1) l)
              * Ideal.rsqrt ((∑ q : Fin 32, ∑ k : Fin 1024,
                    (y (ix2 k (chLane l q)) - (∑ q' : Fin 32, S (ix1 (chLane l q'))) * Ideal.ofBits .f32 0x38000000#32)
                      * (y (ix2 k (chLane l q))
                          - (∑ q' : Fin 32, S (ix1 (chLane l q'))) * Ideal.ofBits .f32 0x38000000#32))
                    * Ideal.ofBits .f32 0x38000000#32
                  + Ideal.ofBits .f32 0x3727C5AC#32))
        + b (ix2 (0 : Fin 1) l) := by
  unfold batchNorm
  rw [normalised_apply, centred_apply, chan_rowSumSq_centred]

/-- The channel total of the row sums themselves: the sum over the channel's lanes and the rows. -/
theorem chan_rowSum (y : FVec Ideal S1024x1024 .f32) (l : Fin 1024) :
    ∑ q : Fin 32, rowSum y (ix1 (chLane l q)) = ∑ q : Fin 32, ∑ k : Fin 1024, y (ix2 k (chLane l q)) :=
  Finset.sum_congr rfl fun q _ => rowSum_def_apply y (chLane l q)

/-! ## The payloads without a three-tap operand -/

/-- The final clamp: the larger of the entry and the scalar. -/
theorem k0_pay1_apply (v161 : FVec Ideal S1024x1024 .f32) (c : Ideal .f32) (r l : Fin 1024) :
    k0_pay1 (F := Ideal) v161 c (ix2 r l) = max (v161 (ix2 r l)) c := rfl

/-- The input rows, cast to their own shape: unchanged. -/
theorem k0_pay5_eq (v11 : Vec Ideal S1024x1024 .f32) : k0_pay5 (F := Ideal) v11 = v11 := by
  unfold k0_pay5
  exact shapeCast_self v11 _

theorem k0_pay5_apply (v11 : Vec Ideal S1024x1024 .f32) (r l : Fin 1024) :
    k0_pay5 (F := Ideal) v11 (ix2 r l) = v11 (ix2 r l) := congrFun (k0_pay5_eq v11) _

/-- The sums over the rows of the square of the centred first product. -/
theorem k0_pay7_apply (v11 : Vec Ideal S1024x1024 .f32) (v21 : Vec Ideal S3072x1024 .bf16) (l : Fin 1024) :
    k0_pay7 (F := Ideal) v11 v21 (ix1 l)
      = ∑ k : Fin 1024, k0_pay6 (F := Ideal) v11 v21 (ix2 k l) * k0_pay6 (F := Ideal) v11 v21 (ix2 k l) := by
  unfold k0_pay7
  exact rowSumSq_apply (k0_pay6 (F := Ideal) v11 v21) l

/-- The 1 x 1 branch's product: the input rows times the weights, the rounding to the narrower format being the
    identity. -/
theorem k0_pay12_apply (v12 : FVec Ideal S1024x1024 .f32) (v118 : Vec Ideal S1024x1024 .bf16) (r l : Fin 1024) :
    k0_pay12 (F := Ideal) v12 v118 (ix2 r l) = ∑ k : Fin 1024, v12 (ix2 r k) * v118 (ix2 k l) := by
  unfold k0_pay12
  exact matmul_plain_apply (m := 1024) (K := 1024) (n := 1024) (φ₁ := .bf16) (φ₂ := .bf16) _ v12 v118 r l

/-- The sums over the rows of the 1 x 1 branch's product. -/
theorem k0_pay13_apply (v12 : FVec Ideal S1024x1024 .f32) (v118 : Vec Ideal S1024x1024 .bf16) (l : Fin 1024) :
    k0_pay13 (F := Ideal) v12 v118 (ix1 l) = ∑ k : Fin 1024, k0_pay12 (F := Ideal) v12 v118 (ix2 k l) := by
  unfold k0_pay13
  exact rowSum_def_apply (k0_pay12 (F := Ideal) v12 v118) l

/-- The identity branch's normalisation added to the main branch: with S the row sums of the 1 x 1 product,
    main + batch normalisation of the product. -/
theorem k0_pay14_eq (v116 v119 : FVec Ideal S1024x1024 .f32) (v120 : FVec Ideal S1024 .f32)
    (v151 v158 : Vec Ideal S1x1024 .f32) :
    k0_pay14 (F := Ideal) v116 v119 v120 v151 v158 = addf v116 (batchNorm v119 v120 v151 v158) := rfl

theorem k0_pay14_apply (v116 v119 : FVec Ideal S1024x1024 .f32) (v120 : FVec Ideal S1024 .f32)
    (v151 v158 : Vec Ideal S1x1024 .f32) (r l : Fin 1024) :
    k0_pay14 (F := Ideal) v116 v119 v120 v151 v158 (ix2 r l)
      = v116 (ix2 r l) + batchNorm v119 v120 v151 v158 (ix2 r l) := by
  rw [k0_pay14_eq]; rfl

/-- The first step of the second product's channel totals: the row sums laid out as a row, plus the same rotated by 32. -/
theorem k0_pay9_eq (v6 v10 : FVec Ideal S1024x1 .f32) (v38 : FVec Ideal S1024x1024 .f32) (v40 : FVec Ideal S1024 .f32)
    (v54 v61 : Vec Ideal S1x1024 .f32) (v74 : Vec Ideal S3072x1024 .bf16) :
    k0_pay9 (F := Ideal) v6 v10 v38 v40 v54 v61 v74
      = addf (shapeCast S1x1024 (rowSum (k0_pay8 (F := Ideal) v6 v10 v38 v40 v54 v61 v74)) shapeCasts_S1024_S1x1024)
          (dynamicRotate 1 32#32 none
            (shapeCast S1x1024 (rowSum (k0_pay8 (F := Ideal) v6 v10 v38 v40 v54 v61 v74)) shapeCasts_S1024_S1x1024)
            rotates_S1x1024_d1) := rfl

/-- The second step's rotated operand. -/
theorem k0_pay10_eq (v6 v10 : FVec Ideal S1024x1 .f32) (v38 : FVec Ideal S1024x1024 .f32) (v40 : FVec Ideal S1024 .f32)
    (v54 v61 : Vec Ideal S1x1024 .f32) (v74 : Vec Ideal S3072x1024 .bf16) :
    k0_pay10 (F := Ideal) v6 v10 v38 v40 v54 v61 v74
      = dynamicRotate 1 64#32 none (k0_pay9 (F := Ideal) v6 v10 v38 v40 v54 v61 v74) rotates_S1x1024_d1 := rfl

/-- The second normalisation, given that its two statistics operands are the first step of the channel totals of a
    vector S and that step rotated by 64: the batch normalisation of the product with row sums S. -/
theorem k0_pay11_eq_of (v75 : FVec Ideal S1024x1024 .f32) (v79 v80 : FVec Ideal S1x1024 .f32)
    (v107 v114 : Vec Ideal S1x1024 .f32) (S : FVec Ideal S1024 .f32)
    (h79 : v79 = addf (shapeCast S1x1024 S shapeCasts_S1024_S1x1024)
      (dynamicRotate 1 32#32 none (shapeCast S1x1024 S shapeCasts_S1024_S1x1024) rotates_S1x1024_d1))
    (h80 : v80 = dynamicRotate 1 64#32 none v79 rotates_S1x1024_d1) :
    k0_pay11 (F := Ideal) v75 v79 v80 v107 v114 = batchNorm v75 S v107 v114 := by
  subst h80; subst h79; rfl

/-- The second normalisation as the body nests it: the batch normalisation of the second product Z with the sums over
    Z's rows. -/
theorem k0_pay11_nest (v6 v10 : FVec Ideal S1024x1 .f32) (v38 : FVec Ideal S1024x1024 .f32) (v40 : FVec Ideal S1024 .f32)
    (v54 v61 : Vec Ideal S1x1024 .f32) (v74 : Vec Ideal S3072x1024 .bf16) (v107 v114 : Vec Ideal S1x1024 .f32) :
    k0_pay11 (F := Ideal) (k0_pay8 (F := Ideal) v6 v10 v38 v40 v54 v61 v74) (k0_pay9 (F := Ideal) v6 v10 v38 v40 v54 v61 v74)
        (k0_pay10 (F := Ideal) v6 v10 v38 v40 v54 v61 v74) v107 v114
      = batchNorm (k0_pay8 (F := Ideal) v6 v10 v38 v40 v54 v61 v74)
          (rowSum (k0_pay8 (F := Ideal) v6 v10 v38 v40 v54 v61 v74)) v107 v114 :=
  k0_pay11_eq_of _ _ _ v107 v114 _ (k0_pay9_eq v6 v10 v38 v40 v54 v61 v74) (k0_pay10_eq v6 v10 v38 v40 v54 v61 v74)

/-- The identity branch as the body nests it: main + batch normalisation of the 1 x 1 product with the sums over its
    rows. -/
theorem k0_pay14_nest (v116 v12 : FVec Ideal S1024x1024 .f32) (v118 : Vec Ideal S1024x1024 .bf16)
    (v151 v158 : Vec Ideal S1x1024 .f32) :
    k0_pay14 (F := Ideal) v116 (k0_pay12 (F := Ideal) v12 v118) (k0_pay13 (F := Ideal) v12 v118) v151 v158
      = addf v116 (batchNorm (k0_pay12 (F := Ideal) v12 v118) (rowSum (k0_pay12 (F := Ideal) v12 v118)) v151 v158) := rfl

end Cert.ReferenceIdeal.RefRead
-- ==== Proof.ReferenceIdeal.RefConv.lean ====
/-
  The reference body's two convolutions read at an index, at the ideal instance.

  Each 3 x 3 convolution is one matrix product of the three-tap operand of an array h (row r holds the row above r,
  row r and the row below r side by side, the neighbours cancelled at an image's first and last row) with a
  3072 x 1024 array of weights.  The first convolution takes the input rows; its product is centred by its channel
  mean.  The second takes the first batch normalisation clamped at zero.
-/
import proofs.«151177_g2000001997577596_pallasbulk_1280_5_alg».proof.Proof.ReferenceIdeal.RefRead
import proofs.«151177_g2000001997577596_pallasbulk_1280_5_alg».proof.Proof.Taps

open scoped BigOperators
open Idealize.ShloMosaic Idealize.ShloMosaic.ValueIdx Cert.Proof.Stats Cert.Proof.Taps

namespace Cert.ReferenceIdeal.RefRead

open Cert.ReferenceIdeal Cert.ReferenceIdeal.Gen

/-! ## The two columns of zeros and ones -/

/-- The column that cancels the row above on an image's first row: 1 where r mod 32 is not 0. -/
theorem k0_pay3_apply (r : Fin 1024) (u : Fin 1) :
    k0_pay3 (F := Ideal) (ix2 r u) = if r.val % 32 ≠ 0 then 1 else 0 := by
  unfold k0_pay3 k0_pay2
  exact mask_read 0#32 (by decide) _ _ r u

/-- The column that cancels the row below on an image's last row: 1 where r mod 32 is not 31. -/
theorem k0_pay4_apply (r : Fin 1024) (u : Fin 1) :
    k0_pay4 (F := Ideal) (ix2 r u) = if r.val % 32 ≠ 31 then 1 else 0 := by
  unfold k0_pay4 k0_pay2
  exact mask_read 31#32 (by decide) _ _ r u

/-! ## A convolution as the body writes it -/

/-- The three-tap operand of h with the columns ma, mb, as the body builds it: the rows rotated by 1 times ma, the rows,
    the rows rotated by 1023 times mb, side by side, in the narrower format. -/
noncomputable def tapOperand (h : FVec Ideal S1024x1024 .f32) (ma mb : FVec Ideal S1024x1 .f32) :
    FVec Ideal S1024x3072 .bf16 :=
  truncf .bf16 (concatenate S1024x3072 1
    [⟨S1024x1024, mulf (dynamicRotate 0 1#32 none h rotates_S1024x1024_d0)
        (broadcastTo S1024x1024 ma broadcasts_S1024x1_S1024x1024)⟩,
     ⟨S1024x1024, h⟩,
     ⟨S1024x1024, mulf (dynamicRotate 0 1023#32 none h rotates_S1024x1024_d0)
        (broadcastTo S1024x1024 mb broadcasts_S1024x1_S1024x1024)⟩]
    concatenates_S1024x1024_S1024x1024_S1024x1024_S1024x3072_d1) bitsLt_bf16_f32

/-- The product of the three-tap operand with the weights, into the zero array. -/
noncomputable def conv3 (h : FVec Ideal S1024x1024 .f32) (ma mb : FVec Ideal S1024x1 .f32)
    (t : Vec Ideal S3072x1024 .bf16) : FVec Ideal S1024x1024 .f32 :=
  matmul (F := Ideal) (φ₁ := .bf16) (φ₂ := .bf16) dot_S1024x3072_S3072x1024_S1024x1024_1_0_0_1_n_n none
    (tapOperand h ma mb) t (constant (F := Ideal) S1024x1024 .f32 0x00000000#32)

/-- Entry (r, l) of a convolution whose two columns are the zero-one columns: the sum over the 3072 lanes of the
    three-tap operand of h at row r times the weights' column l. -/
theorem conv3_apply (h : FVec Ideal S1024x1024 .f32) (ma mb : FVec Ideal S1024x1 .f32) (t : Vec Ideal S3072x1024 .bf16)
    (hUp : ∀ (r : Fin 1024) (u : Fin 1), ma (ix2 r u) = if r.val % 32 ≠ 0 then 1 else 0)
    (hDn : ∀ (r : Fin 1024) (u : Fin 1), mb (ix2 r u) = if r.val % 32 ≠ 31 then 1 else 0)
    (r l : Fin 1024) :
    conv3 h ma mb t (ix2 r l) = ∑ K : Fin 3072, tapsOf (fun a b => h (ix2 a b)) r K * t (ix2 K l) := by
  unfold conv3
  refine (matmul_plain_apply (m := 1024) (K := 3072) (n := 1024) (φ₁ := .bf16) (φ₂ := .bf16) _
    (tapOperand h ma mb) t r l).trans ?_
  refine Finset.sum_congr rfl fun K _ => congrArg (· * t (ix2 K l)) ?_
  exact taps_read (φ := .f32) h ma mb rotates_S1024x1024_d0 broadcasts_S1024x1_S1024x1024
    concatenates_S1024x1024_S1024x1024_S1024x1024_S1024x3072_d1 hUp hDn r K

/-! ## The first convolution, centred -/

/-- The first convolution's product: of the input rows, with the body's own two columns. -/
noncomputable def conv1 (v11 : Vec Ideal S1024x1024 .f32) (v21 : Vec Ideal S3072x1024 .bf16) : FVec Ideal S1024x1024 .f32 :=
  conv3 (k0_pay5 (F := Ideal) v11) (k0_pay3 (F := Ideal)) (k0_pay4 (F := Ideal)) v21

theorem conv1_apply (v11 : Vec Ideal S1024x1024 .f32) (v21 : Vec Ideal S3072x1024 .bf16) (r l : Fin 1024) :
    conv1 v11 v21 (ix2 r l) = ∑ K : Fin 3072, tapsOf (fun a b => v11 (ix2 a b)) r K * v21 (ix2 K l) := by
  unfold conv1
  rw [k0_pay5_eq]
  exact conv3_apply v11 _ _ v21 k0_pay3_apply k0_pay4_apply r l

/-- The first payload of the normalisation: the first product minus its channel mean row. -/
theorem k0_pay6_eq (v11 : Vec Ideal S1024x1024 .f32) (v21 : Vec Ideal S3072x1024 .bf16) :
    k0_pay6 (F := Ideal) v11 v21 = centred (conv1 v11 v21) (rowSum (conv1 v11 v21)) := rfl

/-- Entry (r, l) of the centred first product: the product minus the mean over the 32 lanes of l's channel and the
    1024 rows. -/
theorem k0_pay6_apply (v11 : Vec Ideal S1024x1024 .f32) (v21 : Vec Ideal S3072x1024 .bf16) (r l : Fin 1024) :
    k0_pay6 (F := Ideal) v11 v21 (ix2 r l)
      = conv1 v11 v21 (ix2 r l)
        - (∑ q : Fin 32, ∑ k : Fin 1024, conv1 v11 v21 (ix2 k (chLane l q))) * Ideal.ofBits .f32 0x38000000#32 := by
  rw [k0_pay6_eq, centred_apply, chan_rowSum]

/-- The sums of squares the body passes on are those of the centred first product. -/
theorem k0_pay7_eq (v11 : Vec Ideal S1024x1024 .f32) (v21 : Vec Ideal S3072x1024 .bf16) :
    k0_pay7 (F := Ideal) v11 v21 = rowSumSq (k0_pay6 (F := Ideal) v11 v21) := rfl

/-! ## The second convolution -/

/-- An array clamped at zero from below. -/
noncomputable def relu (y : FVec Ideal S1024x1024 .f32) : FVec Ideal S1024x1024 .f32 :=
  maximumf y (broadcast S1024x1024 (Scalar.ofBits (F := Ideal) .f32 0x00000000#32))

theorem relu_apply (y : FVec Ideal S1024x1024 .f32) (r l : Fin 1024) :
    relu y (ix2 r l) = max (y (ix2 r l)) (Ideal.ofBits .f32 0x00000000#32) := rfl

/-- The second payload: the convolution of the first normalisation (of the centred product v38 with sums of squares
    v40) clamped at zero. -/
theorem k0_pay8_eq (v6 v10 : FVec Ideal S1024x1 .f32) (v38 : FVec Ideal S1024x1024 .f32) (v40 : FVec Ideal S1024 .f32)
    (v54 v61 : Vec Ideal S1x1024 .f32) (v74 : Vec Ideal S3072x1024 .bf16) :
    k0_pay8 (F := Ideal) v6 v10 v38 v40 v54 v61 v74 = conv3 (relu (normalised v38 v40 v54 v61)) v6 v10 v74 := rfl

theorem k0_pay8_apply (v6 v10 : FVec Ideal S1024x1 .f32) (v38 : FVec Ideal S1024x1024 .f32) (v40 : FVec Ideal S1024 .f32)
    (v54 v61 : Vec Ideal S1x1024 .f32) (v74 : Vec Ideal S3072x1024 .bf16)
    (hUp : ∀ (r : Fin 1024) (u : Fin 1), v6 (ix2 r u) = if r.val % 32 ≠ 0 then 1 else 0)
    (hDn : ∀ (r : Fin 1024) (u : Fin 1), v10 (ix2 r u) = if r.val % 32 ≠ 31 then 1 else 0)
    (r l : Fin 1024) :
    k0_pay8 (F := Ideal) v6 v10 v38 v40 v54 v61 v74 (ix2 r l)
      = ∑ K : Fin 3072, tapsOf (fun a b => max (normalised v38 v40 v54 v61 (ix2 a b)) (Ideal.ofBits .f32 0x00000000#32)) r K
          * v74 (ix2 K l) := by
  rw [k0_pay8_eq]
  exact conv3_apply (relu (normalised v38 v40 v54 v61)) v6 v10 v74 hUp hDn r l

/-- The first normalisation as the body nests it: the batch normalisation of the first product with the sums over its
    rows. -/
theorem bn1_nest (v11 : Vec Ideal S1024x1024 .f32) (v21 : Vec Ideal S3072x1024 .bf16) (g b : Vec Ideal S1x1024 .f32) :
    normalised (k0_pay6 (F := Ideal) v11 v21) (k0_pay7 (F := Ideal) v11 v21) g b
      = batchNorm (conv1 v11 v21) (rowSum (conv1 v11 v21)) g b := rfl

/-- The second product as the body nests it: the convolution of the first batch normalisation clamped at zero. -/
theorem k0_pay8_nest (v11 : Vec Ideal S1024x1024 .f32) (v21 : Vec Ideal S3072x1024 .bf16) (v54 v61 : Vec Ideal S1x1024 .f32)
    (v74 : Vec Ideal S3072x1024 .bf16) (r l : Fin 1024) :
    k0_pay8 (F := Ideal) (k0_pay3 (F := Ideal)) (k0_pay4 (F := Ideal)) (k0_pay6 (F := Ideal) v11 v21)
        (k0_pay7 (F := Ideal) v11 v21) v54 v61 v74 (ix2 r l)
      = ∑ K : Fin 3072,
          tapsOf (fun a b => max (batchNorm (conv1 v11 v21) (rowSum (conv1 v11 v21)) v54 v61 (ix2 a b))
              (Ideal.ofBits .f32 0x00000000#32)) r K
            * v74 (ix2 K l) := by
  rw [k0_pay8_apply _ _ _ _ v54 v61 v74 k0_pay3_apply k0_pay4_apply r l, bn1_nest]

end Cert.ReferenceIdeal.RefRead
-- ==== Proof.ReferenceIdeal.RefRows.lean ====
/-
  The reference body's result as the residual block.

  The body's batch normalisation of an array y — centre by the channel mean, channel mean of the squared deviations,
  scale and shift — is, entry by entry, the specification's normalisation with the variance taken as the mean of
  squared deviations, for any array of extended reals Y that y reads.  Nesting it as the body does gives the block.
-/
import proofs.«151177_g2000001997577596_pallasbulk_1280_5_alg».proof.Proof.ReferenceIdeal.RefConv
import proofs.«151177_g2000001997577596_pallasbulk_1280_5_alg».proof.Proof.Gen.ReferenceIdeal.Frame
import proofs.«151177_g2000001997577596_pallasbulk_1280_5_alg».proof.Proof.Net
import proofs.«151177_g2000001997577596_pallasbulk_1280_5_alg».proof.Proof.Taps

open scoped BigOperators
open Idealize.ShloMosaic Idealize.ShloMosaic.ValueIdx Cert.Proof.Stats

namespace Cert.ReferenceIdeal.RefRows

open Cert.ReferenceIdeal Cert.ReferenceIdeal.Gen Cert.ReferenceIdeal.RefRead
open Cert.Proof.Spec Cert.Proof.Net Cert.Proof.Taps

/-- THE BODY'S BATCH NORMALISATION IS THE SPECIFICATION'S, with the variance as the mean of squared deviations: for an
    array y that reads Y, with the sums over y's own rows as its statistics operand. -/
theorem batchNorm_eq_normed (y : FVec Ideal S1024x1024 .f32) (Y : Fin 1024 → Fin 1024 → EReal)
    (hY : ∀ r l, y (ix2 r l) = Y r l) (g b : Vec Ideal S1x1024 .f32) (r l : Fin 1024) :
    batchNorm y (rowSum y) g b (ix2 r l)
      = normed (varDev Y) Y (fun l => g (ix2 (0 : Fin 1) l)) (fun l => b (ix2 (0 : Fin 1) l)) r l := by
  have hS : (∑ q' : Fin 32, rowSum y (ix1 (chLane l q'))) = chanSum Y l := by
    rw [chan_rowSum]
    exact Finset.sum_congr rfl fun q _ => Finset.sum_congr rfl fun k _ => hY k _
  have hvar : varDev Y l
      = (∑ q : Fin 32, ∑ k : Fin 1024, (Y k (chanLane l q) - meanOf Y l) * (Y k (chanLane l q) - meanOf Y l)) * invM := by
    unfold varDev
    show (∑ q : Fin 32, ∑ k : Fin 1024,
        (Y k (chanLane l q) - meanOf Y (chanLane l q)) * (Y k (chanLane l q) - meanOf Y (chanLane l q))) * invM = _
    simp only [meanOf_chanLane]
  rw [batchNorm_apply, hS]
  simp only [hY]
  unfold normed
  rw [hvar]
  rfl

/-! ## The body's arrays as arrays of extended reals -/

/-- A 1024 x 1024 array of 32-bit floats as a function of row and lane. -/
abbrev arrOf (x : Vec Ideal S1024x1024 .f32) : Arr := fun a b => x (ix2 a b)
/-- A 1024 x 1024 array of 16-bit floats as a function of row and lane. -/
abbrev arrOfB (x : Vec Ideal S1024x1024 .bf16) : Arr := fun k l => x (ix2 k l)
/-- A 3072 x 1024 array of weights as a function of row and lane. -/
abbrev wtOf (x : Vec Ideal S3072x1024 .bf16) : Wt := fun k l => x (ix2 k l)
/-- A 1 x 1024 row as a function of the lane. -/
abbrev rowOf (x : Vec Ideal S1x1024 .f32) : Row := fun l => x (ix2 (0 : Fin 1) l)

/-- The first convolution's product reads the specification's first convolution. -/
theorem conv1_eq (x0 : Vec Ideal S1024x1024 .f32) (x1 : Vec Ideal S3072x1024 .bf16) (a b : Fin 1024) :
    conv1 x0 x1 (ix2 a b) = conv tapsOf (arrOf x0) (wtOf x1) a b :=
  conv1_apply x0 x1 a b

/-- The first normalisation clamped at zero reads the specification's hidden activation. -/
theorem hidden_eq (x0 : Vec Ideal S1024x1024 .f32) (x1 : Vec Ideal S3072x1024 .bf16) (x4 x5 : Vec Ideal S1x1024 .f32) :
    (fun a b => max (batchNorm (conv1 x0 x1) (rowSum (conv1 x0 x1)) x4 x5 (ix2 a b)) (Ideal.ofBits .f32 0x00000000#32))
      = hidden varDev tapsOf (arrOf x0) (wtOf x1) (rowOf x4) (rowOf x5) := by
  funext a b
  rw [batchNorm_eq_normed (conv1 x0 x1) (conv tapsOf (arrOf x0) (wtOf x1)) (conv1_eq x0 x1) x4 x5 a b]
  rfl

/-- The second convolution's product reads the specification's second convolution. -/
theorem conv2_eq (x0 : Vec Ideal S1024x1024 .f32) (x1 x2 : Vec Ideal S3072x1024 .bf16) (x4 x5 : Vec Ideal S1x1024 .f32)
    (a b : Fin 1024) :
    k0_pay8 (F := Ideal) (k0_pay3 (F := Ideal)) (k0_pay4 (F := Ideal)) (k0_pay6 (F := Ideal) x0 x1)
        (k0_pay7 (F := Ideal) x0 x1) x4 x5 x2 (ix2 a b)
      = conv tapsOf (hidden varDev tapsOf (arrOf x0) (wtOf x1) (rowOf x4) (rowOf x5)) (wtOf x2) a b := by
  rw [k0_pay8_nest, hidden_eq]
  rfl

/-- The 1 x 1 branch's product reads the specification's. -/
theorem convId_eq (x0 : Vec Ideal S1024x1024 .f32) (x3 : Vec Ideal S1024x1024 .bf16) (a b : Fin 1024) :
    k0_pay12 (F := Ideal) (k0_pay5 (F := Ideal) x0) x3 (ix2 a b) = conv1x1 (arrOf x0) (arrOfB x3) a b := by
  rw [k0_pay12_apply, k0_pay5_eq]
  rfl

/-- THE REFERENCE'S ROWS ARE THE BLOCK, with the variance as the mean of squared deviations. -/
theorem ref_rows' (x0 : Vec Ideal S1024x1024 .f32) (x1 x2 : Vec Ideal S3072x1024 .bf16) (x3 : Vec Ideal S1024x1024 .bf16)
    (x4 x5 x6 x7 x8 x9 : Vec Ideal S1x1024 .f32) (r L : Fin 1024) :
    out0_10 (F := Ideal) x0 x1 x2 x3 x4 x5 x6 x7 x8 x9 (ix2 r L)
      = block varDev tapsOf (arrOf x0) (wtOf x1) (wtOf x2) (arrOfB x3) (rowOf x4) (rowOf x5) (rowOf x6) (rowOf x7)
          (rowOf x8) (rowOf x9) r L := by
  have hz : (![0, 0] : Fin 2 → Nat) = fun _ => 0 := by funext a; fin_cases a <;> rfl
  unfold out0_10
  rw [View.canon_unit_zero (S := S1024x1024) hz]
  simp only [View.ld_unit_zero (S := S1024x1024) hz, View.ld_unit_zero (S := S3072x1024) hz,
    View.ld_unit_zero (S := S1x1024) hz]
  rw [k0_pay1_apply, k0_pay11_nest, k0_pay14_nest]
  show max (batchNorm _ (rowSum _) x6 x7 (ix2 r L) + batchNorm _ (rowSum _) x8 x9 (ix2 r L))
      (Ideal.ofBits .f32 0x00000000#32) = _
  rw [batchNorm_eq_normed _ _ (conv2_eq x0 x1 x2 x4 x5) x6 x7 r L,
    batchNorm_eq_normed _ _ (convId_eq x0 x3) x8 x9 r L]
  rfl

/-- The same with the arrays written out as functions of their coordinates. -/
theorem ref_rows (x0 : Vec Ideal S1024x1024 .f32) (x1 x2 : Vec Ideal S3072x1024 .bf16) (x3 : Vec Ideal S1024x1024 .bf16)
    (x4 x5 x6 x7 x8 x9 : Vec Ideal S1x1024 .f32) (r L : Fin 1024) :
    out0_10 (F := Ideal) x0 x1 x2 x3 x4 x5 x6 x7 x8 x9 (ix2 r L)
      = block varDev tapsOf (fun a b => x0 (ix2 a b)) (fun k l => x1 (ix2 k l)) (fun k l => x2 (ix2 k l))
          (fun k l => x3 (ix2 k l)) (fun l => x4 (ix2 (0 : Fin 1) l)) (fun l => x5 (ix2 (0 : Fin 1) l))
          (fun l => x6 (ix2 (0 : Fin 1) l)) (fun l => x7 (ix2 (0 : Fin 1) l)) (fun l => x8 (ix2 (0 : Fin 1) l))
          (fun l => x9 (ix2 (0 : Fin 1) l)) r L :=
  ref_rows' x0 x1 x2 x3 x4 x5 x6 x7 x8 x9 r L

end Cert.ReferenceIdeal.RefRows
-- ==== Proof.FiniteInputs.lean ====
/-
  Finiteness of the argument arrays from the precondition.

  The precondition evaluates, for each of the ten argument arrays, "all entries satisfy |x| < +infinity" and takes the
  conjunction of the ten answers.  An extended real whose absolute value max x (-x) is below +infinity is neither
  +infinity nor -infinity, so the precondition says that every entry of every argument array is finite.
-/
import proofs.«151177_g2000001997577596_pallasbulk_1280_5_alg».proof.Defs
import Idealize.ShloMosaic.Lib.ReduceAll
import Idealize.ShloMosaic.Lib.ValueIdx

open Idealize.ShloMosaic Idealize.SL.Sem

namespace Cert.Proof.Finite

open Cert.Pre_finite_inputs

/-- The scalar shape has one index. -/
instance instSubsingletonScalarIdx : Subsingleton S_.Idx := ⟨fun a b => funext fun d => d.elim0⟩

/-- The 32-bit word 0x7F800000 denotes +infinity. -/
theorem inf_word : Ideal.ofBits .f32 0x7F800000#32 = ⊤ := by simp [Ideal.ofBits, Ideal.ieee]

/-- An extended real whose absolute value is below +infinity is finite. -/
theorem finite_of_abs_lt (x : EReal) (h : Ideal.cmp .olt (max x (-x)) (Ideal.ofBits .f32 0x7F800000#32) = 1#1) :
    x ≠ ⊤ ∧ x ≠ ⊥ := by
  rw [inf_word] at h
  induction x using EReal.rec with
  | bot => simp [Ideal.cmp] at h
  | coe r => exact ⟨EReal.coe_ne_top _, EReal.coe_ne_bot _⟩
  | top => simp [Ideal.cmp] at h

/-- One "all entries have |x| < +infinity" over an array of 32-bit floats: every entry is finite. -/
theorem all_finite {s : Shape} {axes : List (Fin s.rank)} (x : FVec Ideal s .f32)
    (bc : S_.BroadcastsInDim s (![] : Fin 0 → Fin s.rank)) (hr : s.ReducesTo axes S_) (hS : 0 < S_.numel)
    (e : Host.reduce IntOp.andi
        (cmpf .olt (Host.absf x) (broadcastInDim s ![] bc (constant (F := Ideal) S_ .f32 0x7F800000#32)))
        (constantI S_ 1 1#1) hr hS ValueIdx.ix0 = 1#1) :
    ∀ i, x i ≠ ⊤ ∧ x i ≠ ⊥ := fun i =>
  finite_of_abs_lt (x i) (Host.reduce_andi_all _ _ hr hS ValueIdx.ix0 e i)

/-- The same over an array of 16-bit floats, widened (without change, on extended reals) before the comparison. -/
theorem all_finite_bf16 {s : Shape} {axes : List (Fin s.rank)} (x : FVec Ideal s .bf16)
    (hb : FTy.bits .bf16 < FTy.bits .f32)
    (bc : S_.BroadcastsInDim s (![] : Fin 0 → Fin s.rank)) (hr : s.ReducesTo axes S_) (hS : 0 < S_.numel)
    (e : Host.reduce IntOp.andi
        (cmpf .olt (Host.absf (extf .f32 x hb)) (broadcastInDim s ![] bc (constant (F := Ideal) S_ .f32 0x7F800000#32)))
        (constantI S_ 1 1#1) hr hS ValueIdx.ix0 = 1#1) :
    ∀ i, x i ≠ ⊤ ∧ x i ≠ ⊥ := fun i =>
  finite_of_abs_lt (x i) (Host.reduce_andi_all _ _ hr hS ValueIdx.ix0 e i)

/-- THE PRECONDITION'S FUNCTION: if it answers 1 then every entry of each of its ten arguments is finite. -/
theorem fn_finite [Facts] (a0 : FVec Ideal S32x32x32x32 .f32) (a1 a2 : FVec Ideal S3072x1024 .bf16)
    (a3 : FVec Ideal S1024x1024 .bf16) (a4 a5 a6 a7 a8 a9 : FVec Ideal S1x1024 .f32)
    (h : fn (F := Ideal) a0 a1 a2 a3 a4 a5 a6 a7 a8 a9 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) ∧ (∀ i, a7 i ≠ ⊤ ∧ a7 i ≠ ⊥) ∧ (∀ i, a8 i ≠ ⊤ ∧ a8 i ≠ ⊥)
      ∧ (∀ i, a9 i ≠ ⊤ ∧ a9 i ≠ ⊥) := by
  have h0 := congrFun h ValueIdx.ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_finite a0 _ _ _ e0, all_finite_bf16 a1 _ _ _ _ e1, all_finite_bf16 a2 _ _ _ _ e2,
    all_finite_bf16 a3 _ _ _ _ e3, all_finite a4 _ _ _ e4, all_finite a5 _ _ _ e5, all_finite a6 _ _ _ e6,
    all_finite a7 _ _ _ e7, all_finite a8 _ _ _ e8, all_finite a9 _ _ _ e9⟩

/-! ## The kernel program's argument arrays -/

/-- The kernel's k-th argument array in the initial memory m on device c, as a vector of extended reals. -/
abbrev arg0 (m : (ℓ : Loc Cert.KernelIdeal.nD Cert.KernelIdeal.τ Cert.KernelIdeal.sig) → Buf (Elt Ideal) ℓ)
    (c : Dev Cert.KernelIdeal.nD) : FVec Ideal S32x32x32x32 .f32 :=
  m ((c.tc : Thread Cert.KernelIdeal.nD Cert.KernelIdeal.τ).loc Cert.KernelIdeal.main_arg0)
abbrev arg1 (m : (ℓ : Loc Cert.KernelIdeal.nD Cert.KernelIdeal.τ Cert.KernelIdeal.sig) → Buf (Elt Ideal) ℓ)
    (c : Dev Cert.KernelIdeal.nD) : FVec Ideal S3072x1024 .bf16 :=
  m ((c.tc : Thread Cert.KernelIdeal.nD Cert.KernelIdeal.τ).loc Cert.KernelIdeal.main_arg1)
abbrev arg2 (m : (ℓ : Loc Cert.KernelIdeal.nD Cert.KernelIdeal.τ Cert.KernelIdeal.sig) → Buf (Elt Ideal) ℓ)
    (c : Dev Cert.KernelIdeal.nD) : FVec Ideal S3072x1024 .bf16 :=
  m ((c.tc : Thread Cert.KernelIdeal.nD Cert.KernelIdeal.τ).loc Cert.KernelIdeal.main_arg2)
abbrev arg3 (m : (ℓ : Loc Cert.KernelIdeal.nD Cert.KernelIdeal.τ Cert.KernelIdeal.sig) → Buf (Elt Ideal) ℓ)
    (c : Dev Cert.KernelIdeal.nD) : FVec Ideal S1024x1024 .bf16 :=
  m ((c.tc : Thread Cert.KernelIdeal.nD Cert.KernelIdeal.τ).loc Cert.KernelIdeal.main_arg3)
abbrev arg4 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg4)
abbrev arg5 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg5)
abbrev arg6 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg6)
abbrev arg7 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg7)
abbrev arg8 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg8)
abbrev arg9 (m : (ℓ : Loc Cert.KernelIdeal.nD Cert.KernelIdeal.τ Cert.KernelIdeal.sig) → Buf (Elt Ideal) ℓ)
    (c : Dev Cert.KernelIdeal.nD) : FVec Ideal S1x1024 .f32 :=
  m ((c.tc : Thread Cert.KernelIdeal.nD Cert.KernelIdeal.τ).loc Cert.KernelIdeal.main_arg9)

/-- FINITENESS FROM THE PRECONDITION: under the kernel program's precondition, on every device every entry of each of the
    ten argument arrays is finite. -/
theorem inputs_finite [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, arg0 m c i ≠ ⊤ ∧ arg0 m c i ≠ ⊥) ∧ (∀ i, arg1 m c i ≠ ⊤ ∧ arg1 m c i ≠ ⊥)
      ∧ (∀ i, arg2 m c i ≠ ⊤ ∧ arg2 m c i ≠ ⊥) ∧ (∀ i, arg3 m c i ≠ ⊤ ∧ arg3 m c i ≠ ⊥)
      ∧ (∀ i, arg4 m c i ≠ ⊤ ∧ arg4 m c i ≠ ⊥) ∧ (∀ i, arg5 m c i ≠ ⊤ ∧ arg5 m c i ≠ ⊥)
      ∧ (∀ i, arg6 m c i ≠ ⊤ ∧ arg6 m c i ≠ ⊥) ∧ (∀ i, arg7 m c i ≠ ⊤ ∧ arg7 m c i ≠ ⊥)
      ∧ (∀ i, arg8 m c i ≠ ⊤ ∧ arg8 m c i ≠ ⊥) ∧ (∀ i, arg9 m c i ≠ ⊤ ∧ arg9 m c i ≠ ⊥) :=
  fn_finite (arg0 m c) (arg1 m c) (arg2 m c) (arg3 m c) (arg4 m c) (arg5 m c) (arg6 m c) (arg7 m c) (arg8 m c)
    (arg9 m c) (hpre c)

end Cert.Proof.Finite
-- ==== Proof.FinitePieces.lean ====
/-
  Two facts about entries that are not infinite.

  * Laying an NCHW array out as rows (a transpose followed by a reshape) only moves entries: every entry of the rows
    is an entry of the array. So if no entry of the array is infinite, none of the rows is.
  * An entry of the three-tap operand is an entry of the array, or such an entry times 1 or times 0. So if no entry
    of the array is infinite, none of the operand is.
-/
import proofs.«151177_g2000001997577596_pallasbulk_1280_5_alg».proof.Proof.RefRun
import proofs.«151177_g2000001997577596_pallasbulk_1280_5_alg».proof.Proof.Taps
import proofs.«151177_g2000001997577596_pallasbulk_1280_5_alg».proof.Proof.Spec

noncomputable section

namespace Cert.Proof.Pieces

open Idealize.ShloMosaic Cert.Proof.Spec Cert.Proof.Stats

/-- Every entry of the rows is an entry of the array: the transpose and the reshape are the array composed with an
    index map. -/
theorem toRows_eq_entry (x : Vec Ideal Cert.ReferenceIdeal.S32x32x32x32 .f32) (i : Cert.ReferenceIdeal.S1024x1024.Idx) :
    ∃ k, Cert.ReferenceIdeal.RefValue.toRows (F := Ideal) x i = x k := by
  unfold Cert.ReferenceIdeal.RefValue.toRows shapeCast transpose
  exact ⟨_, rfl⟩

/-- The rows of an array with no infinite entry have none. -/
theorem toRows_fin (x : Vec Ideal Cert.ReferenceIdeal.S32x32x32x32 .f32) (hx : ∀ i, Fin' (x i)) :
    ∀ i, Fin' (Cert.ReferenceIdeal.RefValue.toRows (F := Ideal) x i) := fun i => by
  obtain ⟨k, hk⟩ := toRows_eq_entry x i
  rw [hk]; exact hx k

/-- The three-tap operand of an array with no infinite entry has none: each entry is an entry of the array, or one
    times 1 or times 0. -/
theorem tapsOf_fin (v : Fin 1024 → Fin 1024 → EReal) (hv : ∀ r l, Fin' (v r l)) :
    ∀ r K, Fin' (Cert.Proof.Taps.tapsOf v r K) := fun r K => by
  unfold Cert.Proof.Taps.tapsOf
  split_ifs
  all_goals first
    | exact hv _ _
    | (rw [mul_one]; exact hv _ _)
    | (rw [mul_zero]; exact zero_finite)

end Cert.Proof.Pieces

end
-- ==== Proof.Algebraic.lean ====
/-
  The two idealized programs end with equal results.

  The reference's run ends with its result at one function of the ten argument arrays: the input relaid as 1024 rows
  of 1024 lanes, the whole residual block computed on the rows, and the rows relaid as an image batch. The kernel's
  run ends with every buffer at the last segment boundary's contents, its result among them. So the claim comes down
  to one equation between arrays: the kernel's result, read off its three calls, is the reference's function of the
  arguments (`kernel_result`). Both sides are the same network over the extended reals; the kernel tiles the matrix
  products' columns, adds the column statistics tile by tile before reducing over the lanes of a channel, and takes
  the variance as the mean of squares minus the squared mean, which agrees with the mean of squared deviations
  because every entry is finite under the precondition.
-/
import proofs.«151177_g2000001997577596_pallasbulk_1280_5_alg».proof.Defs
import proofs.«151177_g2000001997577596_pallasbulk_1280_5_alg».proof.Proof.KernelIdeal.Run
import proofs.«151177_g2000001997577596_pallasbulk_1280_5_alg».proof.Proof.KernelIdeal.Ends
import proofs.«151177_g2000001997577596_pallasbulk_1280_5_alg».proof.Proof.RefRun
import proofs.«151177_g2000001997577596_pallasbulk_1280_5_alg».proof.Proof.KernelIdeal.Rows
import proofs.«151177_g2000001997577596_pallasbulk_1280_5_alg».proof.Proof.ReferenceIdeal.RefRows
import proofs.«151177_g2000001997577596_pallasbulk_1280_5_alg».proof.Proof.FiniteInputs
import proofs.«151177_g2000001997577596_pallasbulk_1280_5_alg».proof.Proof.FinitePieces

noncomputable section

namespace Cert.Proof.Value

open Idealize.ShloMosaic Idealize.ShloMosaic.TcCoe Idealize.SL.Sem

/-- THE CORE EQUATION. The rows the kernel's third call leaves are the rows the reference's one call leaves: the
    whole residual block, as a function of the input rows and the nine parameter arrays. -/
theorem rows_eq [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Hand.W4 (F := Ideal) m ρ c (Proc.devRef .tc Cert.KernelIdeal.main_v5)
      = Cert.ReferenceIdeal.Gen.out0_10 (F := Ideal)
          (Cert.ReferenceIdeal.RefValue.toRows (F := Ideal) (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  obtain ⟨f0, f1, f2, f3, f4, f5, -, -, -, -⟩ := Cert.Proof.Finite.inputs_finite m hpre c
  funext i
  obtain ⟨r, L, rfl⟩ : ∃ (r : Fin 1024) (L : Fin 1024), i = ValueIdx.ix2 r L := ⟨i 0, i 1, ValueIdx.eq_ix2 i⟩
  -- the kernel's rows are the block with the variance as the mean of squares minus the squared mean
  refine (Cert.KernelIdeal.Hand.kernel_rows m ρ c r L _ _ _ _ _ _ _ _ _ _ _ rfl rfl rfl rfl rfl rfl rfl rfl rfl rfl rfl).trans ?_
  -- the reference's rows are the block with the variance as the mean of squared deviations
  refine Eq.trans ?_ (Cert.ReferenceIdeal.RefRows.ref_rows _ _ _ _ _ _ _ _ _ _ r L).symm
  -- the kernel's input rows are the argument relaid as rows
  have hXe : Cert.KernelIdeal.Hand.arr2 (Cert.KernelIdeal.Hand.V1 (F := Ideal) m ρ c Cert.KernelIdeal.main_v2)
      = fun a b => Cert.ReferenceIdeal.RefValue.toRows (F := Ideal)
          (m ((c.tc : Thread Cert.KernelIdeal.nD Cert.KernelIdeal.τ).loc Cert.KernelIdeal.main_arg0)) (ValueIdx.ix2 a b) := by
    funext a b
    exact congrFun (Cert.KernelIdeal.Hand.head_eq m ρ c) (ValueIdx.ix2 a b)
  rw [hXe]
  -- on finite entries the two variance forms give the same block
  exact congrFun (congrFun (Cert.Proof.Net.block_eq Cert.Proof.Pieces.tapsOf_fin _
    (fun a b => Cert.Proof.Pieces.toRows_fin _ f0 (ValueIdx.ix2 a b)) _ _
    (fun k l => f1 (ValueIdx.ix2 k l)) (fun k l => f2 (ValueIdx.ix2 k l)) _ (fun k l => f3 (ValueIdx.ix2 k l))
    _ _ _ _ _ _ (fun l => f4 (ValueIdx.ix2 (0 : Fin 1) l)) (fun l => f5 (ValueIdx.ix2 (0 : Fin 1) l))) r) L

/-- The kernel's result array at the end of its run is the reference's function of the argument arrays. -/
theorem kernel_result [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Hand.W5 (F := Ideal) m ρ c (Proc.devRef .tc Cert.KernelIdeal.main_v7)
      = Cert.ReferenceIdeal.RefValue.result (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) :=
  (Cert.KernelIdeal.Hand.tail_eq m ρ c).trans (congrArg (Cert.ReferenceIdeal.RefValue.ofRows (F := Ideal)) (rows_eq m ρ hpre c))

/-- Both runs, from memories agreeing on the arguments, end with the same result. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.RefValue.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · -- the kernel: every unscoped buffer ends at the last boundary's contents
    refine (θ_run (Cert.KernelIdeal.defs (F := Ideal)) _ _).mono (fun _ h c => ?_) (Cert.KernelIdeal.Hand.run_all (F := Ideal) m ρ)
    refine ⟨(h c _ (Cert.KernelIdeal.Hand.mem_uc Cert.KernelIdeal.main_v7 (by decide))).trans (kernel_result m ρ hpre c), ?_⟩
    exact ⟨(h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c),
      (h c _ (Cert.KernelIdeal.Hand.mem_uc Cert.KernelIdeal.main_arg9 (by decide))).trans (Cert.KernelIdeal.Hand.W5_main_arg9 m ρ c)⟩
  · -- the reference: its own run, the arguments' agreement rewritten
    refine (θ_run (Cert.ReferenceIdeal.defs (F := Ideal)) _ _).mono (fun _ h c => ⟨(h c).1.trans ?_, (h c).2⟩)
      (Cert.ReferenceIdeal.RefValue.run (F := Ideal) m' ρ')
    obtain ⟨h0, h1, h2, h3, h4, h5, h6, h7, h8, h9⟩ := hagree c
    rw [h0, h1, h2, h3, h4, h5, h6, h7, h8, h9]

end Cert.Proof.Value

end
-- ==== Proof.lean ====
/-
  The certificate's five claims, assembled.

  The word-level kernel and its idealization are the same text read at two instances, so one account of the program
  serves both: it is run as a chain of segments (host operations, the three calls, host operations), each call's body
  run once per shape of grid point, and no segment writes an argument array. The ideal pass rewrote nothing, so there
  is nothing to preserve. The reference is one call around host reshapes. The two idealized programs' results agree
  because they compute one function of the arguments.
-/
import proofs.«151177_g2000001997577596_pallasbulk_1280_5_alg».proof.Defs
import proofs.«151177_g2000001997577596_pallasbulk_1280_5_alg».proof.Proof.RefFrame
import proofs.«151177_g2000001997577596_pallasbulk_1280_5_alg».proof.Proof.Kernel.Run
import proofs.«151177_g2000001997577596_pallasbulk_1280_5_alg».proof.Proof.KernelIdeal.Run
import proofs.«151177_g2000001997577596_pallasbulk_1280_5_alg».proof.Proof.Algebraic
import proofs.«151177_g2000001997577596_pallasbulk_1280_5_alg».proof.Proof.Gen.Kernel
import proofs.«151177_g2000001997577596_pallasbulk_1280_5_alg».proof.Proof.Gen.KernelIdeal
import proofs.«151177_g2000001997577596_pallasbulk_1280_5_alg».proof.Proof.Gen.ReferenceIdeal
import proofs.«151177_g2000001997577596_pallasbulk_1280_5_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Claims.frame_ref, Claims.preserves, Value.algebraic⟩

end Cert.Proof

end
